-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v37)) (v3 : (c : Dev Cert.KernelIdeal.nD) → Buf (Elt Ideal) ((c.tc : Thread Cert.KernelIdeal.nD Cert.KernelIdeal.τ).loc Cert.KernelIdeal.main_v39)) (v4 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_v39) = v3 c
          ∧ r.2.mem ((c.tc : Thread Cert.KernelIdeal.nD Cert.KernelIdeal.τ).loc Cert.KernelIdeal.main_v41) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41_0) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_v57) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x256 : Shape := ⟨3, ![256, 128, 256]⟩
abbrev S256x256 : Shape := ⟨2, ![256, 256]⟩
abbrev S256 : Shape := ⟨1, ![256]⟩
abbrev S10x256 : Shape := ⟨2, ![10, 256]⟩
abbrev S256x256x9x1 : Shape := ⟨4, ![256, 256, 9, 1]⟩
abbrev S_ : Shape := ⟨0, ![]⟩

class Facts : Prop where
  bcast_S_S256x128x256 : S_.BroadcastsInDim S256x128x256 (![] : Fin 0 → Fin S256x128x256.rank)
  reducesTo_S256x128x256_S_d0_1_2 : S256x128x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S10x256 : S_.BroadcastsInDim S10x256 (![] : Fin 0 → Fin S10x256.rank)
  reducesTo_S10x256_S_d0_1 : S10x256.ReducesTo [0, 1] S_
  bcast_S_S256x256x9x1 : S_.BroadcastsInDim S256x256x9x1 (![] : Fin 0 → Fin S256x256x9x1.rank)
  reducesTo_S256x256x9x1_S_d0_1_2_3 : S256x256x9x1.ReducesTo [0, 1, 2, 3] S_

variable [Facts]

def fn_part8 {F : FTy → Type} [FloatOps F] (main_arg28 : FVec F S256x256x9x1 .f32) (main_v133 : IVec S_ 1) (main_v136 : IVec S256 1) : IVec S_ 1 :=
  let main_c_53 : IVec S_ 1 := constantI S_ 1 1#1
  let main_v137 : IVec S_ 1 := (fun x v => Host.reduce IntOp.andi x v reducesTo_S256_S_d0 h_S_) main_v136 main_c_53
  let main_v138 : IVec S_ 1 := andi main_v133 main_v137
  let main_v139 : FVec F S256x256x9x1 .f32 := Host.absf main_arg28
  let main_cst_54 : FVec F S_ .f32 := constant S_ .f32 0x7F800000#32
  let main_v140 : FVec F S256x256x9x1 .f32 := broadcastInDim S256x256x9x1 ![] bcast_S_S256x256x9x1 main_cst_54
  let main_v141 : IVec S256x256x9x1 1 := cmpf .olt main_v139 main_v140
  let main_c_55 : IVec S_ 1 := constantI S_ 1 1#1
  let main_v142 : IVec S_ 1 := (fun x v => Host.reduce IntOp.andi x v reducesTo_S256x256x9x1_S_d0_1_2_3 h_S_) main_v141 main_c_55
  let main_v143 : IVec S_ 1 := andi main_v138 main_v142
  main_v143

def fn_part7 {F : FTy → Type} [FloatOps F] (main_arg25 : FVec F S10x256 .f32) (main_arg26 : FVec F S256x256 .f32) (main_arg27 : FVec F S256 .f32) (main_arg28 : FVec F S256x256x9x1 .f32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S10x256 .f32 := Host.absf main_arg25
  let main_cst_48 : FVec F S_ .f32 := constant S_ .f32 0x7F800000#32
  let main_v125 : FVec F S10x256 .f32 := broadcastInDim S10x256 ![] bcast_S_S10x256 main_cst_48
  let main_v126 : IVec S10x256 1 := cmpf .olt main_v124 main_v125
  let main_c_49 : IVec S_ 1 := constantI S_ 1 1#1
  let main_v127 : IVec S_ 1 := (fun x v => Host.reduce IntOp.andi x v reducesTo_S10x256_S_d0_1 h_S_) main_v126 main_c_49
  let main_v128 : IVec S_ 1 := andi main_v123 main_v127
  let main_v129 : FVec F S256x256 .f32 := Host.absf main_arg26
  let main_cst_50 : FVec F S_ .f32 := constant S_ .f32 0x7F800000#32
  let main_v130 : FVec F S256x256 .f32 := broadcastInDim S256x256 ![] bcast_S_S256x256 main_cst_50
  let main_v131 : IVec S256x256 1 := cmpf .olt main_v129 main_v130
  let main_c_51 : IVec S_ 1 := constantI S_ 1 1#1
  let main_v132 : IVec S_ 1 := (fun x v => Host.reduce IntOp.andi x v reducesTo_S256x256_S_d0_1 h_S_) main_v131 main_c_51
  let main_v133 : IVec S_ 1 := andi main_v128 main_v132
  let main_v134 : FVec F S256 .f32 := Host.absf main_arg27
  let main_cst_52 : FVec F S_ .f32 := constant S_ .f32 0x7F800000#32
  let main_v135 : FVec F S256 .f32 := broadcastInDim S256 ![] bcast_S_S256 main_cst_52
  let main_v136 : IVec S256 1 := cmpf .olt main_v134 main_v135
  fn_part8 (F := F) main_arg28 main_v133 main_v136

def fn_part6 {F : FTy → Type} [FloatOps F] (main_arg21 : FVec F S256x256 .f32) (main_arg22 : FVec F S256 .f32) (main_arg23 : FVec F S256x256x9x1 .f32) (main_arg24 : FVec F S256x256 .f32) (main_arg25 : FVec F S10x256 .f32) (main_arg26 : FVec F S256x256 .f32) (main_arg27 : FVec F S256 .f32) (main_arg28 : FVec F S256x256x9x1 .f32) (main_v98 : IVec S_ 1) (main_v101 : IVec S10x256 1) (main_c_39 : IVec S_ 1) : IVec S_ 1 :=
  let main_v102 : IVec S_ 1 := (fun x v => Host.reduce IntOp.andi x v reducesTo_S10x256_S_d0_1 h_S_) main_v101 main_c_39
  let main_v103 : IVec S_ 1 := andi main_v98 main_v102
  let main_v104 : FVec F S256x256 .f32 := Host.absf main_arg21
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x256x9x1 .f32 := Host.absf main_arg23
  let main_cst_44 : FVec F S_ .f32 := constant S_ .f32 0x7F800000#32
  let main_v115 : FVec F S256x256x9x1 .f32 := broadcastInDim S256x256x9x1 ![] bcast_S_S256x256x9x1 main_cst_44
  let main_v116 : IVec S256x256x9x1 1 := cmpf .olt main_v114 main_v115
  let main_c_45 : IVec S_ 1 := constantI S_ 1 1#1
  let main_v117 : IVec S_ 1 := (fun x v => Host.reduce IntOp.andi x v reducesTo_S256x256x9x1_S_d0_1_2_3 h_S_) main_v116 main_c_45
  let main_v118 : IVec S_ 1 := andi main_v113 main_v117
  let main_v119 : FVec F S256x256 .f32 := Host.absf main_arg24
  fn_part7 (F := F) main_arg25 main_arg26 main_arg27 main_arg28 main_v118 main_v119

def fn_part5 {F : FTy → Type} [FloatOps F] (main_arg18 : FVec F S256x256x9x1 .f32) (main_arg19 : FVec F S256x256 .f32) (main_arg20 : FVec F S10x256 .f32) (main_arg21 : FVec F S256x256 .f32) (main_arg22 : FVec F S256 .f32) (main_arg23 : FVec F S256x256x9x1 .f32) (main_arg24 : FVec F S256x256 .f32) (main_arg25 : FVec F S10x256 .f32) (main_arg26 : FVec F S256x256 .f32) (main_arg27 : FVec F S256 .f32) (main_arg28 : FVec F S256x256x9x1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x256x9x1 .f32 := Host.absf main_arg18
  let main_cst_34 : FVec F S_ .f32 := constant S_ .f32 0x7F800000#32
  let main_v90 : FVec F S256x256x9x1 .f32 := broadcastInDim S256x256x9x1 ![] bcast_S_S256x256x9x1 main_cst_34
  let main_v91 : IVec S256x256x9x1 1 := cmpf .olt main_v89 main_v90
  let main_c_35 : IVec S_ 1 := constantI S_ 1 1#1
  let main_v92 : IVec S_ 1 := (fun x v => Host.reduce IntOp.andi x v reducesTo_S256x256x9x1_S_d0_1_2_3 h_S_) main_v91 main_c_35
  let main_v93 : IVec S_ 1 := andi main_v88 main_v92
  let main_v94 : FVec F S256x256 .f32 := Host.absf main_arg19
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S10x256 .f32 := Host.absf main_arg20
  let main_cst_38 : FVec F S_ .f32 := constant S_ .f32 0x7F800000#32
  let main_v100 : FVec F S10x256 .f32 := broadcastInDim S10x256 ![] bcast_S_S10x256 main_cst_38
  let main_v101 : IVec S10x256 1 := cmpf .olt main_v99 main_v100
  let main_c_39 : IVec S_ 1 := constantI S_ 1 1#1
  fn_part6 (F := F) main_arg21 main_arg22 main_arg23 main_arg24 main_arg25 main_arg26 main_arg27 main_arg28 main_v98 main_v101 main_c_39

def fn_part4 {F : FTy → Type} [FloatOps F] (main_arg14 : FVec F S256x256 .f32) (main_arg15 : FVec F S10x256 .f32) (main_arg16 : FVec F S256x256 .f32) (main_arg17 : FVec F S256 .f32) (main_arg18 : FVec F S256x256x9x1 .f32) (main_arg19 : FVec F S256x256 .f32) (main_arg20 : FVec F S10x256 .f32) (main_arg21 : FVec F S256x256 .f32) (main_arg22 : FVec F S256 .f32) (main_arg23 : FVec F S256x256x9x1 .f32) (main_arg24 : FVec F S256x256 .f32) (main_arg25 : FVec F S10x256 .f32) (main_arg26 : FVec F S256x256 .f32) (main_arg27 : FVec F S256 .f32) (main_arg28 : FVec F S256x256x9x1 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S10x256 .f32 := Host.absf main_arg15
  let main_cst_28 : FVec F S_ .f32 := constant S_ .f32 0x7F800000#32
  let main_v75 : FVec F S10x256 .f32 := broadcastInDim S10x256 ![] bcast_S_S10x256 main_cst_28
  let main_v76 : IVec S10x256 1 := cmpf .olt main_v74 main_v75
  let main_c_29 : IVec S_ 1 := constantI S_ 1 1#1
  let main_v77 : IVec S_ 1 := (fun x v => Host.reduce IntOp.andi x v reducesTo_S10x256_S_d0_1 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_v83 main_v84 main_cst_32

def fn_part3 {F : FTy → Type} [FloatOps F] (main_arg11 : FVec F S256x256 .f32) (main_arg12 : FVec F S256 .f32) (main_arg13 : FVec F S256x256x9x1 .f32) (main_arg14 : FVec F S256x256 .f32) (main_arg15 : FVec F S10x256 .f32) (main_arg16 : FVec F S256x256 .f32) (main_arg17 : FVec F S256 .f32) (main_arg18 : FVec F S256x256x9x1 .f32) (main_arg19 : FVec F S256x256 .f32) (main_arg20 : FVec F S10x256 .f32) (main_arg21 : FVec F S256x256 .f32) (main_arg22 : FVec F S256 .f32) (main_arg23 : FVec F S256x256x9x1 .f32) (main_arg24 : FVec F S256x256 .f32) (main_arg25 : FVec F S10x256 .f32) (main_arg26 : FVec F S256x256 .f32) (main_arg27 : FVec F S256 .f32) (main_arg28 : FVec F S256x256x9x1 .f32) (main_v48 : IVec S_ 1) (main_v49 : FVec F S10x256 .f32) (main_v50 : FVec F S10x256 .f32) : IVec S_ 1 :=
  let main_v51 : IVec S10x256 1 := cmpf .olt main_v49 main_v50
  let main_c_19 : IVec S_ 1 := constantI S_ 1 1#1
  let main_v52 : IVec S_ 1 := (fun x v => Host.reduce IntOp.andi x v reducesTo_S10x256_S_d0_1 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256x9x1 .f32 := Host.absf main_arg13
  let main_cst_24 : FVec F S_ .f32 := constant S_ .f32 0x7F800000#32
  let main_v65 : FVec F S256x256x9x1 .f32 := broadcastInDim S256x256x9x1 ![] bcast_S_S256x256x9x1 main_cst_24
  let main_v66 : IVec S256x256x9x1 1 := cmpf .olt main_v64 main_v65
  let main_c_25 : IVec S_ 1 := constantI S_ 1 1#1
  let main_v67 : IVec S_ 1 := (fun x v => Host.reduce IntOp.andi x v reducesTo_S256x256x9x1_S_d0_1_2_3 h_S_) main_v66 main_c_25
  fn_part4 (F := F) main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S256x256 .f32) (main_arg8 : FVec F S256 .f32) (main_arg9 : FVec F S256x256 .f32) (main_arg10 : FVec F S10x256 .f32) (main_arg11 : FVec F S256x256 .f32) (main_arg12 : FVec F S256 .f32) (main_arg13 : FVec F S256x256x9x1 .f32) (main_arg14 : FVec F S256x256 .f32) (main_arg15 : FVec F S10x256 .f32) (main_arg16 : FVec F S256x256 .f32) (main_arg17 : FVec F S256 .f32) (main_arg18 : FVec F S256x256x9x1 .f32) (main_arg19 : FVec F S256x256 .f32) (main_arg20 : FVec F S10x256 .f32) (main_arg21 : FVec F S256x256 .f32) (main_arg22 : FVec F S256 .f32) (main_arg23 : FVec F S256x256x9x1 .f32) (main_arg24 : FVec F S256x256 .f32) (main_arg25 : FVec F S10x256 .f32) (main_arg26 : FVec F S256x256 .f32) (main_arg27 : FVec F S256 .f32) (main_arg28 : FVec F S256x256x9x1 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S10x256 .f32 := Host.absf main_arg10
  let main_cst_18 : FVec F S_ .f32 := constant S_ .f32 0x7F800000#32
  let main_v50 : FVec F S10x256 .f32 := broadcastInDim S10x256 ![] bcast_S_S10x256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S10x256 .f32) (main_arg11 : FVec F S256x256 .f32) (main_arg12 : FVec F S256 .f32) (main_arg13 : FVec F S256x256x9x1 .f32) (main_arg14 : FVec F S256x256 .f32) (main_arg15 : FVec F S10x256 .f32) (main_arg16 : FVec F S256x256 .f32) (main_arg17 : FVec F S256 .f32) (main_arg18 : FVec F S256x256x9x1 .f32) (main_arg19 : FVec F S256x256 .f32) (main_arg20 : FVec F S10x256 .f32) (main_arg21 : FVec F S256x256 .f32) (main_arg22 : FVec F S256 .f32) (main_arg23 : FVec F S256x256x9x1 .f32) (main_arg24 : FVec F S256x256 .f32) (main_arg25 : FVec F S10x256 .f32) (main_arg26 : FVec F S256x256 .f32) (main_arg27 : FVec F S256 .f32) (main_arg28 : FVec F S256x256x9x1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S256x128x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S10x256 .f32) (main_arg11 : FVec F S256x256 .f32) (main_arg12 : FVec F S256 .f32) (main_arg13 : FVec F S256x256x9x1 .f32) (main_arg14 : FVec F S256x256 .f32) (main_arg15 : FVec F S10x256 .f32) (main_arg16 : FVec F S256x256 .f32) (main_arg17 : FVec F S256 .f32) (main_arg18 : FVec F S256x256x9x1 .f32) (main_arg19 : FVec F S256x256 .f32) (main_arg20 : FVec F S10x256 .f32) (main_arg21 : FVec F S256x256 .f32) (main_arg22 : FVec F S256 .f32) (main_arg23 : FVec F S256x256x9x1 .f32) (main_arg24 : FVec F S256x256 .f32) (main_arg25 : FVec F S10x256 .f32) (main_arg26 : FVec F S256x256 .f32) (main_arg27 : FVec F S256 .f32) (main_arg28 : FVec F S256x256x9x1 .f32) : IVec S_ 1 :=
  let main_v0 : FVec F S256x128x256 .f32 := Host.absf main_arg0
  let main_cst : FVec F S_ .f32 := constant S_ .f32 0x7F800000#32
  let main_v1 : FVec F S256x128x256 .f32 := broadcastInDim S256x128x256 ![] bcast_S_S256x128x256 main_cst
  let main_v2 : IVec S256x128x256 1 := cmpf .olt main_v0 main_v1
  let main_c : IVec S_ 1 := constantI S_ 1 1#1
  let main_v3 : IVec S_ 1 := (fun x v => Host.reduce IntOp.andi x v reducesTo_S256x128x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S256x128x256 : Shape := ⟨3, ![256, 128, 256]⟩
abbrev S256x256 : Shape := ⟨2, ![256, 256]⟩
abbrev S256 : Shape := ⟨1, ![256]⟩
abbrev S10x256 : Shape := ⟨2, ![10, 256]⟩
abbrev S256x256x9x1 : Shape := ⟨4, ![256, 256, 9, 1]⟩
abbrev S1x256 : Shape := ⟨2, ![1, 256]⟩
abbrev S256x256x9 : Shape := ⟨3, ![256, 256, 9]⟩
abbrev S256x9x256 : Shape := ⟨3, ![256, 9, 256]⟩
abbrev S16x128x256 : Shape := ⟨3, ![16, 128, 256]⟩
abbrev S16x9x256 : Shape := ⟨3, ![16, 9, 256]⟩
abbrev S2048x256 : Shape := ⟨2, ![2048, 256]⟩
abbrev S16x137x256 : Shape := ⟨3, ![16, 137, 256]⟩
abbrev S1x1x256 : Shape := ⟨3, ![1, 1, 256]⟩
abbrev S2048 : Shape := ⟨1, ![2048]⟩
abbrev S2048x1 : Shape := ⟨2, ![2048, 1]⟩

abbrev nBuf : Space → Nat
  | .hbm => 75
  | .vmem => 40
  | .smem => 0
  | _ => 0

abbrev bufTy : (tb : Table) → Fin (tcTables nBuf tb) → BufTy
  | .hbm, ⟨0, _⟩ => ⟨S256x128x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S10x256, .f32⟩
  | .hbm, ⟨11, _⟩ => ⟨S256x256, .f32⟩
  | .hbm, ⟨12, _⟩ => ⟨S256, .f32⟩
  | .hbm, ⟨13, _⟩ => ⟨S256x256x9x1, .f32⟩
  | .hbm, ⟨14, _⟩ => ⟨S256x256, .f32⟩
  | .hbm, ⟨15, _⟩ => ⟨S10x256, .f32⟩
  | .hbm, ⟨16, _⟩ => ⟨S256x256, .f32⟩
  | .hbm, ⟨17, _⟩ => ⟨S256, .f32⟩
  | .hbm, ⟨18, _⟩ => ⟨S256x256x9x1, .f32⟩
  | .hbm, ⟨19, _⟩ => ⟨S256x256, .f32⟩
  | .hbm, ⟨20, _⟩ => ⟨S10x256, .f32⟩
  | .hbm, ⟨21, _⟩ => ⟨S256x256, .f32⟩
  | .hbm, ⟨22, _⟩ => ⟨S256, .f32⟩
  | .hbm, ⟨23, _⟩ => ⟨S256x256x9x1, .f32⟩
  | .hbm, ⟨24, _⟩ => ⟨S256x256, .f32⟩
  | .hbm, ⟨25, _⟩ => ⟨S10x256, .f32⟩
  | .hbm, ⟨26, _⟩ => ⟨S256x256, .f32⟩
  | .hbm, ⟨27, _⟩ => ⟨S256, .f32⟩
  | .hbm, ⟨28, _⟩ => ⟨S256x256x9x1, .f32⟩
  | .hbm, ⟨29, _⟩ => ⟨S256x256, .f32⟩
  | .hbm, ⟨30, _⟩ => ⟨S256x256, .bf16⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S256x256, .f32⟩
  | .hbm, ⟨36, _⟩ => ⟨S256x256, .bf16⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S256x256x9, .f32⟩
  | .hbm, ⟨42, _⟩ => ⟨S256x9x256, .f32⟩
  | .hbm, ⟨43, _⟩ => ⟨S256x256x9, .f32⟩
  | .hbm, ⟨44, _⟩ => ⟨S256x9x256, .f32⟩
  | .hbm, ⟨45, _⟩ => ⟨S256x256x9, .f32⟩
  | .hbm, ⟨46, _⟩ => ⟨S256x9x256, .f32⟩
  | .hbm, ⟨47, _⟩ => ⟨S256x256x9, .f32⟩
  | .hbm, ⟨48, _⟩ => ⟨S256x9x256, .f32⟩
  | .hbm, ⟨49, _⟩ => ⟨S256x128x256, .bf16⟩
  | .hbm, ⟨50, _⟩ => ⟨S256x256, .bf16⟩
  | .hbm, ⟨51, _⟩ => ⟨S256x256, .bf16⟩
  | .hbm, ⟨52, _⟩ => ⟨S1x256, .f32⟩
  | .hbm, ⟨53, _⟩ => ⟨S256x256, .bf16⟩
  | .hbm, ⟨54, _⟩ => ⟨S256x256, .bf16⟩
  | .hbm, ⟨55, _⟩ => ⟨S1x256, .f32⟩
  | .hbm, ⟨56, _⟩ => ⟨S256x256, .bf16⟩
  | .hbm, ⟨57, _⟩ => ⟨S256x256, .bf16⟩
  | .hbm, ⟨58, _⟩ => ⟨S1x256, .f32⟩
  | .hbm, ⟨59, _⟩ => ⟨S256x256, .bf16⟩
  | .hbm, ⟨60, _⟩ => ⟨S256x256, .bf16⟩
  | .hbm, ⟨61, _⟩ => ⟨S1x256, .f32⟩
  | .hbm, ⟨62, _⟩ => ⟨S256x128x256, .f32⟩
  | .hbm, ⟨63, _⟩ => ⟨S256x9x256, .f32⟩
  | .hbm, ⟨64, _⟩ => ⟨S256x9x256, .f32⟩
  | .hbm, ⟨65, _⟩ => ⟨S256x9x256, .f32⟩
  | .hbm, ⟨66, _⟩ => ⟨S256x9x256, .f32⟩
  | .hbm, ⟨67, _⟩ => ⟨S256x256x9, .f32⟩
  | .hbm, ⟨68, _⟩ => ⟨S256x256x9x1, .f32⟩
  | .hbm, ⟨69, _⟩ => ⟨S256x256x9, .f32⟩
  | .hbm, ⟨70, _⟩ => ⟨S256x256x9x1, .f32⟩
  | .hbm, ⟨71, _⟩ => ⟨S256x256x9, .f32⟩
  | .hbm, ⟨72, _⟩ => ⟨S256x256x9x1, .f32⟩
  | .hbm, ⟨73, _⟩ => ⟨S256x256x9, .f32⟩
  | .hbm, ⟨74, _⟩ => ⟨S256x256x9x1, .f32⟩
  | .local _ .vmem, ⟨0, _⟩ => ⟨S16x128x256, .bf16⟩
  | .local _ .vmem, ⟨1, _⟩ => ⟨S16x128x256, .bf16⟩
  | .local _ .vmem, ⟨2, _⟩ => ⟨S256x256, .bf16⟩
  | .local _ .vmem, ⟨3, _⟩ => ⟨S1x256, .f32⟩
  | .local _ .vmem, ⟨4, _⟩ => ⟨S256x256, .bf16⟩
  | .local _ .vmem, ⟨5, _⟩ => ⟨S10x256, .f32⟩
  | .local _ .vmem, ⟨6, _⟩ => ⟨S256x256, .bf16⟩
  | .local _ .vmem, ⟨7, _⟩ => ⟨S1x256, .f32⟩
  | .local _ .vmem, ⟨8, _⟩ => ⟨S16x9x256, .f32⟩
  | .local _ .vmem, ⟨9, _⟩ => ⟨S16x9x256, .f32⟩
  | .local _ .vmem, ⟨10, _⟩ => ⟨S256x256, .bf16⟩
  | .local _ .vmem, ⟨11, _⟩ => ⟨S10x256, .f32⟩
  | .local _ .vmem, ⟨12, _⟩ => ⟨S256x256, .bf16⟩
  | .local _ .vmem, ⟨13, _⟩ => ⟨S1x256, .f32⟩
  | .local _ .vmem, ⟨14, _⟩ => ⟨S16x9x256, .f32⟩
  | .local _ .vmem, ⟨15, _⟩ => ⟨S16x9x256, .f32⟩
  | .local _ .vmem, ⟨16, _⟩ => ⟨S256x256, .bf16⟩
  | .local _ .vmem, ⟨17, _⟩ => ⟨S10x256, .f32⟩
  | .local _ .vmem, ⟨18, _⟩ => ⟨S256x256, .bf16⟩
  | .local _ .vmem, ⟨19, _⟩ => ⟨S1x256, .f32⟩
  | .local _ .vmem, ⟨20, _⟩ => ⟨S16x9x256, .f32⟩
  | .local _ .vmem, ⟨21, _⟩ => ⟨S16x9x256, .f32⟩
  | .local _ .vmem, ⟨22, _⟩ => ⟨S256x256, .bf16⟩
  | .local _ .vmem, ⟨23, _⟩ => ⟨S10x256, .f32⟩
  | .local _ .vmem, ⟨24, _⟩ => ⟨S256x256, .bf16⟩
  | .local _ .vmem, ⟨25, _⟩ => ⟨S1x256, .f32⟩
  | .local _ .vmem, ⟨26, _⟩ => ⟨S16x9x256, .f32⟩
  | .local _ .vmem, ⟨27, _⟩ => ⟨S16x9x256, .f32⟩
  | .local _ .vmem, ⟨28, _⟩ => ⟨S256x256, .bf16⟩
  | .local _ .vmem, ⟨29, _⟩ => ⟨S1x256, .f32⟩
  | .local _ .vmem, ⟨30, _⟩ => ⟨S16x128x256, .f32⟩
  | .local _ .vmem, ⟨31, _⟩ => ⟨S16x128x256, .f32⟩
  | .local _ .vmem, ⟨32, _⟩ => ⟨S16x9x256, .f32⟩
  | .local _ .vmem, ⟨33, _⟩ => ⟨S16x9x256, .f32⟩
  | .local _ .vmem, ⟨34, _⟩ => ⟨S16x9x256, .f32⟩
  | .local _ .vmem, ⟨35, _⟩ => ⟨S16x9x256, .f32⟩
  | .local _ .vmem, ⟨36, _⟩ => ⟨S16x9x256, .f32⟩
  | .local _ .vmem, ⟨37, _⟩ => ⟨S16x9x256, .f32⟩
  | .local _ .vmem, ⟨38, _⟩ => ⟨S16x9x256, .f32⟩
  | .local _ .vmem, ⟨39, _⟩ => ⟨S16x9x256, .f32⟩
  | _, _ => ⟨S256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33_0 : Ref sig .tc := ⟨.hbm, 62, rfl⟩
abbrev main_v33_1 : Ref sig .tc := ⟨.hbm, 63, rfl⟩
abbrev main_v33_2 : Ref sig .tc := ⟨.hbm, 64, rfl⟩
abbrev main_v33_3 : Ref sig .tc := ⟨.hbm, 65, rfl⟩
abbrev main_v33_4 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg25_0 : Ref sig .tc := ⟨.vmem, 30, rfl⟩
abbrev cc0_stg25_1 : Ref sig .tc := ⟨.vmem, 31, rfl⟩
abbrev cc0_stg26_0 : Ref sig .tc := ⟨.vmem, 32, rfl⟩
abbrev cc0_stg26_1 : Ref sig .tc := ⟨.vmem, 33, rfl⟩
abbrev cc0_stg27_0 : Ref sig .tc := ⟨.vmem, 34, rfl⟩
abbrev cc0_stg27_1 : Ref sig .tc := ⟨.vmem, 35, rfl⟩
abbrev cc0_stg28_0 : Ref sig .tc := ⟨.vmem, 36, rfl⟩
abbrev cc0_stg28_1 : Ref sig .tc := ⟨.vmem, 37, rfl⟩
abbrev cc0_stg29_0 : Ref sig .tc := ⟨.vmem, 38, rfl⟩
abbrev cc0_stg29_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem22_1 : DmaSem sig := 27
abbrev cc0_sem23_0 : DmaSem sig := 28
abbrev cc0_sem24_0 : DmaSem sig := 29
abbrev cc0_sem25_0 : DmaSem sig := 30
abbrev cc0_sem25_1 : DmaSem sig := 31
abbrev cc0_sem26_0 : DmaSem sig := 32
abbrev cc0_sem26_1 : DmaSem sig := 33
abbrev cc0_sem27_0 : DmaSem sig := 34
abbrev cc0_sem27_1 : DmaSem sig := 35
abbrev cc0_sem28_0 : DmaSem sig := 36
abbrev cc0_sem28_1 : DmaSem sig := 37
abbrev cc0_sem29_0 : DmaSem sig := 38
abbrev cc0_sem29_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x9x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S16x9x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S10x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S16x9x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S10x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S16x9x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S256x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S16x128x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S16x9x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S16x9x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S16x9x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S16x9x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

class Facts₀ : Prop where
  bitsLt_bf16_f32 : FTy.bits .bf16 < FTy.bits .f32
  bcast_S256_S1x256_1 : S256.BroadcastsInDim S1x256 (![1] : Fin 1 → Fin S1x256.rank)
  shapeCasts_S256x256x9x1_S256x256x9 : S256x256x9x1.ShapeCasts S256x256x9
  transposes_S256x256x9_S256x9x256_0_2_1 : S256x256x9.Transposes [0, 2, 1] S256x9x256
  shapeCasts_S256_S1x256 : S256.ShapeCasts S1x256
  inb_S16x128x256_S16x128x256_0_0_0 : ∀ a, (![0, 0, 0] : Fin 3 → Nat) a + S16x128x256.size a ≤ S16x128x256.size a
  h_S16x128x256 : 0 < S16x128x256.numel
  shapeCasts_S16x128x256_S16x128x256 : S16x128x256.ShapeCasts S16x128x256
  shapeCasts_S16x128x256_S2048x256 : S16x128x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x256_S16x128x256 : S2048x256.ShapeCasts S16x128x256
  inb_S16x9x256_S16x9x256_0_0_0 : ∀ a, (![0, 0, 0] : Fin 3 → Nat) a + S16x9x256.size a ≤ S16x9x256.size a
  h_S16x9x256 : 0 < S16x9x256.numel
  shapeCasts_S16x9x256_S16x9x256 : S16x9x256.ShapeCasts S16x9x256
  concatenates_S16x9x256_S16x128x256_S16x137x256_d1 : Shape.Concatenates [S16x9x256, S16x128x256] S16x137x256 1
  inb_S10x256_S1x256_0_0 : ∀ a, (![0, 0] : Fin 2 → Nat) a + S1x256.size a ≤ S10x256.size a
  shapeCasts_S1x256_S256 : S1x256.ShapeCasts S256
  shapeCasts_S256_S1x1x256 : S256.ShapeCasts S1x1x256
  slices_S16x137x256_o0_0_0_S16x128x256 : S16x137x256.Slices ![0, 0, 0] S16x128x256
  broadcasts_S1x1x256_S16x128x256 : S1x1x256.Broadcasts S16x128x256
  inb_S10x256_S1x256_1_0 : ∀ a, (![1, 0] : Fin 2 → Nat) a + S1x256.size a ≤ S10x256.size a
  slices_S16x137x256_o0_1_0_S16x128x256 : S16x137x256.Slices ![0, 1, 0] S16x128x256
  inb_S10x256_S1x256_2_0 : ∀ a, (![2, 0] : Fin 2 → Nat) a + S1x256.size a ≤ S10x256.size a
  slices_S16x137x256_o0_2_0_S16x128x256 : S16x137x256.Slices ![0, 2, 0] S16x128x256
  inb_S10x256_S1x256_3_0 : ∀ a, (![3, 0] : Fin 2 → Nat) a + S1x256.size a ≤ S10x256.size a
  slices_S16x137x256_o0_3_0_S16x128x256 : S16x137x256.Slices ![0, 3, 0] S16x128x256
  inb_S10x256_S1x256_4_0 : ∀ a, (![4, 0] : Fin 2 → Nat) a + S1x256.size a ≤ S10x256.size a
  slices_S16x137x256_o0_4_0_S16x128x256 : S16x137x256.Slices ![0, 4, 0] S16x128x256
  inb_S10x256_S1x256_5_0 : ∀ a, (![5, 0] : Fin 2 → Nat) a + S1x256.size a ≤ S10x256.size a
  slices_S16x137x256_o0_5_0_S16x128x256 : S16x137x256.Slices ![0, 5, 0] S16x128x256
  inb_S10x256_S1x256_6_0 : ∀ a, (![6, 0] : Fin 2 → Nat) a + S1x256.size a ≤ S10x256.size a
  slices_S16x137x256_o0_6_0_S16x128x256 : S16x137x256.Slices ![0, 6, 0] S16x128x256
  inb_S10x256_S1x256_7_0 : ∀ a, (![7, 0] : Fin 2 → Nat) a + S1x256.size a ≤ S10x256.size a
  slices_S16x137x256_o0_7_0_S16x128x256 : S16x137x256.Slices ![0, 7, 0] S16x128x256
  inb_S10x256_S1x256_8_0 : ∀ a, (![8, 0] : Fin 2 → Nat) a + S1x256.size a ≤ S10x256.size a
  slices_S16x137x256_o0_8_0_S16x128x256 : S16x137x256.Slices ![0, 8, 0] S16x128x256
  inb_S10x256_S1x256_9_0 : ∀ a, (![9, 0] : Fin 2 → Nat) a + S1x256.size a ≤ S10x256.size a
  slices_S16x137x256_o0_9_0_S16x128x256 : S16x137x256.Slices ![0, 9, 0] S16x128x256
  slices_S16x128x256_o0_119_0_S16x9x256 : S16x128x256.Slices ![0, 119, 0] S16x9x256
  reduces_S2048x256_S2048 : S2048x256.Reduces [1] S2048
  shapeCasts_S2048_S2048x1 : S2048.ShapeCasts S2048x1
  broadcasts_S2048x1_S2048x256 : S2048x1.Broadcasts S2048x256
  transposes_S256x9x256_S256x256x9_0_2_1 : S256x9x256.Transposes [0, 2, 1] S256x256x9
  bcast_S256x256x9_S256x256x9x1_0_1_2 : S256x256x9.BroadcastsInDim S256x256x9x1 (![0, 1, 2] : Fin 3 → Fin S256x256x9x1.rank)
  dot_S256x256_S256x256_S256x256_1_0_0_1_n_n_wf : DotDims.WF S256x256 S256x256 S256x256 [1] [0] [0] [1] [] []
  dot_S1x256_S256x256_S1x256_1_0_0_1_n_n_wf : DotDims.WF S1x256 S256x256 S1x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x256.size a ≤ S256x128x256.size a
  hwx0_0 : ∀ i : grid0.Coords, EltTy.bits .bf16 = 32 ∨ (Rect.block (s := S256x128x256) S16x128x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x256.size a ≤ S10x256.size a
  hwx0_4 : ∀ i : grid0.Coords, EltTy.bits .f32 = 32 ∨ (Rect.block (s := S10x256) S10x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x9x256.size a ≤ S256x9x256.size a
  hwx0_7 : ∀ i : grid0.Coords, EltTy.bits .f32 = 32 ∨ (Rect.block (s := S256x9x256) S16x9x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S10x256.size a ≤ S10x256.size a
  hwx0_9 : ∀ i : grid0.Coords, EltTy.bits .f32 = 32 ∨ (Rect.block (s := S10x256) S10x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16x9x256.size a ≤ S256x9x256.size a
  hwx0_12 : ∀ i : grid0.Coords, EltTy.bits .f32 = 32 ∨ (Rect.block (s := S256x9x256) S16x9x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S10x256.size a ≤ S10x256.size a
  hwx0_14 : ∀ i : grid0.Coords, EltTy.bits .f32 = 32 ∨ (Rect.block (s := S10x256) S10x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .bf16 = 32 ∨ (Rect.block (s := S256x256) S256x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S16x9x256.size a ≤ S256x9x256.size a
  hwx0_17 : ∀ i : grid0.Coords, EltTy.bits .f32 = 32 ∨ (Rect.block (s := S256x9x256) S16x9x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S256x256.size a
  hwx0_18 : ∀ i : grid0.Coords, EltTy.bits .bf16 = 32 ∨ (Rect.block (s := S256x256) S256x256.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S10x256.size a ≤ S10x256.size a
  hwx0_19 : ∀ i : grid0.Coords, EltTy.bits .f32 = 32 ∨ (Rect.block (s := S10x256) S10x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x256.size a ≤ S256x256.size a
  hwx0_20 : ∀ i : grid0.Coords, EltTy.bits .bf16 = 32 ∨ (Rect.block (s := S256x256) S256x256.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x256.size a ≤ S1x256.size a
  hwx0_21 : ∀ i : grid0.Coords, EltTy.bits .f32 = 32 ∨ (Rect.block (s := S1x256) S1x256.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S16x9x256.size a ≤ S256x9x256.size a
  hwx0_22 : ∀ i : grid0.Coords, EltTy.bits .f32 = 32 ∨ (Rect.block (s := S256x9x256) S16x9x256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x256.size a ≤ S256x256.size a
  hwx0_23 : ∀ i : grid0.Coords, EltTy.bits .bf16 = 32 ∨ (Rect.block (s := S256x256) S256x256.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x256.size a ≤ S1x256.size a
  hwx0_24 : ∀ i : grid0.Coords, EltTy.bits .f32 = 32 ∨ (Rect.block (s := S1x256) S1x256.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S16x128x256.size a ≤ S256x128x256.size a
  hwx0_25 : ∀ i : grid0.Coords, EltTy.bits .f32 = 32 ∨ (Rect.block (s := S256x128x256) S16x128x256.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S16x9x256.size a ≤ S256x9x256.size a
  hwx0_26 : ∀ i : grid0.Coords, EltTy.bits .f32 = 32 ∨ (Rect.block (s := S256x9x256) S16x9x256.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S16x9x256.size a ≤ S256x9x256.size a
  hwx0_27 : ∀ i : grid0.Coords, EltTy.bits .f32 = 32 ∨ (Rect.block (s := S256x9x256) S16x9x256.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S16x9x256.size a ≤ S256x9x256.size a
  hwx0_28 : ∀ i : grid0.Coords, EltTy.bits .f32 = 32 ∨ (Rect.block (s := S256x9x256) S16x9x256.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S16x9x256.size a ≤ S256x9x256.size a
  hwx0_29 : ∀ i : grid0.Coords, EltTy.bits .f32 = 32 ∨ (Rect.block (s := S256x9x256) S16x9x256.size (cc0_transform_29 i) (hinb0_29 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v20) S16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S10x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S16x9x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg15) S10x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S16x9x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v27) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg20) S10x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v28) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v29) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17) S16x9x256.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v30) S256x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg25) S10x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v31) S256x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v32) S1x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v19) S16x9x256.size cc0_transform_22 reads0_22 false false 2 stage0_22 sem0_22
    hrank0 hreads0_22 hinb0_22 nbuf0_22 (Memref.isWhole_whole _) hwx0_22 hstage0_22

abbrev win0_23 : Pipeline.Window sig grid0 :=
  Pipeline.Window.ofSpec (Memref.whole main_v7) S256x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v11) S1x256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v33_0) S16x128x256.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v33_1) S16x9x256.size cc0_transform_26 reads0_26 true false 2 stage0_26 sem0_26
    hrank0 hreads0_26 hinb0_26 nbuf0_26 (Memref.isWhole_whole _) hwx0_26 hstage0_26

abbrev win0_27 : Pipeline.Window sig grid0 :=
  Pipeline.Window.ofSpec (Memref.whole main_v33_2) S16x9x256.size cc0_transform_27 reads0_27 true false 2 stage0_27 sem0_27
    hrank0 hreads0_27 hinb0_27 nbuf0_27 (Memref.isWhole_whole _) hwx0_27 hstage0_27

abbrev win0_28 : Pipeline.Window sig grid0 :=
  Pipeline.Window.ofSpec (Memref.whole main_v33_3) S16x9x256.size cc0_transform_28 reads0_28 true false 2 stage0_28 sem0_28
    hrank0 hreads0_28 hinb0_28 nbuf0_28 (Memref.isWhole_whole _) hwx0_28 hstage0_28

abbrev win0_29 : Pipeline.Window sig grid0 :=
  Pipeline.Window.ofSpec (Memref.whole main_v33_4) S16x9x256.size cc0_transform_29 reads0_29 true false 2 stage0_29 sem0_29
    hrank0 hreads0_29 hinb0_29 nbuf0_29 (Memref.isWhole_whole _) hwx0_29 hstage0_29

abbrev win0 : Fin 30 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | ⟨_ + 30, h⟩ => absurd h (Nat.not_lt.2 (Nat.le_add_left _ _))
abbrev spec0 : Fin 30 → Pipeline.WinSpec sig grid0.rank := fun w => (win0 w).toWinSpec

class Facts : Prop extends Facts₀ where

variable [Facts]
-- ==== ReferenceIdeal.lean ====
abbrev S256x128x256 : Shape := ⟨3, ![256, 128, 256]⟩
abbrev S256x256 : Shape := ⟨2, ![256, 256]⟩
abbrev S256 : Shape := ⟨1, ![256]⟩
abbrev S10x256 : Shape := ⟨2, ![10, 256]⟩
abbrev S256x256x9x1 : Shape := ⟨4, ![256, 256, 9, 1]⟩
abbrev S256x256x9 : Shape := ⟨3, ![256, 256, 9]⟩
abbrev S256x9x256 : Shape := ⟨3, ![256, 9, 256]⟩
abbrev S1x256x9x256 : Shape := ⟨4, ![1, 256, 9, 256]⟩
abbrev S4x256x9x256 : Shape := ⟨4, ![4, 256, 9, 256]⟩
abbrev S1x256x256 : Shape := ⟨3, ![1, 256, 256]⟩
abbrev S4x256x256 : Shape := ⟨3, ![4, 256, 256]⟩
abbrev S1x10x256 : Shape := ⟨3, ![1, 10, 256]⟩
abbrev S4x10x256 : Shape := ⟨3, ![4, 10, 256]⟩
abbrev S1x256 : Shape := ⟨2, ![1, 256]⟩
abbrev S1x1x256 : Shape := ⟨3, ![1, 1, 256]⟩
abbrev S4x1x256 : Shape := ⟨3, ![4, 1, 256]⟩
abbrev S2x128x256 : Shape := ⟨3, ![2, 128, 256]⟩
abbrev S4x2x9x256 : Shape := ⟨4, ![4, 2, 9, 256]⟩
abbrev S1x2x9x256 : Shape := ⟨4, ![1, 2, 9, 256]⟩
abbrev S2x9x256 : Shape := ⟨3, ![2, 9, 256]⟩
abbrev S2x119x256 : Shape := ⟨3, ![2, 119, 256]⟩
abbrev S2x8x256 : Shape := ⟨3, ![2, 8, 256]⟩
abbrev S2x120x256 : Shape := ⟨3, ![2, 120, 256]⟩
abbrev S2x7x256 : Shape := ⟨3, ![2, 7, 256]⟩
abbrev S2x121x256 : Shape := ⟨3, ![2, 121, 256]⟩
abbrev S2x6x256 : Shape := ⟨3, ![2, 6, 256]⟩
abbrev S2x122x256 : Shape := ⟨3, ![2, 122, 256]⟩
abbrev S2x5x256 : Shape := ⟨3, ![2, 5, 256]⟩
abbrev S2x123x256 : Shape := ⟨3, ![2, 123, 256]⟩
abbrev S2x4x256 : Shape := ⟨3, ![2, 4, 256]⟩
abbrev S2x124x256 : Shape := ⟨3, ![2, 124, 256]⟩
abbrev S2x3x256 : Shape := ⟨3, ![2, 3, 256]⟩
abbrev S2x125x256 : Shape := ⟨3, ![2, 125, 256]⟩
abbrev S2x2x256 : Shape := ⟨3, ![2, 2, 256]⟩
abbrev S2x126x256 : Shape := ⟨3, ![2, 126, 256]⟩
abbrev S2x1x256 : Shape := ⟨3, ![2, 1, 256]⟩
abbrev S2x127x256 : Shape := ⟨3, ![2, 127, 256]⟩
abbrev S256x1 : Shape := ⟨2, ![256, 1]⟩

abbrev nBuf : Space → Nat
  | .hbm => 88
  | .vmem => 20
  | .smem => 0
  | _ => 0

abbrev bufTy : (tb : Table) → Fin (tcTables nBuf tb) → BufTy
  | .hbm, ⟨0, _⟩ => ⟨S256x128x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S10x256, .f32⟩
  | .hbm, ⟨11, _⟩ => ⟨S256x256, .f32⟩
  | .hbm, ⟨12, _⟩ => ⟨S256, .f32⟩
  | .hbm, ⟨13, _⟩ => ⟨S256x256x9x1, .f32⟩
  | .hbm, ⟨14, _⟩ => ⟨S256x256, .f32⟩
  | .hbm, ⟨15, _⟩ => ⟨S10x256, .f32⟩
  | .hbm, ⟨16, _⟩ => ⟨S256x256, .f32⟩
  | .hbm, ⟨17, _⟩ => ⟨S256, .f32⟩
  | .hbm, ⟨18, _⟩ => ⟨S256x256x9x1, .f32⟩
  | .hbm, ⟨19, _⟩ => ⟨S256x256, .f32⟩
  | .hbm, ⟨20, _⟩ => ⟨S10x256, .f32⟩
  | .hbm, ⟨21, _⟩ => ⟨S256x256, .f32⟩
  | .hbm, ⟨22, _⟩ => ⟨S256, .f32⟩
  | .hbm, ⟨23, _⟩ => ⟨S256x256x9x1, .f32⟩
  | .hbm, ⟨24, _⟩ => ⟨S256x256, .f32⟩
  | .hbm, ⟨25, _⟩ => ⟨S10x256, .f32⟩
  | .hbm, ⟨26, _⟩ => ⟨S256x256, .f32⟩
  | .hbm, ⟨27, _⟩ => ⟨S256, .f32⟩
  | .hbm, ⟨28, _⟩ => ⟨S256x256x9x1, .f32⟩
  | .hbm, ⟨29, _⟩ => ⟨S256x256x9, .f32⟩
  | .hbm, ⟨30, _⟩ => ⟨S256x9x256, .f32⟩
  | .hbm, ⟨31, _⟩ => ⟨S256x256x9, .f32⟩
  | .hbm, ⟨32, _⟩ => ⟨S256x9x256, .f32⟩
  | .hbm, ⟨33, _⟩ => ⟨S256x256x9, .f32⟩
  | .hbm, ⟨34, _⟩ => ⟨S256x9x256, .f32⟩
  | .hbm, ⟨35, _⟩ => ⟨S256x256x9, .f32⟩
  | .hbm, ⟨36, _⟩ => ⟨S256x9x256, .f32⟩
  | .hbm, ⟨37, _⟩ => ⟨S1x256x9x256, .f32⟩
  | .hbm, ⟨38, _⟩ => ⟨S1x256x9x256, .f32⟩
  | .hbm, ⟨39, _⟩ => ⟨S1x256x9x256, .f32⟩
  | .hbm, ⟨40, _⟩ => ⟨S1x256x9x256, .f32⟩
  | .hbm, ⟨41, _⟩ => ⟨S4x256x9x256, .f32⟩
  | .hbm, ⟨42, _⟩ => ⟨S1x256x256, .f32⟩
  | .hbm, ⟨43, _⟩ => ⟨S1x256x256, .f32⟩
  | .hbm, ⟨44, _⟩ => ⟨S1x256x256, .f32⟩
  | .hbm, ⟨45, _⟩ => ⟨S1x256x256, .f32⟩
  | .hbm, ⟨46, _⟩ => ⟨S4x256x256, .f32⟩
  | .hbm, ⟨47, _⟩ => ⟨S1x10x256, .f32⟩
  | .hbm, ⟨48, _⟩ => ⟨S1x10x256, .f32⟩
  | .hbm, ⟨49, _⟩ => ⟨S1x10x256, .f32⟩
  | .hbm, ⟨50, _⟩ => ⟨S1x10x256, .f32⟩
  | .hbm, ⟨51, _⟩ => ⟨S4x10x256, .f32⟩
  | .hbm, ⟨52, _⟩ => ⟨S1x256x256, .f32⟩
  | .hbm, ⟨53, _⟩ => ⟨S1x256x256, .f32⟩
  | .hbm, ⟨54, _⟩ => ⟨S1x256x256, .f32⟩
  | .hbm, ⟨55, _⟩ => ⟨S1x256x256, .f32⟩
  | .hbm, ⟨56, _⟩ => ⟨S4x256x256, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S1x1x256, .f32⟩
  | .hbm, ⟨62, _⟩ => ⟨S1x1x256, .f32⟩
  | .hbm, ⟨63, _⟩ => ⟨S1x1x256, .f32⟩
  | .hbm, ⟨64, _⟩ => ⟨S1x1x256, .f32⟩
  | .hbm, ⟨65, _⟩ => ⟨S4x1x256, .f32⟩
  | .hbm, ⟨66, _⟩ => ⟨S1x256, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S256x128x256, .f32⟩
  | .hbm, ⟨71, _⟩ => ⟨S4x256x9x256, .f32⟩
  | .hbm, ⟨72, _⟩ => ⟨S1x256x9x256, .f32⟩
  | .hbm, ⟨73, _⟩ => ⟨S256x9x256, .f32⟩
  | .hbm, ⟨74, _⟩ => ⟨S256x256x9, .f32⟩
  | .hbm, ⟨75, _⟩ => ⟨S256x256x9x1, .f32⟩
  | .hbm, ⟨76, _⟩ => ⟨S1x256x9x256, .f32⟩
  | .hbm, ⟨77, _⟩ => ⟨S256x9x256, .f32⟩
  | .hbm, ⟨78, _⟩ => ⟨S256x256x9, .f32⟩
  | .hbm, ⟨79, _⟩ => ⟨S256x256x9x1, .f32⟩
  | .hbm, ⟨80, _⟩ => ⟨S1x256x9x256, .f32⟩
  | .hbm, ⟨81, _⟩ => ⟨S256x9x256, .f32⟩
  | .hbm, ⟨82, _⟩ => ⟨S256x256x9, .f32⟩
  | .hbm, ⟨83, _⟩ => ⟨S256x256x9x1, .f32⟩
  | .hbm, ⟨84, _⟩ => ⟨S1x256x9x256, .f32⟩
  | .hbm, ⟨85, _⟩ => ⟨S256x9x256, .f32⟩
  | .hbm, ⟨86, _⟩ => ⟨S256x256x9, .f32⟩
  | .hbm, ⟨87, _⟩ => ⟨S256x256x9x1, .f32⟩
  | .local _ .vmem, ⟨0, _⟩ => ⟨S2x128x256, .f32⟩
  | .local _ .vmem, ⟨1, _⟩ => ⟨S2x128x256, .f32⟩
  | .local _ .vmem, ⟨2, _⟩ => ⟨S4x2x9x256, .f32⟩
  | .local _ .vmem, ⟨3, _⟩ => ⟨S4x2x9x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S4x256x256, .f32⟩
  | .local _ .vmem, ⟨9, _⟩ => ⟨S4x10x256, .f32⟩
  | .local _ .vmem, ⟨10, _⟩ => ⟨S4x256x256, .f32⟩
  | .local _ .vmem, ⟨11, _⟩ => ⟨S4x1x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S2x128x256, .f32⟩
  | .local _ .vmem, ⟨17, _⟩ => ⟨S2x128x256, .f32⟩
  | .local _ .vmem, ⟨18, _⟩ => ⟨S4x2x9x256, .f32⟩
  | .local _ .vmem, ⟨19, _⟩ => ⟨S4x2x9x256, .f32⟩
  | _, _ => ⟨S256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41_0 : Ref sig .tc := ⟨.hbm, 70, rfl⟩
abbrev main_v41_1 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x9x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x10x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x2x9x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S256x256x9x1_S256x256x9 : S256x256x9x1.ShapeCasts S256x256x9
  transposes_S256x256x9_S256x9x256_0_2_1 : S256x256x9.Transposes [0, 2, 1] S256x9x256
  bcast_S256x9x256_S1x256x9x256_1_2_3 : S256x9x256.BroadcastsInDim S1x256x9x256 (![1, 2, 3] : Fin 3 → Fin S1x256x9x256.rank)
  concatenates_S1x256x9x256_S1x256x9x256_S1x256x9x256_S1x256x9x256_S4x256x9x256_d0 : Shape.Concatenates [S1x256x9x256, S1x256x9x256, S1x256x9x256, S1x256x9x256] S4x256x9x256 0
  bcast_S256x256_S1x256x256_1_2 : S256x256.BroadcastsInDim S1x256x256 (![1, 2] : Fin 2 → Fin S1x256x256.rank)
  concatenates_S1x256x256_S1x256x256_S1x256x256_S1x256x256_S4x256x256_d0 : Shape.Concatenates [S1x256x256, S1x256x256, S1x256x256, S1x256x256] S4x256x256 0
  bcast_S10x256_S1x10x256_1_2 : S10x256.BroadcastsInDim S1x10x256 (![1, 2] : Fin 2 → Fin S1x10x256.rank)
  concatenates_S1x10x256_S1x10x256_S1x10x256_S1x10x256_S4x10x256_d0 : Shape.Concatenates [S1x10x256, S1x10x256, S1x10x256, S1x10x256] S4x10x256 0
  shapeCasts_S256_S1x256 : S256.ShapeCasts S1x256
  bcast_S1x256_S1x1x256_1_2 : S1x256.BroadcastsInDim S1x1x256 (![1, 2] : Fin 2 → Fin S1x1x256.rank)
  concatenates_S1x1x256_S1x1x256_S1x1x256_S1x1x256_S4x1x256_d0 : Shape.Concatenates [S1x1x256, S1x1x256, S1x1x256, S1x1x256] S4x1x256 0
  inb_S2x128x256_S2x128x256_0_0_0 : ∀ a, (![0, 0, 0] : Fin 3 → Nat) a + S2x128x256.size a ≤ S2x128x256.size a
  h_S2x128x256 : 0 < S2x128x256.numel
  shapeCasts_S2x128x256_S256x256 : S2x128x256.ShapeCasts S256x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  shapeCasts_S256x256_S2x128x256 : S256x256.ShapeCasts S2x128x256
  inb_S4x2x9x256_S1x2x9x256_0_0_0_0 : ∀ a, (![0, 0, 0, 0] : Fin 4 → Nat) a + S1x2x9x256.size a ≤ S4x2x9x256.size a
  h_S1x2x9x256 : 0 < S1x2x9x256.numel
  shapeCasts_S1x2x9x256_S2x9x256 : S1x2x9x256.ShapeCasts S2x9x256
  inb_S4x10x256_S1x10x256_0_0_0 : ∀ a, (![0, 0, 0] : Fin 3 → Nat) a + S1x10x256.size a ≤ S4x10x256.size a
  h_S1x10x256 : 0 < S1x10x256.numel
  shapeCasts_S1x10x256_S10x256 : S1x10x256.ShapeCasts S10x256
  slices_S10x256_o0_0_S1x256 : S10x256.Slices ![0, 0] S1x256
  shapeCasts_S1x256_S256 : S1x256.ShapeCasts S256
  shapeCasts_S256_S1x1x256 : S256.ShapeCasts S1x1x256
  slices_S2x128x256_o0_0_0_S2x119x256 : S2x128x256.Slices ![0, 0, 0] S2x119x256
  concatenates_S2x9x256_S2x119x256_S2x128x256_d1 : Shape.Concatenates [S2x9x256, S2x119x256] S2x128x256 1
  broadcasts_S1x1x256_S2x128x256 : S1x1x256.Broadcasts S2x128x256
  slices_S10x256_o1_0_S1x256 : S10x256.Slices ![1, 0] S1x256
  slices_S2x9x256_o0_1_0_S2x8x256 : S2x9x256.Slices ![0, 1, 0] S2x8x256
  slices_S2x128x256_o0_0_0_S2x120x256 : S2x128x256.Slices ![0, 0, 0] S2x120x256
  concatenates_S2x8x256_S2x120x256_S2x128x256_d1 : Shape.Concatenates [S2x8x256, S2x120x256] S2x128x256 1
  slices_S10x256_o2_0_S1x256 : S10x256.Slices ![2, 0] S1x256
  slices_S2x9x256_o0_2_0_S2x7x256 : S2x9x256.Slices ![0, 2, 0] S2x7x256
  slices_S2x128x256_o0_0_0_S2x121x256 : S2x128x256.Slices ![0, 0, 0] S2x121x256
  concatenates_S2x7x256_S2x121x256_S2x128x256_d1 : Shape.Concatenates [S2x7x256, S2x121x256] S2x128x256 1
  slices_S10x256_o3_0_S1x256 : S10x256.Slices ![3, 0] S1x256
  slices_S2x9x256_o0_3_0_S2x6x256 : S2x9x256.Slices ![0, 3, 0] S2x6x256
  slices_S2x128x256_o0_0_0_S2x122x256 : S2x128x256.Slices ![0, 0, 0] S2x122x256
  concatenates_S2x6x256_S2x122x256_S2x128x256_d1 : Shape.Concatenates [S2x6x256, S2x122x256] S2x128x256 1
  slices_S10x256_o4_0_S1x256 : S10x256.Slices ![4, 0] S1x256
  slices_S2x9x256_o0_4_0_S2x5x256 : S2x9x256.Slices ![0, 4, 0] S2x5x256
  slices_S2x128x256_o0_0_0_S2x123x256 : S2x128x256.Slices ![0, 0, 0] S2x123x256
  concatenates_S2x5x256_S2x123x256_S2x128x256_d1 : Shape.Concatenates [S2x5x256, S2x123x256] S2x128x256 1
  slices_S10x256_o5_0_S1x256 : S10x256.Slices ![5, 0] S1x256
  slices_S2x9x256_o0_5_0_S2x4x256 : S2x9x256.Slices ![0, 5, 0] S2x4x256
  slices_S2x128x256_o0_0_0_S2x124x256 : S2x128x256.Slices ![0, 0, 0] S2x124x256
  concatenates_S2x4x256_S2x124x256_S2x128x256_d1 : Shape.Concatenates [S2x4x256, S2x124x256] S2x128x256 1
  slices_S10x256_o6_0_S1x256 : S10x256.Slices ![6, 0] S1x256
  slices_S2x9x256_o0_6_0_S2x3x256 : S2x9x256.Slices ![0, 6, 0] S2x3x256
  slices_S2x128x256_o0_0_0_S2x125x256 : S2x128x256.Slices ![0, 0, 0] S2x125x256
  concatenates_S2x3x256_S2x125x256_S2x128x256_d1 : Shape.Concatenates [S2x3x256, S2x125x256] S2x128x256 1
  slices_S10x256_o7_0_S1x256 : S10x256.Slices ![7, 0] S1x256
  slices_S2x9x256_o0_7_0_S2x2x256 : S2x9x256.Slices ![0, 7, 0] S2x2x256
  slices_S2x128x256_o0_0_0_S2x126x256 : S2x128x256.Slices ![0, 0, 0] S2x126x256
  concatenates_S2x2x256_S2x126x256_S2x128x256_d1 : Shape.Concatenates [S2x2x256, S2x126x256] S2x128x256 1
  slices_S10x256_o8_0_S1x256 : S10x256.Slices ![8, 0] S1x256
  slices_S2x9x256_o0_8_0_S2x1x256 : S2x9x256.Slices ![0, 8, 0] S2x1x256
  slices_S2x128x256_o0_0_0_S2x127x256 : S2x128x256.Slices ![0, 0, 0] S2x127x256
  concatenates_S2x1x256_S2x127x256_S2x128x256_d1 : Shape.Concatenates [S2x1x256, S2x127x256] S2x128x256 1
  slices_S10x256_o9_0_S1x256 : S10x256.Slices ![9, 0] S1x256
  slices_S2x128x256_o0_119_0_S2x9x256 : S2x128x256.Slices ![0, 119, 0] S2x9x256
  shapeCasts_S2x9x256_S1x2x9x256 : S2x9x256.ShapeCasts S1x2x9x256
  inb_S4x1x256_S1x1x256_0_0_0 : ∀ a, (![0, 0, 0] : Fin 3 → Nat) a + S1x1x256.size a ≤ S4x1x256.size a
  h_S1x1x256 : 0 < S1x1x256.numel
  shapeCasts_S1x1x256_S1x256 : S1x1x256.ShapeCasts S1x256
  inb_S4x256x256_S1x256x256_1_0_0 : ∀ a, (![1, 0, 0] : Fin 3 → Nat) a + S1x256x256.size a ≤ S4x256x256.size a
  inb_S4x2x9x256_S1x2x9x256_1_0_0_0 : ∀ a, (![1, 0, 0, 0] : Fin 4 → Nat) a + S1x2x9x256.size a ≤ S4x2x9x256.size a
  inb_S4x10x256_S1x10x256_1_0_0 : ∀ a, (![1, 0, 0] : Fin 3 → Nat) a + S1x10x256.size a ≤ S4x10x256.size a
  inb_S4x1x256_S1x1x256_1_0_0 : ∀ a, (![1, 0, 0] : Fin 3 → Nat) a + S1x1x256.size a ≤ S4x1x256.size a
  inb_S4x256x256_S1x256x256_2_0_0 : ∀ a, (![2, 0, 0] : Fin 3 → Nat) a + S1x256x256.size a ≤ S4x256x256.size a
  inb_S4x2x9x256_S1x2x9x256_2_0_0_0 : ∀ a, (![2, 0, 0, 0] : Fin 4 → Nat) a + S1x2x9x256.size a ≤ S4x2x9x256.size a
  inb_S4x10x256_S1x10x256_2_0_0 : ∀ a, (![2, 0, 0] : Fin 3 → Nat) a + S1x10x256.size a ≤ S4x10x256.size a
  inb_S4x1x256_S1x1x256_2_0_0 : ∀ a, (![2, 0, 0] : Fin 3 → Nat) a + S1x1x256.size a ≤ S4x1x256.size a
  inb_S4x256x256_S1x256x256_3_0_0 : ∀ a, (![3, 0, 0] : Fin 3 → Nat) a + S1x256x256.size a ≤ S4x256x256.size a
  inb_S4x2x9x256_S1x2x9x256_3_0_0_0 : ∀ a, (![3, 0, 0, 0] : Fin 4 → Nat) a + S1x2x9x256.size a ≤ S4x2x9x256.size a
  inb_S4x10x256_S1x10x256_3_0_0 : ∀ a, (![3, 0, 0] : Fin 3 → Nat) a + S1x10x256.size a ≤ S4x10x256.size a
  inb_S4x1x256_S1x1x256_3_0_0 : ∀ a, (![3, 0, 0] : Fin 3 → Nat) a + S1x1x256.size a ≤ S4x1x256.size a
  reduces_S256x256_S256 : S256x256.Reduces [1] S256
  shapeCasts_S256_S256x1 : S256.ShapeCasts S256x1
  broadcasts_S256x1_S256x256 : S256x1.Broadcasts S256x256
  slices_S4x256x9x256_S1x256x9x256_0_0_0_0 : S4x256x9x256.Slices ![0, 0, 0, 0] S1x256x9x256
  shapeCasts_S1x256x9x256_S256x9x256 : S1x256x9x256.ShapeCasts S256x9x256
  transposes_S256x9x256_S256x256x9_0_2_1 : S256x9x256.Transposes [0, 2, 1] S256x256x9
  bcast_S256x256x9_S256x256x9x1_0_1_2 : S256x256x9.BroadcastsInDim S256x256x9x1 (![0, 1, 2] : Fin 3 → Fin S256x256x9x1.rank)
  slices_S4x256x9x256_S1x256x9x256_1_0_0_0 : S4x256x9x256.Slices ![1, 0, 0, 0] S1x256x9x256
  slices_S4x256x9x256_S1x256x9x256_2_0_0_0 : S4x256x9x256.Slices ![2, 0, 0, 0] S1x256x9x256
  slices_S4x256x9x256_S1x256x9x256_3_0_0_0 : S4x256x9x256.Slices ![3, 0, 0, 0] S1x256x9x256
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x256.size a ≤ S256x128x256.size a
  hwx0_0 : ∀ i : grid0.Coords, EltTy.bits .f32 = 32 ∨ (Rect.block (s := S256x128x256) S2x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2x9x256.size a ≤ S4x256x9x256.size a
  hwx0_1 : ∀ i : grid0.Coords, EltTy.bits .f32 = 32 ∨ (Rect.block (s := S4x256x9x256) S4x2x9x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x256x256.size a ≤ S4x256x256.size a
  hwx0_6 : ∀ i : grid0.Coords, EltTy.bits .f32 = 32 ∨ (Rect.block (s := S4x256x256) S4x256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x10x256.size a ≤ S4x10x256.size a
  hwx0_7 : ∀ i : grid0.Coords, EltTy.bits .f32 = 32 ∨ (Rect.block (s := S4x10x256) S4x10x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x256x256.size a ≤ S4x256x256.size a
  hwx0_8 : ∀ i : grid0.Coords, EltTy.bits .f32 = 32 ∨ (Rect.block (s := S4x256x256) S4x256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x1x256.size a ≤ S4x1x256.size a
  hwx0_9 : ∀ i : grid0.Coords, EltTy.bits .f32 = 32 ∨ (Rect.block (s := S4x1x256) S4x1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .f32 = 32 ∨ (Rect.block (s := S256x256) S256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2x128x256.size a ≤ S256x128x256.size a
  hwx0_14 : ∀ i : grid0.Coords, EltTy.bits .f32 = 32 ∨ (Rect.block (s := S256x128x256) S2x128x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4x2x9x256.size a ≤ S4x256x9x256.size a
  hwx0_15 : ∀ i : grid0.Coords, EltTy.bits .f32 = 32 ∨ (Rect.block (s := S4x256x9x256) S4x2x9x256.size (cc0_transform_15 i) (hinb0_15 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg0) S2x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4x2x9x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S4x256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S4x10x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S4x256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S4x1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v39) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg7) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v40) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v41_0) S2x128x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v41_1) S4x2x9x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== Proof.Frames.lean ====
/-
  The kernel's two frame claims and the idealization claim.

  The kernel's pallas_call loads whole blocks through literal rectangles, computes, and stores whole
  blocks; at the word level and at the idealized level alike its run terminates without a fault and
  leaves every argument array as it was launched.  The ideal pass rewrote no operation of the kernel
  (its ledger is empty), so the idealization claim has no conjunct.
-/
import proofs.«129047_g2000306104881685_pallasbulk_300_2_alg».proof.Defs
import proofs.«129047_g2000306104881685_pallasbulk_300_2_alg».proof.Proof.Gen.Kernel
import proofs.«129047_g2000306104881685_pallasbulk_300_2_alg».proof.Proof.KernelFrameP
import proofs.«129047_g2000306104881685_pallasbulk_300_2_alg».proof.Proof.Gen.KernelIdeal
import proofs.«129047_g2000306104881685_pallasbulk_300_2_alg».proof.Proof.KernelIdealFrameP
import proofs.«129047_g2000306104881685_pallasbulk_300_2_alg».proof.Proof.Gen.Pre_finite_inputs

noncomputable section

namespace Cert.Proof.Frames

open Idealize.ShloMosaic Idealize.SL.Sem

/-- The word-level kernel runs to the end and keeps its arguments. -/
theorem frame_p : Cert.frame_Kernel := fun m ρ _ => Cert.Kernel.GenP.frame m ρ

/-- The idealized kernel runs to the end and keeps its arguments. -/
theorem frame_pi : Cert.frame_KernelIdeal := fun m ρ _ => Cert.KernelIdeal.GenP.frame m ρ

/-- Nothing was rewritten between the kernel and its idealization. -/
theorem preserves : Cert.preserves_Kernel_KernelIdeal := trivial

end Cert.Proof.Frames

end
-- ==== Proof.LibFoldedAffine.lean ====
/-
  Two affine maps with nothing between them are one affine map.

  For real matrices and vectors, read inside the extended reals (every entry an embedded real),
  the row vector `(x · W₁ + b₁) · W₂ + b₂` equals `x · (W₁ · W₂) + (b₁ · W₂ + b₂)`, entry by entry:
  matrix multiplication is associative and distributes over the sum with the bias.  On the extended
  reals neither law holds at the infinities, so the statement is about embedded reals only; it is
  stated for one output column (a column `w₂` of `W₂` and the matching entry `b₂`), over arbitrary
  finite index types for the two contracted axes.

  Also here: a finite sum of embedded reals is the embedded sum.
-/
import Mathlib.Data.EReal.Operations
import Mathlib.Algebra.BigOperators.Ring.Finset
import Mathlib.Algebra.BigOperators.Group.Finset.Sigma

open scoped BigOperators

namespace Lib.FoldedAffine

/-- A finite sum of embedded reals is the embedding of the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The law over the reals: `∑ⱼ (∑ₖ xₖ W₁ₖⱼ + b₁ⱼ) w₂ⱼ + b₂ = ∑ₖ xₖ (∑ⱼ W₁ₖⱼ w₂ⱼ) + (∑ⱼ b₁ⱼ w₂ⱼ + b₂)`. -/
theorem real_law {K J : Type*} [Fintype K] [Fintype J]
    (x : K → ℝ) (W1 : K → J → ℝ) (b1 : J → ℝ) (w2 : J → ℝ) (b2 : ℝ) :
    (∑ j, ((∑ k, x k * W1 k j) + b1 j) * w2 j) + b2
      = (∑ k, x k * (∑ j, W1 k j * w2 j)) + ((∑ j, b1 j * w2 j) + b2) := by
  have h1 : (∑ j, ((∑ k, x k * W1 k j) + b1 j) * w2 j)
      = (∑ j, ∑ k, x k * W1 k j * w2 j) + ∑ j, b1 j * w2 j := by
    rw [← Finset.sum_add_distrib]
    refine Finset.sum_congr rfl fun j _ => ?_
    rw [add_mul, Finset.sum_mul]
  have h2 : (∑ k, x k * (∑ j, W1 k j * w2 j)) = ∑ j, ∑ k, x k * W1 k j * w2 j := by
    rw [Finset.sum_comm]
    refine Finset.sum_congr rfl fun k _ => ?_
    rw [Finset.mul_sum]
    refine Finset.sum_congr rfl fun j _ => ?_
    ring
  rw [h1, h2]; ring

/-- The same law on the extended reals, every entry an embedded real: the two-step affine map
    `(x · W₁ + b₁) · w₂ + b₂` is the folded one `x · (W₁ · w₂) + (b₁ · w₂ + b₂)`. -/
theorem ereal_law {K J : Type*} [Fintype K] [Fintype J]
    (x : K → ℝ) (W1 : K → J → ℝ) (b1 : J → ℝ) (w2 : J → ℝ) (b2 : ℝ) :
    (∑ j, ((∑ k, (x k : EReal) * (W1 k j : EReal)) + (b1 j : EReal)) * (w2 j : EReal)) + (b2 : EReal)
      = (∑ k, (x k : EReal) * (∑ j, (W1 k j : EReal) * (w2 j : EReal)))
          + ((∑ j, (b1 j : EReal) * (w2 j : EReal)) + (b2 : EReal)) := by
  simp only [← EReal.coe_mul, coe_sum, ← EReal.coe_add]
  exact congrArg _ (real_law x W1 b1 w2 b2)

end Lib.FoldedAffine
-- ==== Proof.RefMain.lean ====
/-
  The reference's @main around its one region.

  @main is forty-one host operations (the four caches re-laid time-major and stacked, the four layers'
  weights, filters and biases stacked, the bias vectors made rows), the region, and sixteen host
  operations that cut the stacked new caches apart and lay each back feature-major.  None of the
  operations before the region writes an argument array or allocates, so the region finds every
  argument as launched; none of the operations after it writes an array of the region.
-/
import proofs.«129047_g2000306104881685_pallasbulk_300_2_alg».proof.Proof.Gen.ReferenceIdeal.Launch
import proofs.«129047_g2000306104881685_pallasbulk_300_2_alg».proof.Proof.Gen.ReferenceIdeal.Skeleton
import proofs.«129047_g2000306104881685_pallasbulk_300_2_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the operations before the region, the region, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the region's arrays and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 1600000 in
/-- And write no array of the region: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

end Cert.ReferenceIdeal.Hand

end
-- ==== Proof.RefBody.lean ====
/-
  The reference's kernel body, run once on whole staging buffers.

  The body loads the two-row block of the input, the layers' slabs of the stacked caches, weights,
  filters and biases, and the four linear maps of the input and output stacks, all through literal
  rectangles; it stores each layer's new cache into that layer's slab of the stacked-cache output
  block (four stores that tile the block) and the softmax into the probability block (one store of the
  whole block).  Before each store the body also loads the rectangle it is about to overwrite; that
  value is never used.  What the two output buffers hold afterwards is recorded as the list of stored
  pieces, found by running the body.
-/
import proofs.«129047_g2000306104881685_pallasbulk_300_2_alg».proof.Proof.RefMain

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the probability block and in the stacked-cache block (last store
    first), with the proof that the body, run on whole staging buffers holding the input blocks, ends with
    the inputs as they were and the two outputs overwritten by those pieces. -/
noncomputable def kernelRun (c : Dev nD) (i : grid0.Coords) (arg1 : Memref sig .tc .vmem S2x128x256 .f32) (harg1 : arg1.IsWhole) (arg2 : Memref sig .tc .vmem S4x2x9x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S4x256x256 .f32) (harg7 : arg7.IsWhole) (arg8 : Memref sig .tc .vmem S4x10x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S2x128x256 .f32) (harg15 : arg15.IsWhole) (arg16 : Memref sig .tc .vmem S4x2x9x256 .f32) (harg16 : arg16.IsWhole)
    (x0 : Vec F S2x128x256 .f32) (x1 : Vec F S4x2x9x256 .f32) (x2 : Vec F S256x256 .f32) (x3 : Vec F S1x256 .f32) (x4 : Vec F S256x256 .f32) (x5 : Vec F S1x256 .f32) (x6 : Vec F S4x256x256 .f32) (x7 : Vec F S4x10x256 .f32) (x8 : Vec F S4x256x256 .f32) (x9 : Vec F S4x1x256 .f32) (x10 : Vec F S256x256 .f32) (x11 : Vec F S1x256 .f32) (x12 : Vec F S256x256 .f32) (x13 : Vec F S1x256 .f32) :
    Σ' (L15 : List (View.Piece (Elt F) S2x128x256 .f32)), { L16 : List (View.Piece (Elt F) S4x2x9x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16)) -∗ K ⟨⟩))
          ⊢ wp frame (wpE (defs₀ (F := F)) Variants.none c none) E (cc0__fsmn_forward_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__fsmn_forward_kernel_eq_skeleton]; unfold cc0__fsmn_forward_kernel_skel
    simp only [k0_part10_eq_skeleton]; unfold k0_part10_skel
    simp only [k0_part1_eq_skeleton]; unfold k0_part1_skel
    simp only [k0_part2_eq_skeleton]; unfold k0_part2_skel
    simp only [k0_part3_eq_skeleton]; unfold k0_part3_skel
    simp only [k0_part4_eq_skeleton]; unfold k0_part4_skel
    simp only [k0_part5_eq_skeleton]; unfold k0_part5_skel
    simp only [k0_part6_eq_skeleton]; unfold k0_part6_skel
    simp only [k0_part7_eq_skeleton]; unfold k0_part7_skel
    simp only [k0_part8_eq_skeleton]; unfold k0_part8_skel
    simp only [k0_part9_eq_skeleton]; unfold k0_part9_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; iexact H14
    iexists _; iexact H15

end Cert.ReferenceIdeal.Hand

end
-- ==== Proof.RefData.lean ====
/-
  The reference's pipeline on one core: what each window's staging buffer holds around the body.

  An input window's buffer holds its block of the array the region found, at every grid point,
  whether the block was fetched there or carried over (the twelve weight windows are fetched once).
  After the body the probability window's buffer and the stacked-cache window's buffer hold the pieces
  the body stored, read back; the stores tile both blocks, so nothing of what the buffers held before
  shows through.  With that the body meets its obligation at every grid point.
-/
import proofs.«129047_g2000306104881685_pallasbulk_300_2_alg».proof.Proof.RefBody

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, for any proof data over the region-entry arrays that leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, for any proof data over the region-entry arrays that leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, for any proof data over the region-entry arrays that leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, for any proof data over the region-entry arrays that leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, for any proof data over the region-entry arrays that leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, for any proof data over the region-entry arrays that leaves the block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, for any proof data over the region-entry arrays that leaves the block in place. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, for any proof data over the region-entry arrays that leaves the block in place. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, for any proof data over the region-entry arrays that leaves the block in place. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, for any proof data over the region-entry arrays that leaves the block in place. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, for any proof data over the region-entry arrays that leaves the block in place. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's buffer holds its block at every point, for any proof data over the region-entry arrays that leaves the block in place. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's buffer holds its block at every point, for any proof data over the region-entry arrays that leaves the block in place. -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's buffer holds its block at every point, for any proof data over the region-entry arrays that leaves the block in place. -/
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point, and what the outputs' hold after the body -/

/-- One staging buffer of each output window, through which its contents are stated (the choice does not matter). -/
abbrev VO14 : View sig .tc .vmem S2x128x256 .f32 := (Memref.whole cc0_stg14_0 : Memref sig .tc .vmem S2x128x256 .f32).view
abbrev VO15 : View sig .tc .vmem S4x2x9x256 .f32 := (Memref.whole cc0_stg15_0 : Memref sig .tc .vmem S4x2x9x256 .f32).view

abbrev ms_0 (t : Fin cfg0.N) : Memref sig .tc .vmem S2x128x256 .f32 := win0_0.stage (cfg0.slots t 0)
abbrev hs_0 (t : Fin cfg0.N) : (ms_0 t).IsWhole := Cert.ReferenceIdeal.Gen.hstage0_0 ((cfg0.slots t 0).cast Cert.ReferenceIdeal.Gen.nbuf0_0)
abbrev ms_1 (t : Fin cfg0.N) : Memref sig .tc .vmem S4x2x9x256 .f32 := win0_1.stage (cfg0.slots t 1)
abbrev hs_1 (t : Fin cfg0.N) : (ms_1 t).IsWhole := Cert.ReferenceIdeal.Gen.hstage0_1 ((cfg0.slots t 1).cast Cert.ReferenceIdeal.Gen.nbuf0_1)
abbrev ms_2 (t : Fin cfg0.N) : Memref sig .tc .vmem S256x256 .f32 := win0_2.stage (cfg0.slots t 2)
abbrev hs_2 (t : Fin cfg0.N) : (ms_2 t).IsWhole := Cert.ReferenceIdeal.Gen.hstage0_2 ((cfg0.slots t 2).cast Cert.ReferenceIdeal.Gen.nbuf0_2)
abbrev ms_3 (t : Fin cfg0.N) : Memref sig .tc .vmem S1x256 .f32 := win0_3.stage (cfg0.slots t 3)
abbrev hs_3 (t : Fin cfg0.N) : (ms_3 t).IsWhole := Cert.ReferenceIdeal.Gen.hstage0_3 ((cfg0.slots t 3).cast Cert.ReferenceIdeal.Gen.nbuf0_3)
abbrev ms_4 (t : Fin cfg0.N) : Memref sig .tc .vmem S256x256 .f32 := win0_4.stage (cfg0.slots t 4)
abbrev hs_4 (t : Fin cfg0.N) : (ms_4 t).IsWhole := Cert.ReferenceIdeal.Gen.hstage0_4 ((cfg0.slots t 4).cast Cert.ReferenceIdeal.Gen.nbuf0_4)
abbrev ms_5 (t : Fin cfg0.N) : Memref sig .tc .vmem S1x256 .f32 := win0_5.stage (cfg0.slots t 5)
abbrev hs_5 (t : Fin cfg0.N) : (ms_5 t).IsWhole := Cert.ReferenceIdeal.Gen.hstage0_5 ((cfg0.slots t 5).cast Cert.ReferenceIdeal.Gen.nbuf0_5)
abbrev ms_6 (t : Fin cfg0.N) : Memref sig .tc .vmem S4x256x256 .f32 := win0_6.stage (cfg0.slots t 6)
abbrev hs_6 (t : Fin cfg0.N) : (ms_6 t).IsWhole := Cert.ReferenceIdeal.Gen.hstage0_6 ((cfg0.slots t 6).cast Cert.ReferenceIdeal.Gen.nbuf0_6)
abbrev ms_7 (t : Fin cfg0.N) : Memref sig .tc .vmem S4x10x256 .f32 := win0_7.stage (cfg0.slots t 7)
abbrev hs_7 (t : Fin cfg0.N) : (ms_7 t).IsWhole := Cert.ReferenceIdeal.Gen.hstage0_7 ((cfg0.slots t 7).cast Cert.ReferenceIdeal.Gen.nbuf0_7)
abbrev ms_8 (t : Fin cfg0.N) : Memref sig .tc .vmem S4x256x256 .f32 := win0_8.stage (cfg0.slots t 8)
abbrev hs_8 (t : Fin cfg0.N) : (ms_8 t).IsWhole := Cert.ReferenceIdeal.Gen.hstage0_8 ((cfg0.slots t 8).cast Cert.ReferenceIdeal.Gen.nbuf0_8)
abbrev ms_9 (t : Fin cfg0.N) : Memref sig .tc .vmem S4x1x256 .f32 := win0_9.stage (cfg0.slots t 9)
abbrev hs_9 (t : Fin cfg0.N) : (ms_9 t).IsWhole := Cert.ReferenceIdeal.Gen.hstage0_9 ((cfg0.slots t 9).cast Cert.ReferenceIdeal.Gen.nbuf0_9)
abbrev ms_10 (t : Fin cfg0.N) : Memref sig .tc .vmem S256x256 .f32 := win0_10.stage (cfg0.slots t 10)
abbrev hs_10 (t : Fin cfg0.N) : (ms_10 t).IsWhole := Cert.ReferenceIdeal.Gen.hstage0_10 ((cfg0.slots t 10).cast Cert.ReferenceIdeal.Gen.nbuf0_10)
abbrev ms_11 (t : Fin cfg0.N) : Memref sig .tc .vmem S1x256 .f32 := win0_11.stage (cfg0.slots t 11)
abbrev hs_11 (t : Fin cfg0.N) : (ms_11 t).IsWhole := Cert.ReferenceIdeal.Gen.hstage0_11 ((cfg0.slots t 11).cast Cert.ReferenceIdeal.Gen.nbuf0_11)
abbrev ms_12 (t : Fin cfg0.N) : Memref sig .tc .vmem S256x256 .f32 := win0_12.stage (cfg0.slots t 12)
abbrev hs_12 (t : Fin cfg0.N) : (ms_12 t).IsWhole := Cert.ReferenceIdeal.Gen.hstage0_12 ((cfg0.slots t 12).cast Cert.ReferenceIdeal.Gen.nbuf0_12)
abbrev ms_13 (t : Fin cfg0.N) : Memref sig .tc .vmem S1x256 .f32 := win0_13.stage (cfg0.slots t 13)
abbrev hs_13 (t : Fin cfg0.N) : (ms_13 t).IsWhole := Cert.ReferenceIdeal.Gen.hstage0_13 ((cfg0.slots t 13).cast Cert.ReferenceIdeal.Gen.nbuf0_13)
abbrev ms_14 (t : Fin cfg0.N) : Memref sig .tc .vmem S2x128x256 .f32 := win0_14.stage (cfg0.slots t 14)
abbrev hs_14 (t : Fin cfg0.N) : (ms_14 t).IsWhole := Cert.ReferenceIdeal.Gen.hstage0_14 ((cfg0.slots t 14).cast Cert.ReferenceIdeal.Gen.nbuf0_14)
abbrev ms_15 (t : Fin cfg0.N) : Memref sig .tc .vmem S4x2x9x256 .f32 := win0_15.stage (cfg0.slots t 15)
abbrev hs_15 (t : Fin cfg0.N) : (ms_15 t).IsWhole := Cert.ReferenceIdeal.Gen.hstage0_15 ((cfg0.slots t 15).cast Cert.ReferenceIdeal.Gen.nbuf0_15)

/-- The probability block's one store is the whole block. -/
theorem cover14 (c : Dev nD) (i : grid0.Coords) (arg1 : Memref sig .tc .vmem S2x128x256 .f32) (harg1 : arg1.IsWhole) (arg2 : Memref sig .tc .vmem S4x2x9x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S4x256x256 .f32) (harg7 : arg7.IsWhole) (arg8 : Memref sig .tc .vmem S4x10x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S2x128x256 .f32) (harg15 : arg15.IsWhole) (arg16 : Memref sig .tc .vmem S4x2x9x256 .f32) (harg16 : arg16.IsWhole)
    (x0 : Vec F S2x128x256 .f32) (x1 : Vec F S4x2x9x256 .f32) (x2 : Vec F S256x256 .f32) (x3 : Vec F S1x256 .f32) (x4 : Vec F S256x256 .f32) (x5 : Vec F S1x256 .f32) (x6 : Vec F S4x256x256 .f32) (x7 : Vec F S4x10x256 .f32) (x8 : Vec F S4x256x256 .f32) (x9 : Vec F S4x1x256 .f32) (x10 : Vec F S256x256 .f32) (x11 : Vec F S1x256 .f32) (x12 : Vec F S256x256 .f32) (x13 : Vec F S1x256 .f32) (y : S2x128x256.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13).1 S2x128x256.size (by sl_kernel_rfl) y

/-- The four layers' stores tile the stacked-cache block. -/
theorem cover15 (c : Dev nD) (i : grid0.Coords) (arg1 : Memref sig .tc .vmem S2x128x256 .f32) (harg1 : arg1.IsWhole) (arg2 : Memref sig .tc .vmem S4x2x9x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S4x256x256 .f32) (harg7 : arg7.IsWhole) (arg8 : Memref sig .tc .vmem S4x10x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S2x128x256 .f32) (harg15 : arg15.IsWhole) (arg16 : Memref sig .tc .vmem S4x2x9x256 .f32) (harg16 : arg16.IsWhole)
    (x0 : Vec F S2x128x256 .f32) (x1 : Vec F S4x2x9x256 .f32) (x2 : Vec F S256x256 .f32) (x3 : Vec F S1x256 .f32) (x4 : Vec F S256x256 .f32) (x5 : Vec F S1x256 .f32) (x6 : Vec F S4x256x256 .f32) (x7 : Vec F S4x10x256 .f32) (x8 : Vec F S4x256x256 .f32) (x9 : Vec F S4x1x256 .f32) (x10 : Vec F S256x256 .f32) (x11 : Vec F S1x256 .f32) (x12 : Vec F S256x256 .f32) (x13 : Vec F S1x256 .f32) (y : S4x2x9x256.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13).2.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13).2.1 S1x2x9x256.size (by sl_kernel_rfl) y

/-- What the body leaves in the probability window's buffer: its pieces read back. -/
def out14 (c : Dev nD) (i : grid0.Coords) (arg1 : Memref sig .tc .vmem S2x128x256 .f32) (harg1 : arg1.IsWhole) (arg2 : Memref sig .tc .vmem S4x2x9x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S4x256x256 .f32) (harg7 : arg7.IsWhole) (arg8 : Memref sig .tc .vmem S4x10x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S2x128x256 .f32) (harg15 : arg15.IsWhole) (arg16 : Memref sig .tc .vmem S4x2x9x256 .f32) (harg16 : arg16.IsWhole)
    (x0 : Vec F S2x128x256 .f32) (x1 : Vec F S4x2x9x256 .f32) (x2 : Vec F S256x256 .f32) (x3 : Vec F S1x256 .f32) (x4 : Vec F S256x256 .f32) (x5 : Vec F S1x256 .f32) (x6 : Vec F S4x256x256 .f32) (x7 : Vec F S4x10x256 .f32) (x8 : Vec F S4x256x256 .f32) (x9 : Vec F S4x1x256 .f32) (x10 : Vec F S256x256 .f32) (x11 : Vec F S1x256 .f32) (x12 : Vec F S256x256 .f32) (x13 : Vec F S1x256 .f32) : Vec F S2x128x256 .f32 :=
  VO14.read (Elt F) (VO14.writes (Elt F) VO14.junk (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13).1)

/-- What the body leaves in the stacked-cache window's buffer: its pieces read back. -/
def out15 (c : Dev nD) (i : grid0.Coords) (arg1 : Memref sig .tc .vmem S2x128x256 .f32) (harg1 : arg1.IsWhole) (arg2 : Memref sig .tc .vmem S4x2x9x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S4x256x256 .f32) (harg7 : arg7.IsWhole) (arg8 : Memref sig .tc .vmem S4x10x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S2x128x256 .f32) (harg15 : arg15.IsWhole) (arg16 : Memref sig .tc .vmem S4x2x9x256 .f32) (harg16 : arg16.IsWhole)
    (x0 : Vec F S2x128x256 .f32) (x1 : Vec F S4x2x9x256 .f32) (x2 : Vec F S256x256 .f32) (x3 : Vec F S1x256 .f32) (x4 : Vec F S256x256 .f32) (x5 : Vec F S1x256 .f32) (x6 : Vec F S4x256x256 .f32) (x7 : Vec F S4x10x256 .f32) (x8 : Vec F S4x256x256 .f32) (x9 : Vec F S4x1x256 .f32) (x10 : Vec F S256x256 .f32) (x11 : Vec F S1x256 .f32) (x12 : Vec F S256x256 .f32) (x13 : Vec F S1x256 .f32) : Vec F S4x2x9x256 .f32 :=
  VO15.read (Elt F) (VO15.writes (Elt F) VO15.junk (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13).2.1)

/-! ## The proof data -/

/-- The arrays as the region finds them; after the body each input's buffer at its block and each output's at what the
    body stored; the invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out14 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out15 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = out14 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after_15 (c : Dev nD) (t : Fin cfg0.N) : (dats m 0 c).after 15 t = out15 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ owns (c : Thread nD τ) (ms_11 t) fullShare ((dats m 0 c).after 11 t)
    ∗ owns (c : Thread nD τ) (ms_12 t) fullShare ((dats m 0 c).after 12 t)
    ∗ owns (c : Thread nD τ) (ms_13 t) fullShare ((dats m 0 c).after 13 t)
    ∗ owns (c : Thread nD τ) (ms_14 t) fullShare ((dats m 0 c).after 14 t)
    ∗ owns (c : Thread nD τ) (ms_15 t) fullShare ((dats m 0 c).after 15 t))

set_option maxHeartbeats 8000000 in
/-- The body at any point: the inputs' buffers hold their blocks, so the run applies; the invariant and what the core
    owes pass through unread; each output's buffer ends at its pieces read back, whatever it held before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  unfold out14 out15
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, ⟨%e14, H14⟩, ⟨%e15, H15⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover14 c _ _ _ _ _ _ _ _ _ _ _ _ _ _ _ _ _ _ _ _ _ _ _ _ _ _ _ _ _ _ _ _ _ _ _ _ _ _ _ _ _ _ _ _ _ _ _)
  unfold owns; iexists _; isplitr
  swap; · iexact H15
  ipureintro; exact View.read_writes_of_cover _ _ _ _ _ (cover15 c _ _ _ _ _ _ _ _ _ _ _ _ _ _ _ _ _ _ _ _ _ _ _ _ _ _ _ _ _ _ _ _ _ _ _ _ _ _ _ _ _ _ _ _ _ _ _)

set_option maxHeartbeats 8000000 in
/-- The body obligation, at every point. -/
theorem body_obligation (c : Dev nD) : BodyObligation (dats (F := F) m 0 c) (defs₀ (F := F)) Variants.none () Set.univ := fun t => by
  rw [bigSep_W0, bigSep_W0]
  exact sound_body m c t

end Cert.ReferenceIdeal.Hand

end
-- ==== Proof.RefRun.lean ====
/-
  The reference's run, and its frame.

  With the body's obligation met at every grid point the region runs to its end: every weakly fair
  execution of @main terminates without a fault, each array of the region ends at what the proof data
  says (an input as the region found it, an output overwritten block by block with what the body
  stored), and every other buffer ends as the operations after the region leave it.  No host operation
  writes an argument array, before or after the region, so each argument ends as it was launched.
-/
import proofs.«129047_g2000306104881685_pallasbulk_300_2_alg».proof.Proof.RefData

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

local macro "ops0_keep" : tactic => `(tactic| (
  simp only [hostOps0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

local macro "ops1_keep" : tactic => `(tactic| (
  simp only [hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

/-! ## The arguments as the region finds them, and as @main leaves them -/

theorem V_main_arg0 (c : Dev nD) : V m c main_arg0 = m ((c : Thread nD τ).loc main_arg0) :=
  StableHlo.after_of_forall_not_mem (b := Proc.devRef .tc main_arg0) _ _ (List.forall_iff_forall_mem.mp (by ops0_keep))
theorem V_main_arg1 (c : Dev nD) : V m c main_arg1 = m ((c : Thread nD τ).loc main_arg1) :=
  StableHlo.after_of_forall_not_mem (b := Proc.devRef .tc main_arg1) _ _ (List.forall_iff_forall_mem.mp (by ops0_keep))
theorem V_main_arg2 (c : Dev nD) : V m c main_arg2 = m ((c : Thread nD τ).loc main_arg2) :=
  StableHlo.after_of_forall_not_mem (b := Proc.devRef .tc main_arg2) _ _ (List.forall_iff_forall_mem.mp (by ops0_keep))
theorem V_main_arg3 (c : Dev nD) : V m c main_arg3 = m ((c : Thread nD τ).loc main_arg3) :=
  StableHlo.after_of_forall_not_mem (b := Proc.devRef .tc main_arg3) _ _ (List.forall_iff_forall_mem.mp (by ops0_keep))
theorem V_main_arg4 (c : Dev nD) : V m c main_arg4 = m ((c : Thread nD τ).loc main_arg4) :=
  StableHlo.after_of_forall_not_mem (b := Proc.devRef .tc main_arg4) _ _ (List.forall_iff_forall_mem.mp (by ops0_keep))
theorem V_main_arg5 (c : Dev nD) : V m c main_arg5 = m ((c : Thread nD τ).loc main_arg5) :=
  StableHlo.after_of_forall_not_mem (b := Proc.devRef .tc main_arg5) _ _ (List.forall_iff_forall_mem.mp (by ops0_keep))
theorem V_main_arg6 (c : Dev nD) : V m c main_arg6 = m ((c : Thread nD τ).loc main_arg6) :=
  StableHlo.after_of_forall_not_mem (b := Proc.devRef .tc main_arg6) _ _ (List.forall_iff_forall_mem.mp (by ops0_keep))
theorem V_main_arg7 (c : Dev nD) : V m c main_arg7 = m ((c : Thread nD τ).loc main_arg7) :=
  StableHlo.after_of_forall_not_mem (b := Proc.devRef .tc main_arg7) _ _ (List.forall_iff_forall_mem.mp (by ops0_keep))
theorem V_main_arg8 (c : Dev nD) : V m c main_arg8 = m ((c : Thread nD τ).loc main_arg8) :=
  StableHlo.after_of_forall_not_mem (b := Proc.devRef .tc main_arg8) _ _ (List.forall_iff_forall_mem.mp (by ops0_keep))
theorem V_main_arg9 (c : Dev nD) : V m c main_arg9 = m ((c : Thread nD τ).loc main_arg9) :=
  StableHlo.after_of_forall_not_mem (b := Proc.devRef .tc main_arg9) _ _ (List.forall_iff_forall_mem.mp (by ops0_keep))
theorem V_main_arg10 (c : Dev nD) : V m c main_arg10 = m ((c : Thread nD τ).loc main_arg10) :=
  StableHlo.after_of_forall_not_mem (b := Proc.devRef .tc main_arg10) _ _ (List.forall_iff_forall_mem.mp (by ops0_keep))
theorem V_main_arg11 (c : Dev nD) : V m c main_arg11 = m ((c : Thread nD τ).loc main_arg11) :=
  StableHlo.after_of_forall_not_mem (b := Proc.devRef .tc main_arg11) _ _ (List.forall_iff_forall_mem.mp (by ops0_keep))
theorem V_main_arg12 (c : Dev nD) : V m c main_arg12 = m ((c : Thread nD τ).loc main_arg12) :=
  StableHlo.after_of_forall_not_mem (b := Proc.devRef .tc main_arg12) _ _ (List.forall_iff_forall_mem.mp (by ops0_keep))
theorem V_main_arg13 (c : Dev nD) : V m c main_arg13 = m ((c : Thread nD τ).loc main_arg13) :=
  StableHlo.after_of_forall_not_mem (b := Proc.devRef .tc main_arg13) _ _ (List.forall_iff_forall_mem.mp (by ops0_keep))
theorem V_main_arg14 (c : Dev nD) : V m c main_arg14 = m ((c : Thread nD τ).loc main_arg14) :=
  StableHlo.after_of_forall_not_mem (b := Proc.devRef .tc main_arg14) _ _ (List.forall_iff_forall_mem.mp (by ops0_keep))
theorem V_main_arg15 (c : Dev nD) : V m c main_arg15 = m ((c : Thread nD τ).loc main_arg15) :=
  StableHlo.after_of_forall_not_mem (b := Proc.devRef .tc main_arg15) _ _ (List.forall_iff_forall_mem.mp (by ops0_keep))
theorem V_main_arg16 (c : Dev nD) : V m c main_arg16 = m ((c : Thread nD τ).loc main_arg16) :=
  StableHlo.after_of_forall_not_mem (b := Proc.devRef .tc main_arg16) _ _ (List.forall_iff_forall_mem.mp (by ops0_keep))
theorem V_main_arg17 (c : Dev nD) : V m c main_arg17 = m ((c : Thread nD τ).loc main_arg17) :=
  StableHlo.after_of_forall_not_mem (b := Proc.devRef .tc main_arg17) _ _ (List.forall_iff_forall_mem.mp (by ops0_keep))
theorem V_main_arg18 (c : Dev nD) : V m c main_arg18 = m ((c : Thread nD τ).loc main_arg18) :=
  StableHlo.after_of_forall_not_mem (b := Proc.devRef .tc main_arg18) _ _ (List.forall_iff_forall_mem.mp (by ops0_keep))
theorem V_main_arg19 (c : Dev nD) : V m c main_arg19 = m ((c : Thread nD τ).loc main_arg19) :=
  StableHlo.after_of_forall_not_mem (b := Proc.devRef .tc main_arg19) _ _ (List.forall_iff_forall_mem.mp (by ops0_keep))
theorem V_main_arg20 (c : Dev nD) : V m c main_arg20 = m ((c : Thread nD τ).loc main_arg20) :=
  StableHlo.after_of_forall_not_mem (b := Proc.devRef .tc main_arg20) _ _ (List.forall_iff_forall_mem.mp (by ops0_keep))
theorem V_main_arg21 (c : Dev nD) : V m c main_arg21 = m ((c : Thread nD τ).loc main_arg21) :=
  StableHlo.after_of_forall_not_mem (b := Proc.devRef .tc main_arg21) _ _ (List.forall_iff_forall_mem.mp (by ops0_keep))
theorem V_main_arg22 (c : Dev nD) : V m c main_arg22 = m ((c : Thread nD τ).loc main_arg22) :=
  StableHlo.after_of_forall_not_mem (b := Proc.devRef .tc main_arg22) _ _ (List.forall_iff_forall_mem.mp (by ops0_keep))
theorem V_main_arg23 (c : Dev nD) : V m c main_arg23 = m ((c : Thread nD τ).loc main_arg23) :=
  StableHlo.after_of_forall_not_mem (b := Proc.devRef .tc main_arg23) _ _ (List.forall_iff_forall_mem.mp (by ops0_keep))
theorem V_main_arg24 (c : Dev nD) : V m c main_arg24 = m ((c : Thread nD τ).loc main_arg24) :=
  StableHlo.after_of_forall_not_mem (b := Proc.devRef .tc main_arg24) _ _ (List.forall_iff_forall_mem.mp (by ops0_keep))
theorem V_main_arg25 (c : Dev nD) : V m c main_arg25 = m ((c : Thread nD τ).loc main_arg25) :=
  StableHlo.after_of_forall_not_mem (b := Proc.devRef .tc main_arg25) _ _ (List.forall_iff_forall_mem.mp (by ops0_keep))
theorem V_main_arg26 (c : Dev nD) : V m c main_arg26 = m ((c : Thread nD τ).loc main_arg26) :=
  StableHlo.after_of_forall_not_mem (b := Proc.devRef .tc main_arg26) _ _ (List.forall_iff_forall_mem.mp (by ops0_keep))
theorem V_main_arg27 (c : Dev nD) : V m c main_arg27 = m ((c : Thread nD τ).loc main_arg27) :=
  StableHlo.after_of_forall_not_mem (b := Proc.devRef .tc main_arg27) _ _ (List.forall_iff_forall_mem.mp (by ops0_keep))
theorem V_main_arg28 (c : Dev nD) : V m c main_arg28 = m ((c : Thread nD τ).loc main_arg28) :=
  StableHlo.after_of_forall_not_mem (b := Proc.devRef .tc main_arg28) _ _ (List.forall_iff_forall_mem.mp (by ops0_keep))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by ops1_keep)),
    Pipeline.withArrays_of_ne _ c (V0 m c) _ main_arg2 (by exact (by decide : ∀ w, Pipeline.arrRef spec0 w ≠ main_arg2))]
  exact V_main_arg2 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by ops1_keep)),
    Pipeline.withArrays_of_ne _ c (V0 m c) _ main_arg4 (by exact (by decide : ∀ w, Pipeline.arrRef spec0 w ≠ main_arg4))]
  exact V_main_arg4 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by ops1_keep)),
    Pipeline.withArrays_of_ne _ c (V0 m c) _ main_arg6 (by exact (by decide : ∀ w, Pipeline.arrRef spec0 w ≠ main_arg6))]
  exact V_main_arg6 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by ops1_keep)),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by ops1_keep)),
    Pipeline.withArrays_of_ne _ c (V0 m c) _ main_arg9 (by exact (by decide : ∀ w, Pipeline.arrRef spec0 w ≠ main_arg9))]
  exact V_main_arg9 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by ops1_keep)),
    Pipeline.withArrays_of_ne _ c (V0 m c) _ main_arg10 (by exact (by decide : ∀ w, Pipeline.arrRef spec0 w ≠ main_arg10))]
  exact V_main_arg10 m c
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by ops1_keep)),
    Pipeline.withArrays_of_ne _ c (V0 m c) _ main_arg11 (by exact (by decide : ∀ w, Pipeline.arrRef spec0 w ≠ main_arg11))]
  exact V_main_arg11 m c
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by ops1_keep)),
    Pipeline.withArrays_of_ne _ c (V0 m c) _ main_arg12 (by exact (by decide : ∀ w, Pipeline.arrRef spec0 w ≠ main_arg12))]
  exact V_main_arg12 m c
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by ops1_keep)),
    Pipeline.withArrays_of_ne _ c (V0 m c) _ main_arg13 (by exact (by decide : ∀ w, Pipeline.arrRef spec0 w ≠ main_arg13))]
  exact V_main_arg13 m c
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by ops1_keep)),
    Pipeline.withArrays_of_ne _ c (V0 m c) _ main_arg14 (by exact (by decide : ∀ w, Pipeline.arrRef spec0 w ≠ main_arg14))]
  exact V_main_arg14 m c
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by ops1_keep)),
    Pipeline.withArrays_of_ne _ c (V0 m c) _ main_arg15 (by exact (by decide : ∀ w, Pipeline.arrRef spec0 w ≠ main_arg15))]
  exact V_main_arg15 m c
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by ops1_keep)),
    Pipeline.withArrays_of_ne _ c (V0 m c) _ main_arg16 (by exact (by decide : ∀ w, Pipeline.arrRef spec0 w ≠ main_arg16))]
  exact V_main_arg16 m c
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by ops1_keep)),
    Pipeline.withArrays_of_ne _ c (V0 m c) _ main_arg17 (by exact (by decide : ∀ w, Pipeline.arrRef spec0 w ≠ main_arg17))]
  exact V_main_arg17 m c
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by ops1_keep)),
    Pipeline.withArrays_of_ne _ c (V0 m c) _ main_arg18 (by exact (by decide : ∀ w, Pipeline.arrRef spec0 w ≠ main_arg18))]
  exact V_main_arg18 m c
theorem W_main_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by ops1_keep)),
    Pipeline.withArrays_of_ne _ c (V0 m c) _ main_arg19 (by exact (by decide : ∀ w, Pipeline.arrRef spec0 w ≠ main_arg19))]
  exact V_main_arg19 m c
theorem W_main_arg20 (dats : (p : Fin _) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) := by
  unfold Pipeline.afterTail₀
  rw [StableHlo.after_of_forall_not_mem (b := Proc.devRef .tc main_arg20) _ _ (List.forall_iff_forall_mem.mp (by ops1_keep)),
    Pipeline.withArrays_of_ne _ c (V0 m c) _ main_arg20 (by exact (by decide : ∀ w, Pipeline.arrRef spec0 w ≠ main_arg20))]
  exact V_main_arg20 m c
theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by ops1_keep)),
    Pipeline.withArrays_of_ne _ c (V0 m c) _ main_arg21 (by exact (by decide : ∀ w, Pipeline.arrRef spec0 w ≠ main_arg21))]
  exact V_main_arg21 m c
theorem W_main_arg22 (dats : (p : Fin _) → (c : Dev nD) → Dat τ (Elt F) Unit ℕ (UR sig nD τ) ℕ (cfgs p) c) (c : Dev nD) :
    Pipeline.afterTail₀ cfgs dats 0 (V0 m) [hostOps1] c main_arg22 = m ((c : Thread nD τ).loc main_arg22) := by
  unfold Pipeline.afterTail₀
  rw [StableHlo.after_of_forall_not_mem (b := Proc.devRef .tc main_arg22) _ _ (List.forall_iff_forall_mem.mp (by ops1_keep)),
    Pipeline.withArrays_of_ne _ c (V0 m c) _ main_arg22 (by exact (by decide : ∀ w, Pipeline.arrRef spec0 w ≠ main_arg22))]
  exact V_main_arg22 m c
theorem W_main_arg23 (dats : (p : Fin _) → (c : Dev nD) → Dat τ (Elt F) Unit ℕ (UR sig nD τ) ℕ (cfgs p) c) (c : Dev nD) :
    Pipeline.afterTail₀ cfgs dats 0 (V0 m) [hostOps1] c main_arg23 = m ((c : Thread nD τ).loc main_arg23) := by
  unfold Pipeline.afterTail₀
  rw [StableHlo.after_of_forall_not_mem (b := Proc.devRef .tc main_arg23) _ _ (List.forall_iff_forall_mem.mp (by ops1_keep)),
    Pipeline.withArrays_of_ne _ c (V0 m c) _ main_arg23 (by exact (by decide : ∀ w, Pipeline.arrRef spec0 w ≠ main_arg23))]
  exact V_main_arg23 m c
theorem W_main_arg24 (dats : (p : Fin _) → (c : Dev nD) → Dat τ (Elt F) Unit ℕ (UR sig nD τ) ℕ (cfgs p) c) (c : Dev nD) :
    Pipeline.afterTail₀ cfgs dats 0 (V0 m) [hostOps1] c main_arg24 = m ((c : Thread nD τ).loc main_arg24) := by
  unfold Pipeline.afterTail₀
  rw [StableHlo.after_of_forall_not_mem (b := Proc.devRef .tc main_arg24) _ _ (List.forall_iff_forall_mem.mp (by ops1_keep)),
    Pipeline.withArrays_of_ne _ c (V0 m c) _ main_arg24 (by exact (by decide : ∀ w, Pipeline.arrRef spec0 w ≠ main_arg24))]
  exact V_main_arg24 m c
theorem W_main_arg25 (dats : (p : Fin _) → (c : Dev nD) → Dat τ (Elt F) Unit ℕ (UR sig nD τ) ℕ (cfgs p) c) (c : Dev nD) :
    Pipeline.afterTail₀ cfgs dats 0 (V0 m) [hostOps1] c main_arg25 = m ((c : Thread nD τ).loc main_arg25) := by
  unfold Pipeline.afterTail₀
  rw [StableHlo.after_of_forall_not_mem (b := Proc.devRef .tc main_arg25) _ _ (List.forall_iff_forall_mem.mp (by ops1_keep)),
    Pipeline.withArrays_of_ne _ c (V0 m c) _ main_arg25 (by exact (by decide : ∀ w, Pipeline.arrRef spec0 w ≠ main_arg25))]
  exact V_main_arg25 m c
theorem W_main_arg26 (dats : (p : Fin _) → (c : Dev nD) → Dat τ (Elt F) Unit ℕ (UR sig nD τ) ℕ (cfgs p) c) (c : Dev nD) :
    Pipeline.afterTail₀ cfgs dats 0 (V0 m) [hostOps1] c main_arg26 = m ((c : Thread nD τ).loc main_arg26) := by
  unfold Pipeline.afterTail₀
  rw [StableHlo.after_of_forall_not_mem (b := Proc.devRef .tc main_arg26) _ _ (List.forall_iff_forall_mem.mp (by ops1_keep)),
    Pipeline.withArrays_of_ne _ c (V0 m c) _ main_arg26 (by exact (by decide : ∀ w, Pipeline.arrRef spec0 w ≠ main_arg26))]
  exact V_main_arg26 m c
theorem W_main_arg27 (dats : (p : Fin _) → (c : Dev nD) → Dat τ (Elt F) Unit ℕ (UR sig nD τ) ℕ (cfgs p) c) (c : Dev nD) :
    Pipeline.afterTail₀ cfgs dats 0 (V0 m) [hostOps1] c main_arg27 = m ((c : Thread nD τ).loc main_arg27) := by
  unfold Pipeline.afterTail₀
  rw [StableHlo.after_of_forall_not_mem (b := Proc.devRef .tc main_arg27) _ _ (List.forall_iff_forall_mem.mp (by ops1_keep)),
    Pipeline.withArrays_of_ne _ c (V0 m c) _ main_arg27 (by exact (by decide : ∀ w, Pipeline.arrRef spec0 w ≠ main_arg27))]
  exact V_main_arg27 m c
theorem W_main_arg28 (dats : (p : Fin _) → (c : Dev nD) → Dat τ (Elt F) Unit ℕ (UR sig nD τ) ℕ (cfgs p) c) (c : Dev nD) :
    Pipeline.afterTail₀ cfgs dats 0 (V0 m) [hostOps1] c main_arg28 = m ((c : Thread nD τ).loc main_arg28) := by
  unfold Pipeline.afterTail₀
  rw [StableHlo.after_of_forall_not_mem (b := Proc.devRef .tc main_arg28) _ _ (List.forall_iff_forall_mem.mp (by ops1_keep)),
    Pipeline.withArrays_of_ne _ c (V0 m c) _ main_arg28 (by exact (by decide : ∀ w, Pipeline.arrRef spec0 w ≠ main_arg28))]
  exact V_main_arg28 m c

/-! ## The frame from a run -/

set_option maxHeartbeats 1800000 in
/-- From any proof data over the region-entry arrays, a run to the region's post is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      (((h c).2 main_arg2 (Pipeline.mem_restRefs_of main_arg2 (by decide) (by decide))).trans (W_main_arg2 m dats c)),
      ((h c).1 4).trans (((dats 0 c).arrAt_in 4 rfl _).trans ((hA c 4).trans (V_main_arg3 m c))),
      (((h c).2 main_arg4 (Pipeline.mem_restRefs_of main_arg4 (by decide) (by decide))).trans (W_main_arg4 m dats c)),
      ((h c).1 10).trans (((dats 0 c).arrAt_in 10 rfl _).trans ((hA c 10).trans (V_main_arg5 m c))),
      (((h c).2 main_arg6 (Pipeline.mem_restRefs_of main_arg6 (by decide) (by decide))).trans (W_main_arg6 m dats c)),
      ((h c).1 12).trans (((dats 0 c).arrAt_in 12 rfl _).trans ((hA c 12).trans (V_main_arg7 m c))),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c)),
      (((h c).2 main_arg12 (Pipeline.mem_restRefs_of main_arg12 (by decide) (by decide))).trans (W_main_arg12 m dats c)),
      (((h c).2 main_arg13 (Pipeline.mem_restRefs_of main_arg13 (by decide) (by decide))).trans (W_main_arg13 m dats c)),
      (((h c).2 main_arg14 (Pipeline.mem_restRefs_of main_arg14 (by decide) (by decide))).trans (W_main_arg14 m dats c)),
      (((h c).2 main_arg15 (Pipeline.mem_restRefs_of main_arg15 (by decide) (by decide))).trans (W_main_arg15 m dats c)),
      (((h c).2 main_arg16 (Pipeline.mem_restRefs_of main_arg16 (by decide) (by decide))).trans (W_main_arg16 m dats c)),
      (((h c).2 main_arg17 (Pipeline.mem_restRefs_of main_arg17 (by decide) (by decide))).trans (W_main_arg17 m dats c)),
      (((h c).2 main_arg18 (Pipeline.mem_restRefs_of main_arg18 (by decide) (by decide))).trans (W_main_arg18 m dats c)),
      (((h c).2 main_arg19 (Pipeline.mem_restRefs_of main_arg19 (by decide) (by decide))).trans (W_main_arg19 m dats c)),
      (((h c).2 main_arg20 (Pipeline.mem_restRefs_of main_arg20 (by decide) (by decide))).trans (W_main_arg20 m dats c)),
      (((h c).2 main_arg21 (Pipeline.mem_restRefs_of main_arg21 (by decide) (by decide))).trans (W_main_arg21 m dats c)),
      (((h c).2 main_arg22 (Pipeline.mem_restRefs_of main_arg22 (by decide) (by decide))).trans (W_main_arg22 m dats c)),
      (((h c).2 main_arg23 (Pipeline.mem_restRefs_of main_arg23 (by decide) (by decide))).trans (W_main_arg23 m dats c)),
      (((h c).2 main_arg24 (Pipeline.mem_restRefs_of main_arg24 (by decide) (by decide))).trans (W_main_arg24 m dats c)),
      (((h c).2 main_arg25 (Pipeline.mem_restRefs_of main_arg25 (by decide) (by decide))).trans (W_main_arg25 m dats c)),
      (((h c).2 main_arg26 (Pipeline.mem_restRefs_of main_arg26 (by decide) (by decide))).trans (W_main_arg26 m dats c)),
      (((h c).2 main_arg27 (Pipeline.mem_restRefs_of main_arg27 (by decide) (by decide))).trans (W_main_arg27 m dats c)),
      (((h c).2 main_arg28 (Pipeline.mem_restRefs_of main_arg28 (by decide) (by decide))).trans (W_main_arg28 m dats c))⟩) h

/-! ## The run and the frame -/

set_option backward.isDefEq.respectTransparency.types false in
/-- Every weakly fair execution of the reference's @main terminates, and every final state has every array of the region
    at what the proof data computes and every other buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The reference runs to the end and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  frame_of m ρ (dats m) (A_eq m) (run_main m ρ)

end Cert.ReferenceIdeal.Hand

end
-- ==== Proof.Spec.lean ====
/-
  The streaming FSMN encoder, one batch row at a time, on the extended reals.

  A batch row is a sequence of 128 time steps of 256 features.  The network is: an input stack (two
  linear maps with biases, one after the other, then a ReLU); four layers, each a projection, a
  depthwise causal left convolution over time — ten taps over the sequence extended on the left by the
  layer's nine-step cache — an affine map and a ReLU, the layer's new cache being the projection's
  last nine steps; an output stack (two linear maps with biases) and a softmax over the features.

  The same network with each pair of adjacent linear maps FOLDED into one — the weight the product of
  the two, the bias the first bias through the second map plus the second bias — computes the same
  values wherever every entry is a real number: the matrix product is associative and distributes
  over the bias sum (Proof/LibFoldedAffine.lean), which holds for reals and fails at the infinities.
-/
import proofs.«129047_g2000306104881685_pallasbulk_300_2_alg».proof.Proof.LibFoldedAffine
import Idealize.ShloMosaic.PureOps.Ideal
import Idealize.ShloMosaic.Lib.ValueIdx

open scoped BigOperators

noncomputable section

namespace Cert.Spec

open Idealize.ShloMosaic

/-- The features of one time step. -/
abbrev Row := Fin 256 → EReal
/-- One batch row: time by features. -/
abbrev Seq := Fin 128 → Row
/-- A weight matrix, input feature by output feature. -/
abbrev Mat := Fin 256 → Fin 256 → EReal
/-- A layer's cache: the nine time steps before the sequence. -/
abbrev Cache := Fin 9 → Row
/-- A layer's ten filter taps, per feature. -/
abbrev Filt := Fin 10 → Row

/-- A row vector through a weight matrix. -/
def dense (x : Row) (W : Mat) : Row := fun n => ∑ e, x e * W e n

/-- An affine map: through the matrix, plus the bias. -/
def affine (x : Row) (W : Mat) (b : Row) : Row := fun n => dense x W n + b n

/-- ReLU, feature by feature. -/
def relu (x : Row) : Row := fun n => max (x n) 0

/-- The sequence extended on the left by the cache: steps 0–8 the cache, steps 9–136 the sequence. -/
def ext (c : Cache) (p : Seq) (s : Fin 137) : Row :=
  if h : s.val < 9 then c ⟨s.val, h⟩ else p ⟨s.val - 9, by have := s.isLt; omega⟩

/-- The window of the extended sequence tap `k` reads at time `t`. -/
def tap (c : Cache) (p : Seq) (k : Fin 10) (t : Fin 128) : Row :=
  ext c p ⟨t.val + k.val, by have := t.isLt; have := k.isLt; omega⟩

/-- The depthwise causal left convolution with the identity path: the sequence plus the ten weighted
    taps, added one after the other in tap order. -/
def conv (f : Filt) (c : Cache) (p : Seq) : Seq := fun t d =>
  p t d + f 0 d * tap c p 0 t d + f 1 d * tap c p 1 t d + f 2 d * tap c p 2 t d + f 3 d * tap c p 3 t d
    + f 4 d * tap c p 4 t d + f 5 d * tap c p 5 t d + f 6 d * tap c p 6 t d + f 7 d * tap c p 7 t d
    + f 8 d * tap c p 8 t d + f 9 d * tap c p 9 t d

/-- The new cache: the projection's last nine time steps. -/
def newCache (p : Seq) : Cache := fun s => p ⟨119 + s.val, by have := s.isLt; omega⟩

/-- The softmax of one row: shifted by the row's maximum (a fold of `max` from `-∞`), exponentiated,
    divided by the sum of the exponentials. -/
def softmax (l : Row) : Row := fun n =>
  Ideal.div (Ideal.exp (l n - Finset.univ.fold max ⊥ l))
    (∑ k, Ideal.exp (l k - Finset.univ.fold max ⊥ l))

/-- One layer's parameters: projection, filter, affine weight and bias. -/
structure Layer where
  lin : Mat
  filt : Filt
  aw : Mat
  ab : Row

/-- A layer's projection of a hidden sequence. -/
def proj (L : Layer) (h : Seq) : Seq := fun t => dense (h t) L.lin

/-- A layer: projection, convolution against the cache, affine map, ReLU. -/
def layer (L : Layer) (c : Cache) (h : Seq) : Seq := fun t =>
  relu (affine (conv L.filt c (proj L h) t) L.aw L.ab)

/-- The hidden sequence after the input stack applied as two maps, then ReLU. -/
def inTwo (W1 : Mat) (b1 : Row) (W2 : Mat) (b2 : Row) (x : Seq) : Seq := fun t =>
  relu (affine (affine (x t) W1 b1) W2 b2)

/-- The hidden sequence after the input stack applied as one folded map, then ReLU. -/
def inOne (W : Mat) (b : Row) (x : Seq) : Seq := fun t => relu (affine (x t) W b)

/-- The probabilities from the last hidden sequence, the output stack applied as two maps. -/
def outTwo (W1 : Mat) (b1 : Row) (W2 : Mat) (b2 : Row) (h : Seq) : Seq := fun t =>
  softmax (affine (affine (h t) W1 b1) W2 b2)

/-- The probabilities, the output stack applied as one folded map. -/
def outOne (W : Mat) (b : Row) (h : Seq) : Seq := fun t => softmax (affine (h t) W b)

/-- The folded weight: the product of the two matrices. -/
def foldW (W1 W2 : Mat) : Mat := fun e n => ∑ j, W1 e j * W2 j n

/-- The folded bias: the first bias through the second map, plus the second bias. -/
def foldB (b1 : Row) (W2 : Mat) (b2 : Row) : Row := fun n => (∑ j, b1 j * W2 j n) + b2 n

/-! ## Real entries -/

/-- Every entry is a real number. -/
def RealRow (x : Row) : Prop := ∀ n, ∃ r : ℝ, x n = (r : EReal)
def RealMat (W : Mat) : Prop := ∀ e n, ∃ r : ℝ, W e n = (r : EReal)

/-- Two affine maps in a row are the folded one, on real entries. -/
theorem affine_affine {x : Row} {W1 W2 : Mat} {b1 b2 : Row} (hx : RealRow x) (hW1 : RealMat W1) (hb1 : RealRow b1)
    (hW2 : RealMat W2) (hb2 : RealRow b2) :
    affine (affine x W1 b1) W2 b2 = affine x (foldW W1 W2) (foldB b1 W2 b2) := by
  choose xr hxr using hx
  choose W1r hW1r using hW1
  choose b1r hb1r using hb1
  choose W2r hW2r using hW2
  choose b2r hb2r using hb2
  funext n
  simp only [affine, dense, foldW, foldB, hxr, hW1r, hb1r, hW2r, hb2r]
  exact Lib.FoldedAffine.ereal_law xr W1r b1r (fun j => W2r j n) (b2r n)

/-! ## The network on whole arrays

The twenty-nine argument arrays, as both programs receive them (the caches feature-major with a trailing
unit axis), and the five results as functions of them. -/

open Idealize.ShloMosaic.ValueIdx

/-- An array of extended reals of a given shape. -/
abbrev Arr (s : Shape) := s.Idx → EReal

abbrev A3 : Shape := ⟨3, ![256, 128, 256]⟩
abbrev A2 : Shape := ⟨2, ![256, 256]⟩
abbrev A1 : Shape := ⟨1, ![256]⟩
abbrev AF : Shape := ⟨2, ![10, 256]⟩
abbrev AC : Shape := ⟨4, ![256, 256, 9, 1]⟩

/-- One layer's argument arrays. -/
structure LayerArgs where
  lin_w : Arr A2
  filt : Arr AF
  aff_w : Arr A2
  aff_b : Arr A1
  cache : Arr AC

/-- The argument arrays. -/
structure Args where
  x : Arr A3
  in_w1 : Arr A2
  in_b1 : Arr A1
  in_w2 : Arr A2
  in_b2 : Arr A1
  out_w1 : Arr A2
  out_b1 : Arr A1
  out_w2 : Arr A2
  out_b2 : Arr A1
  layer : Fin 4 → LayerArgs

/-- A rank-2 array as a matrix. -/
def mat (W : Arr A2) : Mat := fun e n => W (ix2 e n)
/-- A rank-1 array as a row. -/
def vec (b : Arr A1) : Row := fun n => b (ix1 n)
/-- A filter array as taps. -/
def flt (f : Arr AF) : Filt := fun k d => f (ix2 k d)
/-- Batch row `b` of the input. -/
def seqOf (x : Arr A3) (b : Fin 256) : Seq := fun t e => x (ix3 b t e)
/-- Batch row `b` of a cache, time-major. -/
def cacheOf (c : Arr AC) (b : Fin 256) : Cache := fun s d => c (ix4 b d s 0)

/-- A layer's parameters from its arrays. -/
def LayerArgs.toLayer (L : LayerArgs) : Layer := ⟨mat L.lin_w, flt L.filt, mat L.aff_w, vec L.aff_b⟩

/-- One layer applied to batch row `b`'s hidden sequence. -/
def step (a : Args) (b : Fin 256) (l : Fin 4) (h : Seq) : Seq :=
  layer (a.layer l).toLayer (cacheOf (a.layer l).cache b) h

/-- The hidden sequence of batch row `b` entering layer 0, 1, 2, 3 and the output stack. -/
def hid0 (a : Args) (b : Fin 256) : Seq := inTwo (mat a.in_w1) (vec a.in_b1) (mat a.in_w2) (vec a.in_b2) (seqOf a.x b)
def hid1 (a : Args) (b : Fin 256) : Seq := step a b 0 (hid0 a b)
def hid2 (a : Args) (b : Fin 256) : Seq := step a b 1 (hid1 a b)
def hid3 (a : Args) (b : Fin 256) : Seq := step a b 2 (hid2 a b)
def hid4 (a : Args) (b : Fin 256) : Seq := step a b 3 (hid3 a b)

/-- The hidden sequence entering layer `l`. -/
def hidL (a : Args) (b : Fin 256) : Fin 4 → Seq
  | 0 => hid0 a b
  | 1 => hid1 a b
  | 2 => hid2 a b
  | 3 => hid3 a b

/-- The probabilities: entry `(b, t, n)`. -/
def probs (a : Args) : Arr A3 := fun j =>
  outTwo (mat a.out_w1) (vec a.out_b1) (mat a.out_w2) (vec a.out_b2) (hid4 a (j 0)) (j 1) (j 2)

/-- Layer `l`'s new cache, feature-major with a trailing unit axis: entry `(b, d, s, 0)`. -/
def newCacheArr (a : Args) (l : Fin 4) : Arr AC := fun j =>
  newCache (proj (a.layer l).toLayer (hidL a (j 0) l)) (j 2) (j 1)

/-! ## The same network with the two linear pairs folded -/

/-- The folded input stack's hidden sequence, and the layers over it. -/
def hid0K (a : Args) (b : Fin 256) : Seq :=
  inOne (foldW (mat a.in_w1) (mat a.in_w2)) (foldB (vec a.in_b1) (mat a.in_w2) (vec a.in_b2)) (seqOf a.x b)
def hid1K (a : Args) (b : Fin 256) : Seq := step a b 0 (hid0K a b)
def hid2K (a : Args) (b : Fin 256) : Seq := step a b 1 (hid1K a b)
def hid3K (a : Args) (b : Fin 256) : Seq := step a b 2 (hid2K a b)
def hid4K (a : Args) (b : Fin 256) : Seq := step a b 3 (hid3K a b)

def hidLK (a : Args) (b : Fin 256) : Fin 4 → Seq
  | 0 => hid0K a b
  | 1 => hid1K a b
  | 2 => hid2K a b
  | 3 => hid3K a b

/-- The probabilities with both stacks folded. -/
def probsK (a : Args) : Arr A3 := fun j =>
  outOne (foldW (mat a.out_w1) (mat a.out_w2)) (foldB (vec a.out_b1) (mat a.out_w2) (vec a.out_b2)) (hid4K a (j 0)) (j 1) (j 2)

/-- Layer `l`'s new cache over the folded input stack. -/
def newCacheArrK (a : Args) (l : Fin 4) : Arr AC := fun j =>
  newCache (proj (a.layer l).toLayer (hidLK a (j 0) l)) (j 2) (j 1)

/-- Every entry of the array is a real number. -/
def RealArr {s : Shape} (x : Arr s) : Prop := ∀ j, ∃ r : ℝ, x j = (r : EReal)

/-- Every entry of every argument array is a real number. -/
def RealArgs (a : Args) : Prop :=
  RealArr a.x ∧ RealArr a.in_w1 ∧ RealArr a.in_b1 ∧ RealArr a.in_w2 ∧ RealArr a.in_b2
    ∧ RealArr a.out_w1 ∧ RealArr a.out_b1 ∧ RealArr a.out_w2 ∧ RealArr a.out_b2
    ∧ ∀ l, RealArr (a.layer l).lin_w ∧ RealArr (a.layer l).filt ∧ RealArr (a.layer l).aff_w
        ∧ RealArr (a.layer l).aff_b ∧ RealArr (a.layer l).cache

end Cert.Spec

end
-- ==== Proof.ArgsOf.lean ====
/-
  Each program's argument arrays, read as the network's arguments: the input, the four linear maps of
  the input and output stacks with their biases, and per layer the projection, the filter, the affine
  weight and bias and the cache, in the order both programs take them.
-/
import proofs.«129047_g2000306104881685_pallasbulk_300_2_alg».proof.Defs
import proofs.«129047_g2000306104881685_pallasbulk_300_2_alg».proof.Proof.Spec

noncomputable section

open Idealize.ShloMosaic Idealize.SL.Sem

namespace Cert.KernelIdeal.Hand
/-- The program's twenty-nine argument arrays on core `c`, as the network's arguments. -/
def argsOf (m : (ℓ : Loc Cert.KernelIdeal.nD Cert.KernelIdeal.τ Cert.KernelIdeal.sig) → Buf (Elt Ideal) ℓ) (c : Dev Cert.KernelIdeal.nD) : Cert.Spec.Args where
  x := m ((c.tc : Thread Cert.KernelIdeal.nD Cert.KernelIdeal.τ).loc Cert.KernelIdeal.main_arg0)
  in_w1 := m ((c.tc : Thread Cert.KernelIdeal.nD Cert.KernelIdeal.τ).loc Cert.KernelIdeal.main_arg1)
  in_b1 := m ((c.tc : Thread Cert.KernelIdeal.nD Cert.KernelIdeal.τ).loc Cert.KernelIdeal.main_arg2)
  in_w2 := m ((c.tc : Thread Cert.KernelIdeal.nD Cert.KernelIdeal.τ).loc Cert.KernelIdeal.main_arg3)
  in_b2 := m ((c.tc : Thread Cert.KernelIdeal.nD Cert.KernelIdeal.τ).loc Cert.KernelIdeal.main_arg4)
  out_w1 := m ((c.tc : Thread Cert.KernelIdeal.nD Cert.KernelIdeal.τ).loc Cert.KernelIdeal.main_arg5)
  out_b1 := m ((c.tc : Thread Cert.KernelIdeal.nD Cert.KernelIdeal.τ).loc Cert.KernelIdeal.main_arg6)
  out_w2 := m ((c.tc : Thread Cert.KernelIdeal.nD Cert.KernelIdeal.τ).loc Cert.KernelIdeal.main_arg7)
  out_b2 := m ((c.tc : Thread Cert.KernelIdeal.nD Cert.KernelIdeal.τ).loc Cert.KernelIdeal.main_arg8)
  layer := fun
    | 0 => ⟨m ((c.tc : Thread Cert.KernelIdeal.nD Cert.KernelIdeal.τ).loc Cert.KernelIdeal.main_arg9), m ((c.tc : Thread Cert.KernelIdeal.nD Cert.KernelIdeal.τ).loc Cert.KernelIdeal.main_arg10), m ((c.tc : Thread Cert.KernelIdeal.nD Cert.KernelIdeal.τ).loc Cert.KernelIdeal.main_arg11), m ((c.tc : Thread Cert.KernelIdeal.nD Cert.KernelIdeal.τ).loc Cert.KernelIdeal.main_arg12), m ((c.tc : Thread Cert.KernelIdeal.nD Cert.KernelIdeal.τ).loc Cert.KernelIdeal.main_arg13)⟩
    | 1 => ⟨m ((c.tc : Thread Cert.KernelIdeal.nD Cert.KernelIdeal.τ).loc Cert.KernelIdeal.main_arg14), m ((c.tc : Thread Cert.KernelIdeal.nD Cert.KernelIdeal.τ).loc Cert.KernelIdeal.main_arg15), m ((c.tc : Thread Cert.KernelIdeal.nD Cert.KernelIdeal.τ).loc Cert.KernelIdeal.main_arg16), m ((c.tc : Thread Cert.KernelIdeal.nD Cert.KernelIdeal.τ).loc Cert.KernelIdeal.main_arg17), m ((c.tc : Thread Cert.KernelIdeal.nD Cert.KernelIdeal.τ).loc Cert.KernelIdeal.main_arg18)⟩
    | 2 => ⟨m ((c.tc : Thread Cert.KernelIdeal.nD Cert.KernelIdeal.τ).loc Cert.KernelIdeal.main_arg19), m ((c.tc : Thread Cert.KernelIdeal.nD Cert.KernelIdeal.τ).loc Cert.KernelIdeal.main_arg20), m ((c.tc : Thread Cert.KernelIdeal.nD Cert.KernelIdeal.τ).loc Cert.KernelIdeal.main_arg21), m ((c.tc : Thread Cert.KernelIdeal.nD Cert.KernelIdeal.τ).loc Cert.KernelIdeal.main_arg22), m ((c.tc : Thread Cert.KernelIdeal.nD Cert.KernelIdeal.τ).loc Cert.KernelIdeal.main_arg23)⟩
    | 3 => ⟨m ((c.tc : Thread Cert.KernelIdeal.nD Cert.KernelIdeal.τ).loc Cert.KernelIdeal.main_arg24), m ((c.tc : Thread Cert.KernelIdeal.nD Cert.KernelIdeal.τ).loc Cert.KernelIdeal.main_arg25), m ((c.tc : Thread Cert.KernelIdeal.nD Cert.KernelIdeal.τ).loc Cert.KernelIdeal.main_arg26), m ((c.tc : Thread Cert.KernelIdeal.nD Cert.KernelIdeal.τ).loc Cert.KernelIdeal.main_arg27), m ((c.tc : Thread Cert.KernelIdeal.nD Cert.KernelIdeal.τ).loc Cert.KernelIdeal.main_arg28)⟩

end Cert.KernelIdeal.Hand

namespace Cert.ReferenceIdeal.Hand
/-- The program's twenty-nine argument arrays on core `c`, as the network's arguments. -/
def argsOf (m : (ℓ : Loc Cert.ReferenceIdeal.nD Cert.ReferenceIdeal.τ Cert.ReferenceIdeal.sig) → Buf (Elt Ideal) ℓ) (c : Dev Cert.ReferenceIdeal.nD) : Cert.Spec.Args where
  x := m ((c.tc : Thread Cert.ReferenceIdeal.nD Cert.ReferenceIdeal.τ).loc Cert.ReferenceIdeal.main_arg0)
  in_w1 := m ((c.tc : Thread Cert.ReferenceIdeal.nD Cert.ReferenceIdeal.τ).loc Cert.ReferenceIdeal.main_arg1)
  in_b1 := m ((c.tc : Thread Cert.ReferenceIdeal.nD Cert.ReferenceIdeal.τ).loc Cert.ReferenceIdeal.main_arg2)
  in_w2 := m ((c.tc : Thread Cert.ReferenceIdeal.nD Cert.ReferenceIdeal.τ).loc Cert.ReferenceIdeal.main_arg3)
  in_b2 := m ((c.tc : Thread Cert.ReferenceIdeal.nD Cert.ReferenceIdeal.τ).loc Cert.ReferenceIdeal.main_arg4)
  out_w1 := m ((c.tc : Thread Cert.ReferenceIdeal.nD Cert.ReferenceIdeal.τ).loc Cert.ReferenceIdeal.main_arg5)
  out_b1 := m ((c.tc : Thread Cert.ReferenceIdeal.nD Cert.ReferenceIdeal.τ).loc Cert.ReferenceIdeal.main_arg6)
  out_w2 := m ((c.tc : Thread Cert.ReferenceIdeal.nD Cert.ReferenceIdeal.τ).loc Cert.ReferenceIdeal.main_arg7)
  out_b2 := m ((c.tc : Thread Cert.ReferenceIdeal.nD Cert.ReferenceIdeal.τ).loc Cert.ReferenceIdeal.main_arg8)
  layer := fun
    | 0 => ⟨m ((c.tc : Thread Cert.ReferenceIdeal.nD Cert.ReferenceIdeal.τ).loc Cert.ReferenceIdeal.main_arg9), m ((c.tc : Thread Cert.ReferenceIdeal.nD Cert.ReferenceIdeal.τ).loc Cert.ReferenceIdeal.main_arg10), m ((c.tc : Thread Cert.ReferenceIdeal.nD Cert.ReferenceIdeal.τ).loc Cert.ReferenceIdeal.main_arg11), m ((c.tc : Thread Cert.ReferenceIdeal.nD Cert.ReferenceIdeal.τ).loc Cert.ReferenceIdeal.main_arg12), m ((c.tc : Thread Cert.ReferenceIdeal.nD Cert.ReferenceIdeal.τ).loc Cert.ReferenceIdeal.main_arg13)⟩
    | 1 => ⟨m ((c.tc : Thread Cert.ReferenceIdeal.nD Cert.ReferenceIdeal.τ).loc Cert.ReferenceIdeal.main_arg14), m ((c.tc : Thread Cert.ReferenceIdeal.nD Cert.ReferenceIdeal.τ).loc Cert.ReferenceIdeal.main_arg15), m ((c.tc : Thread Cert.ReferenceIdeal.nD Cert.ReferenceIdeal.τ).loc Cert.ReferenceIdeal.main_arg16), m ((c.tc : Thread Cert.ReferenceIdeal.nD Cert.ReferenceIdeal.τ).loc Cert.ReferenceIdeal.main_arg17), m ((c.tc : Thread Cert.ReferenceIdeal.nD Cert.ReferenceIdeal.τ).loc Cert.ReferenceIdeal.main_arg18)⟩
    | 2 => ⟨m ((c.tc : Thread Cert.ReferenceIdeal.nD Cert.ReferenceIdeal.τ).loc Cert.ReferenceIdeal.main_arg19), m ((c.tc : Thread Cert.ReferenceIdeal.nD Cert.ReferenceIdeal.τ).loc Cert.ReferenceIdeal.main_arg20), m ((c.tc : Thread Cert.ReferenceIdeal.nD Cert.ReferenceIdeal.τ).loc Cert.ReferenceIdeal.main_arg21), m ((c.tc : Thread Cert.ReferenceIdeal.nD Cert.ReferenceIdeal.τ).loc Cert.ReferenceIdeal.main_arg22), m ((c.tc : Thread Cert.ReferenceIdeal.nD Cert.ReferenceIdeal.τ).loc Cert.ReferenceIdeal.main_arg23)⟩
    | 3 => ⟨m ((c.tc : Thread Cert.ReferenceIdeal.nD Cert.ReferenceIdeal.τ).loc Cert.ReferenceIdeal.main_arg24), m ((c.tc : Thread Cert.ReferenceIdeal.nD Cert.ReferenceIdeal.τ).loc Cert.ReferenceIdeal.main_arg25), m ((c.tc : Thread Cert.ReferenceIdeal.nD Cert.ReferenceIdeal.τ).loc Cert.ReferenceIdeal.main_arg26), m ((c.tc : Thread Cert.ReferenceIdeal.nD Cert.ReferenceIdeal.τ).loc Cert.ReferenceIdeal.main_arg27), m ((c.tc : Thread Cert.ReferenceIdeal.nD Cert.ReferenceIdeal.τ).loc Cert.ReferenceIdeal.main_arg28)⟩

end Cert.ReferenceIdeal.Hand

end
-- ==== Proof.FoldLaw.lean ====
/-
  The network with its two pairs of adjacent linear maps folded computes the same values as the
  network with the maps applied one after the other, wherever every argument entry is a real number.

  Two facts carry it.  First, real entries are preserved along the network: a row of reals through a
  matrix of reals is a finite sum of products of reals, an affine map adds a real bias, ReLU takes the
  larger of a real and zero, the extended sequence picks a row of the cache or of the sequence, and the
  convolution is ten products and sums.  Second, on real entries two affine maps in a row are the folded
  one (Spec.affine_affine).  The input stack's fold gives equal hidden sequences entering layer 0, hence
  equal hidden sequences and equal new caches at every layer; the output stack's fold is applied at a row
  of the last hidden sequence, which is real by the first fact.
-/
import proofs.«129047_g2000306104881685_pallasbulk_300_2_alg».proof.Proof.Spec

open scoped BigOperators

noncomputable section

namespace Cert.Spec

open Idealize.ShloMosaic
open Idealize.ShloMosaic.ValueIdx

/-! ## Sums, products and maxima of reals are real -/

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  rcases le_total (a : EReal) (b : EReal) with h | h
  · exact ⟨b, max_eq_right h⟩
  · exact ⟨a, max_eq_left h⟩

/-! ## Real entries along the network -/

/-- Every row of the sequence has real entries. -/
def RealSeq (h : Seq) : Prop := ∀ t, RealRow (h t)

/-- A row of reals through a matrix of reals: a finite sum of products of reals. -/
theorem realRow_dense {x : Row} {W : Mat} (hx : RealRow x) (hW : RealMat W) : RealRow (dense x W) := by
  choose xr hxr using hx
  choose Wr hWr using hW
  intro n
  refine ⟨∑ e, xr e * Wr e n, ?_⟩
  simp only [dense, hxr, hWr, ← EReal.coe_mul, Lib.FoldedAffine.coe_sum]

theorem realRow_affine {x : Row} {W : Mat} {b : Row} (hx : RealRow x) (hW : RealMat W) (hb : RealRow b) :
    RealRow (affine x W b) := fun n => real_add (realRow_dense hx hW n) (hb n)

theorem realRow_relu {x : Row} (hx : RealRow x) : RealRow (relu x) :=
  fun n => real_max (hx n) ⟨0, EReal.coe_zero.symm⟩

/-- A step of the extended sequence is a row of the cache or a row of the sequence. -/
theorem realRow_ext {c : Cache} {p : Seq} (hc : ∀ s, RealRow (c s)) (hp : RealSeq p) (s : Fin 137) :
    RealRow (ext c p s) := by
  unfold ext
  split
  · exact hc _
  · exact hp _

theorem realRow_tap {c : Cache} {p : Seq} (hc : ∀ s, RealRow (c s)) (hp : RealSeq p) (k : Fin 10)
    (t : Fin 128) : RealRow (tap c p k t) := realRow_ext hc hp _

/-- The convolution: ten products and eleven summands, all real. -/
theorem realSeq_conv {f : Filt} {c : Cache} {p : Seq} (hf : ∀ k, RealRow (f k)) (hc : ∀ s, RealRow (c s))
    (hp : RealSeq p) : RealSeq (conv f c p) := by
  intro t d
  simp only [conv]
  repeat' first
    | exact hp t d
    | exact hf _ d
    | exact realRow_tap hc hp _ t d
    | apply real_add
    | apply real_mul

theorem realSeq_proj {L : Layer} {h : Seq} (hL : RealMat L.lin) (hh : RealSeq h) : RealSeq (proj L h) :=
  fun t => realRow_dense (hh t) hL

theorem realSeq_layer {L : Layer} {c : Cache} {h : Seq} (hlin : RealMat L.lin) (hf : ∀ k, RealRow (L.filt k))
    (haw : RealMat L.aw) (hab : RealRow L.ab) (hc : ∀ s, RealRow (c s)) (hh : RealSeq h) :
    RealSeq (layer L c h) :=
  fun t => realRow_relu (realRow_affine (realSeq_conv hf hc (realSeq_proj hlin hh) t) haw hab)

/-! ## From real arrays -/

theorem realMat_mat {W : Arr A2} (h : RealArr W) : RealMat (mat W) := fun _ _ => h _
theorem realRow_vec {b : Arr A1} (h : RealArr b) : RealRow (vec b) := fun _ => h _
theorem realRow_flt {f : Arr AF} (h : RealArr f) (k : Fin 10) : RealRow (flt f k) := fun _ => h _
theorem realSeq_seqOf {x : Arr A3} (h : RealArr x) (b : Fin 256) : RealSeq (seqOf x b) := fun _ _ => h _
theorem realRow_cacheOf {c : Arr AC} (h : RealArr c) (b : Fin 256) (s : Fin 9) : RealRow (cacheOf c b s) :=
  fun _ => h _

theorem realSeq_step {a : Args} (ha : RealArgs a) (b : Fin 256) (l : Fin 4) {h : Seq} (hh : RealSeq h) :
    RealSeq (step a b l h) := by
  obtain ⟨_, _, _, _, _, _, _, _, _, hl⟩ := ha
  obtain ⟨h1, h2, h3, h4, h5⟩ := hl l
  exact realSeq_layer (L := (a.layer l).toLayer) (realMat_mat h1) (realRow_flt h2) (realMat_mat h3)
    (realRow_vec h4) (realRow_cacheOf h5 b) hh

theorem realSeq_hid0 {a : Args} (ha : RealArgs a) (b : Fin 256) : RealSeq (hid0 a b) := fun t =>
  realRow_relu (realRow_affine
    (realRow_affine (realSeq_seqOf ha.1 b t) (realMat_mat ha.2.1) (realRow_vec ha.2.2.1))
    (realMat_mat ha.2.2.2.1) (realRow_vec ha.2.2.2.2.1))

theorem realSeq_hid1 {a : Args} (ha : RealArgs a) (b : Fin 256) : RealSeq (hid1 a b) :=
  realSeq_step ha b 0 (realSeq_hid0 ha b)
theorem realSeq_hid2 {a : Args} (ha : RealArgs a) (b : Fin 256) : RealSeq (hid2 a b) :=
  realSeq_step ha b 1 (realSeq_hid1 ha b)
theorem realSeq_hid3 {a : Args} (ha : RealArgs a) (b : Fin 256) : RealSeq (hid3 a b) :=
  realSeq_step ha b 2 (realSeq_hid2 ha b)
theorem realSeq_hid4 {a : Args} (ha : RealArgs a) (b : Fin 256) : RealSeq (hid4 a b) :=
  realSeq_step ha b 3 (realSeq_hid3 ha b)

/-! ## The folded network equals the unfolded one -/

/-- The input stack: the folded map is the two maps in a row, at every real input row. -/
theorem hid0K_eq {a : Args} (ha : RealArgs a) (b : Fin 256) : hid0K a b = hid0 a b := by
  funext t
  show relu (affine (seqOf a.x b t) (foldW (mat a.in_w1) (mat a.in_w2))
      (foldB (vec a.in_b1) (mat a.in_w2) (vec a.in_b2)))
    = relu (affine (affine (seqOf a.x b t) (mat a.in_w1) (vec a.in_b1)) (mat a.in_w2) (vec a.in_b2))
  rw [affine_affine (realSeq_seqOf ha.1 b t) (realMat_mat ha.2.1) (realRow_vec ha.2.2.1)
    (realMat_mat ha.2.2.2.1) (realRow_vec ha.2.2.2.2.1)]

theorem hid1K_eq {a : Args} (ha : RealArgs a) (b : Fin 256) : hid1K a b = hid1 a b := by
  unfold hid1K hid1; rw [hid0K_eq ha b]
theorem hid2K_eq {a : Args} (ha : RealArgs a) (b : Fin 256) : hid2K a b = hid2 a b := by
  unfold hid2K hid2; rw [hid1K_eq ha b]
theorem hid3K_eq {a : Args} (ha : RealArgs a) (b : Fin 256) : hid3K a b = hid3 a b := by
  unfold hid3K hid3; rw [hid2K_eq ha b]
theorem hid4K_eq {a : Args} (ha : RealArgs a) (b : Fin 256) : hid4K a b = hid4 a b := by
  unfold hid4K hid4; rw [hid3K_eq ha b]

theorem hidLK_eq {a : Args} (ha : RealArgs a) (b : Fin 256) : ∀ l : Fin 4, hidLK a b l = hidL a b l
  | 0 => hid0K_eq ha b
  | 1 => hid1K_eq ha b
  | 2 => hid2K_eq ha b
  | 3 => hid3K_eq ha b

/-- The output stack: the folded map is the two maps in a row at every row of the last hidden
    sequence, which is real. -/
theorem probsK_eq (a : Args) (h : RealArgs a) : probsK a = probs a := by
  funext j
  show softmax (affine (hid4K a (j 0) (j 1)) (foldW (mat a.out_w1) (mat a.out_w2))
      (foldB (vec a.out_b1) (mat a.out_w2) (vec a.out_b2))) (j 2)
    = softmax (affine (affine (hid4 a (j 0) (j 1)) (mat a.out_w1) (vec a.out_b1)) (mat a.out_w2)
        (vec a.out_b2)) (j 2)
  rw [hid4K_eq h (j 0),
    affine_affine (realSeq_hid4 h (j 0) (j 1)) (realMat_mat h.2.2.2.2.2.1) (realRow_vec h.2.2.2.2.2.2.1)
      (realMat_mat h.2.2.2.2.2.2.2.1) (realRow_vec h.2.2.2.2.2.2.2.2.1)]

theorem newCacheArrK_eq (a : Args) (h : RealArgs a) (l : Fin 4) : newCacheArrK a l = newCacheArr a l := by
  funext j
  show newCache (proj (a.layer l).toLayer (hidLK a (j 0) l)) (j 2) (j 1)
    = newCache (proj (a.layer l).toLayer (hidL a (j 0) l)) (j 2) (j 1)
  rw [hidLK_eq h (j 0) l]

end Cert.Spec

end
-- ==== Proof.Finite.lean ====
/-
  The precondition, decoded: every entry of every argument array is a real number.

  The precondition's predicate is the conjunction, over the twenty-nine argument arrays in order, of
  `all(|x| < +∞)`: each array's absolute value compared, entry by entry, against the pattern of +∞
  broadcast to the array's shape, the comparisons reduced by `and` over all axes from the constant one,
  and the twenty-nine results joined by `and`.  The precondition says the result is one on every device.
  A conjunction of one-bit words is one exactly when each is; a reduction by `and` into a single result
  that is one met a one at every entry; a comparison `|x| < +∞` that is one says `max x (-x) < ⊤` on the
  extended reals, which fails at both infinities, so `x` is an embedded real.
-/
import proofs.«129047_g2000306104881685_pallasbulk_300_2_alg».proof.Defs
import proofs.«129047_g2000306104881685_pallasbulk_300_2_alg».proof.Proof.Gen.Pre_finite_inputs
import proofs.«129047_g2000306104881685_pallasbulk_300_2_alg».proof.Proof.ArgsOf
import Idealize.ShloMosaic.Lib.ReduceAll

noncomputable section

namespace Cert.KernelIdeal.Hand

open Idealize.ShloMosaic Idealize.SL.Sem
open Cert.Pre_finite_inputs (S_)

/-- A rank-0 array has one index. -/
instance subsingleton_S_Idx : Subsingleton S_.Idx := ⟨fun a b => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

theorem ofBool_eq_one (b : Bool) : BitVec.ofBool b = 1#1 ↔ b = true := by cases b <;> decide

/-- The pattern of +∞ denotes the top of the extended reals. -/
theorem ofBits_inf : Ideal.ofBits .f32 0x7F800000#32 = ⊤ := by simp [Ideal.ofBits, Ideal.ieee]

/-- An array whose `all(|x| < +∞)` is one has every entry real. -/
theorem realArr_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
        (cmpf .olt (Host.absf x) (broadcastInDim s ![] hb (constant S_ .f32 0x7F800000#32)))
        (constantI S_ 1 1#1) hr hu j = 1#1) : Cert.Spec.RealArr x := by
  intro i
  have h1 := Host.reduce_andi_all _ _ hr hu j e i
  have h2 : BitVec.ofBool (decide (max (x i) (-(x i)) < Ideal.ofBits .f32 0x7F800000#32)) = 1#1 := h1
  rw [ofBool_eq_one, decide_eq_true_eq, ofBits_inf] at h2
  exact real_of_abs_lt_top _ h2

/-- A conjunction of two one-bit arrays is one at an index exactly when both are. -/
theorem andi_apply_eq_one {s : Shape} (x y : IVec s 1) (j : s.Idx) :
    andi x y j = 1#1 ↔ x j = 1#1 ∧ y j = 1#1 := IntOp.andi_eq_one

/-- Under the precondition every entry of each of the twenty-nine argument arrays is a real number. -/
theorem realArgs_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.Spec.RealArgs (argsOf m c) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8] at e
  simp only [andi_apply_eq_one] at e
  obtain ⟨⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩,
    h15⟩, h16⟩, h17⟩, h18⟩, h19⟩, h20⟩, h21⟩, h22⟩, h23⟩, h24⟩, h25⟩, h26⟩, h27⟩, h28⟩ := e
  refine ⟨realArr_of_all _ _ _ _ _ h0, realArr_of_all _ _ _ _ _ h1, realArr_of_all _ _ _ _ _ h2,
    realArr_of_all _ _ _ _ _ h3, realArr_of_all _ _ _ _ _ h4, realArr_of_all _ _ _ _ _ h5,
    realArr_of_all _ _ _ _ _ h6, realArr_of_all _ _ _ _ _ h7, realArr_of_all _ _ _ _ _ h8, fun l => ?_⟩
  match l with
  | 0 => exact ⟨realArr_of_all _ _ _ _ _ h9, realArr_of_all _ _ _ _ _ h10, realArr_of_all _ _ _ _ _ h11,
      realArr_of_all _ _ _ _ _ h12, realArr_of_all _ _ _ _ _ h13⟩
  | 1 => exact ⟨realArr_of_all _ _ _ _ _ h14, realArr_of_all _ _ _ _ _ h15, realArr_of_all _ _ _ _ _ h16,
      realArr_of_all _ _ _ _ _ h17, realArr_of_all _ _ _ _ _ h18⟩
  | 2 => exact ⟨realArr_of_all _ _ _ _ _ h19, realArr_of_all _ _ _ _ _ h20, realArr_of_all _ _ _ _ _ h21,
      realArr_of_all _ _ _ _ _ h22, realArr_of_all _ _ _ _ _ h23⟩
  | 3 => exact ⟨realArr_of_all _ _ _ _ _ h24, realArr_of_all _ _ _ _ _ h25, realArr_of_all _ _ _ _ _ h26,
      realArr_of_all _ _ _ _ _ h27, realArr_of_all _ _ _ _ _ h28⟩

end Cert.KernelIdeal.Hand

end
-- ==== Proof.KBlockDefs.lean ====
/-
  The kernel body's operands, for one of the sixteen batch rows of a grid point, as the row-wise
  network's parameters: a layer's four operand blocks as its projection, filter, affine weight and
  bias; a batch row of a cache block; and the batch row's hidden sequences — the folded input map of
  its input rows, then the four layers.
-/
import proofs.«129047_g2000306104881685_pallasbulk_300_2_alg».proof.KernelIdeal
import proofs.«129047_g2000306104881685_pallasbulk_300_2_alg».proof.Proof.Spec
import Idealize.ShloMosaic.Lib.ValueIdx

noncomputable section

namespace Cert.KernelIdeal.Hand

open Cert.KernelIdeal Idealize.ShloMosaic Idealize.ShloMosaic.ValueIdx

/-- A layer's parameters from its four operand blocks. -/
def blkLayer (xl : Vec Ideal S256x256 .bf16) (xf : Vec Ideal S10x256 .f32) (xa : Vec Ideal S256x256 .bf16) (xb : Vec Ideal S1x256 .f32) :
    Cert.Spec.Layer :=
  ⟨fun e n => xl (ix2 e n), fun k d => xf (ix2 k d), fun e n => xa (ix2 e n), fun n => xb (ix2 (0 : Fin 1) n)⟩

/-- Batch row `bb` of a cache block. -/
def blkCache (xc : Vec Ideal S16x9x256 .f32) (bb : Fin 16) : Cert.Spec.Cache := fun s d => xc (ix3 bb s d)

/-- Batch row `bb`'s hidden sequence entering layer 0: the folded input map of its input rows, ReLU. -/
def blkHid0 (x0 : Vec Ideal S16x128x256 .bf16) (x1 : Vec Ideal S256x256 .bf16) (x2 : Vec Ideal S1x256 .f32) (bb : Fin 16) : Cert.Spec.Seq :=
  Cert.Spec.inOne (fun e n => x1 (ix2 e n)) (fun n => x2 (ix2 (0 : Fin 1) n)) (fun t e => x0 (ix3 bb t e))
/-- … entering layers 1, 2, 3 and the output map. -/
def blkHid1 (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (bb : Fin 16) : Cert.Spec.Seq :=
  Cert.Spec.layer (blkLayer x3 x4 x5 x6) (blkCache x7 bb) (blkHid0 x0 x1 x2 bb)
def blkHid2 (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (bb : Fin 16) : Cert.Spec.Seq :=
  Cert.Spec.layer (blkLayer x8 x9 x10 x11) (blkCache x12 bb) (blkHid1 x0 x1 x2 x3 x4 x5 x6 x7 bb)
def blkHid3 (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (bb : Fin 16) : Cert.Spec.Seq :=
  Cert.Spec.layer (blkLayer x13 x14 x15 x16) (blkCache x17 bb) (blkHid2 x0 x1 x2 x3 x4 x5 x6 x7 x8 x9 x10 x11 x12 bb)
def blkHid4 (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (x18 : Vec Ideal S256x256 .bf16) (x19 : Vec Ideal S10x256 .f32) (x20 : Vec Ideal S256x256 .bf16) (x21 : Vec Ideal S1x256 .f32) (x22 : Vec Ideal S16x9x256 .f32) (bb : Fin 16) : Cert.Spec.Seq :=
  Cert.Spec.layer (blkLayer x18 x19 x20 x21) (blkCache x22 bb) (blkHid3 x0 x1 x2 x3 x4 x5 x6 x7 x8 x9 x10 x11 x12 x13 x14 x15 x16 x17 bb)

end Cert.KernelIdeal.Hand

end
-- ==== Proof.KArrays.lean ====
/-
  A grid point's operand blocks as the network's arguments.

  When, at batch row `bb` of a grid point's blocks, the twenty-five operand blocks hold the network's
  arguments for batch row `b` — the input rows, the folded input and output maps, and per layer the
  projection, the filter, the affine weight, the affine bias row and the time-major cache — the
  block-wise hidden sequences are the folded network's hidden sequences of batch row `b`, the folded output
  map of the last one is the probabilities of row `b`, and the last nine steps of each layer's projection
  are that layer's new cache for row `b`.
-/
import proofs.«129047_g2000306104881685_pallasbulk_300_2_alg».proof.Proof.KBlockDefs

noncomputable section

namespace Cert.KernelIdeal.Hand

open Cert.KernelIdeal Idealize.ShloMosaic Idealize.ShloMosaic.ValueIdx Cert.Spec

/-! ## One stack, one layer, one cache -/

theorem blkHid0_eq (a : Args) (b : Fin 256) (bb : Fin 16) (x0 : Vec Ideal S16x128x256 .bf16) (x1 : Vec Ideal S256x256 .bf16) (x2 : Vec Ideal S1x256 .f32)
    (h0 : ∀ t e, x0 (ix3 bb t e) = a.x (ix3 b t e))
    (h1 : ∀ e n, x1 (ix2 e n) = foldW (mat a.in_w1) (mat a.in_w2) e n)
    (h2 : ∀ n, x2 (ix2 (0 : Fin 1) n) = foldB (vec a.in_b1) (mat a.in_w2) (vec a.in_b2) n) :
    blkHid0 x0 x1 x2 bb = hid0K a b := by
  have e0 : (fun t e => x0 (ix3 bb t e)) = seqOf a.x b := funext fun t => funext fun e => h0 t e
  have e1 : (fun e n => x1 (ix2 e n)) = foldW (mat a.in_w1) (mat a.in_w2) := funext fun e => funext fun n => h1 e n
  have e2 : (fun n => x2 (ix2 (0 : Fin 1) n)) = foldB (vec a.in_b1) (mat a.in_w2) (vec a.in_b2) := funext h2
  unfold blkHid0 hid0K
  rw [e0, e1, e2]

theorem blkLayer_eq (L : LayerArgs) (xl : Vec Ideal S256x256 .bf16) (xf : Vec Ideal S10x256 .f32) (xa : Vec Ideal S256x256 .bf16)
    (xb : Vec Ideal S1x256 .f32)
    (hl : ∀ e n, xl (ix2 e n) = L.lin_w (ix2 e n)) (hf : ∀ k d, xf (ix2 k d) = L.filt (ix2 k d))
    (ha : ∀ e n, xa (ix2 e n) = L.aff_w (ix2 e n)) (hb : ∀ n, xb (ix2 (0 : Fin 1) n) = L.aff_b (ix1 n)) :
    blkLayer xl xf xa xb = L.toLayer := by
  have el : (fun e n => xl (ix2 e n)) = mat L.lin_w := funext fun e => funext fun n => hl e n
  have ef : (fun k d => xf (ix2 k d)) = flt L.filt := funext fun k => funext fun d => hf k d
  have ea : (fun e n => xa (ix2 e n)) = mat L.aff_w := funext fun e => funext fun n => ha e n
  have eb : (fun n => xb (ix2 (0 : Fin 1) n)) = vec L.aff_b := funext hb
  unfold blkLayer LayerArgs.toLayer
  rw [el, ef, ea, eb]

theorem blkCache_eq (C : Arr AC) (b : Fin 256) (bb : Fin 16) (xc : Vec Ideal S16x9x256 .f32)
    (hc : ∀ s d, xc (ix3 bb s d) = C (ix4 b d s (0 : Fin 1))) : blkCache xc bb = cacheOf C b :=
  funext fun s => funext fun d => hc s d

/-! ## The twenty-five blocks -/

/-- At batch row `bb` the operand blocks hold the arguments of batch row `b`. -/
structure BlockOf (a : Args) (b : Fin 256) (bb : Fin 16) (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (x18 : Vec Ideal S256x256 .bf16) (x19 : Vec Ideal S10x256 .f32) (x20 : Vec Ideal S256x256 .bf16) (x21 : Vec Ideal S1x256 .f32) (x22 : Vec Ideal S16x9x256 .f32) (x23 : Vec Ideal S256x256 .bf16) (x24 : Vec Ideal S1x256 .f32) : Prop where
  x : ∀ t e, x0 (ix3 bb t e) = a.x (ix3 b t e)
  inW : ∀ e n, x1 (ix2 e n) = foldW (mat a.in_w1) (mat a.in_w2) e n
  inB : ∀ n, x2 (ix2 (0 : Fin 1) n) = foldB (vec a.in_b1) (mat a.in_w2) (vec a.in_b2) n
  lin0 : ∀ e n, x3 (ix2 e n) = (a.layer 0).lin_w (ix2 e n)
  filt0 : ∀ k d, x4 (ix2 k d) = (a.layer 0).filt (ix2 k d)
  affW0 : ∀ e n, x5 (ix2 e n) = (a.layer 0).aff_w (ix2 e n)
  affB0 : ∀ n, x6 (ix2 (0 : Fin 1) n) = (a.layer 0).aff_b (ix1 n)
  cache0 : ∀ s d, x7 (ix3 bb s d) = (a.layer 0).cache (ix4 b d s (0 : Fin 1))
  lin1 : ∀ e n, x8 (ix2 e n) = (a.layer 1).lin_w (ix2 e n)
  filt1 : ∀ k d, x9 (ix2 k d) = (a.layer 1).filt (ix2 k d)
  affW1 : ∀ e n, x10 (ix2 e n) = (a.layer 1).aff_w (ix2 e n)
  affB1 : ∀ n, x11 (ix2 (0 : Fin 1) n) = (a.layer 1).aff_b (ix1 n)
  cache1 : ∀ s d, x12 (ix3 bb s d) = (a.layer 1).cache (ix4 b d s (0 : Fin 1))
  lin2 : ∀ e n, x13 (ix2 e n) = (a.layer 2).lin_w (ix2 e n)
  filt2 : ∀ k d, x14 (ix2 k d) = (a.layer 2).filt (ix2 k d)
  affW2 : ∀ e n, x15 (ix2 e n) = (a.layer 2).aff_w (ix2 e n)
  affB2 : ∀ n, x16 (ix2 (0 : Fin 1) n) = (a.layer 2).aff_b (ix1 n)
  cache2 : ∀ s d, x17 (ix3 bb s d) = (a.layer 2).cache (ix4 b d s (0 : Fin 1))
  lin3 : ∀ e n, x18 (ix2 e n) = (a.layer 3).lin_w (ix2 e n)
  filt3 : ∀ k d, x19 (ix2 k d) = (a.layer 3).filt (ix2 k d)
  affW3 : ∀ e n, x20 (ix2 e n) = (a.layer 3).aff_w (ix2 e n)
  affB3 : ∀ n, x21 (ix2 (0 : Fin 1) n) = (a.layer 3).aff_b (ix1 n)
  cache3 : ∀ s d, x22 (ix3 bb s d) = (a.layer 3).cache (ix4 b d s (0 : Fin 1))
  outW : ∀ e n, x23 (ix2 e n) = foldW (mat a.out_w1) (mat a.out_w2) e n
  outB : ∀ n, x24 (ix2 (0 : Fin 1) n) = foldB (vec a.out_b1) (mat a.out_w2) (vec a.out_b2) n

namespace BlockOf

variable {a : Args} {b : Fin 256} {bb : Fin 16} {x0 : Vec Ideal S16x128x256 .bf16} {x1 : Vec Ideal S256x256 .bf16} {x2 : Vec Ideal S1x256 .f32} {x3 : Vec Ideal S256x256 .bf16} {x4 : Vec Ideal S10x256 .f32} {x5 : Vec Ideal S256x256 .bf16} {x6 : Vec Ideal S1x256 .f32} {x7 : Vec Ideal S16x9x256 .f32} {x8 : Vec Ideal S256x256 .bf16} {x9 : Vec Ideal S10x256 .f32} {x10 : Vec Ideal S256x256 .bf16} {x11 : Vec Ideal S1x256 .f32} {x12 : Vec Ideal S16x9x256 .f32} {x13 : Vec Ideal S256x256 .bf16} {x14 : Vec Ideal S10x256 .f32} {x15 : Vec Ideal S256x256 .bf16} {x16 : Vec Ideal S1x256 .f32} {x17 : Vec Ideal S16x9x256 .f32} {x18 : Vec Ideal S256x256 .bf16} {x19 : Vec Ideal S10x256 .f32} {x20 : Vec Ideal S256x256 .bf16} {x21 : Vec Ideal S1x256 .f32} {x22 : Vec Ideal S16x9x256 .f32} {x23 : Vec Ideal S256x256 .bf16} {x24 : Vec Ideal S1x256 .f32}
variable (h : BlockOf a b bb x0 x1 x2 x3 x4 x5 x6 x7 x8 x9 x10 x11 x12 x13 x14 x15 x16 x17 x18 x19 x20 x21 x22 x23 x24)
include h

theorem hid0 : blkHid0 x0 x1 x2 bb = hid0K a b := blkHid0_eq a b bb x0 x1 x2 h.x h.inW h.inB

theorem layer0 : blkLayer x3 x4 x5 x6 = (a.layer 0).toLayer :=
  blkLayer_eq (a.layer 0) x3 x4 x5 x6 h.lin0 h.filt0 h.affW0 h.affB0
theorem cacheRow0 : blkCache x7 bb = cacheOf (a.layer 0).cache b := blkCache_eq (a.layer 0).cache b bb x7 h.cache0
theorem hid1 : blkHid1 x0 x1 x2 x3 x4 x5 x6 x7 bb = hid1K a b := by
  unfold blkHid1 hid1K step
  rw [h.hid0, h.layer0, h.cacheRow0]

theorem layer1 : blkLayer x8 x9 x10 x11 = (a.layer 1).toLayer :=
  blkLayer_eq (a.layer 1) x8 x9 x10 x11 h.lin1 h.filt1 h.affW1 h.affB1
theorem cacheRow1 : blkCache x12 bb = cacheOf (a.layer 1).cache b := blkCache_eq (a.layer 1).cache b bb x12 h.cache1
theorem hid2 : blkHid2 x0 x1 x2 x3 x4 x5 x6 x7 x8 x9 x10 x11 x12 bb = hid2K a b := by
  unfold blkHid2 hid2K step
  rw [h.hid1, h.layer1, h.cacheRow1]

theorem layer2 : blkLayer x13 x14 x15 x16 = (a.layer 2).toLayer :=
  blkLayer_eq (a.layer 2) x13 x14 x15 x16 h.lin2 h.filt2 h.affW2 h.affB2
theorem cacheRow2 : blkCache x17 bb = cacheOf (a.layer 2).cache b := blkCache_eq (a.layer 2).cache b bb x17 h.cache2
theorem hid3 : blkHid3 x0 x1 x2 x3 x4 x5 x6 x7 x8 x9 x10 x11 x12 x13 x14 x15 x16 x17 bb = hid3K a b := by
  unfold blkHid3 hid3K step
  rw [h.hid2, h.layer2, h.cacheRow2]

theorem layer3 : blkLayer x18 x19 x20 x21 = (a.layer 3).toLayer :=
  blkLayer_eq (a.layer 3) x18 x19 x20 x21 h.lin3 h.filt3 h.affW3 h.affB3
theorem cacheRow3 : blkCache x22 bb = cacheOf (a.layer 3).cache b := blkCache_eq (a.layer 3).cache b bb x22 h.cache3
theorem hid4 : blkHid4 x0 x1 x2 x3 x4 x5 x6 x7 x8 x9 x10 x11 x12 x13 x14 x15 x16 x17 x18 x19 x20 x21 x22 bb = hid4K a b := by
  unfold blkHid4 hid4K step
  rw [h.hid3, h.layer3, h.cacheRow3]

/-- The folded output map of the last hidden sequence: the probabilities of batch row `b`. -/
theorem probs (t : Fin 128) (n : Fin 256) :
    outOne (fun e n => x23 (ix2 e n)) (fun n => x24 (ix2 (0 : Fin 1) n)) (blkHid4 x0 x1 x2 x3 x4 x5 x6 x7 x8 x9 x10 x11 x12 x13 x14 x15 x16 x17 x18 x19 x20 x21 x22 bb) t n
      = probsK a (ix3 b t n) := by
  have e23 : (fun e n => x23 (ix2 e n)) = foldW (mat a.out_w1) (mat a.out_w2) := funext fun e => funext fun n => h.outW e n
  have e24 : (fun n => x24 (ix2 (0 : Fin 1) n)) = foldB (vec a.out_b1) (mat a.out_w2) (vec a.out_b2) := funext h.outB
  show _ = outOne (foldW (mat a.out_w1) (mat a.out_w2)) (foldB (vec a.out_b1) (mat a.out_w2) (vec a.out_b2)) (hid4K a b) t n
  rw [e23, e24, h.hid4]

/-- Layer 0's new cache for batch row `b`. -/
theorem newCache0 (s : Fin 9) (d : Fin 256) :
    newCache (proj (blkLayer x3 x4 x5 x6) (blkHid0 x0 x1 x2 bb)) s d
      = newCacheArrK a 0 (ix4 b d s (0 : Fin 1)) := by
  show _ = newCache (proj (a.layer 0).toLayer (hid0K a b)) s d
  rw [h.layer0, h.hid0]

/-- Layer 1's new cache for batch row `b`. -/
theorem newCache1 (s : Fin 9) (d : Fin 256) :
    newCache (proj (blkLayer x8 x9 x10 x11) (blkHid1 x0 x1 x2 x3 x4 x5 x6 x7 bb)) s d
      = newCacheArrK a 1 (ix4 b d s (0 : Fin 1)) := by
  show _ = newCache (proj (a.layer 1).toLayer (hid1K a b)) s d
  rw [h.layer1, h.hid1]

/-- Layer 2's new cache for batch row `b`. -/
theorem newCache2 (s : Fin 9) (d : Fin 256) :
    newCache (proj (blkLayer x13 x14 x15 x16) (blkHid2 x0 x1 x2 x3 x4 x5 x6 x7 x8 x9 x10 x11 x12 bb)) s d
      = newCacheArrK a 2 (ix4 b d s (0 : Fin 1)) := by
  show _ = newCache (proj (a.layer 2).toLayer (hid2K a b)) s d
  rw [h.layer2, h.hid2]

/-- Layer 3's new cache for batch row `b`. -/
theorem newCache3 (s : Fin 9) (d : Fin 256) :
    newCache (proj (blkLayer x18 x19 x20 x21) (blkHid3 x0 x1 x2 x3 x4 x5 x6 x7 x8 x9 x10 x11 x12 x13 x14 x15 x16 x17 bb)) s d
      = newCacheArrK a 3 (ix4 b d s (0 : Fin 1)) := by
  show _ = newCache (proj (a.layer 3).toLayer (hid3K a b)) s d
  rw [h.layer3, h.hid3]

end BlockOf

end Cert.KernelIdeal.Hand

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibBroadcastInDim.lean ====
/-
  Three `broadcast_in_dim` layouts read at an index: general lemmas.

  A column `[a, 1]` sent to `[a, b]` along both axes repeats its one column; a row `[1, b]` sent to `[a, b]` along both
  axes repeats its one row; a vector `[b]` sent to `[1, b]` along axis 1 is the row with the vector's entries.
-/
import Idealize.ShloMosaic.Lib.Pipeline.Value
import Idealize.ShloMosaic.Lib.ValueIdx

namespace BroadcastRead

open Idealize.ShloMosaic Idealize.ShloMosaic.ValueIdx

/-- A column `[a, 1]` broadcast to `[a, b]` reads, at `(p, q)`, the column at row `p`. -/
theorem column_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads, at `(p, q)`, the row at column `q`. -/
theorem row_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` broadcast to the row `[1, b]` along axis 1 reads, at `(u, q)`, the vector at `q`. -/
theorem vector_row_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end BroadcastRead
-- ==== Proof.KHost.lean ====
/-
  The arrays the kernel's windows read, as the region finds them, entry by entry in terms of the
  network's arguments.

  Before the region the host folds each pair of adjacent linear maps — the weight the product of the two
  matrices, the bias the first bias as a row through the second matrix plus the second bias as a row —,
  narrows the input and every weight (the identity on the extended reals), turns each affine bias into a
  row, and reshapes each cache `[256, 256, 9, 1]` to `[256, 256, 9]` and transposes it to time-major
  `[256, 9, 256]`.  Entry `(e, n)` of a folded weight is `Spec.foldW` of the two matrices, entry `(0, n)`
  of a folded bias row is `Spec.foldB`, entry `(b, s, d)` of a time-major cache is entry `(b, d, s, 0)` of
  the cache argument.
-/
import proofs.«129047_g2000306104881685_pallasbulk_300_2_alg».proof.Proof.KernelIdealFrameP
import proofs.«129047_g2000306104881685_pallasbulk_300_2_alg».proof.Proof.ArgsOf
import proofs.«129047_g2000306104881685_pallasbulk_300_2_alg».proof.Proof.LibMatmulNN
import proofs.«129047_g2000306104881685_pallasbulk_300_2_alg».proof.Proof.LibBroadcastInDim
import Idealize.ShloMosaic.Lib.Pipeline.Value
import Idealize.ShloMosaic.Lib.ValueLayout
import Idealize.ShloMosaic.Lib.Tactic
import Idealize.ShloMosaic.PureOps.Ideal.Laws

set_option maxRecDepth 65536

open scoped BigOperators

noncomputable section

namespace Cert.KernelIdeal.Hand

open Cert.KernelIdeal Cert.KernelIdeal.Gen Cert.KernelIdeal.GenP Idealize.ShloMosaic Idealize.ShloMosaic.TcCoe Idealize.SL.Sem
open Idealize.ShloMosaic.ValueIdx Idealize.ShloMosaic.StableHlo

/-! ## The host's operations at an index -/

/-- A host product of rows against columns: entry `(p, q)` is row `p` against column `q`. -/
theorem dotNN_apply {M N K : ℕ}
    (wf : DotDims.WF (⟨2, ![M, K]⟩ : Shape) (⟨2, ![K, N]⟩ : Shape) (⟨2, ![M, N]⟩ : Shape) [1] [0] [0] [1] [] [])
    {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral (Cert.LibMatmulNN.dims wf) prec sched lhs rhs (ix2 p q) = ∑ e : Fin K, lhs (ix2 p e) * rhs (ix2 e q) := by
  rw [Ideal.dotGeneral_apply, ← Equiv.sum_comp (contrEquiv1 (Cert.LibMatmulNN.dims wf) K rfl rfl).symm]
  refine Finset.sum_congr rfl fun e _ => ?_
  rw [Cert.LibMatmulNN.lhsIdx_eq wf p q e, Cert.LibMatmulNN.rhsIdx_eq wf p q e]

/-- The folded weight: the product of the two matrices. -/
theorem foldedWeight_apply (A B : FVec Ideal S256x256 .f32) (e n : Fin 256) :
    (truncf (F := Ideal) .bf16 (Host.dotGeneral (F := Ideal) dot_S256x256_S256x256_S256x256_1_0_0_1_n_n none A B) bitsLt_bf16_f32
        : S256x256.Idx → EReal) (ix2 e n)
      = Cert.Spec.foldW (fun e n => A (ix2 e n)) (fun e n => B (ix2 e n)) e n :=
  dotNN_apply (M := 256) (N := 256) (K := 256) dot_S256x256_S256x256_S256x256_1_0_0_1_n_n.wf none .single A B e n

/-- The folded bias row: the first bias as a row through the second matrix, plus the second bias as a row. -/
theorem foldedBias_apply (b1 : FVec Ideal S256 .f32) (W : FVec Ideal S256x256 .f32) (b2 : FVec Ideal S256 .f32) (n : Fin 256) :
    (addf (Host.dotGeneral (F := Ideal) dot_S1x256_S256x256_S1x256_1_0_0_1_n_n none
            (broadcastInDim S1x256 ![1] bcast_S256_S1x256_1 b1) W)
          (broadcastInDim S1x256 ![1] bcast_S256_S1x256_1 b2) : S1x256.Idx → EReal) (ix2 (0 : Fin 1) n)
      = Cert.Spec.foldB (fun n => b1 (ix1 n)) (fun e n => W (ix2 e n)) (fun n => b2 (ix1 n)) n := by
  rw [addf_apply]
  refine congrArg₂ (· + ·) ?_ (BroadcastRead.vector_row_apply b2 bcast_S256_S1x256_1 0 n)
  refine (dotNN_apply (M := 1) (N := 256) (K := 256) dot_S1x256_S256x256_S1x256_1_0_0_1_n_n.wf none .single _ W 0 n).trans ?_
  refine Finset.sum_congr rfl fun j _ => ?_
  rw [BroadcastRead.vector_row_apply b1 bcast_S256_S1x256_1 0 j]

/-- An affine bias turned into a row. -/
theorem affineBiasRow_apply (v : FVec Ideal S256 .f32) (n : Fin 256) :
    (shapeCast S1x256 v shapeCasts_S256_S1x256 : S1x256.Idx → EReal) (ix2 (0 : Fin 1) n) = v (ix1 n) :=
  shapeCast_a_1a_apply v shapeCasts_S256_S1x256 0 n

/-- A cache made time-major: entry `(b, s, d)` is entry `(b, d, s, 0)` of the cache argument. -/
theorem cacheTimeMajor_apply (C : FVec Ideal S256x256x9x1 .f32) (b : Fin 256) (s : Fin 9) (d : Fin 256) :
    (transpose S256x9x256 [0, 2, 1] (shapeCast S256x256x9 C shapeCasts_S256x256x9x1_S256x256x9)
        transposes_S256x256x9_S256x9x256_0_2_1 : S256x9x256.Idx → EReal) (ix3 b s d) = C (ix4 b d s (0 : Fin 1)) := by
  rw [transpose_ix3_021_apply]
  refine shapeCast_apply C shapeCasts_S256x256x9x1_S256x256x9 _ _ ?_
  rw [Shape.rowMajor_val_four, Shape.rowMajor_val_three]
  show ((b.val * 256 + d.val) * 9 + s.val) * 1 + 0 = (b.val * 256 + d.val) * 9 + s.val
  omega

/-! ## The arrays of the input and output stacks, as the region finds them -/

variable (m : (ℓ : Loc nD τ sig) → Buf (Elt Ideal) ℓ)

/-- The input, narrowed: the input itself. -/
theorem V_x (c : Dev nD) : (V m c main_v20 : S256x128x256.Idx → EReal) = (argsOf m c).x := by
  have h : (V m c main_v20 : S256x128x256.Idx → EReal)
      = truncf (F := Ideal) .bf16 ((m ((c : Thread nD τ).loc main_arg0)) : FVec Ideal S256x128x256 .f32) bitsLt_bf16_f32 := by
    show StableHlo.after hostOps0 (fun b => m (c, b)) (Proc.devRef .tc main_v20) = _
    after_results
  rw [h]; rfl

/-- The folded input weight. -/
theorem V_inW_apply (c : Dev nD) (e n : Fin 256) : (V m c main_v1 : S256x256.Idx → EReal) (ix2 e n)
    = Cert.Spec.foldW (Cert.Spec.mat (argsOf m c).in_w1) (Cert.Spec.mat (argsOf m c).in_w2) e n := by
  have h : (V m c main_v1 : S256x256.Idx → EReal)
      = truncf (F := Ideal) .bf16 (Host.dotGeneral (F := Ideal) (φ₁ := .f32) (φ₂ := .f32) dot_S256x256_S256x256_S256x256_1_0_0_1_n_n none
          ((m ((c : Thread nD τ).loc main_arg1)) : FVec Ideal S256x256 .f32) ((m ((c : Thread nD τ).loc main_arg3)) : FVec Ideal S256x256 .f32)) bitsLt_bf16_f32 := by
    show StableHlo.after hostOps0 (fun b => m (c, b)) (Proc.devRef .tc main_v1) = _
    after_results
  rw [h]
  exact foldedWeight_apply _ _ e n

/-- The folded input bias row. -/
theorem V_inB_apply (c : Dev nD) (n : Fin 256) : (V m c main_v5 : S1x256.Idx → EReal) (ix2 (0 : Fin 1) n)
    = Cert.Spec.foldB (Cert.Spec.vec (argsOf m c).in_b1) (Cert.Spec.mat (argsOf m c).in_w2) (Cert.Spec.vec (argsOf m c).in_b2) n := by
  have h : (V m c main_v5 : S1x256.Idx → EReal)
      = addf (Host.dotGeneral (F := Ideal) (φ₁ := .f32) (φ₂ := .f32) dot_S1x256_S256x256_S1x256_1_0_0_1_n_n none
            (broadcastInDim S1x256 ![1] bcast_S256_S1x256_1 ((m ((c : Thread nD τ).loc main_arg2)) : FVec Ideal S256 .f32)) ((m ((c : Thread nD τ).loc main_arg3)) : FVec Ideal S256x256 .f32))
          (broadcastInDim S1x256 ![1] bcast_S256_S1x256_1 ((m ((c : Thread nD τ).loc main_arg4)) : FVec Ideal S256 .f32)) := by
    show StableHlo.after hostOps0 (fun b => m (c, b)) (Proc.devRef .tc main_v5) = _
    after_results
  rw [h]
  exact foldedBias_apply _ _ _ n

/-- The folded output weight. -/
theorem V_outW_apply (c : Dev nD) (e n : Fin 256) : (V m c main_v7 : S256x256.Idx → EReal) (ix2 e n)
    = Cert.Spec.foldW (Cert.Spec.mat (argsOf m c).out_w1) (Cert.Spec.mat (argsOf m c).out_w2) e n := by
  have h : (V m c main_v7 : S256x256.Idx → EReal)
      = truncf (F := Ideal) .bf16 (Host.dotGeneral (F := Ideal) (φ₁ := .f32) (φ₂ := .f32) dot_S256x256_S256x256_S256x256_1_0_0_1_n_n none
          ((m ((c : Thread nD τ).loc main_arg5)) : FVec Ideal S256x256 .f32) ((m ((c : Thread nD τ).loc main_arg7)) : FVec Ideal S256x256 .f32)) bitsLt_bf16_f32 := by
    show StableHlo.after hostOps0 (fun b => m (c, b)) (Proc.devRef .tc main_v7) = _
    after_results
  rw [h]
  exact foldedWeight_apply _ _ e n

/-- The folded output bias row. -/
theorem V_outB_apply (c : Dev nD) (n : Fin 256) : (V m c main_v11 : S1x256.Idx → EReal) (ix2 (0 : Fin 1) n)
    = Cert.Spec.foldB (Cert.Spec.vec (argsOf m c).out_b1) (Cert.Spec.mat (argsOf m c).out_w2) (Cert.Spec.vec (argsOf m c).out_b2) n := by
  have h : (V m c main_v11 : S1x256.Idx → EReal)
      = addf (Host.dotGeneral (F := Ideal) (φ₁ := .f32) (φ₂ := .f32) dot_S1x256_S256x256_S1x256_1_0_0_1_n_n none
            (broadcastInDim S1x256 ![1] bcast_S256_S1x256_1 ((m ((c : Thread nD τ).loc main_arg6)) : FVec Ideal S256 .f32)) ((m ((c : Thread nD τ).loc main_arg7)) : FVec Ideal S256x256 .f32))
          (broadcastInDim S1x256 ![1] bcast_S256_S1x256_1 ((m ((c : Thread nD τ).loc main_arg8)) : FVec Ideal S256 .f32)) := by
    show StableHlo.after hostOps0 (fun b => m (c, b)) (Proc.devRef .tc main_v11) = _
    after_results
  rw [h]
  exact foldedBias_apply _ _ _ n

end Cert.KernelIdeal.Hand

end
-- ==== Proof.KHostLayers.lean ====
/-
  The arrays of the four layers' windows, as the region finds them: each projection and affine weight
  narrowed (the weight itself), each filter untouched, each affine bias as a row, each cache time-major.
-/
import proofs.«129047_g2000306104881685_pallasbulk_300_2_alg».proof.Proof.KHost

set_option maxRecDepth 65536

noncomputable section

namespace Cert.KernelIdeal.Hand

open Cert.KernelIdeal Cert.KernelIdeal.Gen Cert.KernelIdeal.GenP Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## Layer 0 -/

theorem V_lin0 (c : Dev nD) : (V m c main_v21 : S256x256.Idx → EReal) = ((argsOf m c).layer 0).lin_w := by
  have h : (V m c main_v21 : S256x256.Idx → EReal)
      = truncf (F := Ideal) .bf16 ((m ((c : Thread nD τ).loc main_arg9)) : FVec Ideal S256x256 .f32) bitsLt_bf16_f32 := by
    show StableHlo.after hostOps0 (fun b => m (c, b)) (Proc.devRef .tc main_v21) = _
    after_results
  rw [h]; rfl

theorem V_filt0 (c : Dev nD) : (V m c main_arg10 : S10x256.Idx → EReal) = ((argsOf m c).layer 0).filt :=
  V_main_arg10 m c

theorem V_affW0 (c : Dev nD) : (V m c main_v22 : S256x256.Idx → EReal) = ((argsOf m c).layer 0).aff_w := by
  have h : (V m c main_v22 : S256x256.Idx → EReal)
      = truncf (F := Ideal) .bf16 ((m ((c : Thread nD τ).loc main_arg11)) : FVec Ideal S256x256 .f32) bitsLt_bf16_f32 := by
    show StableHlo.after hostOps0 (fun b => m (c, b)) (Proc.devRef .tc main_v22) = _
    after_results
  rw [h]; rfl

theorem V_affB0_apply (c : Dev nD) (n : Fin 256) : (V m c main_v23 : S1x256.Idx → EReal) (ix2 (0 : Fin 1) n)
    = ((argsOf m c).layer 0).aff_b (ix1 n) := by
  have h : (V m c main_v23 : S1x256.Idx → EReal)
      = shapeCast S1x256 ((m ((c : Thread nD τ).loc main_arg12)) : FVec Ideal S256 .f32) shapeCasts_S256_S1x256 := by
    show StableHlo.after hostOps0 (fun b => m (c, b)) (Proc.devRef .tc main_v23) = _
    after_results
    rfl
  rw [h]
  exact affineBiasRow_apply _ n

theorem V_cache0_apply (c : Dev nD) (b : Fin 256) (s : Fin 9) (d : Fin 256) : (V m c main_v13 : S256x9x256.Idx → EReal) (ix3 b s d)
    = ((argsOf m c).layer 0).cache (ix4 b d s (0 : Fin 1)) := by
  have h : (V m c main_v13 : S256x9x256.Idx → EReal)
      = transpose S256x9x256 [0, 2, 1] (shapeCast S256x256x9 ((m ((c : Thread nD τ).loc main_arg13)) : FVec Ideal S256x256x9x1 .f32) shapeCasts_S256x256x9x1_S256x256x9)
          transposes_S256x256x9_S256x9x256_0_2_1 := by
    show StableHlo.after hostOps0 (fun b => m (c, b)) (Proc.devRef .tc main_v13) = _
    after_results
    rfl
  rw [h]
  exact cacheTimeMajor_apply _ b s d

/-! ## Layer 1 -/

theorem V_lin1 (c : Dev nD) : (V m c main_v24 : S256x256.Idx → EReal) = ((argsOf m c).layer 1).lin_w := by
  have h : (V m c main_v24 : S256x256.Idx → EReal)
      = truncf (F := Ideal) .bf16 ((m ((c : Thread nD τ).loc main_arg14)) : FVec Ideal S256x256 .f32) bitsLt_bf16_f32 := by
    show StableHlo.after hostOps0 (fun b => m (c, b)) (Proc.devRef .tc main_v24) = _
    after_results
  rw [h]; rfl

theorem V_filt1 (c : Dev nD) : (V m c main_arg15 : S10x256.Idx → EReal) = ((argsOf m c).layer 1).filt :=
  V_main_arg15 m c

theorem V_affW1 (c : Dev nD) : (V m c main_v25 : S256x256.Idx → EReal) = ((argsOf m c).layer 1).aff_w := by
  have h : (V m c main_v25 : S256x256.Idx → EReal)
      = truncf (F := Ideal) .bf16 ((m ((c : Thread nD τ).loc main_arg16)) : FVec Ideal S256x256 .f32) bitsLt_bf16_f32 := by
    show StableHlo.after hostOps0 (fun b => m (c, b)) (Proc.devRef .tc main_v25) = _
    after_results
  rw [h]; rfl

theorem V_affB1_apply (c : Dev nD) (n : Fin 256) : (V m c main_v26 : S1x256.Idx → EReal) (ix2 (0 : Fin 1) n)
    = ((argsOf m c).layer 1).aff_b (ix1 n) := by
  have h : (V m c main_v26 : S1x256.Idx → EReal)
      = shapeCast S1x256 ((m ((c : Thread nD τ).loc main_arg17)) : FVec Ideal S256 .f32) shapeCasts_S256_S1x256 := by
    show StableHlo.after hostOps0 (fun b => m (c, b)) (Proc.devRef .tc main_v26) = _
    after_results
    rfl
  rw [h]
  exact affineBiasRow_apply _ n

theorem V_cache1_apply (c : Dev nD) (b : Fin 256) (s : Fin 9) (d : Fin 256) : (V m c main_v15 : S256x9x256.Idx → EReal) (ix3 b s d)
    = ((argsOf m c).layer 1).cache (ix4 b d s (0 : Fin 1)) := by
  have h : (V m c main_v15 : S256x9x256.Idx → EReal)
      = transpose S256x9x256 [0, 2, 1] (shapeCast S256x256x9 ((m ((c : Thread nD τ).loc main_arg18)) : FVec Ideal S256x256x9x1 .f32) shapeCasts_S256x256x9x1_S256x256x9)
          transposes_S256x256x9_S256x9x256_0_2_1 := by
    show StableHlo.after hostOps0 (fun b => m (c, b)) (Proc.devRef .tc main_v15) = _
    after_results
    rfl
  rw [h]
  exact cacheTimeMajor_apply _ b s d

/-! ## Layer 2 -/

theorem V_lin2 (c : Dev nD) : (V m c main_v27 : S256x256.Idx → EReal) = ((argsOf m c).layer 2).lin_w := by
  have h : (V m c main_v27 : S256x256.Idx → EReal)
      = truncf (F := Ideal) .bf16 ((m ((c : Thread nD τ).loc main_arg19)) : FVec Ideal S256x256 .f32) bitsLt_bf16_f32 := by
    show StableHlo.after hostOps0 (fun b => m (c, b)) (Proc.devRef .tc main_v27) = _
    after_results
  rw [h]; rfl

theorem V_filt2 (c : Dev nD) : (V m c main_arg20 : S10x256.Idx → EReal) = ((argsOf m c).layer 2).filt :=
  V_main_arg20 m c

theorem V_affW2 (c : Dev nD) : (V m c main_v28 : S256x256.Idx → EReal) = ((argsOf m c).layer 2).aff_w := by
  have h : (V m c main_v28 : S256x256.Idx → EReal)
      = truncf (F := Ideal) .bf16 ((m ((c : Thread nD τ).loc main_arg21)) : FVec Ideal S256x256 .f32) bitsLt_bf16_f32 := by
    show StableHlo.after hostOps0 (fun b => m (c, b)) (Proc.devRef .tc main_v28) = _
    after_results
  rw [h]; rfl

theorem V_affB2_apply (c : Dev nD) (n : Fin 256) : (V m c main_v29 : S1x256.Idx → EReal) (ix2 (0 : Fin 1) n)
    = ((argsOf m c).layer 2).aff_b (ix1 n) := by
  have h : (V m c main_v29 : S1x256.Idx → EReal)
      = shapeCast S1x256 ((m ((c : Thread nD τ).loc main_arg22)) : FVec Ideal S256 .f32) shapeCasts_S256_S1x256 := by
    show StableHlo.after hostOps0 (fun b => m (c, b)) (Proc.devRef .tc main_v29) = _
    after_results
    rfl
  rw [h]
  exact affineBiasRow_apply _ n

theorem V_cache2_apply (c : Dev nD) (b : Fin 256) (s : Fin 9) (d : Fin 256) : (V m c main_v17 : S256x9x256.Idx → EReal) (ix3 b s d)
    = ((argsOf m c).layer 2).cache (ix4 b d s (0 : Fin 1)) := by
  have h : (V m c main_v17 : S256x9x256.Idx → EReal)
      = transpose S256x9x256 [0, 2, 1] (shapeCast S256x256x9 ((m ((c : Thread nD τ).loc main_arg23)) : FVec Ideal S256x256x9x1 .f32) shapeCasts_S256x256x9x1_S256x256x9)
          transposes_S256x256x9_S256x9x256_0_2_1 := by
    show StableHlo.after hostOps0 (fun b => m (c, b)) (Proc.devRef .tc main_v17) = _
    after_results
    rfl
  rw [h]
  exact cacheTimeMajor_apply _ b s d

/-! ## Layer 3 -/

theorem V_lin3 (c : Dev nD) : (V m c main_v30 : S256x256.Idx → EReal) = ((argsOf m c).layer 3).lin_w := by
  have h : (V m c main_v30 : S256x256.Idx → EReal)
      = truncf (F := Ideal) .bf16 ((m ((c : Thread nD τ).loc main_arg24)) : FVec Ideal S256x256 .f32) bitsLt_bf16_f32 := by
    show StableHlo.after hostOps0 (fun b => m (c, b)) (Proc.devRef .tc main_v30) = _
    after_results
  rw [h]; rfl

theorem V_filt3 (c : Dev nD) : (V m c main_arg25 : S10x256.Idx → EReal) = ((argsOf m c).layer 3).filt :=
  V_main_arg25 m c

theorem V_affW3 (c : Dev nD) : (V m c main_v31 : S256x256.Idx → EReal) = ((argsOf m c).layer 3).aff_w := by
  have h : (V m c main_v31 : S256x256.Idx → EReal)
      = truncf (F := Ideal) .bf16 ((m ((c : Thread nD τ).loc main_arg26)) : FVec Ideal S256x256 .f32) bitsLt_bf16_f32 := by
    show StableHlo.after hostOps0 (fun b => m (c, b)) (Proc.devRef .tc main_v31) = _
    after_results
  rw [h]; rfl

theorem V_affB3_apply (c : Dev nD) (n : Fin 256) : (V m c main_v32 : S1x256.Idx → EReal) (ix2 (0 : Fin 1) n)
    = ((argsOf m c).layer 3).aff_b (ix1 n) := by
  have h : (V m c main_v32 : S1x256.Idx → EReal)
      = shapeCast S1x256 ((m ((c : Thread nD τ).loc main_arg27)) : FVec Ideal S256 .f32) shapeCasts_S256_S1x256 := by
    show StableHlo.after hostOps0 (fun b => m (c, b)) (Proc.devRef .tc main_v32) = _
    after_results
    rfl
  rw [h]
  exact affineBiasRow_apply _ n

theorem V_cache3_apply (c : Dev nD) (b : Fin 256) (s : Fin 9) (d : Fin 256) : (V m c main_v19 : S256x9x256.Idx → EReal) (ix3 b s d)
    = ((argsOf m c).layer 3).cache (ix4 b d s (0 : Fin 1)) := by
  have h : (V m c main_v19 : S256x9x256.Idx → EReal)
      = transpose S256x9x256 [0, 2, 1] (shapeCast S256x256x9 ((m ((c : Thread nD τ).loc main_arg28)) : FVec Ideal S256x256x9x1 .f32) shapeCasts_S256x256x9x1_S256x256x9)
          transposes_S256x256x9_S256x9x256_0_2_1 := by
    show StableHlo.after hostOps0 (fun b => m (c, b)) (Proc.devRef .tc main_v19) = _
    after_results
    rfl
  rw [h]
  exact cacheTimeMajor_apply _ b s d

end Cert.KernelIdeal.Hand

end
-- ==== Proof.KReads.lean ====
/-
  Each input window's block at a grid point, read at the window's array.

  The grid has sixteen points; point `t` takes batch rows `16 t … 16 t + 15`.  The input and the four
  time-major caches are cut along the batch axis — block index `(t, 0, 0)` — so entry `(bb, ·, ·)` of
  the block is entry `(16 t + bb, ·, ·)` of the array; every weight, bias row and filter window takes its
  whole array — block index `(0, 0)` — so the block is the array.  The output windows are cut like the
  input.  The index maps are decided once over the sixteen points.
-/
import proofs.«129047_g2000306104881685_pallasbulk_300_2_alg».proof.Proof.KernelIdealFrameP
import Idealize.ShloMosaic.Lib.Pipeline.Value
import Idealize.ShloMosaic.Lib.ValueIdx

set_option maxRecDepth 65536

noncomputable section

namespace Cert.KernelIdeal.Hand

open Cert.KernelIdeal Cert.KernelIdeal.Gen Cert.KernelIdeal.GenP Idealize.ShloMosaic Idealize.ShloMosaic.TcCoe Idealize.SL.Sem
open Idealize.ShloMosaic.ValueIdx

variable (m : (ℓ : Loc nD τ sig) → Buf (Elt Ideal) ℓ)

/-! ## The index maps over the grid -/
theorem blockIndex0 : ∀ t : Fin cfg0.N, win0_0.index t (0 : Fin 3) = t.val ∧ win0_0.index t (1 : Fin 3) = 0 ∧ win0_0.index t (2 : Fin 3) = 0 :=
  (by decide +kernel : ∀ t : Fin grid0.N, _)
theorem blockIndex1 : ∀ t : Fin cfg0.N, win0_1.index t (0 : Fin 2) = 0 ∧ win0_1.index t (1 : Fin 2) = 0 :=
  (by decide +kernel : ∀ t : Fin grid0.N, _)
theorem blockIndex2 : ∀ t : Fin cfg0.N, win0_2.index t (0 : Fin 2) = 0 ∧ win0_2.index t (1 : Fin 2) = 0 :=
  (by decide +kernel : ∀ t : Fin grid0.N, _)
theorem blockIndex3 : ∀ t : Fin cfg0.N, win0_3.index t (0 : Fin 2) = 0 ∧ win0_3.index t (1 : Fin 2) = 0 :=
  (by decide +kernel : ∀ t : Fin grid0.N, _)
theorem blockIndex4 : ∀ t : Fin cfg0.N, win0_4.index t (0 : Fin 2) = 0 ∧ win0_4.index t (1 : Fin 2) = 0 :=
  (by decide +kernel : ∀ t : Fin grid0.N, _)
theorem blockIndex5 : ∀ t : Fin cfg0.N, win0_5.index t (0 : Fin 2) = 0 ∧ win0_5.index t (1 : Fin 2) = 0 :=
  (by decide +kernel : ∀ t : Fin grid0.N, _)
theorem blockIndex6 : ∀ t : Fin cfg0.N, win0_6.index t (0 : Fin 2) = 0 ∧ win0_6.index t (1 : Fin 2) = 0 :=
  (by decide +kernel : ∀ t : Fin grid0.N, _)
theorem blockIndex7 : ∀ t : Fin cfg0.N, win0_7.index t (0 : Fin 3) = t.val ∧ win0_7.index t (1 : Fin 3) = 0 ∧ win0_7.index t (2 : Fin 3) = 0 :=
  (by decide +kernel : ∀ t : Fin grid0.N, _)
theorem blockIndex8 : ∀ t : Fin cfg0.N, win0_8.index t (0 : Fin 2) = 0 ∧ win0_8.index t (1 : Fin 2) = 0 :=
  (by decide +kernel : ∀ t : Fin grid0.N, _)
theorem blockIndex9 : ∀ t : Fin cfg0.N, win0_9.index t (0 : Fin 2) = 0 ∧ win0_9.index t (1 : Fin 2) = 0 :=
  (by decide +kernel : ∀ t : Fin grid0.N, _)
theorem blockIndex10 : ∀ t : Fin cfg0.N, win0_10.index t (0 : Fin 2) = 0 ∧ win0_10.index t (1 : Fin 2) = 0 :=
  (by decide +kernel : ∀ t : Fin grid0.N, _)
theorem blockIndex11 : ∀ t : Fin cfg0.N, win0_11.index t (0 : Fin 2) = 0 ∧ win0_11.index t (1 : Fin 2) = 0 :=
  (by decide +kernel : ∀ t : Fin grid0.N, _)
theorem blockIndex12 : ∀ t : Fin cfg0.N, win0_12.index t (0 : Fin 3) = t.val ∧ win0_12.index t (1 : Fin 3) = 0 ∧ win0_12.index t (2 : Fin 3) = 0 :=
  (by decide +kernel : ∀ t : Fin grid0.N, _)
theorem blockIndex13 : ∀ t : Fin cfg0.N, win0_13.index t (0 : Fin 2) = 0 ∧ win0_13.index t (1 : Fin 2) = 0 :=
  (by decide +kernel : ∀ t : Fin grid0.N, _)
theorem blockIndex14 : ∀ t : Fin cfg0.N, win0_14.index t (0 : Fin 2) = 0 ∧ win0_14.index t (1 : Fin 2) = 0 :=
  (by decide +kernel : ∀ t : Fin grid0.N, _)
theorem blockIndex15 : ∀ t : Fin cfg0.N, win0_15.index t (0 : Fin 2) = 0 ∧ win0_15.index t (1 : Fin 2) = 0 :=
  (by decide +kernel : ∀ t : Fin grid0.N, _)
theorem blockIndex16 : ∀ t : Fin cfg0.N, win0_16.index t (0 : Fin 2) = 0 ∧ win0_16.index t (1 : Fin 2) = 0 :=
  (by decide +kernel : ∀ t : Fin grid0.N, _)
theorem blockIndex17 : ∀ t : Fin cfg0.N, win0_17.index t (0 : Fin 3) = t.val ∧ win0_17.index t (1 : Fin 3) = 0 ∧ win0_17.index t (2 : Fin 3) = 0 :=
  (by decide +kernel : ∀ t : Fin grid0.N, _)
theorem blockIndex18 : ∀ t : Fin cfg0.N, win0_18.index t (0 : Fin 2) = 0 ∧ win0_18.index t (1 : Fin 2) = 0 :=
  (by decide +kernel : ∀ t : Fin grid0.N, _)
theorem blockIndex19 : ∀ t : Fin cfg0.N, win0_19.index t (0 : Fin 2) = 0 ∧ win0_19.index t (1 : Fin 2) = 0 :=
  (by decide +kernel : ∀ t : Fin grid0.N, _)
theorem blockIndex20 : ∀ t : Fin cfg0.N, win0_20.index t (0 : Fin 2) = 0 ∧ win0_20.index t (1 : Fin 2) = 0 :=
  (by decide +kernel : ∀ t : Fin grid0.N, _)
theorem blockIndex21 : ∀ t : Fin cfg0.N, win0_21.index t (0 : Fin 2) = 0 ∧ win0_21.index t (1 : Fin 2) = 0 :=
  (by decide +kernel : ∀ t : Fin grid0.N, _)
theorem blockIndex22 : ∀ t : Fin cfg0.N, win0_22.index t (0 : Fin 3) = t.val ∧ win0_22.index t (1 : Fin 3) = 0 ∧ win0_22.index t (2 : Fin 3) = 0 :=
  (by decide +kernel : ∀ t : Fin grid0.N, _)
theorem blockIndex23 : ∀ t : Fin cfg0.N, win0_23.index t (0 : Fin 2) = 0 ∧ win0_23.index t (1 : Fin 2) = 0 :=
  (by decide +kernel : ∀ t : Fin grid0.N, _)
theorem blockIndex24 : ∀ t : Fin cfg0.N, win0_24.index t (0 : Fin 2) = 0 ∧ win0_24.index t (1 : Fin 2) = 0 :=
  (by decide +kernel : ∀ t : Fin grid0.N, _)
theorem blockIndex25 : ∀ t : Fin cfg0.N, win0_25.index t (0 : Fin 3) = t.val ∧ win0_25.index t (1 : Fin 3) = 0 ∧ win0_25.index t (2 : Fin 3) = 0 :=
  (by decide +kernel : ∀ t : Fin grid0.N, _)
theorem blockIndex26 : ∀ t : Fin cfg0.N, win0_26.index t (0 : Fin 3) = t.val ∧ win0_26.index t (1 : Fin 3) = 0 ∧ win0_26.index t (2 : Fin 3) = 0 :=
  (by decide +kernel : ∀ t : Fin grid0.N, _)
theorem blockIndex27 : ∀ t : Fin cfg0.N, win0_27.index t (0 : Fin 3) = t.val ∧ win0_27.index t (1 : Fin 3) = 0 ∧ win0_27.index t (2 : Fin 3) = 0 :=
  (by decide +kernel : ∀ t : Fin grid0.N, _)
theorem blockIndex28 : ∀ t : Fin cfg0.N, win0_28.index t (0 : Fin 3) = t.val ∧ win0_28.index t (1 : Fin 3) = 0 ∧ win0_28.index t (2 : Fin 3) = 0 :=
  (by decide +kernel : ∀ t : Fin grid0.N, _)
theorem blockIndex29 : ∀ t : Fin cfg0.N, win0_29.index t (0 : Fin 3) = t.val ∧ win0_29.index t (1 : Fin 3) = 0 ∧ win0_29.index t (2 : Fin 3) = 0 :=
  (by decide +kernel : ∀ t : Fin grid0.N, _)

/-! ## The input blocks at their arrays -/

/-- Window 0 (the input): batch row `bb` of the block is batch row `16 t + bb` of the array. -/
theorem iblk0_apply (c : Dev nD) (t : Fin cfg0.N) (bb : Fin 16) (p : Fin 128) (q : Fin 256) (b : Fin 256)
    (hb : b.val = 16 * t.val + bb.val) :
    (iblk m c 0 t : Vec Ideal S16x128x256 .bf16) (ix3 bb p q) = (V m c main_v20 : S256x128x256.Idx → EReal) (ix3 b p q) := by
  obtain ⟨h0, h1, h2⟩ := blockIndex0 t
  unfold iblk
  rw [View.read_apply]
  show V m c main_v20 _ = V m c main_v20 _
  refine congrArg _ (funext fun a => Fin.ext ?_)
  match a with
  | ⟨0, _⟩ => show win0_0.index t (0 : Fin 3) * 16 + 1 * bb.val = b.val; omega
  | ⟨1, _⟩ => show win0_0.index t (1 : Fin 3) * 128 + 1 * p.val = p.val; omega
  | ⟨2, _⟩ => show win0_0.index t (2 : Fin 3) * 256 + 1 * q.val = q.val; omega

/-- Window 1 (the folded input weight): the block is the array. -/
theorem iblk1_apply (c : Dev nD) (t : Fin cfg0.N) (p : Fin 256) (q : Fin 256) :
    (iblk m c 1 t : Vec Ideal S256x256 .bf16) (ix2 p q) = (V m c main_v1 : S256x256.Idx → EReal) (ix2 p q) := by
  obtain ⟨h0, h1⟩ := blockIndex1 t
  unfold iblk
  rw [View.read_apply]
  show V m c main_v1 _ = V m c main_v1 _
  refine congrArg _ (funext fun a => Fin.ext ?_)
  match a with
  | ⟨0, _⟩ => show win0_1.index t (0 : Fin 2) * 256 + 1 * p.val = p.val; omega
  | ⟨1, _⟩ => show win0_1.index t (1 : Fin 2) * 256 + 1 * q.val = q.val; omega

/-- Window 2 (the folded input bias row): the block is the array. -/
theorem iblk2_apply (c : Dev nD) (t : Fin cfg0.N) (p : Fin 1) (q : Fin 256) :
    (iblk m c 2 t : Vec Ideal S1x256 .f32) (ix2 p q) = (V m c main_v5 : S1x256.Idx → EReal) (ix2 p q) := by
  obtain ⟨h0, h1⟩ := blockIndex2 t
  unfold iblk
  rw [View.read_apply]
  show V m c main_v5 _ = V m c main_v5 _
  refine congrArg _ (funext fun a => Fin.ext ?_)
  match a with
  | ⟨0, _⟩ => show win0_2.index t (0 : Fin 2) * 1 + 1 * p.val = p.val; omega
  | ⟨1, _⟩ => show win0_2.index t (1 : Fin 2) * 256 + 1 * q.val = q.val; omega

/-- Window 3 (layer 0's projection): the block is the array. -/
theorem iblk3_apply (c : Dev nD) (t : Fin cfg0.N) (p : Fin 256) (q : Fin 256) :
    (iblk m c 3 t : Vec Ideal S256x256 .bf16) (ix2 p q) = (V m c main_v21 : S256x256.Idx → EReal) (ix2 p q) := by
  obtain ⟨h0, h1⟩ := blockIndex3 t
  unfold iblk
  rw [View.read_apply]
  show V m c main_v21 _ = V m c main_v21 _
  refine congrArg _ (funext fun a => Fin.ext ?_)
  match a with
  | ⟨0, _⟩ => show win0_3.index t (0 : Fin 2) * 256 + 1 * p.val = p.val; omega
  | ⟨1, _⟩ => show win0_3.index t (1 : Fin 2) * 256 + 1 * q.val = q.val; omega

/-- Window 4 (layer 0's filter): the block is the array. -/
theorem iblk4_apply (c : Dev nD) (t : Fin cfg0.N) (p : Fin 10) (q : Fin 256) :
    (iblk m c 4 t : Vec Ideal S10x256 .f32) (ix2 p q) = (V m c main_arg10 : S10x256.Idx → EReal) (ix2 p q) := by
  obtain ⟨h0, h1⟩ := blockIndex4 t
  unfold iblk
  rw [View.read_apply]
  show V m c main_arg10 _ = V m c main_arg10 _
  refine congrArg _ (funext fun a => Fin.ext ?_)
  match a with
  | ⟨0, _⟩ => show win0_4.index t (0 : Fin 2) * 10 + 1 * p.val = p.val; omega
  | ⟨1, _⟩ => show win0_4.index t (1 : Fin 2) * 256 + 1 * q.val = q.val; omega

/-- Window 5 (layer 0's affine weight): the block is the array. -/
theorem iblk5_apply (c : Dev nD) (t : Fin cfg0.N) (p : Fin 256) (q : Fin 256) :
    (iblk m c 5 t : Vec Ideal S256x256 .bf16) (ix2 p q) = (V m c main_v22 : S256x256.Idx → EReal) (ix2 p q) := by
  obtain ⟨h0, h1⟩ := blockIndex5 t
  unfold iblk
  rw [View.read_apply]
  show V m c main_v22 _ = V m c main_v22 _
  refine congrArg _ (funext fun a => Fin.ext ?_)
  match a with
  | ⟨0, _⟩ => show win0_5.index t (0 : Fin 2) * 256 + 1 * p.val = p.val; omega
  | ⟨1, _⟩ => show win0_5.index t (1 : Fin 2) * 256 + 1 * q.val = q.val; omega

/-- Window 6 (layer 0's affine bias row): the block is the array. -/
theorem iblk6_apply (c : Dev nD) (t : Fin cfg0.N) (p : Fin 1) (q : Fin 256) :
    (iblk m c 6 t : Vec Ideal S1x256 .f32) (ix2 p q) = (V m c main_v23 : S1x256.Idx → EReal) (ix2 p q) := by
  obtain ⟨h0, h1⟩ := blockIndex6 t
  unfold iblk
  rw [View.read_apply]
  show V m c main_v23 _ = V m c main_v23 _
  refine congrArg _ (funext fun a => Fin.ext ?_)
  match a with
  | ⟨0, _⟩ => show win0_6.index t (0 : Fin 2) * 1 + 1 * p.val = p.val; omega
  | ⟨1, _⟩ => show win0_6.index t (1 : Fin 2) * 256 + 1 * q.val = q.val; omega

/-- Window 7 (layer 0's cache, time-major): batch row `bb` of the block is batch row `16 t + bb` of the array. -/
theorem iblk7_apply (c : Dev nD) (t : Fin cfg0.N) (bb : Fin 16) (p : Fin 9) (q : Fin 256) (b : Fin 256)
    (hb : b.val = 16 * t.val + bb.val) :
    (iblk m c 7 t : Vec Ideal S16x9x256 .f32) (ix3 bb p q) = (V m c main_v13 : S256x9x256.Idx → EReal) (ix3 b p q) := by
  obtain ⟨h0, h1, h2⟩ := blockIndex7 t
  unfold iblk
  rw [View.read_apply]
  show V m c main_v13 _ = V m c main_v13 _
  refine congrArg _ (funext fun a => Fin.ext ?_)
  match a with
  | ⟨0, _⟩ => show win0_7.index t (0 : Fin 3) * 16 + 1 * bb.val = b.val; omega
  | ⟨1, _⟩ => show win0_7.index t (1 : Fin 3) * 9 + 1 * p.val = p.val; omega
  | ⟨2, _⟩ => show win0_7.index t (2 : Fin 3) * 256 + 1 * q.val = q.val; omega

/-- Window 8 (layer 1's projection): the block is the array. -/
theorem iblk8_apply (c : Dev nD) (t : Fin cfg0.N) (p : Fin 256) (q : Fin 256) :
    (iblk m c 8 t : Vec Ideal S256x256 .bf16) (ix2 p q) = (V m c main_v24 : S256x256.Idx → EReal) (ix2 p q) := by
  obtain ⟨h0, h1⟩ := blockIndex8 t
  unfold iblk
  rw [View.read_apply]
  show V m c main_v24 _ = V m c main_v24 _
  refine congrArg _ (funext fun a => Fin.ext ?_)
  match a with
  | ⟨0, _⟩ => show win0_8.index t (0 : Fin 2) * 256 + 1 * p.val = p.val; omega
  | ⟨1, _⟩ => show win0_8.index t (1 : Fin 2) * 256 + 1 * q.val = q.val; omega

/-- Window 9 (layer 1's filter): the block is the array. -/
theorem iblk9_apply (c : Dev nD) (t : Fin cfg0.N) (p : Fin 10) (q : Fin 256) :
    (iblk m c 9 t : Vec Ideal S10x256 .f32) (ix2 p q) = (V m c main_arg15 : S10x256.Idx → EReal) (ix2 p q) := by
  obtain ⟨h0, h1⟩ := blockIndex9 t
  unfold iblk
  rw [View.read_apply]
  show V m c main_arg15 _ = V m c main_arg15 _
  refine congrArg _ (funext fun a => Fin.ext ?_)
  match a with
  | ⟨0, _⟩ => show win0_9.index t (0 : Fin 2) * 10 + 1 * p.val = p.val; omega
  | ⟨1, _⟩ => show win0_9.index t (1 : Fin 2) * 256 + 1 * q.val = q.val; omega

/-- Window 10 (layer 1's affine weight): the block is the array. -/
theorem iblk10_apply (c : Dev nD) (t : Fin cfg0.N) (p : Fin 256) (q : Fin 256) :
    (iblk m c 10 t : Vec Ideal S256x256 .bf16) (ix2 p q) = (V m c main_v25 : S256x256.Idx → EReal) (ix2 p q) := by
  obtain ⟨h0, h1⟩ := blockIndex10 t
  unfold iblk
  rw [View.read_apply]
  show V m c main_v25 _ = V m c main_v25 _
  refine congrArg _ (funext fun a => Fin.ext ?_)
  match a with
  | ⟨0, _⟩ => show win0_10.index t (0 : Fin 2) * 256 + 1 * p.val = p.val; omega
  | ⟨1, _⟩ => show win0_10.index t (1 : Fin 2) * 256 + 1 * q.val = q.val; omega

/-- Window 11 (layer 1's affine bias row): the block is the array. -/
theorem iblk11_apply (c : Dev nD) (t : Fin cfg0.N) (p : Fin 1) (q : Fin 256) :
    (iblk m c 11 t : Vec Ideal S1x256 .f32) (ix2 p q) = (V m c main_v26 : S1x256.Idx → EReal) (ix2 p q) := by
  obtain ⟨h0, h1⟩ := blockIndex11 t
  unfold iblk
  rw [View.read_apply]
  show V m c main_v26 _ = V m c main_v26 _
  refine congrArg _ (funext fun a => Fin.ext ?_)
  match a with
  | ⟨0, _⟩ => show win0_11.index t (0 : Fin 2) * 1 + 1 * p.val = p.val; omega
  | ⟨1, _⟩ => show win0_11.index t (1 : Fin 2) * 256 + 1 * q.val = q.val; omega

/-- Window 12 (layer 1's cache, time-major): batch row `bb` of the block is batch row `16 t + bb` of the array. -/
theorem iblk12_apply (c : Dev nD) (t : Fin cfg0.N) (bb : Fin 16) (p : Fin 9) (q : Fin 256) (b : Fin 256)
    (hb : b.val = 16 * t.val + bb.val) :
    (iblk m c 12 t : Vec Ideal S16x9x256 .f32) (ix3 bb p q) = (V m c main_v15 : S256x9x256.Idx → EReal) (ix3 b p q) := by
  obtain ⟨h0, h1, h2⟩ := blockIndex12 t
  unfold iblk
  rw [View.read_apply]
  show V m c main_v15 _ = V m c main_v15 _
  refine congrArg _ (funext fun a => Fin.ext ?_)
  match a with
  | ⟨0, _⟩ => show win0_12.index t (0 : Fin 3) * 16 + 1 * bb.val = b.val; omega
  | ⟨1, _⟩ => show win0_12.index t (1 : Fin 3) * 9 + 1 * p.val = p.val; omega
  | ⟨2, _⟩ => show win0_12.index t (2 : Fin 3) * 256 + 1 * q.val = q.val; omega

/-- Window 13 (layer 2's projection): the block is the array. -/
theorem iblk13_apply (c : Dev nD) (t : Fin cfg0.N) (p : Fin 256) (q : Fin 256) :
    (iblk m c 13 t : Vec Ideal S256x256 .bf16) (ix2 p q) = (V m c main_v27 : S256x256.Idx → EReal) (ix2 p q) := by
  obtain ⟨h0, h1⟩ := blockIndex13 t
  unfold iblk
  rw [View.read_apply]
  show V m c main_v27 _ = V m c main_v27 _
  refine congrArg _ (funext fun a => Fin.ext ?_)
  match a with
  | ⟨0, _⟩ => show win0_13.index t (0 : Fin 2) * 256 + 1 * p.val = p.val; omega
  | ⟨1, _⟩ => show win0_13.index t (1 : Fin 2) * 256 + 1 * q.val = q.val; omega

/-- Window 14 (layer 2's filter): the block is the array. -/
theorem iblk14_apply (c : Dev nD) (t : Fin cfg0.N) (p : Fin 10) (q : Fin 256) :
    (iblk m c 14 t : Vec Ideal S10x256 .f32) (ix2 p q) = (V m c main_arg20 : S10x256.Idx → EReal) (ix2 p q) := by
  obtain ⟨h0, h1⟩ := blockIndex14 t
  unfold iblk
  rw [View.read_apply]
  show V m c main_arg20 _ = V m c main_arg20 _
  refine congrArg _ (funext fun a => Fin.ext ?_)
  match a with
  | ⟨0, _⟩ => show win0_14.index t (0 : Fin 2) * 10 + 1 * p.val = p.val; omega
  | ⟨1, _⟩ => show win0_14.index t (1 : Fin 2) * 256 + 1 * q.val = q.val; omega

/-- Window 15 (layer 2's affine weight): the block is the array. -/
theorem iblk15_apply (c : Dev nD) (t : Fin cfg0.N) (p : Fin 256) (q : Fin 256) :
    (iblk m c 15 t : Vec Ideal S256x256 .bf16) (ix2 p q) = (V m c main_v28 : S256x256.Idx → EReal) (ix2 p q) := by
  obtain ⟨h0, h1⟩ := blockIndex15 t
  unfold iblk
  rw [View.read_apply]
  show V m c main_v28 _ = V m c main_v28 _
  refine congrArg _ (funext fun a => Fin.ext ?_)
  match a with
  | ⟨0, _⟩ => show win0_15.index t (0 : Fin 2) * 256 + 1 * p.val = p.val; omega
  | ⟨1, _⟩ => show win0_15.index t (1 : Fin 2) * 256 + 1 * q.val = q.val; omega

/-- Window 16 (layer 2's affine bias row): the block is the array. -/
theorem iblk16_apply (c : Dev nD) (t : Fin cfg0.N) (p : Fin 1) (q : Fin 256) :
    (iblk m c 16 t : Vec Ideal S1x256 .f32) (ix2 p q) = (V m c main_v29 : S1x256.Idx → EReal) (ix2 p q) := by
  obtain ⟨h0, h1⟩ := blockIndex16 t
  unfold iblk
  rw [View.read_apply]
  show V m c main_v29 _ = V m c main_v29 _
  refine congrArg _ (funext fun a => Fin.ext ?_)
  match a with
  | ⟨0, _⟩ => show win0_16.index t (0 : Fin 2) * 1 + 1 * p.val = p.val; omega
  | ⟨1, _⟩ => show win0_16.index t (1 : Fin 2) * 256 + 1 * q.val = q.val; omega

/-- Window 17 (layer 2's cache, time-major): batch row `bb` of the block is batch row `16 t + bb` of the array. -/
theorem iblk17_apply (c : Dev nD) (t : Fin cfg0.N) (bb : Fin 16) (p : Fin 9) (q : Fin 256) (b : Fin 256)
    (hb : b.val = 16 * t.val + bb.val) :
    (iblk m c 17 t : Vec Ideal S16x9x256 .f32) (ix3 bb p q) = (V m c main_v17 : S256x9x256.Idx → EReal) (ix3 b p q) := by
  obtain ⟨h0, h1, h2⟩ := blockIndex17 t
  unfold iblk
  rw [View.read_apply]
  show V m c main_v17 _ = V m c main_v17 _
  refine congrArg _ (funext fun a => Fin.ext ?_)
  match a with
  | ⟨0, _⟩ => show win0_17.index t (0 : Fin 3) * 16 + 1 * bb.val = b.val; omega
  | ⟨1, _⟩ => show win0_17.index t (1 : Fin 3) * 9 + 1 * p.val = p.val; omega
  | ⟨2, _⟩ => show win0_17.index t (2 : Fin 3) * 256 + 1 * q.val = q.val; omega

/-- Window 18 (layer 3's projection): the block is the array. -/
theorem iblk18_apply (c : Dev nD) (t : Fin cfg0.N) (p : Fin 256) (q : Fin 256) :
    (iblk m c 18 t : Vec Ideal S256x256 .bf16) (ix2 p q) = (V m c main_v30 : S256x256.Idx → EReal) (ix2 p q) := by
  obtain ⟨h0, h1⟩ := blockIndex18 t
  unfold iblk
  rw [View.read_apply]
  show V m c main_v30 _ = V m c main_v30 _
  refine congrArg _ (funext fun a => Fin.ext ?_)
  match a with
  | ⟨0, _⟩ => show win0_18.index t (0 : Fin 2) * 256 + 1 * p.val = p.val; omega
  | ⟨1, _⟩ => show win0_18.index t (1 : Fin 2) * 256 + 1 * q.val = q.val; omega

/-- Window 19 (layer 3's filter): the block is the array. -/
theorem iblk19_apply (c : Dev nD) (t : Fin cfg0.N) (p : Fin 10) (q : Fin 256) :
    (iblk m c 19 t : Vec Ideal S10x256 .f32) (ix2 p q) = (V m c main_arg25 : S10x256.Idx → EReal) (ix2 p q) := by
  obtain ⟨h0, h1⟩ := blockIndex19 t
  unfold iblk
  rw [View.read_apply]
  show V m c main_arg25 _ = V m c main_arg25 _
  refine congrArg _ (funext fun a => Fin.ext ?_)
  match a with
  | ⟨0, _⟩ => show win0_19.index t (0 : Fin 2) * 10 + 1 * p.val = p.val; omega
  | ⟨1, _⟩ => show win0_19.index t (1 : Fin 2) * 256 + 1 * q.val = q.val; omega

/-- Window 20 (layer 3's affine weight): the block is the array. -/
theorem iblk20_apply (c : Dev nD) (t : Fin cfg0.N) (p : Fin 256) (q : Fin 256) :
    (iblk m c 20 t : Vec Ideal S256x256 .bf16) (ix2 p q) = (V m c main_v31 : S256x256.Idx → EReal) (ix2 p q) := by
  obtain ⟨h0, h1⟩ := blockIndex20 t
  unfold iblk
  rw [View.read_apply]
  show V m c main_v31 _ = V m c main_v31 _
  refine congrArg _ (funext fun a => Fin.ext ?_)
  match a with
  | ⟨0, _⟩ => show win0_20.index t (0 : Fin 2) * 256 + 1 * p.val = p.val; omega
  | ⟨1, _⟩ => show win0_20.index t (1 : Fin 2) * 256 + 1 * q.val = q.val; omega

/-- Window 21 (layer 3's affine bias row): the block is the array. -/
theorem iblk21_apply (c : Dev nD) (t : Fin cfg0.N) (p : Fin 1) (q : Fin 256) :
    (iblk m c 21 t : Vec Ideal S1x256 .f32) (ix2 p q) = (V m c main_v32 : S1x256.Idx → EReal) (ix2 p q) := by
  obtain ⟨h0, h1⟩ := blockIndex21 t
  unfold iblk
  rw [View.read_apply]
  show V m c main_v32 _ = V m c main_v32 _
  refine congrArg _ (funext fun a => Fin.ext ?_)
  match a with
  | ⟨0, _⟩ => show win0_21.index t (0 : Fin 2) * 1 + 1 * p.val = p.val; omega
  | ⟨1, _⟩ => show win0_21.index t (1 : Fin 2) * 256 + 1 * q.val = q.val; omega

/-- Window 22 (layer 3's cache, time-major): batch row `bb` of the block is batch row `16 t + bb` of the array. -/
theorem iblk22_apply (c : Dev nD) (t : Fin cfg0.N) (bb : Fin 16) (p : Fin 9) (q : Fin 256) (b : Fin 256)
    (hb : b.val = 16 * t.val + bb.val) :
    (iblk m c 22 t : Vec Ideal S16x9x256 .f32) (ix3 bb p q) = (V m c main_v19 : S256x9x256.Idx → EReal) (ix3 b p q) := by
  obtain ⟨h0, h1, h2⟩ := blockIndex22 t
  unfold iblk
  rw [View.read_apply]
  show V m c main_v19 _ = V m c main_v19 _
  refine congrArg _ (funext fun a => Fin.ext ?_)
  match a with
  | ⟨0, _⟩ => show win0_22.index t (0 : Fin 3) * 16 + 1 * bb.val = b.val; omega
  | ⟨1, _⟩ => show win0_22.index t (1 : Fin 3) * 9 + 1 * p.val = p.val; omega
  | ⟨2, _⟩ => show win0_22.index t (2 : Fin 3) * 256 + 1 * q.val = q.val; omega

/-- Window 23 (the folded output weight): the block is the array. -/
theorem iblk23_apply (c : Dev nD) (t : Fin cfg0.N) (p : Fin 256) (q : Fin 256) :
    (iblk m c 23 t : Vec Ideal S256x256 .bf16) (ix2 p q) = (V m c main_v7 : S256x256.Idx → EReal) (ix2 p q) := by
  obtain ⟨h0, h1⟩ := blockIndex23 t
  unfold iblk
  rw [View.read_apply]
  show V m c main_v7 _ = V m c main_v7 _
  refine congrArg _ (funext fun a => Fin.ext ?_)
  match a with
  | ⟨0, _⟩ => show win0_23.index t (0 : Fin 2) * 256 + 1 * p.val = p.val; omega
  | ⟨1, _⟩ => show win0_23.index t (1 : Fin 2) * 256 + 1 * q.val = q.val; omega

/-- Window 24 (the folded output bias row): the block is the array. -/
theorem iblk24_apply (c : Dev nD) (t : Fin cfg0.N) (p : Fin 1) (q : Fin 256) :
    (iblk m c 24 t : Vec Ideal S1x256 .f32) (ix2 p q) = (V m c main_v11 : S1x256.Idx → EReal) (ix2 p q) := by
  obtain ⟨h0, h1⟩ := blockIndex24 t
  unfold iblk
  rw [View.read_apply]
  show V m c main_v11 _ = V m c main_v11 _
  refine congrArg _ (funext fun a => Fin.ext ?_)
  match a with
  | ⟨0, _⟩ => show win0_24.index t (0 : Fin 2) * 1 + 1 * p.val = p.val; omega
  | ⟨1, _⟩ => show win0_24.index t (1 : Fin 2) * 256 + 1 * q.val = q.val; omega

end Cert.KernelIdeal.Hand

end
-- ==== Proof.KPoint.lean ====
/-
  A grid point's blocks hold the arguments of its batch rows: at batch row `bb` of point `t`, each of
  the twenty-five input blocks, read at its window's array as the region finds it, is the network's
  argument for batch row `16 t + bb`.
-/
import proofs.«129047_g2000306104881685_pallasbulk_300_2_alg».proof.Proof.KArrays
import proofs.«129047_g2000306104881685_pallasbulk_300_2_alg».proof.Proof.KHostLayers
import proofs.«129047_g2000306104881685_pallasbulk_300_2_alg».proof.Proof.KReads

set_option maxRecDepth 65536

noncomputable section

namespace Cert.KernelIdeal.Hand

open Cert.KernelIdeal Cert.KernelIdeal.Gen Cert.KernelIdeal.GenP Idealize.ShloMosaic Idealize.ShloMosaic.TcCoe Idealize.SL.Sem
open Idealize.ShloMosaic.ValueIdx

open Cert.Spec

variable (m : (ℓ : Loc nD τ sig) → Buf (Elt Ideal) ℓ)

theorem blockOf_iblk (c : Dev nD) (t : Fin cfg0.N) (bb : Fin 16) (b : Fin 256) (hb : b.val = 16 * t.val + bb.val) :
    BlockOf (argsOf m c) b bb (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) where
  x := fun p q => (iblk0_apply m c t bb p q b hb).trans (congrFun (V_x m c) _)
  inW := fun e n => (iblk1_apply m c t e n).trans (V_inW_apply m c e n)
  inB := fun n => (iblk2_apply m c t 0 n).trans (V_inB_apply m c n)
  lin0 := fun e n => (iblk3_apply m c t e n).trans (congrFun (V_lin0 m c) _)
  filt0 := fun k d => (iblk4_apply m c t k d).trans (congrFun (V_filt0 m c) _)
  affW0 := fun e n => (iblk5_apply m c t e n).trans (congrFun (V_affW0 m c) _)
  affB0 := fun n => (iblk6_apply m c t 0 n).trans (V_affB0_apply m c n)
  cache0 := fun s d => (iblk7_apply m c t bb s d b hb).trans (V_cache0_apply m c b s d)
  lin1 := fun e n => (iblk8_apply m c t e n).trans (congrFun (V_lin1 m c) _)
  filt1 := fun k d => (iblk9_apply m c t k d).trans (congrFun (V_filt1 m c) _)
  affW1 := fun e n => (iblk10_apply m c t e n).trans (congrFun (V_affW1 m c) _)
  affB1 := fun n => (iblk11_apply m c t 0 n).trans (V_affB1_apply m c n)
  cache1 := fun s d => (iblk12_apply m c t bb s d b hb).trans (V_cache1_apply m c b s d)
  lin2 := fun e n => (iblk13_apply m c t e n).trans (congrFun (V_lin2 m c) _)
  filt2 := fun k d => (iblk14_apply m c t k d).trans (congrFun (V_filt2 m c) _)
  affW2 := fun e n => (iblk15_apply m c t e n).trans (congrFun (V_affW2 m c) _)
  affB2 := fun n => (iblk16_apply m c t 0 n).trans (V_affB2_apply m c n)
  cache2 := fun s d => (iblk17_apply m c t bb s d b hb).trans (V_cache2_apply m c b s d)
  lin3 := fun e n => (iblk18_apply m c t e n).trans (congrFun (V_lin3 m c) _)
  filt3 := fun k d => (iblk19_apply m c t k d).trans (congrFun (V_filt3 m c) _)
  affW3 := fun e n => (iblk20_apply m c t e n).trans (congrFun (V_affW3 m c) _)
  affB3 := fun n => (iblk21_apply m c t 0 n).trans (V_affB3_apply m c n)
  cache3 := fun s d => (iblk22_apply m c t bb s d b hb).trans (V_cache3_apply m c b s d)
  outW := fun e n => (iblk23_apply m c t e n).trans (V_outW_apply m c e n)
  outB := fun n => (iblk24_apply m c t 0 n).trans (V_outB_apply m c n)

end Cert.KernelIdeal.Hand

end
-- ==== Proof.LibGroupsToRows.lean ====
/-
  Groups of rows flattened: a general layout lemma, the converse of the row-block cast. An `[a, b, d]` array viewed as
  the matrix `[n, d]` of its `n = a * b` rows keeps the row-major order, so row `p * b + q` of the matrix is row `q` of
  group `p`.
-/
import Idealize.ShloMosaic.Lib.Pipeline.Value
import Idealize.ShloMosaic.Lib.ValueIdx

namespace Cert.Layout

open Idealize.ShloMosaic Idealize.ShloMosaic.ValueIdx

/-- An `[a, b, d]` array viewed `[n, d]` (so `n = a * b`) reads, at row `p * b + q` and column `r`, the operand's entry
    `(p, q, r)`. -/
theorem shapeCast_groups_rows_apply {α : Type} {n a b d : ℕ} (x : (⟨3, ![a, b, d]⟩ : Shape).Idx → α)
    (h : (⟨3, ![a, b, d]⟩ : Shape).ShapeCasts ⟨2, ![n, d]⟩) (p : Fin a) (q : Fin b) (r : Fin d)
    (hpq : p.val * b + q.val < n) :
    shapeCast ⟨2, ![n, d]⟩ x h (ix2 ⟨p.val * b + q.val, hpq⟩ r) = x (ix3 p q r) := by
  refine shapeCast_apply x h _ _ ?_
  rw [Shape.rowMajor_val_two, Shape.rowMajor_val_three]
  rfl

end Cert.Layout
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.KStage.lean ====
/-
  The kernel body's building blocks, read at an index.

  The body works on sixteen batch rows at once: a [16, 128, 256] block is laid out as 2048 rows of 256
  features (row `b·128 + t` is time step `t` of batch row `b`) for the matrix unit and back.  Each
  building block — a dense map on the 2048 rows, the bias row added to every row, the ReLU, the cast
  between the two layouts — is read here at one row and feature, as the matching row-wise function of
  Proof/Spec.lean of that row's operands.
-/
import proofs.«129047_g2000306104881685_pallasbulk_300_2_alg».proof.KernelIdeal
import proofs.«129047_g2000306104881685_pallasbulk_300_2_alg».proof.Proof.Gen.KernelIdeal
import proofs.«129047_g2000306104881685_pallasbulk_300_2_alg».proof.Proof.Spec
import proofs.«129047_g2000306104881685_pallasbulk_300_2_alg».proof.Proof.LibMatmulNN
import proofs.«129047_g2000306104881685_pallasbulk_300_2_alg».proof.Proof.LibGroupsToRows
import proofs.«129047_g2000306104881685_pallasbulk_300_2_alg».proof.Proof.LibRank3Layout
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Hand

open Cert.KernelIdeal Cert.KernelIdeal.Gen Idealize.ShloMosaic Idealize.ShloMosaic.ValueIdx

/-- Row `b·128 + t` of the 2048: time step `t` of batch row `b`. -/
def rowOf (b : Fin 16) (t : Fin 128) : Fin 2048 := ⟨b.val * 128 + t.val, by have := b.isLt; have := t.isLt; omega⟩

/-- The block laid out as rows: row `b·128 + t` is `(b, t)`. -/
theorem rows_of_groups {α : Type} (x : S16x128x256.Idx → α) (b : Fin 16) (t : Fin 128) (e : Fin 256) :
    shapeCast S2048x256 x shapeCasts_S16x128x256_S2048x256 (ix2 (rowOf b t) e) = x (ix3 b t e) :=
  Cert.Layout.shapeCast_groups_rows_apply x shapeCasts_S16x128x256_S2048x256 b t e _

/-- The rows laid back out as a block. -/
theorem groups_of_rows {α : Type} (x : S2048x256.Idx → α) (b : Fin 16) (t : Fin 128) (d : Fin 256) :
    shapeCast S16x128x256 x shapeCasts_S2048x256_S16x128x256 (ix3 b t d) = x (ix2 (rowOf b t) d) :=
  Cert.LibRank3.shapeCast_rows_apply x shapeCasts_S2048x256_S16x128x256 b t d _

/-- The matrix product of the 2048 rows with a 256×256 weight, into zero: row against column. -/
theorem matmulK_apply {φ₁ φ₂ : FTy} (lhs : FVec Ideal S2048x256 φ₁) (rhs : FVec Ideal S256x256 φ₂) (r : Fin 2048) (n : Fin 256) :
    matmul dot_S2048x256_S256x256_S2048x256_1_0_0_1_n_n none lhs rhs (constant S2048x256 .f32 0x00000000#32) (ix2 r n)
      = ∑ e : Fin 256, lhs (ix2 r e) * rhs (ix2 e n) :=
  Cert.LibMatmulNN.matmul_zero_apply (M := 2048) (N := 256) (K := 256) dot_S2048x256_S256x256_S2048x256_1_0_0_1_n_n.wf none lhs rhs r n

/-- The bias row added to every row. -/
theorem biasRow_apply {α : Type} (b : S1x256.Idx → α) (r : Fin 2048) (n : Fin 256) :
    broadcastTo S2048x256 (shapeCast S1x256 b shapeCasts_S1x256_S1x256) broadcasts_S1x256_S2048x256 (ix2 r n) = b (ix2 (0 : Fin 1) n) := by
  rw [shapeCast_self]
  exact broadcastTo_1b_ab_apply b broadcasts_S1x256_S2048x256 r n

/-- A dense map on the 2048 rows: the hidden rows through a weight. -/
def kDense (h : FVec Ideal S2048x256 .f32) (w : FVec Ideal S256x256 .bf16) : FVec Ideal S2048x256 .f32 :=
  matmul dot_S2048x256_S256x256_S2048x256_1_0_0_1_n_n none (truncf .bf16 h bitsLt_bf16_f32)
    (shapeCast S256x256 w shapeCasts_S256x256_S256x256) (constant S2048x256 .f32 0x00000000#32)

theorem kDense_apply (h : FVec Ideal S2048x256 .f32) (w : FVec Ideal S256x256 .bf16) (r : Fin 2048) (n : Fin 256) :
    kDense h w (ix2 r n) = Cert.Spec.dense (fun e => h (ix2 r e)) (fun e n => w (ix2 e n)) n := by
  unfold kDense Cert.Spec.dense
  rw [matmulK_apply, shapeCast_self]
  rfl

/-- Bias and ReLU on the 2048 rows. -/
def kBiasRelu (z : FVec Ideal S2048x256 .f32) (b : FVec Ideal S1x256 .f32) : FVec Ideal S2048x256 .f32 :=
  maximumf (addf z (broadcastTo S2048x256 (shapeCast S1x256 b shapeCasts_S1x256_S1x256) broadcasts_S1x256_S2048x256))
    (broadcast S2048x256 (Scalar.ofBits .f32 0x00000000#32))

theorem kBiasRelu_apply (z : FVec Ideal S2048x256 .f32) (b : FVec Ideal S1x256 .f32) (r : Fin 2048) (n : Fin 256) :
    kBiasRelu z b (ix2 r n) = max (z (ix2 r n) + b (ix2 (0 : Fin 1) n)) 0 := by
  unfold kBiasRelu
  rw [maximumf_apply, addf_apply, biasRow_apply, broadcast_apply]
  show max _ (Ideal.ofBits .f32 0x00000000#32) = _
  rw [Ideal.ofBits_zero_f32]

/-- The input stack, folded: the input block through the folded weight, plus the folded bias, ReLU. -/
def kIn (x : FVec Ideal S16x128x256 .bf16) (w : FVec Ideal S256x256 .bf16) (b : FVec Ideal S1x256 .f32) : FVec Ideal S2048x256 .f32 :=
  kBiasRelu (matmul dot_S2048x256_S256x256_S2048x256_1_0_0_1_n_n none
      (shapeCast S2048x256 (shapeCast S16x128x256 x shapeCasts_S16x128x256_S16x128x256) shapeCasts_S16x128x256_S2048x256)
      (shapeCast S256x256 w shapeCasts_S256x256_S256x256) (constant S2048x256 .f32 0x00000000#32)) b

theorem kIn_apply (x : FVec Ideal S16x128x256 .bf16) (w : FVec Ideal S256x256 .bf16) (b : FVec Ideal S1x256 .f32)
    (bb : Fin 16) (t : Fin 128) (n : Fin 256) :
    kIn x w b (ix2 (rowOf bb t) n)
      = Cert.Spec.relu (Cert.Spec.affine (fun e => x (ix3 bb t e)) (fun e n => w (ix2 e n)) (fun n => b (ix2 (0 : Fin 1) n))) n := by
  unfold kIn
  rw [kBiasRelu_apply, matmulK_apply]
  simp only [shapeCast_self, rows_of_groups]
  rfl

/-- A layer's affine map and ReLU on the rows of a [16, 128, 256] block. -/
def kAff (acc : FVec Ideal S16x128x256 .f32) (aw : FVec Ideal S256x256 .bf16) (ab : FVec Ideal S1x256 .f32) : FVec Ideal S2048x256 .f32 :=
  kBiasRelu (kDense (shapeCast S2048x256 acc shapeCasts_S16x128x256_S2048x256) aw) ab

theorem kAff_apply (acc : FVec Ideal S16x128x256 .f32) (aw : FVec Ideal S256x256 .bf16) (ab : FVec Ideal S1x256 .f32)
    (bb : Fin 16) (t : Fin 128) (n : Fin 256) :
    kAff acc aw ab (ix2 (rowOf bb t) n)
      = Cert.Spec.relu (Cert.Spec.affine (fun e => acc (ix3 bb t e)) (fun e n => aw (ix2 e n)) (fun n => ab (ix2 (0 : Fin 1) n))) n := by
  unfold kAff
  rw [kBiasRelu_apply, kDense_apply]
  simp only [rows_of_groups]
  rfl

/-- A layer's projection, laid back out as a block. -/
def kProj (h : FVec Ideal S2048x256 .f32) (lw : FVec Ideal S256x256 .bf16) : FVec Ideal S16x128x256 .f32 :=
  shapeCast S16x128x256 (kDense h lw) shapeCasts_S2048x256_S16x128x256

theorem kProj_apply (h : FVec Ideal S2048x256 .f32) (lw : FVec Ideal S256x256 .bf16) (bb : Fin 16) (t : Fin 128) (d : Fin 256) :
    kProj h lw (ix3 bb t d) = Cert.Spec.dense (fun e => h (ix2 (rowOf bb t) e)) (fun e n => lw (ix2 e n)) d := by
  unfold kProj
  rw [groups_of_rows, kDense_apply]

end Cert.KernelIdeal.Hand

end
-- ==== Proof.LibRowMax.lean ====
/-
  The row maximum of a rank-2 array read at an index, at the exact extended reals: a general lemma.

  A maximum reduction over axis 1 of an `[a, b]` array, started from the value of a given pattern, is at row `p` the fold
  of `max` from that value over the `b` entries `(p, k)` of the row, in the order of `Fin b` (any order gives the same
  result: `max` is commutative and associative).
-/
import Idealize.ShloMosaic.PureOps.Ideal
import Idealize.ShloMosaic.PureOps.Ideal.Laws
import Idealize.ShloMosaic.Lib.ValueIdx

noncomputable section

namespace Cert.LibRowMax

open Idealize.ShloMosaic Idealize.ShloMosaic.ValueIdx

/-- The row maximum of a rank-2 array: at `p` the fold of `max`, from the value of the starting pattern, over `k` of
    entry `(p, k)`. -/
theorem max_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  refine congrArg (Finset.fold max (Ideal.ofBits .f32 acc) · Finset.univ)
    (funext fun k => congrArg src (funext fun d => Fin.ext ?_))
  match d with
  | ⟨0, _⟩ => rfl
  | ⟨1, _⟩ => rfl

end Cert.LibRowMax

end
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.LibVectorColumn.lean ====
/-
  A vector made into a column, two ways: a general layout lemma.

  An `[a]` array becomes an `[a, 1]` column either by a shape cast (row-major order kept) or by a broadcast that sends
  its one axis to axis 0. Either way the entry at `(p, 0)` is the vector's entry at `p`, so the two columns are the
  same array.
-/
import Idealize.ShloMosaic.Lib.Pipeline.Value
import Idealize.ShloMosaic.Lib.ValueIdx

namespace Cert.LibVectorColumn

open Idealize.ShloMosaic Idealize.ShloMosaic.ValueIdx

/-- An `[a]` array shape-cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a]` array broadcast to `[a, 1]` along axis 0 reads, at `(p, u)`, the operand at `p`. -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The shape-cast column and the broadcast column of one vector are the same array. -/
theorem shapeCast_eq_broadcastInDim {α : Type} {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [shapeCast_a_a1_apply, broadcastInDim_a_a1_apply]

end Cert.LibVectorColumn
-- ==== Proof.KConv.lean ====
/-
  The kernel body's convolution, new cache and softmax, read at an index.

  The body builds the time-extended block `[cache ; projection]` (137 steps) once per layer and takes
  ten windows of 128 steps from it, window `k` starting at step `k`; each is scaled per feature by
  filter row `k` and added, in tap order, onto the projection.  The new cache is the projection's last
  nine steps.  The softmax is taken over each of the 2048 rows.
-/
import proofs.«129047_g2000306104881685_pallasbulk_300_2_alg».proof.Proof.KStage
import proofs.«129047_g2000306104881685_pallasbulk_300_2_alg».proof.Proof.LibRowMax
import proofs.«129047_g2000306104881685_pallasbulk_300_2_alg».proof.Proof.LibColumnBroadcast
import proofs.«129047_g2000306104881685_pallasbulk_300_2_alg».proof.Proof.LibVectorColumn
import proofs.«129047_g2000306104881685_pallasbulk_300_2_alg».proof.Proof.Gen.KernelIdeal.Skeleton

open scoped BigOperators

noncomputable section

namespace Cert.KernelIdeal.Hand

open Cert.KernelIdeal Cert.KernelIdeal.Gen Idealize.ShloMosaic Idealize.ShloMosaic.ValueIdx

/-- The time-extended block: the cache block, then the projection, along time. -/
def kXc (c : FVec Ideal S16x9x256 .f32) (p : FVec Ideal S16x128x256 .f32) : FVec Ideal S16x137x256 .f32 :=
  concatenate S16x137x256 1 [⟨S16x9x256, shapeCast S16x9x256 c shapeCasts_S16x9x256_S16x9x256⟩, ⟨S16x128x256, p⟩]
    concatenates_S16x9x256_S16x128x256_S16x137x256_d1

theorem kXc_apply (c : FVec Ideal S16x9x256 .f32) (p : FVec Ideal S16x128x256 .f32) (bb : Fin 16) (s : Fin 137) (d : Fin 256) :
    kXc c p (ix3 bb s d) = Cert.Spec.ext (fun s d => c (ix3 bb s d)) (fun t d => p (ix3 bb t d)) s d := by
  unfold kXc Cert.Spec.ext
  rw [shapeCast_self]
  by_cases h : s.val < 9
  · rw [dif_pos h]
    exact concatenate_pair_apply_left (1 : Fin S16x137x256.rank) c p _ (ix3 bb s d) rfl (ix3 bb (⟨s.val, h⟩ : Fin 9) d)
      (fun b => by match b with | ⟨0, _⟩ => rfl | ⟨1, _⟩ => rfl | ⟨2, _⟩ => rfl)
  · rw [dif_neg h]
    exact concatenate_pair_apply_right (1 : Fin S16x137x256.rank) c p _ (ix3 bb s d) rfl rfl
      (ix3 bb ⟨s.val - 9, by have := s.isLt; omega⟩ d)
      (fun b hb => by match b with | ⟨0, _⟩ => rfl | ⟨1, _⟩ => exact absurd rfl hb | ⟨2, _⟩ => rfl)
      (by show (s.val - 9) + 9 = s.val; omega)

/-- A filter row spread over the block. -/
def kFilt (f : FVec Ideal S1x256 .f32) : FVec Ideal S16x128x256 .f32 :=
  broadcastTo S16x128x256 (shapeCast S1x1x256 (shapeCast S256 f shapeCasts_S1x256_S256) shapeCasts_S256_S1x1x256)
    broadcasts_S1x1x256_S16x128x256

theorem kFilt_apply (f : FVec Ideal S1x256 .f32) (bb : Fin 16) (t : Fin 128) (d : Fin 256) :
    kFilt f (ix3 bb t d) = f (ix2 (0 : Fin 1) d) := by
  unfold kFilt
  rw [broadcastTo_apply _ broadcasts_S1x1x256_S16x128x256 (ix3 bb t d) (ix3 (0 : Fin 1) (0 : Fin 1) d)
    (fun ax => by match ax with | ⟨0, _⟩ => rfl | ⟨1, _⟩ => rfl | ⟨2, _⟩ => rfl)]
  rw [shapeCast_apply _ shapeCasts_S256_S1x1x256 (ix3 (0 : Fin 1) (0 : Fin 1) d) (ix1 d)
    (by rw [Shape.rowMajor_val_three, Shape.rowMajor_val_one]; show d.val = (0 * 1 + 0) * 256 + d.val; omega)]
  exact shapeCast_1a_a_apply f shapeCasts_S1x256_S256 d

/-- One tap: the filter row times the window of the extended block starting at step `k`. -/
def kTap (f : FVec Ideal S1x256 .f32) (k : ℕ) (xc : FVec Ideal S16x137x256 .f32)
    (hk : S16x137x256.Slices ![0, k, 0] S16x128x256) : FVec Ideal S16x128x256 .f32 :=
  mulf (kFilt f) (extractStridedSlice S16x128x256 ![0, k, 0] xc hk)

theorem kTap_apply (f : FVec Ideal S1x256 .f32) (k : Fin 10) (xc : FVec Ideal S16x137x256 .f32)
    (hk : S16x137x256.Slices ![0, k.val, 0] S16x128x256) (bb : Fin 16) (t : Fin 128) (d : Fin 256) :
    kTap f k.val xc hk (ix3 bb t d)
      = f (ix2 (0 : Fin 1) d) * xc (ix3 bb ⟨t.val + k.val, by have := t.isLt; have := k.isLt; omega⟩ d) := by
  unfold kTap
  rw [mulf_apply, kFilt_apply]
  rw [slice3_axis1_apply k.val xc hk bb t d ⟨t.val + k.val, by have := t.isLt; have := k.isLt; omega⟩ (by show t.val + k.val = k.val + t.val; omega)]

/-- The new cache: the projection's last nine steps. -/
theorem newCache_apply (p : FVec Ideal S16x128x256 .f32) (bb : Fin 16) (s : Fin 9) (d : Fin 256) :
    extractStridedSlice S16x9x256 ![0, 119, 0] p slices_S16x128x256_o0_119_0_S16x9x256 (ix3 bb s d)
      = Cert.Spec.newCache (fun t d => p (ix3 bb t d)) s d := by
  unfold Cert.Spec.newCache
  exact slice3_axis1_apply 119 p slices_S16x128x256_o0_119_0_S16x9x256 bb s d ⟨119 + s.val, by have := s.isLt; omega⟩ rfl

/-- A column of per-row values spread over the features. -/
theorem colBc_apply {α : Type} (v : S2048.Idx → α) (r : Fin 2048) (n : Fin 256) :
    broadcastTo S2048x256 (shapeCast S2048x1 v shapeCasts_S2048_S2048x1) broadcasts_S2048x1_S2048x256 (ix2 r n) = v (ix1 r) := by
  rw [Cert.Layout.broadcastTo_a1_ab_apply, Cert.LibVectorColumn.shapeCast_a_a1_apply]

/-- The exponential, entry by entry. -/
theorem exp_apply {s : Shape} (a : FVec Ideal s .f32) (i : s.Idx) : exp a i = Ideal.exp (a i) := rfl

/-- The pattern of `-∞` is the bottom of the extended reals. -/
theorem ofBits_neg_inf : Ideal.ofBits .f32 0xFF800000#32 = (⊥ : EReal) := by simp [Ideal.ofBits, Ideal.ieee]

/-- A row's maximum, from the starting pattern's value. -/
theorem rowMax_apply (src : FVec Ideal S2048x256 .f32) (acc : BitVec FTy.f32.bits) (h : S2048x256.Reduces [1] S2048) (hφ : FKind.Formats .f32)
    (hacc : acc = FKind.maximumf.neutral .f32 hφ) (r : Fin 2048) :
    multiReduction .maximumf [1] S2048 src acc h hφ hacc (ix1 r)
      = Finset.univ.fold max (Ideal.ofBits .f32 acc) (fun k => src (ix2 r k)) :=
  Cert.LibRowMax.max_row_apply (a := 2048) (b := 256) src acc h hφ hacc r

/-- A row's sum. -/
theorem rowSum_apply (src : FVec Ideal S2048x256 .f32) (acc : BitVec FTy.f32.bits) (h : S2048x256.Reduces [1] S2048) (hφ : FKind.Formats .f32)
    (hacc : acc = FKind.add.neutral .f32 hφ) (r : Fin 2048) :
    multiReduction .add [1] S2048 src acc h hφ hacc (ix1 r) = ∑ k : Fin 256, src (ix2 r k) :=
  Cert.LibRank3.sum_row_apply (a := 2048) (b := 256) src acc h hφ hacc r

/-- The starting patterns of the two row reductions are the reductions' neutral elements. -/
theorem maxNeutral : (0xFF800000#32 : BitVec FTy.f32.bits) = FKind.maximumf.neutral .f32 (.inl rfl) := rfl
theorem addNeutral : (0x00000000#32 : BitVec FTy.f32.bits) = FKind.add.neutral .f32 (.inl rfl) := rfl

/-- The rows plus the bias row. -/
def kLogits (z : FVec Ideal S2048x256 .f32) (b : FVec Ideal S1x256 .f32) : FVec Ideal S2048x256 .f32 :=
  addf z (broadcastTo S2048x256 (shapeCast S1x256 b shapeCasts_S1x256_S1x256) broadcasts_S1x256_S2048x256)

/-- The rows shifted by their maxima and exponentiated. -/
def kExp (l : FVec Ideal S2048x256 .f32) : FVec Ideal S2048x256 .f32 :=
  exp (subf l (broadcastTo S2048x256 (shapeCast S2048x1
    (multiReduction .maximumf [1] S2048 l 0xFF800000#32 reduces_S2048x256_S2048 (.inl rfl) maxNeutral) shapeCasts_S2048_S2048x1)
    broadcasts_S2048x1_S2048x256))

/-- The softmax of each row, laid back out as a block. -/
def kSoftmax (z : FVec Ideal S2048x256 .f32) (b : FVec Ideal S1x256 .f32) : FVec Ideal S16x128x256 .f32 :=
  shapeCast S16x128x256 (divf (kExp (kLogits z b)) (broadcastTo S2048x256 (shapeCast S2048x1
    (multiReduction .add [1] S2048 (kExp (kLogits z b)) 0x00000000#32 reduces_S2048x256_S2048 (.inl rfl) addNeutral) shapeCasts_S2048_S2048x1)
    broadcasts_S2048x1_S2048x256)) shapeCasts_S2048x256_S16x128x256

/-- The body's last payload is that softmax. -/
theorem pay1_eq (z : FVec Ideal S2048x256 .f32) (b : FVec Ideal S1x256 .f32) : k0_pay1 z b = kSoftmax z b := rfl

theorem kLogits_apply (z : FVec Ideal S2048x256 .f32) (b : FVec Ideal S1x256 .f32) (r : Fin 2048) (n : Fin 256) :
    kLogits z b (ix2 r n) = z (ix2 r n) + b (ix2 (0 : Fin 1) n) := by
  unfold kLogits; rw [addf_apply, biasRow_apply]

theorem kExp_apply (l : FVec Ideal S2048x256 .f32) (r : Fin 2048) (n : Fin 256) :
    kExp l (ix2 r n) = Ideal.exp (l (ix2 r n) - Finset.univ.fold max ⊥ (fun k => l (ix2 r k))) := by
  unfold kExp
  rw [exp_apply, subf_apply, colBc_apply, rowMax_apply, ofBits_neg_inf]

theorem kSoftmax_apply (z : FVec Ideal S2048x256 .f32) (b : FVec Ideal S1x256 .f32) (bb : Fin 16) (t : Fin 128) (n : Fin 256) :
    kSoftmax z b (ix3 bb t n) = Cert.Spec.softmax (fun k => z (ix2 (rowOf bb t) k) + b (ix2 (0 : Fin 1) k)) n := by
  unfold kSoftmax Cert.Spec.softmax
  rw [groups_of_rows, divf_apply, colBc_apply, rowSum_apply]
  simp only [kExp_apply, kLogits_apply]

end Cert.KernelIdeal.Hand

end
-- ==== Proof.KLayer.lean ====
/-
  One layer of the kernel body on its sixteen batch rows, read at a row and feature.

  The layer's projection of the 2048 hidden rows is laid out as a block, extended on the left by the
  cache block, and the ten taps are added onto it in tap order; the affine map and the ReLU follow on
  the 2048 rows.  At row `b·128 + t` and feature `n` this is the row-wise layer of Proof/Spec.lean
  applied to batch row `b`'s hidden sequence and cache.
-/
import proofs.«129047_g2000306104881685_pallasbulk_300_2_alg».proof.Proof.KConv

open scoped BigOperators

noncomputable section

namespace Cert.KernelIdeal.Hand

open Cert.KernelIdeal Cert.KernelIdeal.Gen Idealize.ShloMosaic Idealize.ShloMosaic.ValueIdx

theorem kTap0_apply (f : FVec Ideal S1x256 .f32) (xc : FVec Ideal S16x137x256 .f32)
    (hk : S16x137x256.Slices ![0, 0, 0] S16x128x256) (bb : Fin 16) (t : Fin 128) (d : Fin 256) :
    kTap f 0 xc hk (ix3 bb t d) = f (ix2 (0 : Fin 1) d) * xc (ix3 bb ⟨t.val + 0, by have := t.isLt; omega⟩ d) :=
  kTap_apply f ⟨0, by decide⟩ xc hk bb t d
theorem kTap1_apply (f : FVec Ideal S1x256 .f32) (xc : FVec Ideal S16x137x256 .f32)
    (hk : S16x137x256.Slices ![0, 1, 0] S16x128x256) (bb : Fin 16) (t : Fin 128) (d : Fin 256) :
    kTap f 1 xc hk (ix3 bb t d) = f (ix2 (0 : Fin 1) d) * xc (ix3 bb ⟨t.val + 1, by have := t.isLt; omega⟩ d) :=
  kTap_apply f ⟨1, by decide⟩ xc hk bb t d
theorem kTap2_apply (f : FVec Ideal S1x256 .f32) (xc : FVec Ideal S16x137x256 .f32)
    (hk : S16x137x256.Slices ![0, 2, 0] S16x128x256) (bb : Fin 16) (t : Fin 128) (d : Fin 256) :
    kTap f 2 xc hk (ix3 bb t d) = f (ix2 (0 : Fin 1) d) * xc (ix3 bb ⟨t.val + 2, by have := t.isLt; omega⟩ d) :=
  kTap_apply f ⟨2, by decide⟩ xc hk bb t d
theorem kTap3_apply (f : FVec Ideal S1x256 .f32) (xc : FVec Ideal S16x137x256 .f32)
    (hk : S16x137x256.Slices ![0, 3, 0] S16x128x256) (bb : Fin 16) (t : Fin 128) (d : Fin 256) :
    kTap f 3 xc hk (ix3 bb t d) = f (ix2 (0 : Fin 1) d) * xc (ix3 bb ⟨t.val + 3, by have := t.isLt; omega⟩ d) :=
  kTap_apply f ⟨3, by decide⟩ xc hk bb t d
theorem kTap4_apply (f : FVec Ideal S1x256 .f32) (xc : FVec Ideal S16x137x256 .f32)
    (hk : S16x137x256.Slices ![0, 4, 0] S16x128x256) (bb : Fin 16) (t : Fin 128) (d : Fin 256) :
    kTap f 4 xc hk (ix3 bb t d) = f (ix2 (0 : Fin 1) d) * xc (ix3 bb ⟨t.val + 4, by have := t.isLt; omega⟩ d) :=
  kTap_apply f ⟨4, by decide⟩ xc hk bb t d
theorem kTap5_apply (f : FVec Ideal S1x256 .f32) (xc : FVec Ideal S16x137x256 .f32)
    (hk : S16x137x256.Slices ![0, 5, 0] S16x128x256) (bb : Fin 16) (t : Fin 128) (d : Fin 256) :
    kTap f 5 xc hk (ix3 bb t d) = f (ix2 (0 : Fin 1) d) * xc (ix3 bb ⟨t.val + 5, by have := t.isLt; omega⟩ d) :=
  kTap_apply f ⟨5, by decide⟩ xc hk bb t d
theorem kTap6_apply (f : FVec Ideal S1x256 .f32) (xc : FVec Ideal S16x137x256 .f32)
    (hk : S16x137x256.Slices ![0, 6, 0] S16x128x256) (bb : Fin 16) (t : Fin 128) (d : Fin 256) :
    kTap f 6 xc hk (ix3 bb t d) = f (ix2 (0 : Fin 1) d) * xc (ix3 bb ⟨t.val + 6, by have := t.isLt; omega⟩ d) :=
  kTap_apply f ⟨6, by decide⟩ xc hk bb t d
theorem kTap7_apply (f : FVec Ideal S1x256 .f32) (xc : FVec Ideal S16x137x256 .f32)
    (hk : S16x137x256.Slices ![0, 7, 0] S16x128x256) (bb : Fin 16) (t : Fin 128) (d : Fin 256) :
    kTap f 7 xc hk (ix3 bb t d) = f (ix2 (0 : Fin 1) d) * xc (ix3 bb ⟨t.val + 7, by have := t.isLt; omega⟩ d) :=
  kTap_apply f ⟨7, by decide⟩ xc hk bb t d
theorem kTap8_apply (f : FVec Ideal S1x256 .f32) (xc : FVec Ideal S16x137x256 .f32)
    (hk : S16x137x256.Slices ![0, 8, 0] S16x128x256) (bb : Fin 16) (t : Fin 128) (d : Fin 256) :
    kTap f 8 xc hk (ix3 bb t d) = f (ix2 (0 : Fin 1) d) * xc (ix3 bb ⟨t.val + 8, by have := t.isLt; omega⟩ d) :=
  kTap_apply f ⟨8, by decide⟩ xc hk bb t d
theorem kTap9_apply (f : FVec Ideal S1x256 .f32) (xc : FVec Ideal S16x137x256 .f32)
    (hk : S16x137x256.Slices ![0, 9, 0] S16x128x256) (bb : Fin 16) (t : Fin 128) (d : Fin 256) :
    kTap f 9 xc hk (ix3 bb t d) = f (ix2 (0 : Fin 1) d) * xc (ix3 bb ⟨t.val + 9, by have := t.isLt; omega⟩ d) :=
  kTap_apply f ⟨9, by decide⟩ xc hk bb t d

/-- Ten filter rows as the taps of Proof/Spec.lean. -/
def filtOf (f0 f1 f2 f3 f4 f5 f6 f7 f8 f9 : FVec Ideal S1x256 .f32) : Cert.Spec.Filt := fun k d =>
  match k with
  | ⟨0, _⟩ => f0 (ix2 (0 : Fin 1) d)
  | ⟨1, _⟩ => f1 (ix2 (0 : Fin 1) d)
  | ⟨2, _⟩ => f2 (ix2 (0 : Fin 1) d)
  | ⟨3, _⟩ => f3 (ix2 (0 : Fin 1) d)
  | ⟨4, _⟩ => f4 (ix2 (0 : Fin 1) d)
  | ⟨5, _⟩ => f5 (ix2 (0 : Fin 1) d)
  | ⟨6, _⟩ => f6 (ix2 (0 : Fin 1) d)
  | ⟨7, _⟩ => f7 (ix2 (0 : Fin 1) d)
  | ⟨8, _⟩ => f8 (ix2 (0 : Fin 1) d)
  | ⟨9, _⟩ => f9 (ix2 (0 : Fin 1) d)

/-- The ten taps added onto the projection, in tap order. -/
def kAcc (p : FVec Ideal S16x128x256 .f32) (xc : FVec Ideal S16x137x256 .f32) (f0 f1 f2 f3 f4 f5 f6 f7 f8 f9 : FVec Ideal S1x256 .f32) :
    FVec Ideal S16x128x256 .f32 :=
  addf (addf (addf (addf (addf (addf (addf (addf (addf (addf p (kTap f0 0 xc slices_S16x137x256_o0_0_0_S16x128x256)) (kTap f1 1 xc slices_S16x137x256_o0_1_0_S16x128x256)) (kTap f2 2 xc slices_S16x137x256_o0_2_0_S16x128x256)) (kTap f3 3 xc slices_S16x137x256_o0_3_0_S16x128x256)) (kTap f4 4 xc slices_S16x137x256_o0_4_0_S16x128x256)) (kTap f5 5 xc slices_S16x137x256_o0_5_0_S16x128x256)) (kTap f6 6 xc slices_S16x137x256_o0_6_0_S16x128x256)) (kTap f7 7 xc slices_S16x137x256_o0_7_0_S16x128x256)) (kTap f8 8 xc slices_S16x137x256_o0_8_0_S16x128x256)) (kTap f9 9 xc slices_S16x137x256_o0_9_0_S16x128x256)

theorem kAcc_apply (p : FVec Ideal S16x128x256 .f32) (c : FVec Ideal S16x9x256 .f32) (f0 f1 f2 f3 f4 f5 f6 f7 f8 f9 : FVec Ideal S1x256 .f32)
    (bb : Fin 16) (t : Fin 128) (d : Fin 256) :
    kAcc p (kXc c p) f0 f1 f2 f3 f4 f5 f6 f7 f8 f9 (ix3 bb t d)
      = Cert.Spec.conv (filtOf f0 f1 f2 f3 f4 f5 f6 f7 f8 f9) (fun s d => c (ix3 bb s d)) (fun t d => p (ix3 bb t d)) t d := by
  unfold kAcc
  simp only [addf_apply, kTap0_apply, kTap1_apply, kTap2_apply, kTap3_apply, kTap4_apply, kTap5_apply, kTap6_apply, kTap7_apply, kTap8_apply, kTap9_apply, kXc_apply]
  rfl

/-- One layer on the 2048 hidden rows. -/
def kLayer (h : FVec Ideal S2048x256 .f32) (lw : FVec Ideal S256x256 .bf16) (c : FVec Ideal S16x9x256 .f32)
    (f0 f1 f2 f3 f4 f5 f6 f7 f8 f9 : FVec Ideal S1x256 .f32) (aw : FVec Ideal S256x256 .bf16) (ab : FVec Ideal S1x256 .f32) : FVec Ideal S2048x256 .f32 :=
  kAff (kAcc (kProj h lw) (kXc c (kProj h lw)) f0 f1 f2 f3 f4 f5 f6 f7 f8 f9) aw ab

/-- The layer's parameters as Proof/Spec.lean takes them. -/
def layerOf (lw : FVec Ideal S256x256 .bf16) (f0 f1 f2 f3 f4 f5 f6 f7 f8 f9 : FVec Ideal S1x256 .f32) (aw : FVec Ideal S256x256 .bf16)
    (ab : FVec Ideal S1x256 .f32) : Cert.Spec.Layer :=
  ⟨fun e n => lw (ix2 e n), filtOf f0 f1 f2 f3 f4 f5 f6 f7 f8 f9, fun e n => aw (ix2 e n), fun n => ab (ix2 (0 : Fin 1) n)⟩

theorem kLayer_apply (h : FVec Ideal S2048x256 .f32) (lw : FVec Ideal S256x256 .bf16) (c : FVec Ideal S16x9x256 .f32)
    (f0 f1 f2 f3 f4 f5 f6 f7 f8 f9 : FVec Ideal S1x256 .f32) (aw : FVec Ideal S256x256 .bf16) (ab : FVec Ideal S1x256 .f32)
    (bb : Fin 16) (t : Fin 128) (n : Fin 256) :
    kLayer h lw c f0 f1 f2 f3 f4 f5 f6 f7 f8 f9 aw ab (ix2 (rowOf bb t) n)
      = Cert.Spec.layer (layerOf lw f0 f1 f2 f3 f4 f5 f6 f7 f8 f9 aw ab) (fun s d => c (ix3 bb s d)) (fun t e => h (ix2 (rowOf bb t) e)) t n := by
  unfold kLayer
  rw [kAff_apply]
  simp only [kAcc_apply, kProj_apply]
  rfl

/-- The layer's new cache: its projection's last nine steps. -/
theorem kCache_apply (h : FVec Ideal S2048x256 .f32) (lw : FVec Ideal S256x256 .bf16) (f0 f1 f2 f3 f4 f5 f6 f7 f8 f9 : FVec Ideal S1x256 .f32)
    (aw : FVec Ideal S256x256 .bf16) (ab : FVec Ideal S1x256 .f32) (bb : Fin 16) (s : Fin 9) (d : Fin 256) :
    extractStridedSlice S16x9x256 ![0, 119, 0] (kProj h lw) slices_S16x128x256_o0_119_0_S16x9x256 (ix3 bb s d)
      = Cert.Spec.newCache (Cert.Spec.proj (layerOf lw f0 f1 f2 f3 f4 f5 f6 f7 f8 f9 aw ab) (fun t e => h (ix2 (rowOf bb t) e))) s d := by
  rw [newCache_apply]
  simp only [kProj_apply]
  rfl

end Cert.KernelIdeal.Hand

end
-- ==== Proof.KBlock.lean ====
/-
  What the kernel body leaves in its five output blocks, entry by entry.

  For the sixteen batch rows of a grid point, the probability block holds, at batch row `b`, time `t`
  and feature `n`, the softmax of the folded output map of row `b`'s last hidden sequence; each of the
  four cache blocks holds the last nine steps of that layer's projection of row `b`'s hidden sequence
  entering the layer.  The hidden sequences are the row-wise network of Proof/Spec.lean over the
  block's operands: the folded input map, then the four layers.
-/
import proofs.«129047_g2000306104881685_pallasbulk_300_2_alg».proof.Proof.KBlockDefs
import proofs.«129047_g2000306104881685_pallasbulk_300_2_alg».proof.Proof.KLayer
import proofs.«129047_g2000306104881685_pallasbulk_300_2_alg».proof.Proof.KernelIdealFrameP

set_option maxRecDepth 65536

open scoped BigOperators

noncomputable section

namespace Cert.KernelIdeal.Hand

open Cert.KernelIdeal Cert.KernelIdeal.Gen Cert.KernelIdeal.GenP Idealize.ShloMosaic Idealize.ShloMosaic.ValueIdx

/-! ## The body as a composition of its building blocks -/

theorem hz3 : (![0, 0, 0] : Fin 3 → ℕ) = fun _ => 0 := by funext a; fin_cases a <;> rfl
theorem hz2 : (![0, 0] : Fin 2 → ℕ) = fun _ => 0 := by funext a; fin_cases a <;> rfl

/-- A load of a whole block reads the block. -/
theorem ld0 (x : Vec Ideal S16x128x256 .bf16) : View.ld x r0_0 = x := View.ld_unit_zero hz3 _ x
theorem ld1 (x : Vec Ideal S256x256 .bf16) : View.ld x r0_1 = x := View.ld_unit_zero hz2 _ x
theorem ld2 (x : Vec Ideal S1x256 .f32) : View.ld x r0_2 = x := View.ld_unit_zero hz2 _ x
theorem ld3 (x : Vec Ideal S16x9x256 .f32) : View.ld x r0_3 = x := View.ld_unit_zero hz3 _ x

/-- The 2048 hidden rows entering layer 0, 1, 2, 3 and the output map, from the operand blocks (a layer's ten filter
    rows loaded one by one from its filter block). -/
def kH0 (x0 : Vec Ideal S16x128x256 .bf16) (x1 : Vec Ideal S256x256 .bf16) (x2 : Vec Ideal S1x256 .f32) : FVec Ideal S2048x256 .f32 := kIn x0 x1 x2
def kH1 (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) : FVec Ideal S2048x256 .f32 := kLayer (kH0 x0 x1 x2) x3 x7 (View.ld x4 r0_4) (View.ld x4 r0_5) (View.ld x4 r0_6) (View.ld x4 r0_7) (View.ld x4 r0_8) (View.ld x4 r0_9) (View.ld x4 r0_10) (View.ld x4 r0_11) (View.ld x4 r0_12) (View.ld x4 r0_13) x5 x6
def kH2 (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) : FVec Ideal S2048x256 .f32 := kLayer (kH1 x0 x1 x2 x3 x4 x5 x6 x7) x8 x12 (View.ld x9 r0_4) (View.ld x9 r0_5) (View.ld x9 r0_6) (View.ld x9 r0_7) (View.ld x9 r0_8) (View.ld x9 r0_9) (View.ld x9 r0_10) (View.ld x9 r0_11) (View.ld x9 r0_12) (View.ld x9 r0_13) x10 x11
def kH3 (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) : FVec Ideal S2048x256 .f32 := kLayer (kH2 x0 x1 x2 x3 x4 x5 x6 x7 x8 x9 x10 x11 x12) x13 x17 (View.ld x14 r0_4) (View.ld x14 r0_5) (View.ld x14 r0_6) (View.ld x14 r0_7) (View.ld x14 r0_8) (View.ld x14 r0_9) (View.ld x14 r0_10) (View.ld x14 r0_11) (View.ld x14 r0_12) (View.ld x14 r0_13) x15 x16
def kH4 (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (x18 : Vec Ideal S256x256 .bf16) (x19 : Vec Ideal S10x256 .f32) (x20 : Vec Ideal S256x256 .bf16) (x21 : Vec Ideal S1x256 .f32) (x22 : Vec Ideal S16x9x256 .f32) : FVec Ideal S2048x256 .f32 := kLayer (kH3 x0 x1 x2 x3 x4 x5 x6 x7 x8 x9 x10 x11 x12 x13 x14 x15 x16 x17) x18 x22 (View.ld x19 r0_4) (View.ld x19 r0_5) (View.ld x19 r0_6) (View.ld x19 r0_7) (View.ld x19 r0_8) (View.ld x19 r0_9) (View.ld x19 r0_10) (View.ld x19 r0_11) (View.ld x19 r0_12) (View.ld x19 r0_13) x20 x21

/-- The probability block is the softmax of the output map of the last hidden rows: the printed payloads unfold to it. -/
theorem out25_eq (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (x18 : Vec Ideal S256x256 .bf16) (x19 : Vec Ideal S10x256 .f32) (x20 : Vec Ideal S256x256 .bf16) (x21 : Vec Ideal S1x256 .f32) (x22 : Vec Ideal S16x9x256 .f32) (x23 : Vec Ideal S256x256 .bf16) (x24 : Vec Ideal S1x256 .f32) :
    out0_25 (F := Ideal) x0 x1 x2 x3 x4 x5 x6 x7 x8 x9 x10 x11 x12 x13 x14 x15 x16 x17 x18 x19 x20 x21 x22 x23 x24
      = View.canon [⟨r0_0, kSoftmax (kDense (kH4 (View.ld x0 r0_0) (View.ld x1 r0_1) (View.ld x2 r0_2) (View.ld x3 r0_1) x4 (View.ld x5 r0_1) (View.ld x6 r0_2) (View.ld x7 r0_3) (View.ld x8 r0_1) x9 (View.ld x10 r0_1) (View.ld x11 r0_2) (View.ld x12 r0_3) (View.ld x13 r0_1) x14 (View.ld x15 r0_1) (View.ld x16 r0_2) (View.ld x17 r0_3) (View.ld x18 r0_1) x19 (View.ld x20 r0_1) (View.ld x21 r0_2) (View.ld x22 r0_3)) (View.ld x23 r0_1)) (View.ld x24 r0_2)⟩] := rfl

theorem out26_eq (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (x18 : Vec Ideal S256x256 .bf16) (x19 : Vec Ideal S10x256 .f32) (x20 : Vec Ideal S256x256 .bf16) (x21 : Vec Ideal S1x256 .f32) (x22 : Vec Ideal S16x9x256 .f32) (x23 : Vec Ideal S256x256 .bf16) (x24 : Vec Ideal S1x256 .f32) :
    out0_26 (F := Ideal) x0 x1 x2 x3 x4 x5 x6 x7 x8 x9 x10 x11 x12 x13 x14 x15 x16 x17 x18 x19 x20 x21 x22 x23 x24
      = View.canon [⟨r0_3, extractStridedSlice S16x9x256 ![0, 119, 0] (kProj (kH0 (View.ld x0 r0_0) (View.ld x1 r0_1) (View.ld x2 r0_2)) (View.ld x3 r0_1)) slices_S16x128x256_o0_119_0_S16x9x256⟩] := rfl

theorem out27_eq (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (x18 : Vec Ideal S256x256 .bf16) (x19 : Vec Ideal S10x256 .f32) (x20 : Vec Ideal S256x256 .bf16) (x21 : Vec Ideal S1x256 .f32) (x22 : Vec Ideal S16x9x256 .f32) (x23 : Vec Ideal S256x256 .bf16) (x24 : Vec Ideal S1x256 .f32) :
    out0_27 (F := Ideal) x0 x1 x2 x3 x4 x5 x6 x7 x8 x9 x10 x11 x12 x13 x14 x15 x16 x17 x18 x19 x20 x21 x22 x23 x24
      = View.canon [⟨r0_3, extractStridedSlice S16x9x256 ![0, 119, 0] (kProj (kH1 (View.ld x0 r0_0) (View.ld x1 r0_1) (View.ld x2 r0_2) (View.ld x3 r0_1) x4 (View.ld x5 r0_1) (View.ld x6 r0_2) (View.ld x7 r0_3)) (View.ld x8 r0_1)) slices_S16x128x256_o0_119_0_S16x9x256⟩] := rfl

theorem out28_eq (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (x18 : Vec Ideal S256x256 .bf16) (x19 : Vec Ideal S10x256 .f32) (x20 : Vec Ideal S256x256 .bf16) (x21 : Vec Ideal S1x256 .f32) (x22 : Vec Ideal S16x9x256 .f32) (x23 : Vec Ideal S256x256 .bf16) (x24 : Vec Ideal S1x256 .f32) :
    out0_28 (F := Ideal) x0 x1 x2 x3 x4 x5 x6 x7 x8 x9 x10 x11 x12 x13 x14 x15 x16 x17 x18 x19 x20 x21 x22 x23 x24
      = View.canon [⟨r0_3, extractStridedSlice S16x9x256 ![0, 119, 0] (kProj (kH2 (View.ld x0 r0_0) (View.ld x1 r0_1) (View.ld x2 r0_2) (View.ld x3 r0_1) x4 (View.ld x5 r0_1) (View.ld x6 r0_2) (View.ld x7 r0_3) (View.ld x8 r0_1) x9 (View.ld x10 r0_1) (View.ld x11 r0_2) (View.ld x12 r0_3)) (View.ld x13 r0_1)) slices_S16x128x256_o0_119_0_S16x9x256⟩] := rfl

theorem out29_eq (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (x18 : Vec Ideal S256x256 .bf16) (x19 : Vec Ideal S10x256 .f32) (x20 : Vec Ideal S256x256 .bf16) (x21 : Vec Ideal S1x256 .f32) (x22 : Vec Ideal S16x9x256 .f32) (x23 : Vec Ideal S256x256 .bf16) (x24 : Vec Ideal S1x256 .f32) :
    out0_29 (F := Ideal) x0 x1 x2 x3 x4 x5 x6 x7 x8 x9 x10 x11 x12 x13 x14 x15 x16 x17 x18 x19 x20 x21 x22 x23 x24
      = View.canon [⟨r0_3, extractStridedSlice S16x9x256 ![0, 119, 0] (kProj (kH3 (View.ld x0 r0_0) (View.ld x1 r0_1) (View.ld x2 r0_2) (View.ld x3 r0_1) x4 (View.ld x5 r0_1) (View.ld x6 r0_2) (View.ld x7 r0_3) (View.ld x8 r0_1) x9 (View.ld x10 r0_1) (View.ld x11 r0_2) (View.ld x12 r0_3) (View.ld x13 r0_1) x14 (View.ld x15 r0_1) (View.ld x16 r0_2) (View.ld x17 r0_3)) (View.ld x18 r0_1)) slices_S16x128x256_o0_119_0_S16x9x256⟩] := rfl

/-! ## The operand blocks as the network's parameters -/

/-- A load of filter row `k` reads row `k` of the filter block. -/
theorem ldRow (xf : Vec Ideal S10x256 .f32) (k : ℕ) (inb : ∀ a, (![k, 0] : Fin 2 → ℕ) a + S1x256.size a ≤ S10x256.size a) (hk : k < 10) (d : Fin 256) :
    View.ld xf (Rect.unit (s := S10x256) ![k, 0] S1x256.size inb) (ix2 (0 : Fin 1) d) = xf (ix2 ⟨k, hk⟩ d) := by
  show xf ((Rect.unit (s := S10x256) ![k, 0] S1x256.size inb).emb (ix2 (0 : Fin 1) d)) = _
  congr 1
  funext a
  apply Fin.ext
  match a with
  | ⟨0, _⟩ => show k + 1 * 0 = k; omega
  | ⟨1, _⟩ => show 0 + 1 * d.val = d.val; omega

theorem layerOf_ld (xl : Vec Ideal S256x256 .bf16) (xf : Vec Ideal S10x256 .f32) (xa : Vec Ideal S256x256 .bf16) (xb : Vec Ideal S1x256 .f32) :
    layerOf xl (View.ld xf r0_4) (View.ld xf r0_5) (View.ld xf r0_6) (View.ld xf r0_7) (View.ld xf r0_8) (View.ld xf r0_9) (View.ld xf r0_10) (View.ld xf r0_11) (View.ld xf r0_12) (View.ld xf r0_13) xa xb = blkLayer xl xf xa xb := by
  unfold layerOf blkLayer
  congr 1
  funext k d
  match k with
  | ⟨0, _⟩ => exact ldRow xf 0 _ (by decide) d
  | ⟨1, _⟩ => exact ldRow xf 1 _ (by decide) d
  | ⟨2, _⟩ => exact ldRow xf 2 _ (by decide) d
  | ⟨3, _⟩ => exact ldRow xf 3 _ (by decide) d
  | ⟨4, _⟩ => exact ldRow xf 4 _ (by decide) d
  | ⟨5, _⟩ => exact ldRow xf 5 _ (by decide) d
  | ⟨6, _⟩ => exact ldRow xf 6 _ (by decide) d
  | ⟨7, _⟩ => exact ldRow xf 7 _ (by decide) d
  | ⟨8, _⟩ => exact ldRow xf 8 _ (by decide) d
  | ⟨9, _⟩ => exact ldRow xf 9 _ (by decide) d

/-! ## The hidden rows are the row-wise network -/

theorem kH0_row (x0 : Vec Ideal S16x128x256 .bf16) (x1 : Vec Ideal S256x256 .bf16) (x2 : Vec Ideal S1x256 .f32) (bb : Fin 16) (t : Fin 128) :
    (fun e => kH0 x0 x1 x2 (ix2 (rowOf bb t) e)) = blkHid0 x0 x1 x2 bb t := by
  funext n
  unfold kH0 blkHid0 Cert.Spec.inOne
  rw [kIn_apply]

theorem kH1_row (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (bb : Fin 16) (t : Fin 128) :
    (fun e => kH1 x0 x1 x2 x3 x4 x5 x6 x7 (ix2 (rowOf bb t) e)) = blkHid1 x0 x1 x2 x3 x4 x5 x6 x7 bb t := by
  funext n
  unfold kH1 blkHid1
  rw [kLayer_apply, layerOf_ld]
  have hh : (fun (t : Fin 128) (e : Fin 256) => kH0 x0 x1 x2 (ix2 (rowOf bb t) e)) = blkHid0 x0 x1 x2 bb :=
    funext fun t => kH0_row x0 x1 x2 bb t
  rw [hh]
  rfl

theorem kH2_row (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (bb : Fin 16) (t : Fin 128) :
    (fun e => kH2 x0 x1 x2 x3 x4 x5 x6 x7 x8 x9 x10 x11 x12 (ix2 (rowOf bb t) e)) = blkHid2 x0 x1 x2 x3 x4 x5 x6 x7 x8 x9 x10 x11 x12 bb t := by
  funext n
  unfold kH2 blkHid2
  rw [kLayer_apply, layerOf_ld]
  have hh : (fun (t : Fin 128) (e : Fin 256) => kH1 x0 x1 x2 x3 x4 x5 x6 x7 (ix2 (rowOf bb t) e)) = blkHid1 x0 x1 x2 x3 x4 x5 x6 x7 bb :=
    funext fun t => kH1_row x0 x1 x2 x3 x4 x5 x6 x7 bb t
  rw [hh]
  rfl

theorem kH3_row (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (bb : Fin 16) (t : Fin 128) :
    (fun e => kH3 x0 x1 x2 x3 x4 x5 x6 x7 x8 x9 x10 x11 x12 x13 x14 x15 x16 x17 (ix2 (rowOf bb t) e)) = blkHid3 x0 x1 x2 x3 x4 x5 x6 x7 x8 x9 x10 x11 x12 x13 x14 x15 x16 x17 bb t := by
  funext n
  unfold kH3 blkHid3
  rw [kLayer_apply, layerOf_ld]
  have hh : (fun (t : Fin 128) (e : Fin 256) => kH2 x0 x1 x2 x3 x4 x5 x6 x7 x8 x9 x10 x11 x12 (ix2 (rowOf bb t) e)) = blkHid2 x0 x1 x2 x3 x4 x5 x6 x7 x8 x9 x10 x11 x12 bb :=
    funext fun t => kH2_row x0 x1 x2 x3 x4 x5 x6 x7 x8 x9 x10 x11 x12 bb t
  rw [hh]
  rfl

theorem kH4_row (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (x18 : Vec Ideal S256x256 .bf16) (x19 : Vec Ideal S10x256 .f32) (x20 : Vec Ideal S256x256 .bf16) (x21 : Vec Ideal S1x256 .f32) (x22 : Vec Ideal S16x9x256 .f32) (bb : Fin 16) (t : Fin 128) :
    (fun e => kH4 x0 x1 x2 x3 x4 x5 x6 x7 x8 x9 x10 x11 x12 x13 x14 x15 x16 x17 x18 x19 x20 x21 x22 (ix2 (rowOf bb t) e)) = blkHid4 x0 x1 x2 x3 x4 x5 x6 x7 x8 x9 x10 x11 x12 x13 x14 x15 x16 x17 x18 x19 x20 x21 x22 bb t := by
  funext n
  unfold kH4 blkHid4
  rw [kLayer_apply, layerOf_ld]
  have hh : (fun (t : Fin 128) (e : Fin 256) => kH3 x0 x1 x2 x3 x4 x5 x6 x7 x8 x9 x10 x11 x12 x13 x14 x15 x16 x17 (ix2 (rowOf bb t) e)) = blkHid3 x0 x1 x2 x3 x4 x5 x6 x7 x8 x9 x10 x11 x12 x13 x14 x15 x16 x17 bb :=
    funext fun t => kH3_row x0 x1 x2 x3 x4 x5 x6 x7 x8 x9 x10 x11 x12 x13 x14 x15 x16 x17 bb t
  rw [hh]
  rfl

/-! ## The five output blocks -/

/-- The probability block. -/
theorem out25_apply (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (x18 : Vec Ideal S256x256 .bf16) (x19 : Vec Ideal S10x256 .f32) (x20 : Vec Ideal S256x256 .bf16) (x21 : Vec Ideal S1x256 .f32) (x22 : Vec Ideal S16x9x256 .f32) (x23 : Vec Ideal S256x256 .bf16) (x24 : Vec Ideal S1x256 .f32) (bb : Fin 16) (t : Fin 128) (n : Fin 256) :
    out0_25 (F := Ideal) x0 x1 x2 x3 x4 x5 x6 x7 x8 x9 x10 x11 x12 x13 x14 x15 x16 x17 x18 x19 x20 x21 x22 x23 x24 (ix3 bb t n)
      = Cert.Spec.outOne (fun e n => x23 (ix2 e n)) (fun n => x24 (ix2 (0 : Fin 1) n)) (blkHid4 x0 x1 x2 x3 x4 x5 x6 x7 x8 x9 x10 x11 x12 x13 x14 x15 x16 x17 x18 x19 x20 x21 x22 bb) t n := by
  rw [out25_eq, ld0 x0, ld1 x1, ld2 x2, ld1 x3, ld1 x5, ld2 x6, ld3 x7, ld1 x8, ld1 x10, ld2 x11, ld3 x12, ld1 x13, ld1 x15, ld2 x16, ld3 x17, ld1 x18, ld1 x20, ld2 x21, ld3 x22, ld1 x23, ld2 x24, View.canon_unit_zero hz3, kSoftmax_apply]
  simp only [kDense_apply, kH4_row]
  rfl

/-- Layer 0's new-cache block. -/
theorem out26_apply (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (x18 : Vec Ideal S256x256 .bf16) (x19 : Vec Ideal S10x256 .f32) (x20 : Vec Ideal S256x256 .bf16) (x21 : Vec Ideal S1x256 .f32) (x22 : Vec Ideal S16x9x256 .f32) (x23 : Vec Ideal S256x256 .bf16) (x24 : Vec Ideal S1x256 .f32) (bb : Fin 16) (s : Fin 9) (d : Fin 256) :
    out0_26 (F := Ideal) x0 x1 x2 x3 x4 x5 x6 x7 x8 x9 x10 x11 x12 x13 x14 x15 x16 x17 x18 x19 x20 x21 x22 x23 x24 (ix3 bb s d)
      = Cert.Spec.newCache (Cert.Spec.proj (blkLayer x3 x4 x5 x6) (blkHid0 x0 x1 x2 bb)) s d := by
  rw [out26_eq, ld0 x0, ld1 x1, ld2 x2, ld1 x3, View.canon_unit_zero hz3, newCache_apply]
  simp only [kProj_apply, kH0_row]
  rfl

/-- Layer 1's new-cache block. -/
theorem out27_apply (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (x18 : Vec Ideal S256x256 .bf16) (x19 : Vec Ideal S10x256 .f32) (x20 : Vec Ideal S256x256 .bf16) (x21 : Vec Ideal S1x256 .f32) (x22 : Vec Ideal S16x9x256 .f32) (x23 : Vec Ideal S256x256 .bf16) (x24 : Vec Ideal S1x256 .f32) (bb : Fin 16) (s : Fin 9) (d : Fin 256) :
    out0_27 (F := Ideal) x0 x1 x2 x3 x4 x5 x6 x7 x8 x9 x10 x11 x12 x13 x14 x15 x16 x17 x18 x19 x20 x21 x22 x23 x24 (ix3 bb s d)
      = Cert.Spec.newCache (Cert.Spec.proj (blkLayer x8 x9 x10 x11) (blkHid1 x0 x1 x2 x3 x4 x5 x6 x7 bb)) s d := by
  rw [out27_eq, ld0 x0, ld1 x1, ld2 x2, ld1 x3, ld1 x5, ld2 x6, ld3 x7, ld1 x8, View.canon_unit_zero hz3, newCache_apply]
  simp only [kProj_apply, kH1_row]
  rfl

/-- Layer 2's new-cache block. -/
theorem out28_apply (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (x18 : Vec Ideal S256x256 .bf16) (x19 : Vec Ideal S10x256 .f32) (x20 : Vec Ideal S256x256 .bf16) (x21 : Vec Ideal S1x256 .f32) (x22 : Vec Ideal S16x9x256 .f32) (x23 : Vec Ideal S256x256 .bf16) (x24 : Vec Ideal S1x256 .f32) (bb : Fin 16) (s : Fin 9) (d : Fin 256) :
    out0_28 (F := Ideal) x0 x1 x2 x3 x4 x5 x6 x7 x8 x9 x10 x11 x12 x13 x14 x15 x16 x17 x18 x19 x20 x21 x22 x23 x24 (ix3 bb s d)
      = Cert.Spec.newCache (Cert.Spec.proj (blkLayer x13 x14 x15 x16) (blkHid2 x0 x1 x2 x3 x4 x5 x6 x7 x8 x9 x10 x11 x12 bb)) s d := by
  rw [out28_eq, ld0 x0, ld1 x1, ld2 x2, ld1 x3, ld1 x5, ld2 x6, ld3 x7, ld1 x8, ld1 x10, ld2 x11, ld3 x12, ld1 x13, View.canon_unit_zero hz3, newCache_apply]
  simp only [kProj_apply, kH2_row]
  rfl

/-- Layer 3's new-cache block. -/
theorem out29_apply (x0 : Vec Ideal S16x128x256 .bf16) (x1 : Vec Ideal S256x256 .bf16) (x2 : Vec Ideal S1x256 .f32) (x3 : Vec Ideal S256x256 .bf16) (x4 : Vec Ideal S10x256 .f32) (x5 : Vec Ideal S256x256 .bf16) (x6 : Vec Ideal S1x256 .f32) (x7 : Vec Ideal S16x9x256 .f32) (x8 : Vec Ideal S256x256 .bf16) (x9 : Vec Ideal S10x256 .f32) (x10 : Vec Ideal S256x256 .bf16) (x11 : Vec Ideal S1x256 .f32) (x12 : Vec Ideal S16x9x256 .f32) (x13 : Vec Ideal S256x256 .bf16) (x14 : Vec Ideal S10x256 .f32) (x15 : Vec Ideal S256x256 .bf16) (x16 : Vec Ideal S1x256 .f32) (x17 : Vec Ideal S16x9x256 .f32) (x18 : Vec Ideal S256x256 .bf16) (x19 : Vec Ideal S10x256 .f32) (x20 : Vec Ideal S256x256 .bf16) (x21 : Vec Ideal S1x256 .f32) (x22 : Vec Ideal S16x9x256 .f32) (x23 : Vec Ideal S256x256 .bf16) (x24 : Vec Ideal S1x256 .f32) (bb : Fin 16) (s : Fin 9) (d : Fin 256) :
    out0_29 (F := Ideal) x0 x1 x2 x3 x4 x5 x6 x7 x8 x9 x10 x11 x12 x13 x14 x15 x16 x17 x18 x19 x20 x21 x22 x23 x24 (ix3 bb s d)
      = Cert.Spec.newCache (Cert.Spec.proj (blkLayer x18 x19 x20 x21) (blkHid3 x0 x1 x2 x3 x4 x5 x6 x7 x8 x9 x10 x11 x12 x13 x14 x15 x16 x17 bb)) s d := by
  rw [out29_eq, ld0 x0, ld1 x1, ld2 x2, ld1 x3, ld1 x5, ld2 x6, ld3 x7, ld1 x8, ld1 x10, ld2 x11, ld3 x12, ld1 x13, ld1 x15, ld2 x16, ld3 x17, ld1 x18, View.canon_unit_zero hz3, newCache_apply]
  simp only [kProj_apply, kH3_row]
  rfl

end Cert.KernelIdeal.Hand

end
-- ==== Proof.KFinal.lean ====
/-
  The five output arrays after the region.

  Grid point `t` writes back, into each output window's array, the block of batch rows
  `16 t … 16 t + 15`; what it writes at batch row `bb` is, by the body's value and the point's operand
  blocks, the folded network's result for batch row `16 t + bb`: the probabilities, and per layer the new
  cache, time-major.  Batch row `r` is covered by point `r / 16`, so each array ends holding the whole
  result.
-/
import proofs.«129047_g2000306104881685_pallasbulk_300_2_alg».proof.Proof.KPoint
import proofs.«129047_g2000306104881685_pallasbulk_300_2_alg».proof.Proof.KBlock
import Idealize.ShloMosaic.Lib.Pipeline.Value

set_option maxRecDepth 65536

noncomputable section

namespace Cert.KernelIdeal.Hand

open Cert.KernelIdeal Cert.KernelIdeal.Gen Cert.KernelIdeal.GenP Idealize.ShloMosaic Idealize.ShloMosaic.TcCoe Idealize.SL.Sem
open Idealize.ShloMosaic.ValueIdx

open Idealize.ShloMosaic.Pipeline (Dat)
open Cert.Spec

variable (m : (ℓ : Loc nD τ sig) → Buf (Elt Ideal) ℓ)

/-- Layer `l`'s new cache, time-major: entry `(b, s, d)`. -/
def newCacheTM (a : Args) (l : Fin 4) : S256x9x256.Idx → EReal :=
  fun j => newCacheArrK a l (ix4 (j 0) (j 2) (j 1) (0 : Fin 1))

/-! ## The probabilities -/

/-- An index of the array is in point `t`'s block iff each coordinate is in the block's range on its axis. -/
theorem mem_blk25 (t : Fin cfg0.N) (i : S256x128x256.Idx) :
    i ∈ ((cfg0.win 25).blk t).view.set ↔ ∀ a : Fin 3, win0_25.index t a * S16x128x256.size a ≤ (i a).val
      ∧ (i a).val < win0_25.index t a * S16x128x256.size a + S16x128x256.size a := by
  show i ∈ ((View.whole main_v33_0).slice (win0_25.rect t)).set ↔ _
  rw [View.set_slice_whole, Rect.mem_set_unit]
  exact Iff.rfl

/-- Batch row `r` is in the block of point `r / 16`. -/
theorem cover25 (i : S256x128x256.Idx) :
    ∃ t : Fin cfg0.N, (cfg0.win 25).flush t = true ∧ i ∈ ((cfg0.win 25).blk t).view.set := by
  have hi0 : (i 0).val < 256 := (i 0).isLt
  have hi1 : (i 1).val < 128 := (i 1).isLt
  have hi2 : (i 2).val < 256 := (i 2).isLt
  have hN : cfg0.N = 16 := N_0
  have hlt : (i 0).val / 16 < cfg0.N := by rw [hN]; omega
  obtain ⟨h0, h1, h2⟩ := blockIndex25 ⟨(i 0).val / 16, hlt⟩
  have h0' : win0_25.index ⟨(i 0).val / 16, hlt⟩ (0 : Fin 3) = (i 0).val / 16 := h0
  refine ⟨⟨(i 0).val / 16, hlt⟩, flush0_25 _, ?_⟩
  rw [mem_blk25]
  intro a
  match a with
  | ⟨0, _⟩ =>
    show win0_25.index ⟨(i 0).val / 16, hlt⟩ (0 : Fin 3) * 16 ≤ (i 0).val
      ∧ (i 0).val < win0_25.index ⟨(i 0).val / 16, hlt⟩ (0 : Fin 3) * 16 + 16
    omega
  | ⟨1, _⟩ =>
    show win0_25.index ⟨(i 0).val / 16, hlt⟩ (1 : Fin 3) * 128 ≤ (i 1).val
      ∧ (i 1).val < win0_25.index ⟨(i 0).val / 16, hlt⟩ (1 : Fin 3) * 128 + 128
    omega
  | ⟨2, _⟩ =>
    show win0_25.index ⟨(i 0).val / 16, hlt⟩ (2 : Fin 3) * 256 ≤ (i 2).val
      ∧ (i 2).val < win0_25.index ⟨(i 0).val / 16, hlt⟩ (2 : Fin 3) * 256 + 256
    omega

/-- What point `t` writes back is block `t` of the probabilities. -/
theorem flushed25_eq (c : Dev nD) (t : Fin cfg0.N) :
    (dats m 0 c).flushed 25 t = ((cfg0.win 25).blk t).view.read (Elt Ideal) (probsK (argsOf m c)) := by
  show (cfg0.win 25).cut (grid0.coords t) ((dats m 0 c).after 25 t) = _
  rw [after0_25]
  obtain ⟨h0, h1, h2⟩ := blockIndex25 t
  have hN : cfg0.N = 16 := N_0
  have ht : t.val < 16 := hN ▸ t.isLt
  refine funext fun (y : S16x128x256.Idx) => ?_
  obtain ⟨bb, p, q, rfl⟩ : ∃ (bb : Fin 16) (p : Fin 128) (q : Fin 256), y = ix3 bb p q := ⟨y 0, y 1, y 2, eq_ix3 y⟩
  have hbb : bb.val < 16 := bb.isLt
  refine (out25_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) bb p q).trans ?_
  refine ((blockOf_iblk m c t bb ⟨16 * t.val + bb.val, by omega⟩ rfl).probs p q).trans ?_
  show probsK (argsOf m c) (ix3 _ p q) = probsK (argsOf m c) (((cfg0.win 25).blk t).view.emb (ix3 bb p q))
  refine congrArg _ (funext fun a => Fin.ext ?_)
  match a with
  | ⟨0, _⟩ => show 16 * t.val + bb.val = win0_25.index t (0 : Fin 3) * 16 + 1 * bb.val; omega
  | ⟨1, _⟩ => show p.val = win0_25.index t (1 : Fin 3) * 128 + 1 * p.val; omega
  | ⟨2, _⟩ => show q.val = win0_25.index t (2 : Fin 3) * 256 + 1 * q.val; omega

/-- The probabilities' array after the region. -/
theorem arrAt25 (c : Dev nD) : (dats m 0 c).arrAt 25 cfg0.N = probsK (argsOf m c) :=
  (dats m 0 c).arrAt_eq_of_cover 25 (probsK (argsOf m c)) (fun t _ => flushed25_eq m c t) cover25

/-! ## Layer 0's new cache -/

theorem mem_blk26 (t : Fin cfg0.N) (i : S256x9x256.Idx) :
    i ∈ ((cfg0.win 26).blk t).view.set ↔ ∀ a : Fin 3, win0_26.index t a * S16x9x256.size a ≤ (i a).val
      ∧ (i a).val < win0_26.index t a * S16x9x256.size a + S16x9x256.size a := by
  show i ∈ ((View.whole main_v33_1).slice (win0_26.rect t)).set ↔ _
  rw [View.set_slice_whole, Rect.mem_set_unit]
  exact Iff.rfl

theorem cover26 (i : S256x9x256.Idx) :
    ∃ t : Fin cfg0.N, (cfg0.win 26).flush t = true ∧ i ∈ ((cfg0.win 26).blk t).view.set := by
  have hi0 : (i 0).val < 256 := (i 0).isLt
  have hi1 : (i 1).val < 9 := (i 1).isLt
  have hi2 : (i 2).val < 256 := (i 2).isLt
  have hN : cfg0.N = 16 := N_0
  have hlt : (i 0).val / 16 < cfg0.N := by rw [hN]; omega
  obtain ⟨h0, h1, h2⟩ := blockIndex26 ⟨(i 0).val / 16, hlt⟩
  have h0' : win0_26.index ⟨(i 0).val / 16, hlt⟩ (0 : Fin 3) = (i 0).val / 16 := h0
  refine ⟨⟨(i 0).val / 16, hlt⟩, flush0_26 _, ?_⟩
  rw [mem_blk26]
  intro a
  match a with
  | ⟨0, _⟩ =>
    show win0_26.index ⟨(i 0).val / 16, hlt⟩ (0 : Fin 3) * 16 ≤ (i 0).val
      ∧ (i 0).val < win0_26.index ⟨(i 0).val / 16, hlt⟩ (0 : Fin 3) * 16 + 16
    omega
  | ⟨1, _⟩ =>
    show win0_26.index ⟨(i 0).val / 16, hlt⟩ (1 : Fin 3) * 9 ≤ (i 1).val
      ∧ (i 1).val < win0_26.index ⟨(i 0).val / 16, hlt⟩ (1 : Fin 3) * 9 + 9
    omega
  | ⟨2, _⟩ =>
    show win0_26.index ⟨(i 0).val / 16, hlt⟩ (2 : Fin 3) * 256 ≤ (i 2).val
      ∧ (i 2).val < win0_26.index ⟨(i 0).val / 16, hlt⟩ (2 : Fin 3) * 256 + 256
    omega

theorem flushed26_eq (c : Dev nD) (t : Fin cfg0.N) :
    (dats m 0 c).flushed 26 t = ((cfg0.win 26).blk t).view.read (Elt Ideal) (newCacheTM (argsOf m c) 0) := by
  show (cfg0.win 26).cut (grid0.coords t) ((dats m 0 c).after 26 t) = _
  rw [after0_26]
  obtain ⟨h0, h1, h2⟩ := blockIndex26 t
  have hN : cfg0.N = 16 := N_0
  have ht : t.val < 16 := hN ▸ t.isLt
  refine funext fun (y : S16x9x256.Idx) => ?_
  obtain ⟨bb, s, d, rfl⟩ : ∃ (bb : Fin 16) (s : Fin 9) (d : Fin 256), y = ix3 bb s d := ⟨y 0, y 1, y 2, eq_ix3 y⟩
  have hbb : bb.val < 16 := bb.isLt
  refine (out26_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) bb s d).trans ?_
  refine ((blockOf_iblk m c t bb ⟨16 * t.val + bb.val, by omega⟩ rfl).newCache0 s d).trans ?_
  have hE : ((cfg0.win 26).blk t).view.emb (ix3 bb s d)
      = (ix3 (⟨16 * t.val + bb.val, by omega⟩ : Fin 256) s d : S256x9x256.Idx) :=
    funext fun a => Fin.ext (by
      match a with
      | ⟨0, _⟩ => show win0_26.index t (0 : Fin 3) * 16 + 1 * bb.val = 16 * t.val + bb.val; omega
      | ⟨1, _⟩ => show win0_26.index t (1 : Fin 3) * 9 + 1 * s.val = s.val; omega
      | ⟨2, _⟩ => show win0_26.index t (2 : Fin 3) * 256 + 1 * d.val = d.val; omega)
  show _ = newCacheTM (argsOf m c) 0 (((cfg0.win 26).blk t).view.emb (ix3 bb s d))
  rw [hE]
  rfl

theorem arrAt26 (c : Dev nD) : (dats m 0 c).arrAt 26 cfg0.N = newCacheTM (argsOf m c) 0 :=
  (dats m 0 c).arrAt_eq_of_cover 26 (newCacheTM (argsOf m c) 0) (fun t _ => flushed26_eq m c t) cover26

/-! ## Layer 1's new cache -/

theorem mem_blk27 (t : Fin cfg0.N) (i : S256x9x256.Idx) :
    i ∈ ((cfg0.win 27).blk t).view.set ↔ ∀ a : Fin 3, win0_27.index t a * S16x9x256.size a ≤ (i a).val
      ∧ (i a).val < win0_27.index t a * S16x9x256.size a + S16x9x256.size a := by
  show i ∈ ((View.whole main_v33_2).slice (win0_27.rect t)).set ↔ _
  rw [View.set_slice_whole, Rect.mem_set_unit]
  exact Iff.rfl

theorem cover27 (i : S256x9x256.Idx) :
    ∃ t : Fin cfg0.N, (cfg0.win 27).flush t = true ∧ i ∈ ((cfg0.win 27).blk t).view.set := by
  have hi0 : (i 0).val < 256 := (i 0).isLt
  have hi1 : (i 1).val < 9 := (i 1).isLt
  have hi2 : (i 2).val < 256 := (i 2).isLt
  have hN : cfg0.N = 16 := N_0
  have hlt : (i 0).val / 16 < cfg0.N := by rw [hN]; omega
  obtain ⟨h0, h1, h2⟩ := blockIndex27 ⟨(i 0).val / 16, hlt⟩
  have h0' : win0_27.index ⟨(i 0).val / 16, hlt⟩ (0 : Fin 3) = (i 0).val / 16 := h0
  refine ⟨⟨(i 0).val / 16, hlt⟩, flush0_27 _, ?_⟩
  rw [mem_blk27]
  intro a
  match a with
  | ⟨0, _⟩ =>
    show win0_27.index ⟨(i 0).val / 16, hlt⟩ (0 : Fin 3) * 16 ≤ (i 0).val
      ∧ (i 0).val < win0_27.index ⟨(i 0).val / 16, hlt⟩ (0 : Fin 3) * 16 + 16
    omega
  | ⟨1, _⟩ =>
    show win0_27.index ⟨(i 0).val / 16, hlt⟩ (1 : Fin 3) * 9 ≤ (i 1).val
      ∧ (i 1).val < win0_27.index ⟨(i 0).val / 16, hlt⟩ (1 : Fin 3) * 9 + 9
    omega
  | ⟨2, _⟩ =>
    show win0_27.index ⟨(i 0).val / 16, hlt⟩ (2 : Fin 3) * 256 ≤ (i 2).val
      ∧ (i 2).val < win0_27.index ⟨(i 0).val / 16, hlt⟩ (2 : Fin 3) * 256 + 256
    omega

theorem flushed27_eq (c : Dev nD) (t : Fin cfg0.N) :
    (dats m 0 c).flushed 27 t = ((cfg0.win 27).blk t).view.read (Elt Ideal) (newCacheTM (argsOf m c) 1) := by
  show (cfg0.win 27).cut (grid0.coords t) ((dats m 0 c).after 27 t) = _
  rw [after0_27]
  obtain ⟨h0, h1, h2⟩ := blockIndex27 t
  have hN : cfg0.N = 16 := N_0
  have ht : t.val < 16 := hN ▸ t.isLt
  refine funext fun (y : S16x9x256.Idx) => ?_
  obtain ⟨bb, s, d, rfl⟩ : ∃ (bb : Fin 16) (s : Fin 9) (d : Fin 256), y = ix3 bb s d := ⟨y 0, y 1, y 2, eq_ix3 y⟩
  have hbb : bb.val < 16 := bb.isLt
  refine (out27_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) bb s d).trans ?_
  refine ((blockOf_iblk m c t bb ⟨16 * t.val + bb.val, by omega⟩ rfl).newCache1 s d).trans ?_
  have hE : ((cfg0.win 27).blk t).view.emb (ix3 bb s d)
      = (ix3 (⟨16 * t.val + bb.val, by omega⟩ : Fin 256) s d : S256x9x256.Idx) :=
    funext fun a => Fin.ext (by
      match a with
      | ⟨0, _⟩ => show win0_27.index t (0 : Fin 3) * 16 + 1 * bb.val = 16 * t.val + bb.val; omega
      | ⟨1, _⟩ => show win0_27.index t (1 : Fin 3) * 9 + 1 * s.val = s.val; omega
      | ⟨2, _⟩ => show win0_27.index t (2 : Fin 3) * 256 + 1 * d.val = d.val; omega)
  show _ = newCacheTM (argsOf m c) 1 (((cfg0.win 27).blk t).view.emb (ix3 bb s d))
  rw [hE]
  rfl

theorem arrAt27 (c : Dev nD) : (dats m 0 c).arrAt 27 cfg0.N = newCacheTM (argsOf m c) 1 :=
  (dats m 0 c).arrAt_eq_of_cover 27 (newCacheTM (argsOf m c) 1) (fun t _ => flushed27_eq m c t) cover27

/-! ## Layer 2's new cache -/

theorem mem_blk28 (t : Fin cfg0.N) (i : S256x9x256.Idx) :
    i ∈ ((cfg0.win 28).blk t).view.set ↔ ∀ a : Fin 3, win0_28.index t a * S16x9x256.size a ≤ (i a).val
      ∧ (i a).val < win0_28.index t a * S16x9x256.size a + S16x9x256.size a := by
  show i ∈ ((View.whole main_v33_3).slice (win0_28.rect t)).set ↔ _
  rw [View.set_slice_whole, Rect.mem_set_unit]
  exact Iff.rfl

theorem cover28 (i : S256x9x256.Idx) :
    ∃ t : Fin cfg0.N, (cfg0.win 28).flush t = true ∧ i ∈ ((cfg0.win 28).blk t).view.set := by
  have hi0 : (i 0).val < 256 := (i 0).isLt
  have hi1 : (i 1).val < 9 := (i 1).isLt
  have hi2 : (i 2).val < 256 := (i 2).isLt
  have hN : cfg0.N = 16 := N_0
  have hlt : (i 0).val / 16 < cfg0.N := by rw [hN]; omega
  obtain ⟨h0, h1, h2⟩ := blockIndex28 ⟨(i 0).val / 16, hlt⟩
  have h0' : win0_28.index ⟨(i 0).val / 16, hlt⟩ (0 : Fin 3) = (i 0).val / 16 := h0
  refine ⟨⟨(i 0).val / 16, hlt⟩, flush0_28 _, ?_⟩
  rw [mem_blk28]
  intro a
  match a with
  | ⟨0, _⟩ =>
    show win0_28.index ⟨(i 0).val / 16, hlt⟩ (0 : Fin 3) * 16 ≤ (i 0).val
      ∧ (i 0).val < win0_28.index ⟨(i 0).val / 16, hlt⟩ (0 : Fin 3) * 16 + 16
    omega
  | ⟨1, _⟩ =>
    show win0_28.index ⟨(i 0).val / 16, hlt⟩ (1 : Fin 3) * 9 ≤ (i 1).val
      ∧ (i 1).val < win0_28.index ⟨(i 0).val / 16, hlt⟩ (1 : Fin 3) * 9 + 9
    omega
  | ⟨2, _⟩ =>
    show win0_28.index ⟨(i 0).val / 16, hlt⟩ (2 : Fin 3) * 256 ≤ (i 2).val
      ∧ (i 2).val < win0_28.index ⟨(i 0).val / 16, hlt⟩ (2 : Fin 3) * 256 + 256
    omega

theorem flushed28_eq (c : Dev nD) (t : Fin cfg0.N) :
    (dats m 0 c).flushed 28 t = ((cfg0.win 28).blk t).view.read (Elt Ideal) (newCacheTM (argsOf m c) 2) := by
  show (cfg0.win 28).cut (grid0.coords t) ((dats m 0 c).after 28 t) = _
  rw [after0_28]
  obtain ⟨h0, h1, h2⟩ := blockIndex28 t
  have hN : cfg0.N = 16 := N_0
  have ht : t.val < 16 := hN ▸ t.isLt
  refine funext fun (y : S16x9x256.Idx) => ?_
  obtain ⟨bb, s, d, rfl⟩ : ∃ (bb : Fin 16) (s : Fin 9) (d : Fin 256), y = ix3 bb s d := ⟨y 0, y 1, y 2, eq_ix3 y⟩
  have hbb : bb.val < 16 := bb.isLt
  refine (out28_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) bb s d).trans ?_
  refine ((blockOf_iblk m c t bb ⟨16 * t.val + bb.val, by omega⟩ rfl).newCache2 s d).trans ?_
  have hE : ((cfg0.win 28).blk t).view.emb (ix3 bb s d)
      = (ix3 (⟨16 * t.val + bb.val, by omega⟩ : Fin 256) s d : S256x9x256.Idx) :=
    funext fun a => Fin.ext (by
      match a with
      | ⟨0, _⟩ => show win0_28.index t (0 : Fin 3) * 16 + 1 * bb.val = 16 * t.val + bb.val; omega
      | ⟨1, _⟩ => show win0_28.index t (1 : Fin 3) * 9 + 1 * s.val = s.val; omega
      | ⟨2, _⟩ => show win0_28.index t (2 : Fin 3) * 256 + 1 * d.val = d.val; omega)
  show _ = newCacheTM (argsOf m c) 2 (((cfg0.win 28).blk t).view.emb (ix3 bb s d))
  rw [hE]
  rfl

theorem arrAt28 (c : Dev nD) : (dats m 0 c).arrAt 28 cfg0.N = newCacheTM (argsOf m c) 2 :=
  (dats m 0 c).arrAt_eq_of_cover 28 (newCacheTM (argsOf m c) 2) (fun t _ => flushed28_eq m c t) cover28

/-! ## Layer 3's new cache -/

theorem mem_blk29 (t : Fin cfg0.N) (i : S256x9x256.Idx) :
    i ∈ ((cfg0.win 29).blk t).view.set ↔ ∀ a : Fin 3, win0_29.index t a * S16x9x256.size a ≤ (i a).val
      ∧ (i a).val < win0_29.index t a * S16x9x256.size a + S16x9x256.size a := by
  show i ∈ ((View.whole main_v33_4).slice (win0_29.rect t)).set ↔ _
  rw [View.set_slice_whole, Rect.mem_set_unit]
  exact Iff.rfl

theorem cover29 (i : S256x9x256.Idx) :
    ∃ t : Fin cfg0.N, (cfg0.win 29).flush t = true ∧ i ∈ ((cfg0.win 29).blk t).view.set := by
  have hi0 : (i 0).val < 256 := (i 0).isLt
  have hi1 : (i 1).val < 9 := (i 1).isLt
  have hi2 : (i 2).val < 256 := (i 2).isLt
  have hN : cfg0.N = 16 := N_0
  have hlt : (i 0).val / 16 < cfg0.N := by rw [hN]; omega
  obtain ⟨h0, h1, h2⟩ := blockIndex29 ⟨(i 0).val / 16, hlt⟩
  have h0' : win0_29.index ⟨(i 0).val / 16, hlt⟩ (0 : Fin 3) = (i 0).val / 16 := h0
  refine ⟨⟨(i 0).val / 16, hlt⟩, flush0_29 _, ?_⟩
  rw [mem_blk29]
  intro a
  match a with
  | ⟨0, _⟩ =>
    show win0_29.index ⟨(i 0).val / 16, hlt⟩ (0 : Fin 3) * 16 ≤ (i 0).val
      ∧ (i 0).val < win0_29.index ⟨(i 0).val / 16, hlt⟩ (0 : Fin 3) * 16 + 16
    omega
  | ⟨1, _⟩ =>
    show win0_29.index ⟨(i 0).val / 16, hlt⟩ (1 : Fin 3) * 9 ≤ (i 1).val
      ∧ (i 1).val < win0_29.index ⟨(i 0).val / 16, hlt⟩ (1 : Fin 3) * 9 + 9
    omega
  | ⟨2, _⟩ =>
    show win0_29.index ⟨(i 0).val / 16, hlt⟩ (2 : Fin 3) * 256 ≤ (i 2).val
      ∧ (i 2).val < win0_29.index ⟨(i 0).val / 16, hlt⟩ (2 : Fin 3) * 256 + 256
    omega

theorem flushed29_eq (c : Dev nD) (t : Fin cfg0.N) :
    (dats m 0 c).flushed 29 t = ((cfg0.win 29).blk t).view.read (Elt Ideal) (newCacheTM (argsOf m c) 3) := by
  show (cfg0.win 29).cut (grid0.coords t) ((dats m 0 c).after 29 t) = _
  rw [after0_29]
  obtain ⟨h0, h1, h2⟩ := blockIndex29 t
  have hN : cfg0.N = 16 := N_0
  have ht : t.val < 16 := hN ▸ t.isLt
  refine funext fun (y : S16x9x256.Idx) => ?_
  obtain ⟨bb, s, d, rfl⟩ : ∃ (bb : Fin 16) (s : Fin 9) (d : Fin 256), y = ix3 bb s d := ⟨y 0, y 1, y 2, eq_ix3 y⟩
  have hbb : bb.val < 16 := bb.isLt
  refine (out29_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) bb s d).trans ?_
  refine ((blockOf_iblk m c t bb ⟨16 * t.val + bb.val, by omega⟩ rfl).newCache3 s d).trans ?_
  have hE : ((cfg0.win 29).blk t).view.emb (ix3 bb s d)
      = (ix3 (⟨16 * t.val + bb.val, by omega⟩ : Fin 256) s d : S256x9x256.Idx) :=
    funext fun a => Fin.ext (by
      match a with
      | ⟨0, _⟩ => show win0_29.index t (0 : Fin 3) * 16 + 1 * bb.val = 16 * t.val + bb.val; omega
      | ⟨1, _⟩ => show win0_29.index t (1 : Fin 3) * 9 + 1 * s.val = s.val; omega
      | ⟨2, _⟩ => show win0_29.index t (2 : Fin 3) * 256 + 1 * d.val = d.val; omega)
  show _ = newCacheTM (argsOf m c) 3 (((cfg0.win 29).blk t).view.emb (ix3 bb s d))
  rw [hE]
  rfl

theorem arrAt29 (c : Dev nD) : (dats m 0 c).arrAt 29 cfg0.N = newCacheTM (argsOf m c) 3 :=
  (dats m 0 c).arrAt_eq_of_cover 29 (newCacheTM (argsOf m c) 3) (fun t _ => flushed29_eq m c t) cover29

end Cert.KernelIdeal.Hand

end
-- ==== Proof.KTail.lean ====
/-
  The four new caches as the program returns them.

  After the region the host transposes each time-major new cache `[256, 9, 256]` back to feature-major
  `[256, 256, 9]` and gives it a trailing unit axis: entry `(b, d, s, 0)` of the result is entry
  `(b, s, d)` of the time-major array, which is layer `l`'s new cache at `(b, d, s, 0)`.
-/
import proofs.«129047_g2000306104881685_pallasbulk_300_2_alg».proof.Proof.KFinal

set_option maxRecDepth 65536

noncomputable section

namespace Cert.KernelIdeal.Hand

open Cert.KernelIdeal Cert.KernelIdeal.Gen Cert.KernelIdeal.GenP Idealize.ShloMosaic Idealize.ShloMosaic.TcCoe Idealize.SL.Sem
open Idealize.ShloMosaic.ValueIdx

open Idealize.ShloMosaic.StableHlo
open Cert.Spec

variable (m : (ℓ : Loc nD τ sig) → Buf (Elt Ideal) ℓ)

/-- A time-major array transposed back and given a trailing unit axis, at an index. -/
theorem featureMajor_apply (X : FVec Ideal S256x9x256 .f32) (b d : Fin 256) (s : Fin 9) (u : Fin 1) :
    (broadcastInDim S256x256x9x1 ![0, 1, 2] bcast_S256x256x9_S256x256x9x1_0_1_2
        (transpose S256x256x9 [0, 2, 1] X transposes_S256x9x256_S256x256x9_0_2_1) : S256x256x9x1.Idx → EReal) (ix4 b d s u)
      = X (ix3 b s d) := by
  rw [broadcastInDim_apply ![0, 1, 2] bcast_S256x256x9_S256x256x9x1_0_1_2 _ (ix4 b d s u) (ix3 b d s) (fun a => by
    match a with
    | ⟨0, _⟩ => show b.val = if (256 : ℕ) = 1 then 0 else b.val; rw [if_neg (by decide)]
    | ⟨1, _⟩ => show d.val = if (256 : ℕ) = 1 then 0 else d.val; rw [if_neg (by decide)]
    | ⟨2, _⟩ => show s.val = if (9 : ℕ) = 1 then 0 else s.val; rw [if_neg (by decide)])]
  exact transpose_ix3_021_apply X transposes_S256x9x256_S256x256x9_0_2_1 b d s

/-- The time-major new cache, transposed back with a trailing unit axis, is the new cache. -/
theorem featureMajor_newCacheTM (a : Args) (l : Fin 4) :
    (broadcastInDim S256x256x9x1 ![0, 1, 2] bcast_S256x256x9_S256x256x9x1_0_1_2
        (transpose S256x256x9 [0, 2, 1] (newCacheTM a l) transposes_S256x9x256_S256x256x9_0_2_1) : S256x256x9x1.Idx → EReal)
      = newCacheArrK a l := by
  funext j
  obtain ⟨b, d, s, u, rfl⟩ : ∃ (b d : Fin 256) (s : Fin 9) (u : Fin 1), j = ix4 b d s u := ⟨j 0, j 1, j 2, j 3, eq_ix4 j⟩
  rw [featureMajor_apply]
  have hu : u = 0 := Subsingleton.elim _ _
  rw [hu]
  rfl

/-- Layer 0's new cache as returned. -/
theorem tail0 (c : Dev nD) :
    Pipeline.afterTail₀ cfgs (dats m) 0 (V0 m) [hostOps1] c main_v35 = newCacheArrK (argsOf m c) 0 := by
  unfold Pipeline.afterTail₀
  show StableHlo.after hostOps1 _ (Proc.devRef .tc main_v35) = _
  after_results
  rw [Pipeline.withArrays_arr (cfgs 0).spec launch0.win.arr_inj c (V0 m c) (fun w => (dats m 0 c).arrAt w (cfgs 0).N) 26]
  first
    | (rw [arrAt26 m c]; exact featureMajor_newCacheTM (argsOf m c) 0)
    | exact (congrArg (fun X : S256x9x256.Idx → EReal => (broadcastInDim S256x256x9x1 ![0, 1, 2] bcast_S256x256x9_S256x256x9x1_0_1_2
        (transpose S256x256x9 [0, 2, 1] X transposes_S256x9x256_S256x256x9_0_2_1) : S256x256x9x1.Idx → EReal)) (arrAt26 m c)).trans
        (featureMajor_newCacheTM (argsOf m c) 0)

/-- Layer 1's new cache as returned. -/
theorem tail1 (c : Dev nD) :
    Pipeline.afterTail₀ cfgs (dats m) 0 (V0 m) [hostOps1] c main_v37 = newCacheArrK (argsOf m c) 1 := by
  unfold Pipeline.afterTail₀
  show StableHlo.after hostOps1 _ (Proc.devRef .tc main_v37) = _
  after_results
  rw [Pipeline.withArrays_arr (cfgs 0).spec launch0.win.arr_inj c (V0 m c) (fun w => (dats m 0 c).arrAt w (cfgs 0).N) 27]
  first
    | (rw [arrAt27 m c]; exact featureMajor_newCacheTM (argsOf m c) 1)
    | exact (congrArg (fun X : S256x9x256.Idx → EReal => (broadcastInDim S256x256x9x1 ![0, 1, 2] bcast_S256x256x9_S256x256x9x1_0_1_2
        (transpose S256x256x9 [0, 2, 1] X transposes_S256x9x256_S256x256x9_0_2_1) : S256x256x9x1.Idx → EReal)) (arrAt27 m c)).trans
        (featureMajor_newCacheTM (argsOf m c) 1)

/-- Layer 2's new cache as returned. -/
theorem tail2 (c : Dev nD) :
    Pipeline.afterTail₀ cfgs (dats m) 0 (V0 m) [hostOps1] c main_v39 = newCacheArrK (argsOf m c) 2 := by
  unfold Pipeline.afterTail₀
  show StableHlo.after hostOps1 _ (Proc.devRef .tc main_v39) = _
  after_results
  rw [Pipeline.withArrays_arr (cfgs 0).spec launch0.win.arr_inj c (V0 m c) (fun w => (dats m 0 c).arrAt w (cfgs 0).N) 28]
  first
    | (rw [arrAt28 m c]; exact featureMajor_newCacheTM (argsOf m c) 2)
    | exact (congrArg (fun X : S256x9x256.Idx → EReal => (broadcastInDim S256x256x9x1 ![0, 1, 2] bcast_S256x256x9_S256x256x9x1_0_1_2
        (transpose S256x256x9 [0, 2, 1] X transposes_S256x9x256_S256x256x9_0_2_1) : S256x256x9x1.Idx → EReal)) (arrAt28 m c)).trans
        (featureMajor_newCacheTM (argsOf m c) 2)

/-- Layer 3's new cache as returned. -/
theorem tail3 (c : Dev nD) :
    Pipeline.afterTail₀ cfgs (dats m) 0 (V0 m) [hostOps1] c main_v41 = newCacheArrK (argsOf m c) 3 := by
  unfold Pipeline.afterTail₀
  show StableHlo.after hostOps1 _ (Proc.devRef .tc main_v41) = _
  after_results
  rw [Pipeline.withArrays_arr (cfgs 0).spec launch0.win.arr_inj c (V0 m c) (fun w => (dats m 0 c).arrAt w (cfgs 0).N) 29]
  first
    | (rw [arrAt29 m c]; exact featureMajor_newCacheTM (argsOf m c) 3)
    | exact (congrArg (fun X : S256x9x256.Idx → EReal => (broadcastInDim S256x256x9x1 ![0, 1, 2] bcast_S256x256x9_S256x256x9x1_0_1_2
        (transpose S256x256x9 [0, 2, 1] X transposes_S256x9x256_S256x256x9_0_2_1) : S256x256x9x1.Idx → EReal)) (arrAt29 m c)).trans
        (featureMajor_newCacheTM (argsOf m c) 3)

end Cert.KernelIdeal.Hand

end
-- ==== Proof.KValue.lean ====
/-
  The kernel's run, read: every weakly fair execution terminates with the probabilities' array at the
  folded network's probabilities, each returned new cache at the folded network's new cache of its layer,
  and every argument array as launched.
-/
import proofs.«129047_g2000306104881685_pallasbulk_300_2_alg».proof.Proof.KTail

set_option maxRecDepth 65536

noncomputable section

namespace Cert.KernelIdeal.Hand

open Cert.KernelIdeal Cert.KernelIdeal.Gen Cert.KernelIdeal.GenP Idealize.ShloMosaic Idealize.ShloMosaic.TcCoe Idealize.SL.Sem
open Idealize.ShloMosaic.ValueIdx

open Idealize.ShloMosaic.Pipeline (Dat)

theorem valueK_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33_0) = Cert.Spec.probsK (argsOf m c)
      ∧ r.2.mem ((c.tc : Thread nD τ).loc main_v35) = Cert.Spec.newCacheArrK (argsOf m c) 0
      ∧ r.2.mem ((c.tc : Thread nD τ).loc main_v37) = Cert.Spec.newCacheArrK (argsOf m c) 1
      ∧ r.2.mem ((c.tc : Thread nD τ).loc main_v39) = Cert.Spec.newCacheArrK (argsOf m c) 2
      ∧ r.2.mem ((c.tc : Thread nD τ).loc main_v41) = Cert.Spec.newCacheArrK (argsOf m c) 3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c => ⟨((h c).1 25).trans (arrAt25 m c),
      ((h c).2 main_v35 (Pipeline.mem_restRefs_of main_v35 (by decide) (by decide))).trans (tail0 m c),
      ((h c).2 main_v37 (Pipeline.mem_restRefs_of main_v37 (by decide) (by decide))).trans (tail1 m c),
      ((h c).2 main_v39 (Pipeline.mem_restRefs_of main_v39 (by decide) (by decide))).trans (tail2 m c),
      ((h c).2 main_v41 (Pipeline.mem_restRefs_of main_v41 (by decide) (by decide))).trans (tail3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).1 4).trans (((dats m 0 c).arrAt_in 4 rfl _).trans ((A_eq m c 4).trans (V_main_arg10 m c))),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).1 9).trans (((dats m 0 c).arrAt_in 9 rfl _).trans ((A_eq m c 9).trans (V_main_arg15 m c))),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).1 14).trans (((dats m 0 c).arrAt_in 14 rfl _).trans ((A_eq m c 14).trans (V_main_arg20 m c))),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c),
      ((h c).2 main_arg24 (Pipeline.mem_restRefs_of main_arg24 (by decide) (by decide))).trans (W_main_arg24 m (dats m) c),
      ((h c).1 19).trans (((dats m 0 c).arrAt_in 19 rfl _).trans ((A_eq m c 19).trans (V_main_arg25 m c))),
      ((h c).2 main_arg26 (Pipeline.mem_restRefs_of main_arg26 (by decide) (by decide))).trans (W_main_arg26 m (dats m) c),
      ((h c).2 main_arg27 (Pipeline.mem_restRefs_of main_arg27 (by decide) (by decide))).trans (W_main_arg27 m (dats m) c),
      ((h c).2 main_arg28 (Pipeline.mem_restRefs_of main_arg28 (by decide) (by decide))).trans (W_main_arg28 m (dats m) c)⟩)
    (run_main (F := Ideal) m ρ)

end Cert.KernelIdeal.Hand

end
-- ==== Proof.RefOps.lean ====
/-
  The reference body's operations, read at an index.

  The body works on a block of two batch rows: 256 rows of 256 features, row `bb * 128 + t` being time
  step `t` of batch row `bb`.  A matrix product reads a row against a column; a bias row, a filter row
  and a layer's slab of a stacked array are read through the casts and broadcasts that carry them; the
  window a filter tap reads is the concatenation, along time, of the cache's last steps and the
  projection's first steps, which is the extended sequence shifted by the tap.
-/
import proofs.«129047_g2000306104881685_pallasbulk_300_2_alg».proof.Proof.Gen.ReferenceIdeal.Skeleton
import proofs.«129047_g2000306104881685_pallasbulk_300_2_alg».proof.Proof.Spec
import proofs.«129047_g2000306104881685_pallasbulk_300_2_alg».proof.Proof.LibMatmulNN
import proofs.«129047_g2000306104881685_pallasbulk_300_2_alg».proof.Proof.LibGroupsToRows
import proofs.«129047_g2000306104881685_pallasbulk_300_2_alg».proof.Proof.LibRank3Layout
import proofs.«129047_g2000306104881685_pallasbulk_300_2_alg».proof.Proof.LibRowMax
import proofs.«129047_g2000306104881685_pallasbulk_300_2_alg».proof.Proof.LibColumnBroadcast
import proofs.«129047_g2000306104881685_pallasbulk_300_2_alg».proof.Proof.LibVectorColumn
import Idealize.ShloMosaic.Lib.ValueLayout
import Idealize.ShloMosaic.Lib.Pipeline.Value
import Idealize.ShloMosaic.PureOps.Ideal.Laws

set_option maxRecDepth 16384

open scoped BigOperators

noncomputable section

namespace Cert.ReferenceIdeal.Hand

open Cert.ReferenceIdeal Cert.ReferenceIdeal.Gen
open Idealize.ShloMosaic Idealize.ShloMosaic.ValueIdx

/-- Time step `t` of the block's batch row `bb`, among the block's 256 rows. -/
def row (bb : Fin 2) (t : Fin 128) : Fin 256 := ⟨bb.val * 128 + t.val, by have := bb.isLt; have := t.isLt; omega⟩

/-! ## Rows and batch rows -/

/-- The block viewed as 256 rows: row `bb * 128 + t` is entry `(bb, t)`. -/
theorem rows_apply (v : FVec Ideal S2x128x256 .f32) (h : S2x128x256.ShapeCasts S256x256) (bb : Fin 2) (t : Fin 128) (e : Fin 256) :
    shapeCast S256x256 v h (ix2 (row bb t) e) = v (ix3 bb t e) :=
  Cert.Layout.shapeCast_groups_rows_apply v h bb t e _

/-- 256 rows viewed as the block: entry `(bb, t)` is row `bb * 128 + t`. -/
theorem seqs_apply (w : FVec Ideal S256x256 .f32) (h : S256x256.ShapeCasts S2x128x256) (bb : Fin 2) (t : Fin 128) (e : Fin 256) :
    shapeCast S2x128x256 w h (ix3 bb t e) = w (ix2 (row bb t) e) :=
  Cert.LibRank3.shapeCast_rows_apply w h bb t e _

/-! ## The matrix product, bias rows, slabs -/

/-- Entry `(r, n)` of the product into a zero accumulator: row `r` against column `n`. -/
theorem mm_apply (a b : FVec Ideal S256x256 .f32) (r n : Fin 256) :
    matmul dot_S256x256_S256x256_S256x256_1_0_0_1_n_n none a b (constant (F := Ideal) S256x256 .f32 0x00000000#32) (ix2 r n)
      = ∑ e : Fin 256, a (ix2 r e) * b (ix2 e n) :=
  Cert.LibMatmulNN.matmul_zero_apply dot_S256x256_S256x256_S256x256_1_0_0_1_n_n_wf none a b r n

/-- The product of rows against a matrix is `Spec.dense` of each row. -/
theorem mm_dense (a b : FVec Ideal S256x256 .f32) (r n : Fin 256) :
    matmul dot_S256x256_S256x256_S256x256_1_0_0_1_n_n none a b (constant (F := Ideal) S256x256 .f32 0x00000000#32) (ix2 r n)
      = Cert.Spec.dense (fun e => a (ix2 r e)) (fun e n => b (ix2 e n)) n :=
  mm_apply a b r n

/-- A bias row `[1, 256]` broadcast down the rows. -/
theorem biasRow_apply (v : FVec Ideal S1x256 .f32) (h : S1x256.ShapeCasts S1x256) (h' : S1x256.Broadcasts S256x256) (r n : Fin 256) :
    broadcastTo S256x256 (shapeCast S1x256 v h) h' (ix2 r n) = v (ix2 (0 : Fin 1) n) := by
  rw [broadcastTo_1b_ab_apply, shapeCast_self]

/-- A layer's bias slab `[1, 1, 256]` as a row, broadcast down the rows. -/
theorem biasSlab_apply (v : FVec Ideal S1x1x256 .f32) (h : S1x1x256.ShapeCasts S1x256) (h' : S1x256.Broadcasts S256x256) (r n : Fin 256) :
    broadcastTo S256x256 (shapeCast S1x256 v h) h' (ix2 r n) = v (ix3 (0 : Fin 1) (0 : Fin 1) n) := by
  rw [broadcastTo_1b_ab_apply, shapeCast_1ab_ab_apply]

/-- A layer's matrix slab `[1, 256, 256]` as a matrix. -/
theorem slab_apply (v : FVec Ideal S1x256x256 .f32) (h : S1x256x256.ShapeCasts S256x256) (e n : Fin 256) :
    shapeCast S256x256 v h (ix2 e n) = v (ix3 (0 : Fin 1) e n) :=
  shapeCast_1ab_ab_apply v h e n

/-- The maximum with the zero splat is `max · 0`. -/
theorem relu_apply (v : FVec Ideal S256x256 .f32) (r n : Fin 256) :
    maximumf v (broadcast S256x256 (Scalar.ofBits (F := Ideal) .f32 0x00000000#32)) (ix2 r n) = max (v (ix2 r n)) 0 := by
  rw [maximumf_apply, broadcast_apply]
  exact congrArg (max _) Ideal.ofBits_zero_f32

/-! ## A layer's cache, filter and new cache -/

/-- A layer's cache slab `[1, 2, 9, 256]` with the unit axis dropped. -/
theorem cacheSlab_apply (v : FVec Ideal S1x2x9x256 .f32) (h : S1x2x9x256.ShapeCasts S2x9x256) (bb : Fin 2) (s : Fin 9) (d : Fin 256) :
    shapeCast S2x9x256 v h (ix3 bb s d) = v (ix4 (0 : Fin 1) bb s d) :=
  shapeCast_1abc_abc_apply v h bb s d

/-- A layer's filter slab `[1, 10, 256]` with the unit axis dropped. -/
theorem filtSlab_apply (v : FVec Ideal S1x10x256 .f32) (h : S1x10x256.ShapeCasts S10x256) (k : Fin 10) (d : Fin 256) :
    shapeCast S10x256 v h (ix2 k d) = v (ix3 (0 : Fin 1) k d) :=
  shapeCast_1ab_ab_apply v h k d

/-- Row `k` of the filter as a vector of 256 features. -/
theorem filtVec_apply (o : ℕ) (f : FVec Ideal S10x256 .f32) (hs : S10x256.Slices ![o, 0] S1x256) (h1 : S1x256.ShapeCasts S256)
    (k : Fin 10) (hk : k.val = o) (d : Fin 256) :
    shapeCast S256 (extractStridedSlice S1x256 ![o, 0] f hs) h1 (ix1 d) = f (ix2 k d) := by
  rw [shapeCast_1a_a_apply]
  exact slice2_axis0_apply o f hs (0 : Fin 1) d k (by rw [hk]; rfl)

/-- A vector of 256 features as `[1, 1, 256]`. -/
theorem vecRow3_apply (x : FVec Ideal S256 .f32) (h : S256.ShapeCasts S1x1x256) (u u' : Fin 1) (d : Fin 256) :
    shapeCast S1x1x256 x h (ix3 u u' d) = x (ix1 d) :=
  shapeCast_apply x h _ _ (by
    have hu : u.val = 0 := by omega
    have hu' : u'.val = 0 := by omega
    rw [Shape.rowMajor_val_one, Shape.rowMajor_val_three]
    show d.val = (u.val * 1 + u'.val) * 256 + d.val
    omega)

/-- `[1, 1, 256]` broadcast over the block's batch rows and time steps. -/
theorem bcastFeat_apply (x : FVec Ideal S1x1x256 .f32) (h : S1x1x256.Broadcasts S2x128x256) (bb : Fin 2) (t : Fin 128) (d : Fin 256) :
    broadcastTo S2x128x256 x h (ix3 bb t d) = x (ix3 (0 : Fin 1) (0 : Fin 1) d) := by
  refine broadcastTo_apply x h _ _ fun a => ?_
  match a with
  | ⟨0, _⟩ => rfl
  | ⟨1, _⟩ => rfl
  | ⟨2, _⟩ => rfl

/-- A filter row carried as a vector, then `[1, 1, 256]`, broadcast over the block: the filter's entry `(k, d)` everywhere. -/
theorem filtBcast_apply (x : FVec Ideal S256 .f32) (h : S256.ShapeCasts S1x1x256) (h' : S1x1x256.Broadcasts S2x128x256)
    (bb : Fin 2) (t : Fin 128) (d : Fin 256) :
    broadcastTo S2x128x256 (shapeCast S1x1x256 x h) h' (ix3 bb t d) = x (ix1 d) := by
  rw [bcastFeat_apply, vecRow3_apply]

/-- The window tap `k` reads: the cache's steps from `k` on, then the projection's first steps; at time `t` it is the
    extended sequence at `t + k`. -/
theorem window_apply (o n₁ n₂ : ℕ) (C : FVec Ideal S2x9x256 .f32) (Pj : FVec Ideal S2x128x256 .f32)
    (hs1 : S2x9x256.Slices ![0, o, 0] ⟨3, ![2, n₁, 256]⟩) (hs2 : S2x128x256.Slices ![0, 0, 0] ⟨3, ![2, n₂, 256]⟩)
    (hc : Shape.Concatenates [⟨3, ![2, n₁, 256]⟩, ⟨3, ![2, n₂, 256]⟩] S2x128x256 1)
    (hn₁ : n₁ + o = 9) (hn₂ : n₁ + n₂ = 128) (k : Fin 10) (hk : k.val = o) (bb : Fin 2) (t : Fin 128) (d : Fin 256) :
    concatenate S2x128x256 1 [⟨⟨3, ![2, n₁, 256]⟩, extractStridedSlice ⟨3, ![2, n₁, 256]⟩ ![0, o, 0] C hs1⟩,
        ⟨⟨3, ![2, n₂, 256]⟩, extractStridedSlice ⟨3, ![2, n₂, 256]⟩ ![0, 0, 0] Pj hs2⟩] hc (ix3 bb t d)
      = Cert.Spec.tap (fun s d => C (ix3 bb s d)) (fun t d => Pj (ix3 bb t d)) k t d := by
  unfold Cert.Spec.tap Cert.Spec.ext
  by_cases ht : t.val < n₁
  · rw [dif_pos (show t.val + k.val < 9 by omega)]
    refine (concatenate_pair_apply_left (1 : Fin S2x128x256.rank) _ _ hc (ix3 bb t d) rfl (ix3 bb ⟨t.val, ht⟩ d) (fun b => ?_)).trans ?_
    · match b with
      | ⟨0, _⟩ => rfl
      | ⟨1, _⟩ => rfl
      | ⟨2, _⟩ => rfl
    · exact slice3_axis1_apply o C hs1 bb ⟨t.val, ht⟩ d ⟨t.val + k.val, by omega⟩ (by show t.val + k.val = o + t.val; omega)
  · rw [dif_neg (show ¬ t.val + k.val < 9 by omega)]
    refine (concatenate_pair_apply_right (1 : Fin S2x128x256.rank) _ _ hc (ix3 bb t d) rfl rfl
      (ix3 bb ⟨t.val - n₁, by have := t.isLt; omega⟩ d) (fun b hb => ?_) ?_).trans ?_
    · match b with
      | ⟨0, _⟩ => rfl
      | ⟨1, _⟩ => exact absurd rfl hb
      | ⟨2, _⟩ => rfl
    · show t.val - n₁ + n₁ = t.val
      omega
    · exact slice3_axis1_apply 0 Pj hs2 bb ⟨t.val - n₁, by have := t.isLt; omega⟩ d ⟨t.val + k.val - 9, by have := t.isLt; omega⟩
        (by show t.val + k.val - 9 = 0 + (t.val - n₁); omega)

/-! ### Each tap's filter row and window -/

theorem filt_0 (f : FVec Ideal S10x256 .f32) (hs : S10x256.Slices ![0, 0] S1x256) (h1 : S1x256.ShapeCasts S256) (d : Fin 256) :
    shapeCast S256 (extractStridedSlice S1x256 ![0, 0] f hs) h1 (ix1 d) = f (ix2 (0 : Fin 10) d) :=
  filtVec_apply 0 f hs h1 0 rfl d
theorem filt_1 (f : FVec Ideal S10x256 .f32) (hs : S10x256.Slices ![1, 0] S1x256) (h1 : S1x256.ShapeCasts S256) (d : Fin 256) :
    shapeCast S256 (extractStridedSlice S1x256 ![1, 0] f hs) h1 (ix1 d) = f (ix2 (1 : Fin 10) d) :=
  filtVec_apply 1 f hs h1 1 rfl d
theorem filt_2 (f : FVec Ideal S10x256 .f32) (hs : S10x256.Slices ![2, 0] S1x256) (h1 : S1x256.ShapeCasts S256) (d : Fin 256) :
    shapeCast S256 (extractStridedSlice S1x256 ![2, 0] f hs) h1 (ix1 d) = f (ix2 (2 : Fin 10) d) :=
  filtVec_apply 2 f hs h1 2 rfl d
theorem filt_3 (f : FVec Ideal S10x256 .f32) (hs : S10x256.Slices ![3, 0] S1x256) (h1 : S1x256.ShapeCasts S256) (d : Fin 256) :
    shapeCast S256 (extractStridedSlice S1x256 ![3, 0] f hs) h1 (ix1 d) = f (ix2 (3 : Fin 10) d) :=
  filtVec_apply 3 f hs h1 3 rfl d
theorem filt_4 (f : FVec Ideal S10x256 .f32) (hs : S10x256.Slices ![4, 0] S1x256) (h1 : S1x256.ShapeCasts S256) (d : Fin 256) :
    shapeCast S256 (extractStridedSlice S1x256 ![4, 0] f hs) h1 (ix1 d) = f (ix2 (4 : Fin 10) d) :=
  filtVec_apply 4 f hs h1 4 rfl d
theorem filt_5 (f : FVec Ideal S10x256 .f32) (hs : S10x256.Slices ![5, 0] S1x256) (h1 : S1x256.ShapeCasts S256) (d : Fin 256) :
    shapeCast S256 (extractStridedSlice S1x256 ![5, 0] f hs) h1 (ix1 d) = f (ix2 (5 : Fin 10) d) :=
  filtVec_apply 5 f hs h1 5 rfl d
theorem filt_6 (f : FVec Ideal S10x256 .f32) (hs : S10x256.Slices ![6, 0] S1x256) (h1 : S1x256.ShapeCasts S256) (d : Fin 256) :
    shapeCast S256 (extractStridedSlice S1x256 ![6, 0] f hs) h1 (ix1 d) = f (ix2 (6 : Fin 10) d) :=
  filtVec_apply 6 f hs h1 6 rfl d
theorem filt_7 (f : FVec Ideal S10x256 .f32) (hs : S10x256.Slices ![7, 0] S1x256) (h1 : S1x256.ShapeCasts S256) (d : Fin 256) :
    shapeCast S256 (extractStridedSlice S1x256 ![7, 0] f hs) h1 (ix1 d) = f (ix2 (7 : Fin 10) d) :=
  filtVec_apply 7 f hs h1 7 rfl d
theorem filt_8 (f : FVec Ideal S10x256 .f32) (hs : S10x256.Slices ![8, 0] S1x256) (h1 : S1x256.ShapeCasts S256) (d : Fin 256) :
    shapeCast S256 (extractStridedSlice S1x256 ![8, 0] f hs) h1 (ix1 d) = f (ix2 (8 : Fin 10) d) :=
  filtVec_apply 8 f hs h1 8 rfl d
theorem filt_9 (f : FVec Ideal S10x256 .f32) (hs : S10x256.Slices ![9, 0] S1x256) (h1 : S1x256.ShapeCasts S256) (d : Fin 256) :
    shapeCast S256 (extractStridedSlice S1x256 ![9, 0] f hs) h1 (ix1 d) = f (ix2 (9 : Fin 10) d) :=
  filtVec_apply 9 f hs h1 9 rfl d
/-- Tap 0's window: the whole cache, then the projection's first 119 steps. -/
theorem win_0 (C : FVec Ideal S2x9x256 .f32) (Pj : FVec Ideal S2x128x256 .f32)
    (hs2 : S2x128x256.Slices ![0, 0, 0] S2x119x256)
    (hc : Shape.Concatenates [S2x9x256, S2x119x256] S2x128x256 1) (bb : Fin 2) (t : Fin 128) (d : Fin 256) :
    concatenate S2x128x256 1 [⟨S2x9x256, C⟩,
        ⟨S2x119x256, extractStridedSlice S2x119x256 ![0, 0, 0] Pj hs2⟩] hc (ix3 bb t d)
      = Cert.Spec.tap (fun s d => C (ix3 bb s d)) (fun t d => Pj (ix3 bb t d)) (0 : Fin 10) t d := by
  unfold Cert.Spec.tap Cert.Spec.ext
  by_cases ht : t.val < 9
  · rw [dif_pos (show t.val + (0 : Fin 10).val < 9 from ht)]
    exact concatenate_pair_apply_left (1 : Fin S2x128x256.rank) _ _ hc (ix3 bb t d) rfl (ix3 bb ⟨t.val, ht⟩ d) (fun b => by
      match b with
      | ⟨0, _⟩ => rfl
      | ⟨1, _⟩ => rfl
      | ⟨2, _⟩ => rfl)
  · rw [dif_neg (show ¬ t.val + (0 : Fin 10).val < 9 from ht)]
    refine (concatenate_pair_apply_right (1 : Fin S2x128x256.rank) _ _ hc (ix3 bb t d) rfl rfl
      (ix3 bb ⟨t.val - 9, by have := t.isLt; omega⟩ d) (fun b hb => ?_) ?_).trans ?_
    · match b with
      | ⟨0, _⟩ => rfl
      | ⟨1, _⟩ => exact absurd rfl hb
      | ⟨2, _⟩ => rfl
    · show t.val - 9 + 9 = t.val
      omega
    · exact slice3_axis1_apply 0 Pj hs2 bb ⟨t.val - 9, by have := t.isLt; omega⟩ d ⟨t.val + (0 : Fin 10).val - 9, by have := t.isLt; show t.val + 0 - 9 < 128; omega⟩
        (by show t.val + 0 - 9 = 0 + (t.val - 9); omega)
theorem win_1 (C : FVec Ideal S2x9x256 .f32) (Pj : FVec Ideal S2x128x256 .f32)
    (hs1 : S2x9x256.Slices ![0, 1, 0] S2x8x256) (hs2 : S2x128x256.Slices ![0, 0, 0] S2x120x256)
    (hc : Shape.Concatenates [S2x8x256, S2x120x256] S2x128x256 1) (bb : Fin 2) (t : Fin 128) (d : Fin 256) :
    concatenate S2x128x256 1 [⟨S2x8x256, extractStridedSlice S2x8x256 ![0, 1, 0] C hs1⟩,
        ⟨S2x120x256, extractStridedSlice S2x120x256 ![0, 0, 0] Pj hs2⟩] hc (ix3 bb t d)
      = Cert.Spec.tap (fun s d => C (ix3 bb s d)) (fun t d => Pj (ix3 bb t d)) (1 : Fin 10) t d :=
  window_apply 1 8 120 C Pj hs1 hs2 hc rfl rfl 1 rfl bb t d
theorem win_2 (C : FVec Ideal S2x9x256 .f32) (Pj : FVec Ideal S2x128x256 .f32)
    (hs1 : S2x9x256.Slices ![0, 2, 0] S2x7x256) (hs2 : S2x128x256.Slices ![0, 0, 0] S2x121x256)
    (hc : Shape.Concatenates [S2x7x256, S2x121x256] S2x128x256 1) (bb : Fin 2) (t : Fin 128) (d : Fin 256) :
    concatenate S2x128x256 1 [⟨S2x7x256, extractStridedSlice S2x7x256 ![0, 2, 0] C hs1⟩,
        ⟨S2x121x256, extractStridedSlice S2x121x256 ![0, 0, 0] Pj hs2⟩] hc (ix3 bb t d)
      = Cert.Spec.tap (fun s d => C (ix3 bb s d)) (fun t d => Pj (ix3 bb t d)) (2 : Fin 10) t d :=
  window_apply 2 7 121 C Pj hs1 hs2 hc rfl rfl 2 rfl bb t d
theorem win_3 (C : FVec Ideal S2x9x256 .f32) (Pj : FVec Ideal S2x128x256 .f32)
    (hs1 : S2x9x256.Slices ![0, 3, 0] S2x6x256) (hs2 : S2x128x256.Slices ![0, 0, 0] S2x122x256)
    (hc : Shape.Concatenates [S2x6x256, S2x122x256] S2x128x256 1) (bb : Fin 2) (t : Fin 128) (d : Fin 256) :
    concatenate S2x128x256 1 [⟨S2x6x256, extractStridedSlice S2x6x256 ![0, 3, 0] C hs1⟩,
        ⟨S2x122x256, extractStridedSlice S2x122x256 ![0, 0, 0] Pj hs2⟩] hc (ix3 bb t d)
      = Cert.Spec.tap (fun s d => C (ix3 bb s d)) (fun t d => Pj (ix3 bb t d)) (3 : Fin 10) t d :=
  window_apply 3 6 122 C Pj hs1 hs2 hc rfl rfl 3 rfl bb t d
theorem win_4 (C : FVec Ideal S2x9x256 .f32) (Pj : FVec Ideal S2x128x256 .f32)
    (hs1 : S2x9x256.Slices ![0, 4, 0] S2x5x256) (hs2 : S2x128x256.Slices ![0, 0, 0] S2x123x256)
    (hc : Shape.Concatenates [S2x5x256, S2x123x256] S2x128x256 1) (bb : Fin 2) (t : Fin 128) (d : Fin 256) :
    concatenate S2x128x256 1 [⟨S2x5x256, extractStridedSlice S2x5x256 ![0, 4, 0] C hs1⟩,
        ⟨S2x123x256, extractStridedSlice S2x123x256 ![0, 0, 0] Pj hs2⟩] hc (ix3 bb t d)
      = Cert.Spec.tap (fun s d => C (ix3 bb s d)) (fun t d => Pj (ix3 bb t d)) (4 : Fin 10) t d :=
  window_apply 4 5 123 C Pj hs1 hs2 hc rfl rfl 4 rfl bb t d
theorem win_5 (C : FVec Ideal S2x9x256 .f32) (Pj : FVec Ideal S2x128x256 .f32)
    (hs1 : S2x9x256.Slices ![0, 5, 0] S2x4x256) (hs2 : S2x128x256.Slices ![0, 0, 0] S2x124x256)
    (hc : Shape.Concatenates [S2x4x256, S2x124x256] S2x128x256 1) (bb : Fin 2) (t : Fin 128) (d : Fin 256) :
    concatenate S2x128x256 1 [⟨S2x4x256, extractStridedSlice S2x4x256 ![0, 5, 0] C hs1⟩,
        ⟨S2x124x256, extractStridedSlice S2x124x256 ![0, 0, 0] Pj hs2⟩] hc (ix3 bb t d)
      = Cert.Spec.tap (fun s d => C (ix3 bb s d)) (fun t d => Pj (ix3 bb t d)) (5 : Fin 10) t d :=
  window_apply 5 4 124 C Pj hs1 hs2 hc rfl rfl 5 rfl bb t d
theorem win_6 (C : FVec Ideal S2x9x256 .f32) (Pj : FVec Ideal S2x128x256 .f32)
    (hs1 : S2x9x256.Slices ![0, 6, 0] S2x3x256) (hs2 : S2x128x256.Slices ![0, 0, 0] S2x125x256)
    (hc : Shape.Concatenates [S2x3x256, S2x125x256] S2x128x256 1) (bb : Fin 2) (t : Fin 128) (d : Fin 256) :
    concatenate S2x128x256 1 [⟨S2x3x256, extractStridedSlice S2x3x256 ![0, 6, 0] C hs1⟩,
        ⟨S2x125x256, extractStridedSlice S2x125x256 ![0, 0, 0] Pj hs2⟩] hc (ix3 bb t d)
      = Cert.Spec.tap (fun s d => C (ix3 bb s d)) (fun t d => Pj (ix3 bb t d)) (6 : Fin 10) t d :=
  window_apply 6 3 125 C Pj hs1 hs2 hc rfl rfl 6 rfl bb t d
theorem win_7 (C : FVec Ideal S2x9x256 .f32) (Pj : FVec Ideal S2x128x256 .f32)
    (hs1 : S2x9x256.Slices ![0, 7, 0] S2x2x256) (hs2 : S2x128x256.Slices ![0, 0, 0] S2x126x256)
    (hc : Shape.Concatenates [S2x2x256, S2x126x256] S2x128x256 1) (bb : Fin 2) (t : Fin 128) (d : Fin 256) :
    concatenate S2x128x256 1 [⟨S2x2x256, extractStridedSlice S2x2x256 ![0, 7, 0] C hs1⟩,
        ⟨S2x126x256, extractStridedSlice S2x126x256 ![0, 0, 0] Pj hs2⟩] hc (ix3 bb t d)
      = Cert.Spec.tap (fun s d => C (ix3 bb s d)) (fun t d => Pj (ix3 bb t d)) (7 : Fin 10) t d :=
  window_apply 7 2 126 C Pj hs1 hs2 hc rfl rfl 7 rfl bb t d
theorem win_8 (C : FVec Ideal S2x9x256 .f32) (Pj : FVec Ideal S2x128x256 .f32)
    (hs1 : S2x9x256.Slices ![0, 8, 0] S2x1x256) (hs2 : S2x128x256.Slices ![0, 0, 0] S2x127x256)
    (hc : Shape.Concatenates [S2x1x256, S2x127x256] S2x128x256 1) (bb : Fin 2) (t : Fin 128) (d : Fin 256) :
    concatenate S2x128x256 1 [⟨S2x1x256, extractStridedSlice S2x1x256 ![0, 8, 0] C hs1⟩,
        ⟨S2x127x256, extractStridedSlice S2x127x256 ![0, 0, 0] Pj hs2⟩] hc (ix3 bb t d)
      = Cert.Spec.tap (fun s d => C (ix3 bb s d)) (fun t d => Pj (ix3 bb t d)) (8 : Fin 10) t d :=
  window_apply 8 1 127 C Pj hs1 hs2 hc rfl rfl 8 rfl bb t d

/-- Tap 9 reads the projection itself. -/
theorem tap9_apply (c : Cert.Spec.Cache) (p : Cert.Spec.Seq) (t : Fin 128) (d : Fin 256) : Cert.Spec.tap c p 9 t d = p t d := by
  unfold Cert.Spec.tap Cert.Spec.ext
  rw [dif_neg (by show ¬ t.val + 9 < 9; omega)]
  exact congrArg (fun q => p q d) (Fin.ext (by show t.val + 9 - 9 = t.val; omega))

/-- The new cache's slab: the projection's last nine steps, under a leading unit axis. -/
theorem newCache_apply (Pj : FVec Ideal S2x128x256 .f32) (hs : S2x128x256.Slices ![0, 119, 0] S2x9x256) (h : S2x9x256.ShapeCasts S1x2x9x256)
    (u : Fin 1) (bb : Fin 2) (s : Fin 9) (d : Fin 256) :
    shapeCast S1x2x9x256 (extractStridedSlice S2x9x256 ![0, 119, 0] Pj hs) h (ix4 u bb s d)
      = Cert.Spec.newCache (fun t d => Pj (ix3 bb t d)) s d := by
  rw [shapeCast_abc_1abc_apply]
  exact slice3_axis1_apply 119 Pj hs bb s d ⟨119 + s.val, by have := s.isLt; omega⟩ rfl

/-! ## The softmax's reductions -/

/-- The word of `-∞` is `⊥`. -/
theorem ofBits_neg_inf : Ideal.ofBits .f32 0xFF800000#32 = ⊥ := by simp [Ideal.ofBits, Ideal.ieee]

/-- The row maximum, kept as a column and broadcast back along the row: the fold of `max` from `⊥` over the row. -/
theorem rowMax_apply (v : FVec Ideal S256x256 .f32) (hr : S256x256.Reduces [1] S256) (hφ : FKind.Formats .f32)
    (hacc : (0xFF800000#32 : BitVec 32) = FKind.maximumf.neutral .f32 hφ) (h1 : S256.ShapeCasts S256x1) (h2 : S256x1.Broadcasts S256x256)
    (r n : Fin 256) :
    broadcastTo S256x256 (shapeCast S256x1 (multiReduction .maximumf [1] S256 v 0xFF800000#32 hr hφ hacc) h1) h2 (ix2 r n)
      = Finset.univ.fold max ⊥ (fun k : Fin 256 => v (ix2 r k)) := by
  rw [Cert.Layout.broadcastTo_a1_ab_apply, Cert.LibVectorColumn.shapeCast_a_a1_apply]
  refine (Cert.LibRowMax.max_row_apply v 0xFF800000#32 hr hφ hacc r).trans ?_
  rw [ofBits_neg_inf]

/-- The row sum, kept as a column and broadcast back along the row. -/
theorem rowSum_apply (v : FVec Ideal S256x256 .f32) (hr : S256x256.Reduces [1] S256) (hφ : FKind.Formats .f32)
    (hacc : (0x00000000#32 : BitVec 32) = FKind.add.neutral .f32 hφ) (h1 : S256.ShapeCasts S256x1) (h2 : S256x1.Broadcasts S256x256)
    (r n : Fin 256) :
    broadcastTo S256x256 (shapeCast S256x1 (multiReduction .add [1] S256 v 0x00000000#32 hr hφ hacc) h1) h2 (ix2 r n)
      = ∑ k : Fin 256, v (ix2 r k) := by
  rw [Cert.Layout.broadcastTo_a1_ab_apply, Cert.LibVectorColumn.shapeCast_a_a1_apply]
  exact Cert.LibRank3.sum_row_apply v 0x00000000#32 hr hφ hacc r

end Cert.ReferenceIdeal.Hand

end
-- ==== Proof.RefStage0.lean ====
/-
  The reference body, layer 0.

  The input stack and the first projection; the first layer's convolution, accumulated tap by tap
  across four of the body's values; its affine map and ReLU, and the second layer's projection.
-/
import proofs.«129047_g2000306104881685_pallasbulk_300_2_alg».proof.Proof.RefOps

set_option maxRecDepth 16384

open scoped BigOperators

noncomputable section

namespace Cert.ReferenceIdeal.Hand

open Cert.ReferenceIdeal Cert.ReferenceIdeal.Gen
open Idealize.ShloMosaic Idealize.ShloMosaic.ValueIdx
open Cert.Spec (Seq Cache Filt Mat Row)

variable (p : Fin 2 → Seq) (c : Fin 2 → Cache) (f : Filt)

/-- The input stack (two affine maps, ReLU) and layer 0's projection. -/
theorem pay2_spec (v0 : Vec Ideal S2x128x256 .f32) (v2 : Vec Ideal S256x256 .f32) (v4 : Vec Ideal S1x256 .f32) (v8 : Vec Ideal S256x256 .f32)
    (v10 : Vec Ideal S1x256 .f32) (v16 : Vec Ideal S1x256x256 .f32) (x : Fin 2 → Seq) (W1 : Mat) (b1 : Row) (W2 : Mat) (b2 : Row) (L : Mat)
    (h0 : ∀ bb t e, v0 (ix3 bb t e) = x bb t e) (h2 : ∀ e n, v2 (ix2 e n) = W1 e n) (h4 : ∀ n, v4 (ix2 (0 : Fin 1) n) = b1 n)
    (h8 : ∀ e n, v8 (ix2 e n) = W2 e n) (h10 : ∀ n, v10 (ix2 (0 : Fin 1) n) = b2 n) (h16 : ∀ e n, v16 (ix3 (0 : Fin 1) e n) = L e n)
    (bb : Fin 2) (t : Fin 128) (n : Fin 256) :
    k0_pay2 v0 v2 v4 v8 v10 v16 (ix3 bb t n) = Cert.Spec.dense (Cert.Spec.inTwo W1 b1 W2 b2 (x bb) t) L n := by
  unfold k0_pay2
  simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, h0, h2, h4, h8, h10, h16]
  try rfl

/-- Tap 0 added to the projection. -/
theorem pay5_spec (v0 : Vec Ideal S2x128x256 .f32) (v2 : Vec Ideal S256x256 .f32) (v4 : Vec Ideal S1x256 .f32) (v8 : Vec Ideal S256x256 .f32)
    (v10 : Vec Ideal S1x256 .f32) (v16 : Vec Ideal S1x256x256 .f32) (v20 : Vec Ideal S1x2x9x256 .f32) (v22 : Vec Ideal S1x10x256 .f32)
    (hP : ∀ bb t d, k0_pay2 v0 v2 v4 v8 v10 v16 (ix3 bb t d) = p bb t d)
    (h20 : ∀ bb s d, v20 (ix4 (0 : Fin 1) bb s d) = c bb s d) (h22 : ∀ k d, v22 (ix3 (0 : Fin 1) k d) = f k d)
    (bb : Fin 2) (t : Fin 128) (d : Fin 256) :
    k0_pay5 v0 v2 v4 v8 v10 v16 v20 v22 (ix3 bb t d) = p bb t d + f 0 d * Cert.Spec.tap (c bb) (p bb) 0 t d := by
  unfold k0_pay5 k0_pay3 k0_pay4
  simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, hP, h20, h22]
  try rfl

/-- Taps 1 to 6 added to what came before. -/
theorem pay7_spec (v19 : FVec Ideal S2x128x256 .f32) (v20 : Vec Ideal S1x2x9x256 .f32) (v22 : Vec Ideal S1x10x256 .f32) (v31 : FVec Ideal S2x128x256 .f32)
    (A : Fin 2 → Seq) (h19 : ∀ bb t d, v19 (ix3 bb t d) = p bb t d)
    (h20 : ∀ bb s d, v20 (ix4 (0 : Fin 1) bb s d) = c bb s d) (h22 : ∀ k d, v22 (ix3 (0 : Fin 1) k d) = f k d)
    (h31 : ∀ bb t d, v31 (ix3 bb t d) = A bb t d) (bb : Fin 2) (t : Fin 128) (d : Fin 256) :
    k0_pay7 v19 (k0_pay3 v20) (k0_pay4 v22) v31 (k0_pay6 v22) (ix3 bb t d) = A bb t d + f 1 d * Cert.Spec.tap (c bb) (p bb) 1 t d + f 2 d * Cert.Spec.tap (c bb) (p bb) 2 t d + f 3 d * Cert.Spec.tap (c bb) (p bb) 3 t d + f 4 d * Cert.Spec.tap (c bb) (p bb) 4 t d + f 5 d * Cert.Spec.tap (c bb) (p bb) 5 t d + f 6 d * Cert.Spec.tap (c bb) (p bb) 6 t d := by
  unfold k0_pay7 k0_pay6 k0_pay3 k0_pay4
  simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, h19, h20, h22, h31]
  try rfl

/-- Tap 7's product. -/
theorem pay8_spec (v19 : FVec Ideal S2x128x256 .f32) (v20 : Vec Ideal S1x2x9x256 .f32) (v22 : Vec Ideal S1x10x256 .f32)
    (h19 : ∀ bb t d, v19 (ix3 bb t d) = p bb t d)
    (h20 : ∀ bb s d, v20 (ix4 (0 : Fin 1) bb s d) = c bb s d) (h22 : ∀ k d, v22 (ix3 (0 : Fin 1) k d) = f k d)
    (bb : Fin 2) (t : Fin 128) (d : Fin 256) :
    k0_pay8 v19 (k0_pay3 v20) (k0_pay4 v22) (ix3 bb t d) = f 7 d * Cert.Spec.tap (c bb) (p bb) 7 t d := by
  unfold k0_pay8 k0_pay3 k0_pay4
  simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, h19, h20, h22]
  try rfl

/-- The layer's new cache: the projection's last nine steps. -/
theorem pay9_spec (v19 : FVec Ideal S2x128x256 .f32) (h19 : ∀ bb t d, v19 (ix3 bb t d) = p bb t d)
    (u : Fin 1) (bb : Fin 2) (s : Fin 9) (d : Fin 256) :
    k0_pay9 v19 (ix4 u bb s d) = Cert.Spec.newCache (p bb) s d := by
  unfold k0_pay9
  rw [newCache_apply]
  simp only [h19]

/-- The rest of the convolution, the affine map, the ReLU and the next layer's projection. -/
theorem pay10_spec (v19 : FVec Ideal S2x128x256 .f32) (v20 : Vec Ideal S1x2x9x256 .f32) (v22 : Vec Ideal S1x10x256 .f32)
    (v85 v93 : FVec Ideal S2x128x256 .f32) (v115 : Vec Ideal S1x256x256 .f32) (v118 : Vec Ideal S1x1x256 .f32) (v124 : Vec Ideal S1x256x256 .f32)
    (W : Mat) (b : Row) (L : Mat) (h19 : ∀ bb t d, v19 (ix3 bb t d) = p bb t d)
    (h20 : ∀ bb s d, v20 (ix4 (0 : Fin 1) bb s d) = c bb s d) (h22 : ∀ k d, v22 (ix3 (0 : Fin 1) k d) = f k d)
    (h85 : ∀ bb t d, v85 (ix3 bb t d) = p bb t d + f 0 d * Cert.Spec.tap (c bb) (p bb) 0 t d + f 1 d * Cert.Spec.tap (c bb) (p bb) 1 t d + f 2 d * Cert.Spec.tap (c bb) (p bb) 2 t d + f 3 d * Cert.Spec.tap (c bb) (p bb) 3 t d + f 4 d * Cert.Spec.tap (c bb) (p bb) 4 t d + f 5 d * Cert.Spec.tap (c bb) (p bb) 5 t d + f 6 d * Cert.Spec.tap (c bb) (p bb) 6 t d)
    (h93 : ∀ bb t d, v93 (ix3 bb t d) = f 7 d * Cert.Spec.tap (c bb) (p bb) 7 t d)
    (h115 : ∀ e n, v115 (ix3 (0 : Fin 1) e n) = W e n) (h118 : ∀ n, v118 (ix3 (0 : Fin 1) (0 : Fin 1) n) = b n)
    (h124 : ∀ e n, v124 (ix3 (0 : Fin 1) e n) = L e n) (bb : Fin 2) (t : Fin 128) (n : Fin 256) :
    k0_pay10 v19 (k0_pay3 v20) (k0_pay4 v22) v85 v93 v115 v118 v124 (ix3 bb t n)
      = Cert.Spec.dense (Cert.Spec.relu (Cert.Spec.affine (Cert.Spec.conv f (c bb) (p bb) t) W b)) L n := by
  unfold k0_pay10 k0_pay3 k0_pay4
  simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, h19, h20, h22, h85, h93, h115, h118, h124]
  simp only [Cert.Spec.dense, Cert.Spec.relu, Cert.Spec.affine, Cert.Spec.conv, tap9_apply]

end Cert.ReferenceIdeal.Hand

end
-- ==== Proof.RefStage1.lean ====
/-
  The reference body, layer 1.

  The second layer's convolution, accumulated across two of the body's values, the second of which
  takes tap 6's filter row and window already cut; its affine map and ReLU.
-/
import proofs.«129047_g2000306104881685_pallasbulk_300_2_alg».proof.Proof.RefOps

set_option maxRecDepth 16384

open scoped BigOperators

noncomputable section

namespace Cert.ReferenceIdeal.Hand

open Cert.ReferenceIdeal Cert.ReferenceIdeal.Gen
open Idealize.ShloMosaic Idealize.ShloMosaic.ValueIdx
open Cert.Spec (Seq Cache Filt Mat Row)

variable (p : Fin 2 → Seq) (c : Fin 2 → Cache) (f : Filt)

/-- Taps 0 to 5 added to the projection. -/
theorem pay13_spec (v127 : FVec Ideal S2x128x256 .f32) (v128 : Vec Ideal S1x2x9x256 .f32) (v130 : Vec Ideal S1x10x256 .f32)
    (h127 : ∀ bb t d, v127 (ix3 bb t d) = p bb t d)
    (h128 : ∀ bb s d, v128 (ix4 (0 : Fin 1) bb s d) = c bb s d) (h130 : ∀ k d, v130 (ix3 (0 : Fin 1) k d) = f k d)
    (bb : Fin 2) (t : Fin 128) (d : Fin 256) :
    k0_pay13 v127 (k0_pay11 v128) v130 (ix3 bb t d) = p bb t d + f 0 d * Cert.Spec.tap (c bb) (p bb) 0 t d + f 1 d * Cert.Spec.tap (c bb) (p bb) 1 t d + f 2 d * Cert.Spec.tap (c bb) (p bb) 2 t d + f 3 d * Cert.Spec.tap (c bb) (p bb) 3 t d + f 4 d * Cert.Spec.tap (c bb) (p bb) 4 t d + f 5 d * Cert.Spec.tap (c bb) (p bb) 5 t d := by
  unfold k0_pay13 k0_pay11 k0_pay12
  simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, h127, h128, h130]
  try rfl

/-- The layer's new cache. -/
theorem pay17_spec (v127 : FVec Ideal S2x128x256 .f32) (h127 : ∀ bb t d, v127 (ix3 bb t d) = p bb t d)
    (u : Fin 1) (bb : Fin 2) (s : Fin 9) (d : Fin 256) :
    k0_pay17 v127 (ix4 u bb s d) = Cert.Spec.newCache (p bb) s d := by
  unfold k0_pay17
  rw [newCache_apply]
  simp only [h127]

/-- Taps 6 to 9, the affine map and the ReLU: the next hidden sequence, as 256 rows. -/
theorem pay18_spec (v127 : FVec Ideal S2x128x256 .f32) (v128 : Vec Ideal S1x2x9x256 .f32) (v130 : Vec Ideal S1x10x256 .f32)
    (v184 : FVec Ideal S2x128x256 .f32) (v223 : Vec Ideal S1x256x256 .f32) (v226 : Vec Ideal S1x1x256 .f32)
    (W : Mat) (b : Row) (h127 : ∀ bb t d, v127 (ix3 bb t d) = p bb t d)
    (h128 : ∀ bb s d, v128 (ix4 (0 : Fin 1) bb s d) = c bb s d) (h130 : ∀ k d, v130 (ix3 (0 : Fin 1) k d) = f k d)
    (h184 : ∀ bb t d, v184 (ix3 bb t d) = p bb t d + f 0 d * Cert.Spec.tap (c bb) (p bb) 0 t d + f 1 d * Cert.Spec.tap (c bb) (p bb) 1 t d + f 2 d * Cert.Spec.tap (c bb) (p bb) 2 t d + f 3 d * Cert.Spec.tap (c bb) (p bb) 3 t d + f 4 d * Cert.Spec.tap (c bb) (p bb) 4 t d + f 5 d * Cert.Spec.tap (c bb) (p bb) 5 t d)
    (h223 : ∀ e n, v223 (ix3 (0 : Fin 1) e n) = W e n) (h226 : ∀ n, v226 (ix3 (0 : Fin 1) (0 : Fin 1) n) = b n)
    (bb : Fin 2) (t : Fin 128) (n : Fin 256) :
    k0_pay18 v127 (k0_pay11 v128) (k0_pay12 v130) v184 (k0_pay14 v130) (k0_pay15 (k0_pay11 v128)) (k0_pay16 v127) v223 v226 (ix2 (row bb t) n)
      = Cert.Spec.relu (Cert.Spec.affine (Cert.Spec.conv f (c bb) (p bb) t) W b) n := by
  unfold k0_pay18 k0_pay14 k0_pay15 k0_pay16 k0_pay11 k0_pay12
  simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, h127, h128, h130, h184, h223, h226]
  simp only [Cert.Spec.dense, Cert.Spec.relu, Cert.Spec.affine, Cert.Spec.conv, tap9_apply]

/-- The next layer's projection matrix. -/
theorem pay19_spec (v232 : Vec Ideal S1x256x256 .f32) (L : Mat) (h232 : ∀ e n, v232 (ix3 (0 : Fin 1) e n) = L e n) (e n : Fin 256) :
    k0_pay19 v232 (ix2 e n) = L e n := by
  unfold k0_pay19
  rw [slab_apply, h232]

end Cert.ReferenceIdeal.Hand

end
-- ==== Proof.RefStage2.lean ====
/-
  The reference body, layer 2.

  The third layer's projection and convolution; its affine map is split across two of the body's values:
  the product with the affine weight first, the bias, the ReLU and the last layer's projection after.
-/
import proofs.«129047_g2000306104881685_pallasbulk_300_2_alg».proof.Proof.RefOps

set_option maxRecDepth 16384

open scoped BigOperators

noncomputable section

namespace Cert.ReferenceIdeal.Hand

open Cert.ReferenceIdeal Cert.ReferenceIdeal.Gen
open Idealize.ShloMosaic Idealize.ShloMosaic.ValueIdx
open Cert.Spec (Seq Cache Filt Mat Row)

variable (p : Fin 2 → Seq) (c : Fin 2 → Cache) (f : Filt)

/-- The layer's projection of the hidden rows. -/
theorem pay20_spec (v231 v233 : FVec Ideal S256x256 .f32) (h : Fin 2 → Seq) (L : Mat)
    (h231 : ∀ bb t e, v231 (ix2 (row bb t) e) = h bb t e) (h233 : ∀ e n, v233 (ix2 e n) = L e n)
    (bb : Fin 2) (t : Fin 128) (n : Fin 256) :
    k0_pay20 v231 v233 (ix3 bb t n) = Cert.Spec.dense (h bb t) L n := by
  unfold k0_pay20
  simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, h231, h233]
  try rfl

/-- Taps 0 to 4 added to the projection. -/
theorem pay23_spec (v231 v233 : FVec Ideal S256x256 .f32) (v236 : Vec Ideal S1x2x9x256 .f32) (v238 : Vec Ideal S1x10x256 .f32)
    (hP : ∀ bb t d, k0_pay20 v231 v233 (ix3 bb t d) = p bb t d)
    (h236 : ∀ bb s d, v236 (ix4 (0 : Fin 1) bb s d) = c bb s d) (h238 : ∀ k d, v238 (ix3 (0 : Fin 1) k d) = f k d)
    (bb : Fin 2) (t : Fin 128) (d : Fin 256) :
    k0_pay23 v231 v233 v236 v238 (ix3 bb t d) = p bb t d + f 0 d * Cert.Spec.tap (c bb) (p bb) 0 t d + f 1 d * Cert.Spec.tap (c bb) (p bb) 1 t d + f 2 d * Cert.Spec.tap (c bb) (p bb) 2 t d + f 3 d * Cert.Spec.tap (c bb) (p bb) 3 t d + f 4 d * Cert.Spec.tap (c bb) (p bb) 4 t d := by
  unfold k0_pay23 k0_pay21 k0_pay22
  simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, hP, h236, h238]
  try rfl

/-- The layer's new cache. -/
theorem pay25_spec (v235 : FVec Ideal S2x128x256 .f32) (h235 : ∀ bb t d, v235 (ix3 bb t d) = p bb t d)
    (u : Fin 1) (bb : Fin 2) (s : Fin 9) (d : Fin 256) :
    k0_pay25 v235 (ix4 u bb s d) = Cert.Spec.newCache (p bb) s d := by
  unfold k0_pay25
  rw [newCache_apply]
  simp only [h235]

/-- Taps 5 to 9 and the product with the affine weight. -/
theorem pay26_spec (v235 : FVec Ideal S2x128x256 .f32) (v236 : Vec Ideal S1x2x9x256 .f32) (v238 : Vec Ideal S1x10x256 .f32)
    (v283 : FVec Ideal S2x128x256 .f32) (v331 : Vec Ideal S1x256x256 .f32) (W : Mat)
    (h235 : ∀ bb t d, v235 (ix3 bb t d) = p bb t d)
    (h236 : ∀ bb s d, v236 (ix4 (0 : Fin 1) bb s d) = c bb s d) (h238 : ∀ k d, v238 (ix3 (0 : Fin 1) k d) = f k d)
    (h283 : ∀ bb t d, v283 (ix3 bb t d) = p bb t d + f 0 d * Cert.Spec.tap (c bb) (p bb) 0 t d + f 1 d * Cert.Spec.tap (c bb) (p bb) 1 t d + f 2 d * Cert.Spec.tap (c bb) (p bb) 2 t d + f 3 d * Cert.Spec.tap (c bb) (p bb) 3 t d + f 4 d * Cert.Spec.tap (c bb) (p bb) 4 t d)
    (h331 : ∀ e n, v331 (ix3 (0 : Fin 1) e n) = W e n) (bb : Fin 2) (t : Fin 128) (n : Fin 256) :
    k0_pay26 v235 (k0_pay21 v236) (k0_pay22 v238) v283 (k0_pay24 v238) v331 (ix2 (row bb t) n)
      = Cert.Spec.dense (Cert.Spec.conv f (c bb) (p bb) t) W n := by
  unfold k0_pay26 k0_pay24 k0_pay21 k0_pay22
  simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, h235, h236, h238, h283, h331]
  simp only [Cert.Spec.dense, Cert.Spec.conv, tap9_apply]

/-- The bias, the ReLU and the last layer's projection. -/
theorem pay27_spec (v333 : FVec Ideal S256x256 .f32) (v334 : Vec Ideal S1x1x256 .f32) (v340 : Vec Ideal S1x256x256 .f32)
    (y : Fin 2 → Seq) (b : Row) (L : Mat) (h333 : ∀ bb t n, v333 (ix2 (row bb t) n) = y bb t n)
    (h334 : ∀ n, v334 (ix3 (0 : Fin 1) (0 : Fin 1) n) = b n) (h340 : ∀ e n, v340 (ix3 (0 : Fin 1) e n) = L e n)
    (bb : Fin 2) (t : Fin 128) (n : Fin 256) :
    k0_pay27 v333 v334 v340 (ix3 bb t n) = Cert.Spec.dense (Cert.Spec.relu (fun e => y bb t e + b e)) L n := by
  unfold k0_pay27
  simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, h333, h334, h340]
  try rfl

end Cert.ReferenceIdeal.Hand

end
-- ==== Proof.RefStage3.lean ====
/-
  The reference body, layer 3 and the output stack.

  The last layer's convolution, accumulated across three of the body's values; its affine map and ReLU,
  the output stack's two affine maps, and the softmax: shifted by the row maximum, exponentiated, divided
  by the row sum.
-/
import proofs.«129047_g2000306104881685_pallasbulk_300_2_alg».proof.Proof.RefOps

set_option maxRecDepth 16384

open scoped BigOperators

noncomputable section

namespace Cert.ReferenceIdeal.Hand

open Cert.ReferenceIdeal Cert.ReferenceIdeal.Gen
open Idealize.ShloMosaic Idealize.ShloMosaic.ValueIdx
open Cert.Spec (Seq Cache Filt Mat Row)

variable (p : Fin 2 → Seq) (c : Fin 2 → Cache) (f : Filt)

/-- Taps 0 to 2 added to the projection. -/
theorem pay30_spec (v333 : FVec Ideal S256x256 .f32) (v334 : Vec Ideal S1x1x256 .f32) (v340 : Vec Ideal S1x256x256 .f32)
    (v344 : Vec Ideal S1x2x9x256 .f32) (v346 : Vec Ideal S1x10x256 .f32)
    (hP : ∀ bb t d, k0_pay27 v333 v334 v340 (ix3 bb t d) = p bb t d)
    (h344 : ∀ bb s d, v344 (ix4 (0 : Fin 1) bb s d) = c bb s d) (h346 : ∀ k d, v346 (ix3 (0 : Fin 1) k d) = f k d)
    (bb : Fin 2) (t : Fin 128) (d : Fin 256) :
    k0_pay30 v333 v334 v340 v344 v346 (ix3 bb t d) = p bb t d + f 0 d * Cert.Spec.tap (c bb) (p bb) 0 t d + f 1 d * Cert.Spec.tap (c bb) (p bb) 1 t d + f 2 d * Cert.Spec.tap (c bb) (p bb) 2 t d := by
  unfold k0_pay30 k0_pay28 k0_pay29
  simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, hP, h344, h346]
  try rfl

/-- Tap 3's product. -/
theorem pay31_spec (v333 : FVec Ideal S256x256 .f32) (v334 : Vec Ideal S1x1x256 .f32) (v340 : Vec Ideal S1x256x256 .f32)
    (v344 : Vec Ideal S1x2x9x256 .f32) (v346 : Vec Ideal S1x10x256 .f32)
    (hP : ∀ bb t d, k0_pay27 v333 v334 v340 (ix3 bb t d) = p bb t d)
    (h344 : ∀ bb s d, v344 (ix4 (0 : Fin 1) bb s d) = c bb s d) (h346 : ∀ k d, v346 (ix3 (0 : Fin 1) k d) = f k d)
    (bb : Fin 2) (t : Fin 128) (d : Fin 256) :
    k0_pay31 v333 v334 v340 v344 v346 (ix3 bb t d) = f 3 d * Cert.Spec.tap (c bb) (p bb) 3 t d := by
  unfold k0_pay31 k0_pay28 k0_pay29
  simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, hP, h344, h346]
  try rfl

/-- Taps 4 to 9: the convolution. -/
theorem pay32_spec (v343 : FVec Ideal S2x128x256 .f32) (v344 : Vec Ideal S1x2x9x256 .f32) (v346 : Vec Ideal S1x10x256 .f32)
    (v373 v381 : FVec Ideal S2x128x256 .f32) (h343 : ∀ bb t d, v343 (ix3 bb t d) = p bb t d)
    (h344 : ∀ bb s d, v344 (ix4 (0 : Fin 1) bb s d) = c bb s d) (h346 : ∀ k d, v346 (ix3 (0 : Fin 1) k d) = f k d)
    (h373 : ∀ bb t d, v373 (ix3 bb t d) = p bb t d + f 0 d * Cert.Spec.tap (c bb) (p bb) 0 t d + f 1 d * Cert.Spec.tap (c bb) (p bb) 1 t d + f 2 d * Cert.Spec.tap (c bb) (p bb) 2 t d)
    (h381 : ∀ bb t d, v381 (ix3 bb t d) = f 3 d * Cert.Spec.tap (c bb) (p bb) 3 t d)
    (bb : Fin 2) (t : Fin 128) (d : Fin 256) :
    k0_pay32 v343 (k0_pay28 v344) (k0_pay29 v346) v373 v381 (ix3 bb t d) = Cert.Spec.conv f (c bb) (p bb) t d := by
  unfold k0_pay32 k0_pay28 k0_pay29
  simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, h343, h344, h346, h373, h381]
  simp only [Cert.Spec.conv, tap9_apply]

/-- The layer's new cache. -/
theorem pay33_spec (v343 : FVec Ideal S2x128x256 .f32) (h343 : ∀ bb t d, v343 (ix3 bb t d) = p bb t d)
    (u : Fin 1) (bb : Fin 2) (s : Fin 9) (d : Fin 256) :
    k0_pay33 v343 (ix4 u bb s d) = Cert.Spec.newCache (p bb) s d := by
  unfold k0_pay33
  rw [newCache_apply]
  simp only [h343]

/-- The logits of a row: the layer's affine map and ReLU, then the output stack's two affine maps. -/
def logits (W : Mat) (b : Row) (W1 : Mat) (b1 : Row) (W2 : Mat) (b2 : Row) (y : Row) : Row :=
  Cert.Spec.affine (Cert.Spec.affine (Cert.Spec.relu (Cert.Spec.affine y W b)) W1 b1) W2 b2

/-- The exponentials of the shifted logits. -/
theorem pay34_spec (v433 : FVec Ideal S2x128x256 .f32) (v439 : Vec Ideal S1x256x256 .f32) (v442 : Vec Ideal S1x1x256 .f32)
    (v448 : Vec Ideal S256x256 .f32) (v450 : Vec Ideal S1x256 .f32) (v454 : Vec Ideal S256x256 .f32) (v456 : Vec Ideal S1x256 .f32)
    (y : Fin 2 → Seq) (W : Mat) (b : Row) (W1 : Mat) (b1 : Row) (W2 : Mat) (b2 : Row)
    (h433 : ∀ bb t d, v433 (ix3 bb t d) = y bb t d) (h439 : ∀ e n, v439 (ix3 (0 : Fin 1) e n) = W e n)
    (h442 : ∀ n, v442 (ix3 (0 : Fin 1) (0 : Fin 1) n) = b n) (h448 : ∀ e n, v448 (ix2 e n) = W1 e n)
    (h450 : ∀ n, v450 (ix2 (0 : Fin 1) n) = b1 n) (h454 : ∀ e n, v454 (ix2 e n) = W2 e n) (h456 : ∀ n, v456 (ix2 (0 : Fin 1) n) = b2 n)
    (bb : Fin 2) (t : Fin 128) (n : Fin 256) :
    k0_pay34 v433 v439 v442 v448 v450 v454 v456 (ix2 (row bb t) n)
      = Ideal.exp (logits W b W1 b1 W2 b2 (y bb t) n - Finset.univ.fold max ⊥ (logits W b W1 b1 W2 b2 (y bb t))) := by
  unfold k0_pay34
  show Ideal.exp _ = _
  rw [subf_apply]
  refine congrArg Ideal.exp (congrArg₂ (fun a b : EReal => a - b) ?_ ((rowMax_apply _ _ _ _ _ _ (row bb t) n).trans ?_))
  · simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, h433, h439, h442, h448, h450, h454, h456]
    try rfl
  · simp only [addf_apply, mulf_apply, filtBcast_apply, bcastFeat_apply, vecRow3_apply, filt_0, filt_1, filt_2, filt_3, filt_4, filt_5, filt_6, filt_7, filt_8, filt_9, win_0, win_1, win_2, win_3, win_4, win_5, win_6, win_7, win_8, cacheSlab_apply, filtSlab_apply, seqs_apply, rows_apply, mm_apply, relu_apply, biasRow_apply, biasSlab_apply, slab_apply, h433, h439, h442, h448, h450, h454, h456]
    try rfl

/-- The row sums of the exponentials. -/
theorem pay35_spec (v433 : FVec Ideal S2x128x256 .f32) (v439 : Vec Ideal S1x256x256 .f32) (v442 : Vec Ideal S1x1x256 .f32)
    (v448 : Vec Ideal S256x256 .f32) (v450 : Vec Ideal S1x256 .f32) (v454 : Vec Ideal S256x256 .f32) (v456 : Vec Ideal S1x256 .f32)
    (E : Fin 2 → Seq) (hE : ∀ bb t n, k0_pay34 v433 v439 v442 v448 v450 v454 v456 (ix2 (row bb t) n) = E bb t n)
    (bb : Fin 2) (t : Fin 128) (n : Fin 256) :
    k0_pay35 v433 v439 v442 v448 v450 v454 v456 (ix2 (row bb t) n) = ∑ k : Fin 256, E bb t k := by
  unfold k0_pay35
  refine (rowSum_apply _ _ _ _ _ _ (row bb t) n).trans ?_
  simp only [hE]

/-- The quotient, as the block. -/
theorem pay1_spec (v464 v467 : FVec Ideal S256x256 .f32) (E S : Fin 2 → Seq)
    (h464 : ∀ bb t n, v464 (ix2 (row bb t) n) = E bb t n) (h467 : ∀ bb t n, v467 (ix2 (row bb t) n) = S bb t n)
    (bb : Fin 2) (t : Fin 128) (n : Fin 256) :
    k0_pay1 v464 v467 (ix3 bb t n) = Ideal.div (E bb t n) (S bb t n) := by
  unfold k0_pay1
  rw [seqs_apply, divf_apply, h464, h467]

end Cert.ReferenceIdeal.Hand

end
-- ==== Proof.RefBlock.lean ====
import proofs.«129047_g2000306104881685_pallasbulk_300_2_alg».proof.Proof.RefData
import proofs.«129047_g2000306104881685_pallasbulk_300_2_alg».proof.Proof.RefStage0
import proofs.«129047_g2000306104881685_pallasbulk_300_2_alg».proof.Proof.RefStage1
import proofs.«129047_g2000306104881685_pallasbulk_300_2_alg».proof.Proof.RefStage2
import proofs.«129047_g2000306104881685_pallasbulk_300_2_alg».proof.Proof.RefStage3

/-
  The reference's body on one block is the network on the block's two batch rows.

  Given what the sixteen staging buffers hold at a grid point — the two batch rows `β 0`, `β 1` of the input
  and of each layer's cache, and the whole of every weight, filter and bias — the probability block the body
  leaves is `Spec.probs` at those two rows, and slab `l` of the stacked-cache block is layer `l`'s new cache
  for them.  The body's values are chained in the order the body computes them; each link is one of the
  per-value lemmas.
-/
set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx
open Cert.Spec (Seq Cache Filt Mat Row)

theorem hz3 : (![0, 0, 0] : Fin 3 → Nat) = fun _ => 0 := funext fun a => by fin_cases a <;> rfl
theorem hz2 : (![0, 0] : Fin 2 → Nat) = fun _ => 0 := funext fun a => by fin_cases a <;> rfl

/-- A load of slab `l` of a stack of matrices reads the stack at `(l, ·, ·)`. -/
theorem ld_slab3 {n a b : ℕ} (X : Vec Ideal (⟨3, ![n, a, b]⟩ : Shape) .f32) (l : ℕ)
    (inb : ∀ ax, (![l, 0, 0] : Fin 3 → ℕ) ax + (![1, a, b] : Fin 3 → ℕ) ax ≤ (⟨3, ![n, a, b]⟩ : Shape).size ax)
    (ll : Fin n) (hl : ll.val = l) (u : Fin 1) (e : Fin a) (k : Fin b) :
    View.ld (Val := Elt Ideal) X (Rect.unit ![l, 0, 0] ![1, a, b] inb) (ix3 u e k) = X (ix3 ll e k) := by
  show X _ = X _
  refine congrArg X (funext fun ax => Fin.ext ?_)
  have := u.isLt
  match ax with
  | ⟨0, _⟩ => show l + 1 * u.val = ll.val; omega
  | ⟨1, _⟩ => show 0 + 1 * e.val = e.val; omega
  | ⟨2, _⟩ => show 0 + 1 * k.val = k.val; omega

/-- A load of slab `l` of the stacked caches reads the stack at `(l, ·, ·, ·)`. -/
theorem ld_slab4 {n a b d : ℕ} (X : Vec Ideal (⟨4, ![n, a, b, d]⟩ : Shape) .f32) (l : ℕ)
    (inb : ∀ ax, (![l, 0, 0, 0] : Fin 4 → ℕ) ax + (![1, a, b, d] : Fin 4 → ℕ) ax ≤ (⟨4, ![n, a, b, d]⟩ : Shape).size ax)
    (ll : Fin n) (hl : ll.val = l) (u : Fin 1) (e : Fin a) (k : Fin b) (j : Fin d) :
    View.ld (Val := Elt Ideal) X (Rect.unit ![l, 0, 0, 0] ![1, a, b, d] inb) (ix4 u e k j) = X (ix4 ll e k j) := by
  show X _ = X _
  refine congrArg X (funext fun ax => Fin.ext ?_)
  have := u.isLt
  match ax with
  | ⟨0, _⟩ => show l + 1 * u.val = ll.val; omega
  | ⟨1, _⟩ => show 0 + 1 * e.val = e.val; omega
  | ⟨2, _⟩ => show 0 + 1 * k.val = k.val; omega
  | ⟨3, _⟩ => show 0 + 1 * j.val = j.val; omega

/-- Slab `l` of the stacked-cache block, as the rectangle the body stores through, holds index `(l, ·, ·, ·)`. -/
theorem emb_slab4 (l : ℕ) (inb : ∀ ax, (![l, 0, 0, 0] : Fin 4 → ℕ) ax + (![1, 2, 9, 256] : Fin 4 → ℕ) ax ≤ S4x2x9x256.size ax)
    (ll : Fin 4) (hl : ll.val = l) (u : Fin 1) (bb : Fin 2) (s : Fin 9) (d : Fin 256) :
    (Rect.unit (s := S4x2x9x256) ![l, 0, 0, 0] ![1, 2, 9, 256] inb).emb (ix4 u bb s d) = ix4 ll bb s d := by
  refine funext fun ax => Fin.ext ?_
  have := u.isLt
  match ax with
  | ⟨0, _⟩ => show l + 1 * u.val = ll.val; omega
  | ⟨1, _⟩ => show 0 + 1 * bb.val = bb.val; omega
  | ⟨2, _⟩ => show 0 + 1 * s.val = s.val; omega
  | ⟨3, _⟩ => show 0 + 1 * d.val = d.val; omega

set_option maxHeartbeats 4000000 in
/-- The body's two output blocks, from what its input blocks hold. -/
theorem body_value (a : Cert.Spec.Args) (β : Fin 2 → Fin 256) (c : Dev nD) (i : grid0.Coords) (arg1 : Memref sig .tc .vmem S2x128x256 .f32) (harg1 : arg1.IsWhole) (arg2 : Memref sig .tc .vmem S4x2x9x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S4x256x256 .f32) (harg7 : arg7.IsWhole) (arg8 : Memref sig .tc .vmem S4x10x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S2x128x256 .f32) (harg15 : arg15.IsWhole) (arg16 : Memref sig .tc .vmem S4x2x9x256 .f32) (harg16 : arg16.IsWhole)
    (x0 : Vec Ideal S2x128x256 .f32) (x1 : Vec Ideal S4x2x9x256 .f32) (x2 : Vec Ideal S256x256 .f32) (x3 : Vec Ideal S1x256 .f32) (x4 : Vec Ideal S256x256 .f32) (x5 : Vec Ideal S1x256 .f32) (x6 : Vec Ideal S4x256x256 .f32) (x7 : Vec Ideal S4x10x256 .f32) (x8 : Vec Ideal S4x256x256 .f32) (x9 : Vec Ideal S4x1x256 .f32) (x10 : Vec Ideal S256x256 .f32) (x11 : Vec Ideal S1x256 .f32) (x12 : Vec Ideal S256x256 .f32) (x13 : Vec Ideal S1x256 .f32)
    (hx : ∀ bb t e, x0 (ix3 bb t e) = a.x (ix3 (β bb) t e))
    (hc : ∀ (l : Fin 4) bb s d, x1 (ix4 l bb s d) = (a.layer l).cache (ix4 (β bb) d s (0 : Fin 1)))
    (hw1 : ∀ e n, x2 (ix2 e n) = a.in_w1 (ix2 e n)) (hb1 : ∀ n, x3 (ix2 (0 : Fin 1) n) = a.in_b1 (ix1 n))
    (hw2 : ∀ e n, x4 (ix2 e n) = a.in_w2 (ix2 e n)) (hb2 : ∀ n, x5 (ix2 (0 : Fin 1) n) = a.in_b2 (ix1 n))
    (hlin : ∀ (l : Fin 4) e n, x6 (ix3 l e n) = (a.layer l).lin_w (ix2 e n))
    (hflt : ∀ (l : Fin 4) k d, x7 (ix3 l k d) = (a.layer l).filt (ix2 k d))
    (haw : ∀ (l : Fin 4) e n, x8 (ix3 l e n) = (a.layer l).aff_w (ix2 e n))
    (hab : ∀ (l : Fin 4) n, x9 (ix3 l (0 : Fin 1) n) = (a.layer l).aff_b (ix1 n))
    (ho1 : ∀ e n, x10 (ix2 e n) = a.out_w1 (ix2 e n)) (hob1 : ∀ n, x11 (ix2 (0 : Fin 1) n) = a.out_b1 (ix1 n))
    (ho2 : ∀ e n, x12 (ix2 e n) = a.out_w2 (ix2 e n)) (hob2 : ∀ n, x13 (ix2 (0 : Fin 1) n) = a.out_b2 (ix1 n)) :
    (∀ bb t n, out14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 (ix3 bb t n) = Cert.Spec.probs a (ix3 (β bb) t n))
    ∧ (∀ (l : Fin 4) bb s d, out15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 (ix4 l bb s d)
        = Cert.Spec.newCacheArr a l (ix4 (β bb) d s (0 : Fin 1))) := by
  -- the network's pieces at the block's two batch rows
  let Lr : Fin 4 → Cert.Spec.Layer := fun l => (a.layer l).toLayer
  let Cc : Fin 4 → Fin 2 → Cache := fun l bb => Cert.Spec.cacheOf (a.layer l).cache (β bb)
  let Pj : Fin 4 → Fin 2 → Seq := fun l bb => Cert.Spec.proj (Lr l) (Cert.Spec.hidL a (β bb) l)
  -- the loaded slabs
  have hL0 : ∀ e n, (View.ld (Val := Elt Ideal) x6 (Rect.unit ![0, 0, 0] ![1, 256, 256] inb_S4x256x256_S1x256x256_0_0_0)) (ix3 (0 : Fin 1) e n) = (Lr 0).lin e n := fun e n => (ld_slab3 x6 0 _ 0 rfl 0 e n).trans (hlin 0 e n)
  have hL1 : ∀ e n, (View.ld (Val := Elt Ideal) x6 (Rect.unit ![1, 0, 0] ![1, 256, 256] inb_S4x256x256_S1x256x256_1_0_0)) (ix3 (0 : Fin 1) e n) = (Lr 1).lin e n := fun e n => (ld_slab3 x6 1 _ 1 rfl 0 e n).trans (hlin 1 e n)
  have hL2 : ∀ e n, (View.ld (Val := Elt Ideal) x6 (Rect.unit ![2, 0, 0] ![1, 256, 256] inb_S4x256x256_S1x256x256_2_0_0)) (ix3 (0 : Fin 1) e n) = (Lr 2).lin e n := fun e n => (ld_slab3 x6 2 _ 2 rfl 0 e n).trans (hlin 2 e n)
  have hL3 : ∀ e n, (View.ld (Val := Elt Ideal) x6 (Rect.unit ![3, 0, 0] ![1, 256, 256] inb_S4x256x256_S1x256x256_3_0_0)) (ix3 (0 : Fin 1) e n) = (Lr 3).lin e n := fun e n => (ld_slab3 x6 3 _ 3 rfl 0 e n).trans (hlin 3 e n)
  have hF0 : ∀ k d, (View.ld (Val := Elt Ideal) x7 (Rect.unit ![0, 0, 0] ![1, 10, 256] inb_S4x10x256_S1x10x256_0_0_0)) (ix3 (0 : Fin 1) k d) = (Lr 0).filt k d := fun k d => (ld_slab3 x7 0 _ 0 rfl 0 k d).trans (hflt 0 k d)
  have hF1 : ∀ k d, (View.ld (Val := Elt Ideal) x7 (Rect.unit ![1, 0, 0] ![1, 10, 256] inb_S4x10x256_S1x10x256_1_0_0)) (ix3 (0 : Fin 1) k d) = (Lr 1).filt k d := fun k d => (ld_slab3 x7 1 _ 1 rfl 0 k d).trans (hflt 1 k d)
  have hF2 : ∀ k d, (View.ld (Val := Elt Ideal) x7 (Rect.unit ![2, 0, 0] ![1, 10, 256] inb_S4x10x256_S1x10x256_2_0_0)) (ix3 (0 : Fin 1) k d) = (Lr 2).filt k d := fun k d => (ld_slab3 x7 2 _ 2 rfl 0 k d).trans (hflt 2 k d)
  have hF3 : ∀ k d, (View.ld (Val := Elt Ideal) x7 (Rect.unit ![3, 0, 0] ![1, 10, 256] inb_S4x10x256_S1x10x256_3_0_0)) (ix3 (0 : Fin 1) k d) = (Lr 3).filt k d := fun k d => (ld_slab3 x7 3 _ 3 rfl 0 k d).trans (hflt 3 k d)
  have hW0 : ∀ e n, (View.ld (Val := Elt Ideal) x8 (Rect.unit ![0, 0, 0] ![1, 256, 256] inb_S4x256x256_S1x256x256_0_0_0)) (ix3 (0 : Fin 1) e n) = (Lr 0).aw e n := fun e n => (ld_slab3 x8 0 _ 0 rfl 0 e n).trans (haw 0 e n)
  have hW1 : ∀ e n, (View.ld (Val := Elt Ideal) x8 (Rect.unit ![1, 0, 0] ![1, 256, 256] inb_S4x256x256_S1x256x256_1_0_0)) (ix3 (0 : Fin 1) e n) = (Lr 1).aw e n := fun e n => (ld_slab3 x8 1 _ 1 rfl 0 e n).trans (haw 1 e n)
  have hW2 : ∀ e n, (View.ld (Val := Elt Ideal) x8 (Rect.unit ![2, 0, 0] ![1, 256, 256] inb_S4x256x256_S1x256x256_2_0_0)) (ix3 (0 : Fin 1) e n) = (Lr 2).aw e n := fun e n => (ld_slab3 x8 2 _ 2 rfl 0 e n).trans (haw 2 e n)
  have hW3 : ∀ e n, (View.ld (Val := Elt Ideal) x8 (Rect.unit ![3, 0, 0] ![1, 256, 256] inb_S4x256x256_S1x256x256_3_0_0)) (ix3 (0 : Fin 1) e n) = (Lr 3).aw e n := fun e n => (ld_slab3 x8 3 _ 3 rfl 0 e n).trans (haw 3 e n)
  have hB0 : ∀ n, (View.ld (Val := Elt Ideal) x9 (Rect.unit ![0, 0, 0] ![1, 1, 256] inb_S4x1x256_S1x1x256_0_0_0)) (ix3 (0 : Fin 1) (0 : Fin 1) n) = (Lr 0).ab n := fun n => (ld_slab3 x9 0 _ 0 rfl 0 0 n).trans (hab 0 n)
  have hB1 : ∀ n, (View.ld (Val := Elt Ideal) x9 (Rect.unit ![1, 0, 0] ![1, 1, 256] inb_S4x1x256_S1x1x256_1_0_0)) (ix3 (0 : Fin 1) (0 : Fin 1) n) = (Lr 1).ab n := fun n => (ld_slab3 x9 1 _ 1 rfl 0 0 n).trans (hab 1 n)
  have hB2 : ∀ n, (View.ld (Val := Elt Ideal) x9 (Rect.unit ![2, 0, 0] ![1, 1, 256] inb_S4x1x256_S1x1x256_2_0_0)) (ix3 (0 : Fin 1) (0 : Fin 1) n) = (Lr 2).ab n := fun n => (ld_slab3 x9 2 _ 2 rfl 0 0 n).trans (hab 2 n)
  have hB3 : ∀ n, (View.ld (Val := Elt Ideal) x9 (Rect.unit ![3, 0, 0] ![1, 1, 256] inb_S4x1x256_S1x1x256_3_0_0)) (ix3 (0 : Fin 1) (0 : Fin 1) n) = (Lr 3).ab n := fun n => (ld_slab3 x9 3 _ 3 rfl 0 0 n).trans (hab 3 n)
  have hC0 : ∀ bb s d, (View.ld (Val := Elt Ideal) x1 (Rect.unit ![0, 0, 0, 0] ![1, 2, 9, 256] inb_S4x2x9x256_S1x2x9x256_0_0_0_0)) (ix4 (0 : Fin 1) bb s d) = Cc 0 bb s d := fun bb s d => (ld_slab4 x1 0 _ 0 rfl 0 bb s d).trans (hc 0 bb s d)
  have hC1 : ∀ bb s d, (View.ld (Val := Elt Ideal) x1 (Rect.unit ![1, 0, 0, 0] ![1, 2, 9, 256] inb_S4x2x9x256_S1x2x9x256_1_0_0_0)) (ix4 (0 : Fin 1) bb s d) = Cc 1 bb s d := fun bb s d => (ld_slab4 x1 1 _ 1 rfl 0 bb s d).trans (hc 1 bb s d)
  have hC2 : ∀ bb s d, (View.ld (Val := Elt Ideal) x1 (Rect.unit ![2, 0, 0, 0] ![1, 2, 9, 256] inb_S4x2x9x256_S1x2x9x256_2_0_0_0)) (ix4 (0 : Fin 1) bb s d) = Cc 2 bb s d := fun bb s d => (ld_slab4 x1 2 _ 2 rfl 0 bb s d).trans (hc 2 bb s d)
  have hC3 : ∀ bb s d, (View.ld (Val := Elt Ideal) x1 (Rect.unit ![3, 0, 0, 0] ![1, 2, 9, 256] inb_S4x2x9x256_S1x2x9x256_3_0_0_0)) (ix4 (0 : Fin 1) bb s d) = Cc 3 bb s d := fun bb s d => (ld_slab4 x1 3 _ 3 rfl 0 bb s d).trans (hc 3 bb s d)
  -- layer 0
  have p0 : ∀ bb t d, k0_pay2 x0 x2 x3 x4 x5 (View.ld (Val := Elt Ideal) x6 (Rect.unit ![0, 0, 0] ![1, 256, 256] inb_S4x256x256_S1x256x256_0_0_0)) (ix3 bb t d) = Pj 0 bb t d :=
    pay2_spec x0 x2 x3 x4 x5 _ (fun bb => Cert.Spec.seqOf a.x (β bb)) (Cert.Spec.mat a.in_w1) (Cert.Spec.vec a.in_b1)
      (Cert.Spec.mat a.in_w2) (Cert.Spec.vec a.in_b2) (Lr 0).lin hx hw1 hb1 hw2 hb2 hL0
  have a0_1 := pay5_spec (Pj 0) (Cc 0) (Lr 0).filt _ _ _ _ _ _ _ _ p0 hC0 hF0
  have a0_7 := pay7_spec (Pj 0) (Cc 0) (Lr 0).filt _ _ _ _ _ p0 hC0 hF0 a0_1
  have a0_t7 := pay8_spec (Pj 0) (Cc 0) (Lr 0).filt _ _ _ p0 hC0 hF0
  have c0 := pay9_spec (Pj 0) _ p0
  -- layer 1
  have p1 : ∀ bb t d, _ = Pj 1 bb t d :=
    pay10_spec (Pj 0) (Cc 0) (Lr 0).filt _ _ _ _ _ _ _ _ (Lr 0).aw (Lr 0).ab (Lr 1).lin p0 hC0 hF0 a0_7 a0_t7 hW0 hB0 hL1
  have a1_6 := pay13_spec (Pj 1) (Cc 1) (Lr 1).filt _ _ _ p1 hC1 hF1
  have c1 := pay17_spec (Pj 1) _ p1
  have h2 : ∀ bb t n, _ = Cert.Spec.hid2 a (β bb) t n :=
    pay18_spec (Pj 1) (Cc 1) (Lr 1).filt _ _ _ _ _ _ (Lr 1).aw (Lr 1).ab p1 hC1 hF1 a1_6 hW1 hB1
  have l2 := pay19_spec _ (Lr 2).lin hL2
  -- layer 2
  have p2 : ∀ bb t d, _ = Pj 2 bb t d := pay20_spec _ _ (fun bb => Cert.Spec.hid2 a (β bb)) (Lr 2).lin h2 l2
  have a2_5 := pay23_spec (Pj 2) (Cc 2) (Lr 2).filt _ _ _ _ p2 hC2 hF2
  have c2 := pay25_spec (Pj 2) _ p2
  have y2 := pay26_spec (Pj 2) (Cc 2) (Lr 2).filt _ _ _ _ _ (Lr 2).aw p2 hC2 hF2 a2_5 hW2
  -- layer 3
  have p3 : ∀ bb t d, _ = Pj 3 bb t d :=
    pay27_spec _ _ _ (fun bb t => Cert.Spec.dense (Cert.Spec.conv (Lr 2).filt (Cc 2 bb) (Pj 2 bb) t) (Lr 2).aw) (Lr 2).ab (Lr 3).lin y2 hB2 hL3
  have a3_3 := pay30_spec (Pj 3) (Cc 3) (Lr 3).filt _ _ _ _ _ p3 hC3 hF3
  have a3_t3 := pay31_spec (Pj 3) (Cc 3) (Lr 3).filt _ _ _ _ _ p3 hC3 hF3
  have y3 := pay32_spec (Pj 3) (Cc 3) (Lr 3).filt _ _ _ _ _ p3 hC3 hF3 a3_3 a3_t3
  have c3 := pay33_spec (Pj 3) _ p3
  -- the output stack and the softmax
  have e4 := pay34_spec _ _ _ _ _ _ _ (fun bb t => Cert.Spec.conv (Lr 3).filt (Cc 3 bb) (Pj 3 bb) t) (Lr 3).aw (Lr 3).ab
    (Cert.Spec.mat a.out_w1) (Cert.Spec.vec a.out_b1) (Cert.Spec.mat a.out_w2) (Cert.Spec.vec a.out_b2) y3 hW3 hB3 ho1 hob1 ho2 hob2
  have s4 := pay35_spec _ _ _ _ _ _ _ _ e4
  have q4 := pay1_spec _ _ _ _ e4 s4
  refine ⟨fun bb t n => ?_, fun l bb s d => ?_⟩
  · unfold out14
    rw [View.read_writes_junk_eq_canon]
    unfold kernelRun
    dsimp only
    sl_unfold_words
    rw [View.canon_unit_zero hz3]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S2x128x256) hz3, View.ld_unit_zero (S := S256x256) hz2, View.ld_unit_zero (S := S1x256) hz2]
    exact (q4 bb t n).trans rfl
  · unfold out15
    rw [View.read_writes_junk_eq_canon]
    refine View.canon_apply_of_pieces
      (fun j : S4x2x9x256.Idx => Cert.Spec.newCacheArr a (j 0) (ix4 (β (j 1)) (j 3) (j 2) (0 : Fin 1))) _ ?_ (ix4 l bb s d)
      (cover15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 (ix4 l bb s d))
    unfold kernelRun
    dsimp only
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S2x128x256) hz3, View.ld_unit_zero (S := S256x256) hz2, View.ld_unit_zero (S := S1x256) hz2]
    intro pc hpc
    simp only [List.mem_cons, List.mem_nil_iff, or_false] at hpc
    rcases hpc with rfl | rfl | rfl | rfl
    · intro y
      obtain ⟨u, b', s', d', rfl⟩ : ∃ (u : Fin 1) (b' : Fin 2) (s' : Fin 9) (d' : Fin 256), y = ix4 u b' s' d' := ⟨y 0, y 1, y 2, y 3, eq_ix4 y⟩
      dsimp only
      rw [emb_slab4 3 _ 3 rfl u b' s' d']
      exact (c3 u b' s' d').trans rfl
    · intro y
      obtain ⟨u, b', s', d', rfl⟩ : ∃ (u : Fin 1) (b' : Fin 2) (s' : Fin 9) (d' : Fin 256), y = ix4 u b' s' d' := ⟨y 0, y 1, y 2, y 3, eq_ix4 y⟩
      dsimp only
      rw [emb_slab4 2 _ 2 rfl u b' s' d']
      exact (c2 u b' s' d').trans rfl
    · intro y
      obtain ⟨u, b', s', d', rfl⟩ : ∃ (u : Fin 1) (b' : Fin 2) (s' : Fin 9) (d' : Fin 256), y = ix4 u b' s' d' := ⟨y 0, y 1, y 2, y 3, eq_ix4 y⟩
      dsimp only
      rw [emb_slab4 1 _ 1 rfl u b' s' d']
      exact (c1 u b' s' d').trans rfl
    · intro y
      obtain ⟨u, b', s', d', rfl⟩ : ∃ (u : Fin 1) (b' : Fin 2) (s' : Fin 9) (d' : Fin 256), y = ix4 u b' s' d' := ⟨y 0, y 1, y 2, y 3, eq_ix4 y⟩
      dsimp only
      rw [emb_slab4 0 _ 0 rfl u b' s' d']
      exact (c0 u b' s' d').trans rfl

end Cert.ReferenceIdeal.Hand

end
-- ==== Proof.RefLayout.lean ====
/-
  Layout operations of the host program, read at an index: four arrays stacked along a new leading axis, a
  leading unit axis added, a trailing unit axis dropped or added.
-/
import Idealize.ShloMosaic.Lib.Pipeline.Value
import Idealize.ShloMosaic.Lib.ValueIdx
import Idealize.ShloMosaic.Lib.ValueLayout

namespace Cert.ReferenceIdeal.Hand

open Idealize.ShloMosaic Idealize.ShloMosaic.ValueIdx

/-! ## Layout operations at an index -/

section Generic
variable {α : Type}

/-- Four arrays of one shape stacked along a new leading axis (rank 3): entry `(l, e, n)` is array `l`'s `(0, e, n)`. -/
theorem stack4_rank3 {A B : ℕ} (x : Fin 4 → ((⟨3, ![1, A, B]⟩ : Shape).Idx → α))
    (h : Shape.Concatenates [(⟨3, ![1, A, B]⟩ : Shape), ⟨3, ![1, A, B]⟩, ⟨3, ![1, A, B]⟩, ⟨3, ![1, A, B]⟩] (⟨3, ![4, A, B]⟩ : Shape) 0)
    (l : Fin 4) (e : Fin A) (n : Fin B) :
    concatenate (⟨3, ![4, A, B]⟩ : Shape) 0 [⟨⟨3, ![1, A, B]⟩, x 0⟩, ⟨⟨3, ![1, A, B]⟩, x 1⟩, ⟨⟨3, ![1, A, B]⟩, x 2⟩, ⟨⟨3, ![1, A, B]⟩, x 3⟩] h (ix3 l e n)
      = x l (ix3 (0 : Fin 1) e n) := by
  have hi : ∀ b : Fin 3, b.cast rfl ≠ (0 : Fin 3) → ((ix3 (0 : Fin 1) e n : (⟨3, ![1, A, B]⟩ : Shape).Idx) b).val = ((ix3 l e n : (⟨3, ![4, A, B]⟩ : Shape).Idx) (b.cast rfl)).val := fun b hb => by
    match b with
    | ⟨0, _⟩ => exact absurd rfl hb
    | ⟨1, _⟩ => rfl
    | ⟨2, _⟩ => rfl
  match l with
  | ⟨0, _⟩ => exact concatenate_apply_piece (t := (⟨3, ![4, A, B]⟩ : Shape)) (0 : Fin 3) [⟨⟨3, ![1, A, B]⟩, x 0⟩, ⟨⟨3, ![1, A, B]⟩, x 1⟩, ⟨⟨3, ![1, A, B]⟩, x 2⟩, ⟨⟨3, ![1, A, B]⟩, x 3⟩] h _ 0 (by show (0 : ℕ) < 4; omega) _ (x 0) rfl rfl 0 rfl (ix3 (0 : Fin 1) e n) hi rfl
  | ⟨1, _⟩ => exact concatenate_apply_piece (t := (⟨3, ![4, A, B]⟩ : Shape)) (0 : Fin 3) [⟨⟨3, ![1, A, B]⟩, x 0⟩, ⟨⟨3, ![1, A, B]⟩, x 1⟩, ⟨⟨3, ![1, A, B]⟩, x 2⟩, ⟨⟨3, ![1, A, B]⟩, x 3⟩] h _ 1 (by show (1 : ℕ) < 4; omega) _ (x 1) rfl rfl 1 rfl (ix3 (0 : Fin 1) e n) hi rfl
  | ⟨2, _⟩ => exact concatenate_apply_piece (t := (⟨3, ![4, A, B]⟩ : Shape)) (0 : Fin 3) [⟨⟨3, ![1, A, B]⟩, x 0⟩, ⟨⟨3, ![1, A, B]⟩, x 1⟩, ⟨⟨3, ![1, A, B]⟩, x 2⟩, ⟨⟨3, ![1, A, B]⟩, x 3⟩] h _ 2 (by show (2 : ℕ) < 4; omega) _ (x 2) rfl rfl 2 rfl (ix3 (0 : Fin 1) e n) hi rfl
  | ⟨3, _⟩ => exact concatenate_apply_piece (t := (⟨3, ![4, A, B]⟩ : Shape)) (0 : Fin 3) [⟨⟨3, ![1, A, B]⟩, x 0⟩, ⟨⟨3, ![1, A, B]⟩, x 1⟩, ⟨⟨3, ![1, A, B]⟩, x 2⟩, ⟨⟨3, ![1, A, B]⟩, x 3⟩] h _ 3 (by show (3 : ℕ) < 4; omega) _ (x 3) rfl rfl 3 rfl (ix3 (0 : Fin 1) e n) hi rfl

/-- The same at rank 4. -/
theorem stack4_rank4 {A B C : ℕ} (x : Fin 4 → ((⟨4, ![1, A, B, C]⟩ : Shape).Idx → α))
    (h : Shape.Concatenates [(⟨4, ![1, A, B, C]⟩ : Shape), ⟨4, ![1, A, B, C]⟩, ⟨4, ![1, A, B, C]⟩, ⟨4, ![1, A, B, C]⟩] (⟨4, ![4, A, B, C]⟩ : Shape) 0)
    (l : Fin 4) (e : Fin A) (n : Fin B) (r : Fin C) :
    concatenate (⟨4, ![4, A, B, C]⟩ : Shape) 0 [⟨⟨4, ![1, A, B, C]⟩, x 0⟩, ⟨⟨4, ![1, A, B, C]⟩, x 1⟩, ⟨⟨4, ![1, A, B, C]⟩, x 2⟩, ⟨⟨4, ![1, A, B, C]⟩, x 3⟩] h (ix4 l e n r)
      = x l (ix4 (0 : Fin 1) e n r) := by
  have hi : ∀ b : Fin 4, b.cast rfl ≠ (0 : Fin 4) → ((ix4 (0 : Fin 1) e n r : (⟨4, ![1, A, B, C]⟩ : Shape).Idx) b).val = ((ix4 l e n r : (⟨4, ![4, A, B, C]⟩ : Shape).Idx) (b.cast rfl)).val := fun b hb => by
    match b with
    | ⟨0, _⟩ => exact absurd rfl hb
    | ⟨1, _⟩ => rfl
    | ⟨2, _⟩ => rfl
    | ⟨3, _⟩ => rfl
  match l with
  | ⟨0, _⟩ => exact concatenate_apply_piece (t := (⟨4, ![4, A, B, C]⟩ : Shape)) (0 : Fin 4) [⟨⟨4, ![1, A, B, C]⟩, x 0⟩, ⟨⟨4, ![1, A, B, C]⟩, x 1⟩, ⟨⟨4, ![1, A, B, C]⟩, x 2⟩, ⟨⟨4, ![1, A, B, C]⟩, x 3⟩] h _ 0 (by show (0 : ℕ) < 4; omega) _ (x 0) rfl rfl 0 rfl (ix4 (0 : Fin 1) e n r) hi rfl
  | ⟨1, _⟩ => exact concatenate_apply_piece (t := (⟨4, ![4, A, B, C]⟩ : Shape)) (0 : Fin 4) [⟨⟨4, ![1, A, B, C]⟩, x 0⟩, ⟨⟨4, ![1, A, B, C]⟩, x 1⟩, ⟨⟨4, ![1, A, B, C]⟩, x 2⟩, ⟨⟨4, ![1, A, B, C]⟩, x 3⟩] h _ 1 (by show (1 : ℕ) < 4; omega) _ (x 1) rfl rfl 1 rfl (ix4 (0 : Fin 1) e n r) hi rfl
  | ⟨2, _⟩ => exact concatenate_apply_piece (t := (⟨4, ![4, A, B, C]⟩ : Shape)) (0 : Fin 4) [⟨⟨4, ![1, A, B, C]⟩, x 0⟩, ⟨⟨4, ![1, A, B, C]⟩, x 1⟩, ⟨⟨4, ![1, A, B, C]⟩, x 2⟩, ⟨⟨4, ![1, A, B, C]⟩, x 3⟩] h _ 2 (by show (2 : ℕ) < 4; omega) _ (x 2) rfl rfl 2 rfl (ix4 (0 : Fin 1) e n r) hi rfl
  | ⟨3, _⟩ => exact concatenate_apply_piece (t := (⟨4, ![4, A, B, C]⟩ : Shape)) (0 : Fin 4) [⟨⟨4, ![1, A, B, C]⟩, x 0⟩, ⟨⟨4, ![1, A, B, C]⟩, x 1⟩, ⟨⟨4, ![1, A, B, C]⟩, x 2⟩, ⟨⟨4, ![1, A, B, C]⟩, x 3⟩] h _ 3 (by show (3 : ℕ) < 4; omega) _ (x 3) rfl rfl 3 rfl (ix4 (0 : Fin 1) e n r) hi rfl

/-- A matrix under a new leading unit axis. -/
theorem lead3_apply {A B : ℕ} (x : (⟨2, ![A, B]⟩ : Shape).Idx → α) (h : (⟨2, ![A, B]⟩ : Shape).BroadcastsInDim ⟨3, ![1, A, B]⟩ ![1, 2])
    (u : Fin 1) (e : Fin A) (n : Fin B) :
    broadcastInDim ⟨3, ![1, A, B]⟩ ![1, 2] h x (ix3 u e n) = x (ix2 e n) := by
  refine broadcastInDim_apply ![1, 2] h x (ix3 u e n) (ix2 e n) fun ax => ?_
  match ax with
  | ⟨0, _⟩ =>
    show e.val = if A = 1 then 0 else e.val
    split
    · have := e.isLt; omega
    · rfl
  | ⟨1, _⟩ =>
    show n.val = if B = 1 then 0 else n.val
    split
    · have := n.isLt; omega
    · rfl

/-- A rank-3 array under a new leading unit axis. -/
theorem lead4_apply {A B C : ℕ} (x : (⟨3, ![A, B, C]⟩ : Shape).Idx → α) (h : (⟨3, ![A, B, C]⟩ : Shape).BroadcastsInDim ⟨4, ![1, A, B, C]⟩ ![1, 2, 3])
    (u : Fin 1) (e : Fin A) (n : Fin B) (r : Fin C) :
    broadcastInDim ⟨4, ![1, A, B, C]⟩ ![1, 2, 3] h x (ix4 u e n r) = x (ix3 e n r) := by
  refine broadcastInDim_apply ![1, 2, 3] h x (ix4 u e n r) (ix3 e n r) fun ax => ?_
  match ax with
  | ⟨0, _⟩ =>
    show e.val = if A = 1 then 0 else e.val
    split
    · have := e.isLt; omega
    · rfl
  | ⟨1, _⟩ =>
    show n.val = if B = 1 then 0 else n.val
    split
    · have := n.isLt; omega
    · rfl
  | ⟨2, _⟩ =>
    show r.val = if C = 1 then 0 else r.val
    split
    · have := r.isLt; omega
    · rfl

/-- A trailing unit axis dropped: `[a, b, c, 1]` viewed `[a, b, c]`. -/
theorem dropUnit4_apply {A B C : ℕ} (x : (⟨4, ![A, B, C, 1]⟩ : Shape).Idx → α) (h : (⟨4, ![A, B, C, 1]⟩ : Shape).ShapeCasts ⟨3, ![A, B, C]⟩)
    (e : Fin A) (n : Fin B) (r : Fin C) :
    shapeCast ⟨3, ![A, B, C]⟩ x h (ix3 e n r) = x (ix4 e n r (0 : Fin 1)) :=
  shapeCast_apply x h _ _ (by
    rw [Shape.rowMajor_val_four, Shape.rowMajor_val_three]
    show ((e.val * B + n.val) * C + r.val) * 1 + 0 = (e.val * B + n.val) * C + r.val
    omega)

/-- A trailing unit axis added by a broadcast: `[a, b, c]` to `[a, b, c, 1]`. -/
theorem addUnit4_apply {A B C : ℕ} (x : (⟨3, ![A, B, C]⟩ : Shape).Idx → α) (h : (⟨3, ![A, B, C]⟩ : Shape).BroadcastsInDim ⟨4, ![A, B, C, 1]⟩ ![0, 1, 2])
    (e : Fin A) (n : Fin B) (r : Fin C) (u : Fin 1) :
    broadcastInDim ⟨4, ![A, B, C, 1]⟩ ![0, 1, 2] h x (ix4 e n r u) = x (ix3 e n r) := by
  refine broadcastInDim_apply ![0, 1, 2] h x (ix4 e n r u) (ix3 e n r) fun ax => ?_
  match ax with
  | ⟨0, _⟩ =>
    show e.val = if A = 1 then 0 else e.val
    split
    · have := e.isLt; omega
    · rfl
  | ⟨1, _⟩ =>
    show n.val = if B = 1 then 0 else n.val
    split
    · have := n.isLt; omega
    · rfl
  | ⟨2, _⟩ =>
    show r.val = if C = 1 then 0 else r.val
    split
    · have := r.isLt; omega
    · rfl

end Generic

end Cert.ReferenceIdeal.Hand
-- ==== Proof.RefHost.lean ====
import proofs.«129047_g2000306104881685_pallasbulk_300_2_alg».proof.Proof.RefRun
import proofs.«129047_g2000306104881685_pallasbulk_300_2_alg».proof.Proof.ArgsOf
import proofs.«129047_g2000306104881685_pallasbulk_300_2_alg».proof.Proof.RefOps
import proofs.«129047_g2000306104881685_pallasbulk_300_2_alg».proof.Proof.RefLayout

/-
  The arrays the reference's region finds, read in the network's arguments.

  Before the region the host lays each layer's cache time-major — drops the trailing unit axis, exchanges
  the feature and time axes — and stacks the four layers' caches, projections, filters, affine weights and
  (as rows) affine biases along a new leading axis; the four bias vectors of the input and output stacks
  become rows.  Entry `(l, …)` of a stacked array is layer `l`'s argument at the matching index.
-/
set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## The host operations before the region -/

variable (m : (ℓ : Loc nD τ sig) → Buf (Elt Ideal) ℓ)

/-- A layer's cache `[256, 256, 9, 1]` (batch, feature, time, unit) laid time-major under a leading unit axis. -/
abbrev cacheT (x : S256x256x9x1.Idx → EReal) : S1x256x9x256.Idx → EReal :=
  broadcastInDim S1x256x9x256 ![1, 2, 3] bcast_S256x9x256_S1x256x9x256_1_2_3
    (transpose S256x9x256 [0, 2, 1] (shapeCast S256x256x9 x shapeCasts_S256x256x9x1_S256x256x9) transposes_S256x256x9_S256x9x256_0_2_1)

theorem cacheT_apply (x : S256x256x9x1.Idx → EReal) (u : Fin 1) (b : Fin 256) (s : Fin 9) (d : Fin 256) :
    cacheT x (ix4 u b s d) = x (ix4 b d s (0 : Fin 1)) := by
  unfold cacheT
  rw [lead4_apply, transpose_ix3_021_apply, dropUnit4_apply]

/-- A bias vector as a row under a leading unit axis. -/
abbrev biasT (x : S256.Idx → EReal) : S1x1x256.Idx → EReal :=
  broadcastInDim S1x1x256 ![1, 2] bcast_S1x256_S1x1x256_1_2 (shapeCast S1x256 x shapeCasts_S256_S1x256)

theorem biasT_apply (x : S256.Idx → EReal) (u u' : Fin 1) (n : Fin 256) : biasT x (ix3 u u' n) = x (ix1 n) := by
  unfold biasT
  rw [lead3_apply, shapeCast_a_1a_apply]

local macro "host_term" : tactic => `(tactic| (
  dsimp only [V, V0]
  simp only [hostOps0, List.flatten_cons, List.flatten_nil, List.append_nil]
  after_results
  rfl))

set_option maxHeartbeats 4000000 in
theorem V_v12 (c : Dev nD) : (V m c main_v12 : S4x256x9x256.Idx → EReal)
    = concatenate S4x256x9x256 0 [⟨S1x256x9x256, cacheT (m ((c : Thread nD τ).loc main_arg13))⟩, ⟨S1x256x9x256, cacheT (m ((c : Thread nD τ).loc main_arg18))⟩,
        ⟨S1x256x9x256, cacheT (m ((c : Thread nD τ).loc main_arg23))⟩, ⟨S1x256x9x256, cacheT (m ((c : Thread nD τ).loc main_arg28))⟩]
        concatenates_S1x256x9x256_S1x256x9x256_S1x256x9x256_S1x256x9x256_S4x256x9x256_d0 := by
  host_term

set_option maxHeartbeats 4000000 in
theorem V_v17 (c : Dev nD) : (V m c main_v17 : S4x256x256.Idx → EReal)
    = concatenate S4x256x256 0 [⟨S1x256x256, broadcastInDim S1x256x256 ![1, 2] bcast_S256x256_S1x256x256_1_2 (m ((c : Thread nD τ).loc main_arg9))⟩,
        ⟨S1x256x256, broadcastInDim S1x256x256 ![1, 2] bcast_S256x256_S1x256x256_1_2 (m ((c : Thread nD τ).loc main_arg14))⟩,
        ⟨S1x256x256, broadcastInDim S1x256x256 ![1, 2] bcast_S256x256_S1x256x256_1_2 (m ((c : Thread nD τ).loc main_arg19))⟩,
        ⟨S1x256x256, broadcastInDim S1x256x256 ![1, 2] bcast_S256x256_S1x256x256_1_2 (m ((c : Thread nD τ).loc main_arg24))⟩]
        concatenates_S1x256x256_S1x256x256_S1x256x256_S1x256x256_S4x256x256_d0 := by
  host_term

set_option maxHeartbeats 4000000 in
theorem V_v22 (c : Dev nD) : (V m c main_v22 : S4x10x256.Idx → EReal)
    = concatenate S4x10x256 0 [⟨S1x10x256, broadcastInDim S1x10x256 ![1, 2] bcast_S10x256_S1x10x256_1_2 (m ((c : Thread nD τ).loc main_arg10))⟩,
        ⟨S1x10x256, broadcastInDim S1x10x256 ![1, 2] bcast_S10x256_S1x10x256_1_2 (m ((c : Thread nD τ).loc main_arg15))⟩,
        ⟨S1x10x256, broadcastInDim S1x10x256 ![1, 2] bcast_S10x256_S1x10x256_1_2 (m ((c : Thread nD τ).loc main_arg20))⟩,
        ⟨S1x10x256, broadcastInDim S1x10x256 ![1, 2] bcast_S10x256_S1x10x256_1_2 (m ((c : Thread nD τ).loc main_arg25))⟩]
        concatenates_S1x10x256_S1x10x256_S1x10x256_S1x10x256_S4x10x256_d0 := by
  host_term

set_option maxHeartbeats 4000000 in
theorem V_v27 (c : Dev nD) : (V m c main_v27 : S4x256x256.Idx → EReal)
    = concatenate S4x256x256 0 [⟨S1x256x256, broadcastInDim S1x256x256 ![1, 2] bcast_S256x256_S1x256x256_1_2 (m ((c : Thread nD τ).loc main_arg11))⟩,
        ⟨S1x256x256, broadcastInDim S1x256x256 ![1, 2] bcast_S256x256_S1x256x256_1_2 (m ((c : Thread nD τ).loc main_arg16))⟩,
        ⟨S1x256x256, broadcastInDim S1x256x256 ![1, 2] bcast_S256x256_S1x256x256_1_2 (m ((c : Thread nD τ).loc main_arg21))⟩,
        ⟨S1x256x256, broadcastInDim S1x256x256 ![1, 2] bcast_S256x256_S1x256x256_1_2 (m ((c : Thread nD τ).loc main_arg26))⟩]
        concatenates_S1x256x256_S1x256x256_S1x256x256_S1x256x256_S4x256x256_d0 := by
  host_term

set_option maxHeartbeats 4000000 in
theorem V_v36 (c : Dev nD) : (V m c main_v36 : S4x1x256.Idx → EReal)
    = concatenate S4x1x256 0 [⟨S1x1x256, biasT (m ((c : Thread nD τ).loc main_arg12))⟩, ⟨S1x1x256, biasT (m ((c : Thread nD τ).loc main_arg17))⟩,
        ⟨S1x1x256, biasT (m ((c : Thread nD τ).loc main_arg22))⟩, ⟨S1x1x256, biasT (m ((c : Thread nD τ).loc main_arg27))⟩]
        concatenates_S1x1x256_S1x1x256_S1x1x256_S1x1x256_S4x1x256_d0 := by
  host_term

set_option maxHeartbeats 4000000 in
theorem V_v37 (c : Dev nD) : (V m c main_v37 : S1x256.Idx → EReal) = shapeCast S1x256 (m ((c : Thread nD τ).loc main_arg2)) shapeCasts_S256_S1x256 := by
  host_term
set_option maxHeartbeats 4000000 in
theorem V_v38 (c : Dev nD) : (V m c main_v38 : S1x256.Idx → EReal) = shapeCast S1x256 (m ((c : Thread nD τ).loc main_arg4)) shapeCasts_S256_S1x256 := by
  host_term
set_option maxHeartbeats 4000000 in
theorem V_v39 (c : Dev nD) : (V m c main_v39 : S1x256.Idx → EReal) = shapeCast S1x256 (m ((c : Thread nD τ).loc main_arg6)) shapeCasts_S256_S1x256 := by
  host_term
set_option maxHeartbeats 4000000 in
theorem V_v40 (c : Dev nD) : (V m c main_v40 : S1x256.Idx → EReal) = shapeCast S1x256 (m ((c : Thread nD τ).loc main_arg8)) shapeCasts_S256_S1x256 := by
  host_term

/-! ## The arrays in the network's arguments -/

/-- The stacked caches: entry `(l, b, s, d)` is layer `l`'s cache at `(b, d, s, 0)`. -/
theorem arr_cache (c : Dev nD) (l : Fin 4) (b : Fin 256) (s : Fin 9) (d : Fin 256) :
    (V m c main_v12 : S4x256x9x256.Idx → EReal) (ix4 l b s d) = ((argsOf m c).layer l).cache (ix4 b d s (0 : Fin 1)) := by
  rw [V_v12]
  refine (stack4_rank4 (fun k => match k with
    | ⟨0, _⟩ => cacheT (m ((c : Thread nD τ).loc main_arg13)) | ⟨1, _⟩ => cacheT (m ((c : Thread nD τ).loc main_arg18))
    | ⟨2, _⟩ => cacheT (m ((c : Thread nD τ).loc main_arg23)) | ⟨3, _⟩ => cacheT (m ((c : Thread nD τ).loc main_arg28))) _ l b s d).trans ?_
  match l with
  | ⟨0, _⟩ => exact cacheT_apply _ 0 b s d
  | ⟨1, _⟩ => exact cacheT_apply _ 0 b s d
  | ⟨2, _⟩ => exact cacheT_apply _ 0 b s d
  | ⟨3, _⟩ => exact cacheT_apply _ 0 b s d

/-- The stacked projections. -/
theorem arr_lin (c : Dev nD) (l : Fin 4) (e n : Fin 256) :
    (V m c main_v17 : S4x256x256.Idx → EReal) (ix3 l e n) = ((argsOf m c).layer l).lin_w (ix2 e n) := by
  rw [V_v17]
  refine (stack4_rank3 (fun k => match k with
    | ⟨0, _⟩ => broadcastInDim S1x256x256 ![1, 2] bcast_S256x256_S1x256x256_1_2 (m ((c : Thread nD τ).loc main_arg9))
    | ⟨1, _⟩ => broadcastInDim S1x256x256 ![1, 2] bcast_S256x256_S1x256x256_1_2 (m ((c : Thread nD τ).loc main_arg14))
    | ⟨2, _⟩ => broadcastInDim S1x256x256 ![1, 2] bcast_S256x256_S1x256x256_1_2 (m ((c : Thread nD τ).loc main_arg19))
    | ⟨3, _⟩ => broadcastInDim S1x256x256 ![1, 2] bcast_S256x256_S1x256x256_1_2 (m ((c : Thread nD τ).loc main_arg24))) _ l e n).trans ?_
  match l with
  | ⟨0, _⟩ => exact lead3_apply _ _ 0 e n
  | ⟨1, _⟩ => exact lead3_apply _ _ 0 e n
  | ⟨2, _⟩ => exact lead3_apply _ _ 0 e n
  | ⟨3, _⟩ => exact lead3_apply _ _ 0 e n

/-- The stacked filters. -/
theorem arr_filt (c : Dev nD) (l : Fin 4) (k : Fin 10) (d : Fin 256) :
    (V m c main_v22 : S4x10x256.Idx → EReal) (ix3 l k d) = ((argsOf m c).layer l).filt (ix2 k d) := by
  rw [V_v22]
  refine (stack4_rank3 (fun k => match k with
    | ⟨0, _⟩ => broadcastInDim S1x10x256 ![1, 2] bcast_S10x256_S1x10x256_1_2 (m ((c : Thread nD τ).loc main_arg10))
    | ⟨1, _⟩ => broadcastInDim S1x10x256 ![1, 2] bcast_S10x256_S1x10x256_1_2 (m ((c : Thread nD τ).loc main_arg15))
    | ⟨2, _⟩ => broadcastInDim S1x10x256 ![1, 2] bcast_S10x256_S1x10x256_1_2 (m ((c : Thread nD τ).loc main_arg20))
    | ⟨3, _⟩ => broadcastInDim S1x10x256 ![1, 2] bcast_S10x256_S1x10x256_1_2 (m ((c : Thread nD τ).loc main_arg25))) _ l k d).trans ?_
  match l with
  | ⟨0, _⟩ => exact lead3_apply _ _ 0 k d
  | ⟨1, _⟩ => exact lead3_apply _ _ 0 k d
  | ⟨2, _⟩ => exact lead3_apply _ _ 0 k d
  | ⟨3, _⟩ => exact lead3_apply _ _ 0 k d

/-- The stacked affine weights. -/
theorem arr_aw (c : Dev nD) (l : Fin 4) (e n : Fin 256) :
    (V m c main_v27 : S4x256x256.Idx → EReal) (ix3 l e n) = ((argsOf m c).layer l).aff_w (ix2 e n) := by
  rw [V_v27]
  refine (stack4_rank3 (fun k => match k with
    | ⟨0, _⟩ => broadcastInDim S1x256x256 ![1, 2] bcast_S256x256_S1x256x256_1_2 (m ((c : Thread nD τ).loc main_arg11))
    | ⟨1, _⟩ => broadcastInDim S1x256x256 ![1, 2] bcast_S256x256_S1x256x256_1_2 (m ((c : Thread nD τ).loc main_arg16))
    | ⟨2, _⟩ => broadcastInDim S1x256x256 ![1, 2] bcast_S256x256_S1x256x256_1_2 (m ((c : Thread nD τ).loc main_arg21))
    | ⟨3, _⟩ => broadcastInDim S1x256x256 ![1, 2] bcast_S256x256_S1x256x256_1_2 (m ((c : Thread nD τ).loc main_arg26))) _ l e n).trans ?_
  match l with
  | ⟨0, _⟩ => exact lead3_apply _ _ 0 e n
  | ⟨1, _⟩ => exact lead3_apply _ _ 0 e n
  | ⟨2, _⟩ => exact lead3_apply _ _ 0 e n
  | ⟨3, _⟩ => exact lead3_apply _ _ 0 e n

/-- The stacked affine biases, as rows. -/
theorem arr_ab (c : Dev nD) (l : Fin 4) (n : Fin 256) :
    (V m c main_v36 : S4x1x256.Idx → EReal) (ix3 l (0 : Fin 1) n) = ((argsOf m c).layer l).aff_b (ix1 n) := by
  rw [V_v36]
  refine (stack4_rank3 (fun k => match k with
    | ⟨0, _⟩ => biasT (m ((c : Thread nD τ).loc main_arg12)) | ⟨1, _⟩ => biasT (m ((c : Thread nD τ).loc main_arg17))
    | ⟨2, _⟩ => biasT (m ((c : Thread nD τ).loc main_arg22)) | ⟨3, _⟩ => biasT (m ((c : Thread nD τ).loc main_arg27))) _ l 0 n).trans ?_
  match l with
  | ⟨0, _⟩ => exact biasT_apply _ 0 0 n
  | ⟨1, _⟩ => exact biasT_apply _ 0 0 n
  | ⟨2, _⟩ => exact biasT_apply _ 0 0 n
  | ⟨3, _⟩ => exact biasT_apply _ 0 0 n

/-- The four bias rows of the input and output stacks. -/
theorem arr_b1 (c : Dev nD) (n : Fin 256) : (V m c main_v37 : S1x256.Idx → EReal) (ix2 (0 : Fin 1) n) = (argsOf m c).in_b1 (ix1 n) := by
  rw [V_v37]; exact shapeCast_a_1a_apply _ _ 0 n
theorem arr_b2 (c : Dev nD) (n : Fin 256) : (V m c main_v38 : S1x256.Idx → EReal) (ix2 (0 : Fin 1) n) = (argsOf m c).in_b2 (ix1 n) := by
  rw [V_v38]; exact shapeCast_a_1a_apply _ _ 0 n
theorem arr_ob1 (c : Dev nD) (n : Fin 256) : (V m c main_v39 : S1x256.Idx → EReal) (ix2 (0 : Fin 1) n) = (argsOf m c).out_b1 (ix1 n) := by
  rw [V_v39]; exact shapeCast_a_1a_apply _ _ 0 n
theorem arr_ob2 (c : Dev nD) (n : Fin 256) : (V m c main_v40 : S1x256.Idx → EReal) (ix2 (0 : Fin 1) n) = (argsOf m c).out_b2 (ix1 n) := by
  rw [V_v40]; exact shapeCast_a_1a_apply _ _ 0 n

end Cert.ReferenceIdeal.Hand

end
-- ==== Proof.RefArrays.lean ====
import proofs.«129047_g2000306104881685_pallasbulk_300_2_alg».proof.Proof.RefBlock
import proofs.«129047_g2000306104881685_pallasbulk_300_2_alg».proof.Proof.RefHost

/-
  From the reference's blocks to its arrays.

  Grid point `t` holds batch rows `2 t` and `2 t + 1`: its block of the input, of the stacked caches, of the
  probabilities and of the stacked new caches sits at those two rows, and every weight, filter and bias
  window's block is its whole array.  So what point `t` writes back is the block, at those rows, of the
  network's probabilities and of its new caches stacked time-major; the 128 points' blocks cover all 256
  batch rows, and the two output arrays end holding exactly those.
-/
set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt Ideal) ℓ)

/-! ## The index maps, decided over the grid -/

theorem idx_0 : ∀ t : Fin cfg0.N, win0_0.index t (0 : Fin 3) = t.val := (by decide +kernel : ∀ t : Fin grid0.N, _)
theorem idx_1 : ∀ t : Fin cfg0.N, win0_0.index t (1 : Fin 3) = 0 := (by decide +kernel : ∀ t : Fin grid0.N, _)
theorem idx_2 : ∀ t : Fin cfg0.N, win0_0.index t (2 : Fin 3) = 0 := (by decide +kernel : ∀ t : Fin grid0.N, _)
theorem idx_3 : ∀ t : Fin cfg0.N, win0_1.index t (0 : Fin 4) = 0 := (by decide +kernel : ∀ t : Fin grid0.N, _)
theorem idx_4 : ∀ t : Fin cfg0.N, win0_1.index t (1 : Fin 4) = t.val := (by decide +kernel : ∀ t : Fin grid0.N, _)
theorem idx_5 : ∀ t : Fin cfg0.N, win0_1.index t (2 : Fin 4) = 0 := (by decide +kernel : ∀ t : Fin grid0.N, _)
theorem idx_6 : ∀ t : Fin cfg0.N, win0_1.index t (3 : Fin 4) = 0 := (by decide +kernel : ∀ t : Fin grid0.N, _)
theorem idx_7 : ∀ t : Fin cfg0.N, win0_2.index t (0 : Fin 2) = 0 := (by decide +kernel : ∀ t : Fin grid0.N, _)
theorem idx_8 : ∀ t : Fin cfg0.N, win0_2.index t (1 : Fin 2) = 0 := (by decide +kernel : ∀ t : Fin grid0.N, _)
theorem idx_9 : ∀ t : Fin cfg0.N, win0_3.index t (0 : Fin 2) = 0 := (by decide +kernel : ∀ t : Fin grid0.N, _)
theorem idx_10 : ∀ t : Fin cfg0.N, win0_3.index t (1 : Fin 2) = 0 := (by decide +kernel : ∀ t : Fin grid0.N, _)
theorem idx_11 : ∀ t : Fin cfg0.N, win0_4.index t (0 : Fin 2) = 0 := (by decide +kernel : ∀ t : Fin grid0.N, _)
theorem idx_12 : ∀ t : Fin cfg0.N, win0_4.index t (1 : Fin 2) = 0 := (by decide +kernel : ∀ t : Fin grid0.N, _)
theorem idx_13 : ∀ t : Fin cfg0.N, win0_5.index t (0 : Fin 2) = 0 := (by decide +kernel : ∀ t : Fin grid0.N, _)
theorem idx_14 : ∀ t : Fin cfg0.N, win0_5.index t (1 : Fin 2) = 0 := (by decide +kernel : ∀ t : Fin grid0.N, _)
theorem idx_15 : ∀ t : Fin cfg0.N, win0_6.index t (0 : Fin 3) = 0 := (by decide +kernel : ∀ t : Fin grid0.N, _)
theorem idx_16 : ∀ t : Fin cfg0.N, win0_6.index t (1 : Fin 3) = 0 := (by decide +kernel : ∀ t : Fin grid0.N, _)
theorem idx_17 : ∀ t : Fin cfg0.N, win0_6.index t (2 : Fin 3) = 0 := (by decide +kernel : ∀ t : Fin grid0.N, _)
theorem idx_18 : ∀ t : Fin cfg0.N, win0_7.index t (0 : Fin 3) = 0 := (by decide +kernel : ∀ t : Fin grid0.N, _)
theorem idx_19 : ∀ t : Fin cfg0.N, win0_7.index t (1 : Fin 3) = 0 := (by decide +kernel : ∀ t : Fin grid0.N, _)
theorem idx_20 : ∀ t : Fin cfg0.N, win0_7.index t (2 : Fin 3) = 0 := (by decide +kernel : ∀ t : Fin grid0.N, _)
theorem idx_21 : ∀ t : Fin cfg0.N, win0_8.index t (0 : Fin 3) = 0 := (by decide +kernel : ∀ t : Fin grid0.N, _)
theorem idx_22 : ∀ t : Fin cfg0.N, win0_8.index t (1 : Fin 3) = 0 := (by decide +kernel : ∀ t : Fin grid0.N, _)
theorem idx_23 : ∀ t : Fin cfg0.N, win0_8.index t (2 : Fin 3) = 0 := (by decide +kernel : ∀ t : Fin grid0.N, _)
theorem idx_24 : ∀ t : Fin cfg0.N, win0_9.index t (0 : Fin 3) = 0 := (by decide +kernel : ∀ t : Fin grid0.N, _)
theorem idx_25 : ∀ t : Fin cfg0.N, win0_9.index t (1 : Fin 3) = 0 := (by decide +kernel : ∀ t : Fin grid0.N, _)
theorem idx_26 : ∀ t : Fin cfg0.N, win0_9.index t (2 : Fin 3) = 0 := (by decide +kernel : ∀ t : Fin grid0.N, _)
theorem idx_27 : ∀ t : Fin cfg0.N, win0_10.index t (0 : Fin 2) = 0 := (by decide +kernel : ∀ t : Fin grid0.N, _)
theorem idx_28 : ∀ t : Fin cfg0.N, win0_10.index t (1 : Fin 2) = 0 := (by decide +kernel : ∀ t : Fin grid0.N, _)
theorem idx_29 : ∀ t : Fin cfg0.N, win0_11.index t (0 : Fin 2) = 0 := (by decide +kernel : ∀ t : Fin grid0.N, _)
theorem idx_30 : ∀ t : Fin cfg0.N, win0_11.index t (1 : Fin 2) = 0 := (by decide +kernel : ∀ t : Fin grid0.N, _)
theorem idx_31 : ∀ t : Fin cfg0.N, win0_12.index t (0 : Fin 2) = 0 := (by decide +kernel : ∀ t : Fin grid0.N, _)
theorem idx_32 : ∀ t : Fin cfg0.N, win0_12.index t (1 : Fin 2) = 0 := (by decide +kernel : ∀ t : Fin grid0.N, _)
theorem idx_33 : ∀ t : Fin cfg0.N, win0_13.index t (0 : Fin 2) = 0 := (by decide +kernel : ∀ t : Fin grid0.N, _)
theorem idx_34 : ∀ t : Fin cfg0.N, win0_13.index t (1 : Fin 2) = 0 := (by decide +kernel : ∀ t : Fin grid0.N, _)
theorem idx_35 : ∀ t : Fin cfg0.N, win0_14.index t (0 : Fin 3) = t.val := (by decide +kernel : ∀ t : Fin grid0.N, _)
theorem idx_36 : ∀ t : Fin cfg0.N, win0_14.index t (1 : Fin 3) = 0 := (by decide +kernel : ∀ t : Fin grid0.N, _)
theorem idx_37 : ∀ t : Fin cfg0.N, win0_14.index t (2 : Fin 3) = 0 := (by decide +kernel : ∀ t : Fin grid0.N, _)
theorem idx_38 : ∀ t : Fin cfg0.N, win0_15.index t (0 : Fin 4) = 0 := (by decide +kernel : ∀ t : Fin grid0.N, _)
theorem idx_39 : ∀ t : Fin cfg0.N, win0_15.index t (1 : Fin 4) = t.val := (by decide +kernel : ∀ t : Fin grid0.N, _)
theorem idx_40 : ∀ t : Fin cfg0.N, win0_15.index t (2 : Fin 4) = 0 := (by decide +kernel : ∀ t : Fin grid0.N, _)
theorem idx_41 : ∀ t : Fin cfg0.N, win0_15.index t (3 : Fin 4) = 0 := (by decide +kernel : ∀ t : Fin grid0.N, _)

/-- Batch row `bb` of grid point `t`'s block, among the 256 batch rows. -/
def rowOf (t : Fin cfg0.N) (bb : Fin 2) : Fin 256 := ⟨t.val * 2 + bb.val, by have h : t.val < 128 := t.isLt; have := bb.isLt; omega⟩

/-! ## Where a block's index sits in its array -/

theorem emb_0 (t : Fin cfg0.N) (bb : Fin 2) (t' : Fin 128) (e : Fin 256) :
    ((cfg0.win 0).blk t).view.emb (ix3 bb t' e) = ix3 (rowOf t bb) t' e := by
  refine funext fun a => Fin.ext ?_
  match a with
  | ⟨0, _⟩ => show win0_0.index t (0 : Fin 3) * 2 + 1 * bb.val = t.val * 2 + bb.val; rw [idx_0 t]; omega
  | ⟨1, _⟩ => show win0_0.index t (1 : Fin 3) * 128 + 1 * t'.val = t'.val; rw [idx_1 t]; omega
  | ⟨2, _⟩ => show win0_0.index t (2 : Fin 3) * 256 + 1 * e.val = e.val; rw [idx_2 t]; omega

theorem emb_14 (t : Fin cfg0.N) (bb : Fin 2) (t' : Fin 128) (e : Fin 256) :
    ((cfg0.win 14).blk t).view.emb (ix3 bb t' e) = ix3 (rowOf t bb) t' e := by
  refine funext fun a => Fin.ext ?_
  match a with
  | ⟨0, _⟩ => show win0_14.index t (0 : Fin 3) * 2 + 1 * bb.val = t.val * 2 + bb.val; rw [idx_35 t]; omega
  | ⟨1, _⟩ => show win0_14.index t (1 : Fin 3) * 128 + 1 * t'.val = t'.val; rw [idx_36 t]; omega
  | ⟨2, _⟩ => show win0_14.index t (2 : Fin 3) * 256 + 1 * e.val = e.val; rw [idx_37 t]; omega

theorem emb_1 (t : Fin cfg0.N) (l : Fin 4) (bb : Fin 2) (s : Fin 9) (d : Fin 256) :
    ((cfg0.win 1).blk t).view.emb (ix4 l bb s d) = ix4 l (rowOf t bb) s d := by
  refine funext fun a => Fin.ext ?_
  match a with
  | ⟨0, _⟩ => show win0_1.index t (0 : Fin 4) * 4 + 1 * l.val = l.val; rw [idx_3 t]; omega
  | ⟨1, _⟩ => show win0_1.index t (1 : Fin 4) * 2 + 1 * bb.val = t.val * 2 + bb.val; rw [idx_4 t]; omega
  | ⟨2, _⟩ => show win0_1.index t (2 : Fin 4) * 9 + 1 * s.val = s.val; rw [idx_5 t]; omega
  | ⟨3, _⟩ => show win0_1.index t (3 : Fin 4) * 256 + 1 * d.val = d.val; rw [idx_6 t]; omega

theorem emb_15 (t : Fin cfg0.N) (l : Fin 4) (bb : Fin 2) (s : Fin 9) (d : Fin 256) :
    ((cfg0.win 15).blk t).view.emb (ix4 l bb s d) = ix4 l (rowOf t bb) s d := by
  refine funext fun a => Fin.ext ?_
  match a with
  | ⟨0, _⟩ => show win0_15.index t (0 : Fin 4) * 4 + 1 * l.val = l.val; rw [idx_38 t]; omega
  | ⟨1, _⟩ => show win0_15.index t (1 : Fin 4) * 2 + 1 * bb.val = t.val * 2 + bb.val; rw [idx_39 t]; omega
  | ⟨2, _⟩ => show win0_15.index t (2 : Fin 4) * 9 + 1 * s.val = s.val; rw [idx_40 t]; omega
  | ⟨3, _⟩ => show win0_15.index t (3 : Fin 4) * 256 + 1 * d.val = d.val; rw [idx_41 t]; omega

/-- The input's block at point `t`: batch rows `2 t`, `2 t + 1`. -/
theorem blk_0 (c : Dev nD) (t : Fin cfg0.N) (bb : Fin 2) (t' : Fin 128) (e : Fin 256) :
    iblk m c 0 t (ix3 bb t' e) = (V m c main_arg0 : S256x128x256.Idx → EReal) (ix3 (rowOf t bb) t' e) := by
  show V m c main_arg0 (((cfg0.win 0).blk t).view.emb (ix3 bb t' e)) = _
  rw [emb_0 t bb t' e]

/-- The stacked caches' block at point `t`: every layer, batch rows `2 t`, `2 t + 1`. -/
theorem blk_1 (c : Dev nD) (t : Fin cfg0.N) (l : Fin 4) (bb : Fin 2) (s : Fin 9) (d : Fin 256) :
    iblk m c 1 t (ix4 l bb s d) = (V m c main_v12 : S4x256x9x256.Idx → EReal) (ix4 l (rowOf t bb) s d) := by
  show V m c main_v12 (((cfg0.win 1).blk t).view.emb (ix4 l bb s d)) = _
  rw [emb_1 t l bb s d]

theorem emb_2 (t : Fin cfg0.N) (e : Fin 256) (n : Fin 256) : ((cfg0.win 2).blk t).view.emb (ix2 e n) = ix2 e n := by
  refine funext fun a => Fin.ext ?_
  match a with
  | ⟨0, _⟩ => show win0_2.index t (0 : Fin 2) * 256 + 1 * e.val = e.val; rw [idx_7 t]; omega
  | ⟨1, _⟩ => show win0_2.index t (1 : Fin 2) * 256 + 1 * n.val = n.val; rw [idx_8 t]; omega
/-- Window 2's block is its whole array. -/
theorem blk_2 (c : Dev nD) (t : Fin cfg0.N) (e : Fin 256) (n : Fin 256) : iblk m c 2 t (ix2 e n) = (V m c main_arg1 : S256x256.Idx → EReal) (ix2 e n) := by
  show V m c main_arg1 (((cfg0.win 2).blk t).view.emb (ix2 e n)) = _
  rw [emb_2 t e n]
theorem emb_3 (t : Fin cfg0.N) (e : Fin 1) (n : Fin 256) : ((cfg0.win 3).blk t).view.emb (ix2 e n) = ix2 e n := by
  refine funext fun a => Fin.ext ?_
  match a with
  | ⟨0, _⟩ => show win0_3.index t (0 : Fin 2) * 1 + 1 * e.val = e.val; rw [idx_9 t]; omega
  | ⟨1, _⟩ => show win0_3.index t (1 : Fin 2) * 256 + 1 * n.val = n.val; rw [idx_10 t]; omega
/-- Window 3's block is its whole array. -/
theorem blk_3 (c : Dev nD) (t : Fin cfg0.N) (e : Fin 1) (n : Fin 256) : iblk m c 3 t (ix2 e n) = (V m c main_v37 : S1x256.Idx → EReal) (ix2 e n) := by
  show V m c main_v37 (((cfg0.win 3).blk t).view.emb (ix2 e n)) = _
  rw [emb_3 t e n]
theorem emb_4 (t : Fin cfg0.N) (e : Fin 256) (n : Fin 256) : ((cfg0.win 4).blk t).view.emb (ix2 e n) = ix2 e n := by
  refine funext fun a => Fin.ext ?_
  match a with
  | ⟨0, _⟩ => show win0_4.index t (0 : Fin 2) * 256 + 1 * e.val = e.val; rw [idx_11 t]; omega
  | ⟨1, _⟩ => show win0_4.index t (1 : Fin 2) * 256 + 1 * n.val = n.val; rw [idx_12 t]; omega
/-- Window 4's block is its whole array. -/
theorem blk_4 (c : Dev nD) (t : Fin cfg0.N) (e : Fin 256) (n : Fin 256) : iblk m c 4 t (ix2 e n) = (V m c main_arg3 : S256x256.Idx → EReal) (ix2 e n) := by
  show V m c main_arg3 (((cfg0.win 4).blk t).view.emb (ix2 e n)) = _
  rw [emb_4 t e n]
theorem emb_5 (t : Fin cfg0.N) (e : Fin 1) (n : Fin 256) : ((cfg0.win 5).blk t).view.emb (ix2 e n) = ix2 e n := by
  refine funext fun a => Fin.ext ?_
  match a with
  | ⟨0, _⟩ => show win0_5.index t (0 : Fin 2) * 1 + 1 * e.val = e.val; rw [idx_13 t]; omega
  | ⟨1, _⟩ => show win0_5.index t (1 : Fin 2) * 256 + 1 * n.val = n.val; rw [idx_14 t]; omega
/-- Window 5's block is its whole array. -/
theorem blk_5 (c : Dev nD) (t : Fin cfg0.N) (e : Fin 1) (n : Fin 256) : iblk m c 5 t (ix2 e n) = (V m c main_v38 : S1x256.Idx → EReal) (ix2 e n) := by
  show V m c main_v38 (((cfg0.win 5).blk t).view.emb (ix2 e n)) = _
  rw [emb_5 t e n]
theorem emb_6 (t : Fin cfg0.N) (l : Fin 4) (e : Fin 256) (n : Fin 256) : ((cfg0.win 6).blk t).view.emb (ix3 l e n) = ix3 l e n := by
  refine funext fun a => Fin.ext ?_
  match a with
  | ⟨0, _⟩ => show win0_6.index t (0 : Fin 3) * 4 + 1 * l.val = l.val; rw [idx_15 t]; omega
  | ⟨1, _⟩ => show win0_6.index t (1 : Fin 3) * 256 + 1 * e.val = e.val; rw [idx_16 t]; omega
  | ⟨2, _⟩ => show win0_6.index t (2 : Fin 3) * 256 + 1 * n.val = n.val; rw [idx_17 t]; omega
/-- Window 6's block is its whole array. -/
theorem blk_6 (c : Dev nD) (t : Fin cfg0.N) (l : Fin 4) (e : Fin 256) (n : Fin 256) : iblk m c 6 t (ix3 l e n) = (V m c main_v17 : S4x256x256.Idx → EReal) (ix3 l e n) := by
  show V m c main_v17 (((cfg0.win 6).blk t).view.emb (ix3 l e n)) = _
  rw [emb_6 t l e n]
theorem emb_7 (t : Fin cfg0.N) (l : Fin 4) (e : Fin 10) (n : Fin 256) : ((cfg0.win 7).blk t).view.emb (ix3 l e n) = ix3 l e n := by
  refine funext fun a => Fin.ext ?_
  match a with
  | ⟨0, _⟩ => show win0_7.index t (0 : Fin 3) * 4 + 1 * l.val = l.val; rw [idx_18 t]; omega
  | ⟨1, _⟩ => show win0_7.index t (1 : Fin 3) * 10 + 1 * e.val = e.val; rw [idx_19 t]; omega
  | ⟨2, _⟩ => show win0_7.index t (2 : Fin 3) * 256 + 1 * n.val = n.val; rw [idx_20 t]; omega
/-- Window 7's block is its whole array. -/
theorem blk_7 (c : Dev nD) (t : Fin cfg0.N) (l : Fin 4) (e : Fin 10) (n : Fin 256) : iblk m c 7 t (ix3 l e n) = (V m c main_v22 : S4x10x256.Idx → EReal) (ix3 l e n) := by
  show V m c main_v22 (((cfg0.win 7).blk t).view.emb (ix3 l e n)) = _
  rw [emb_7 t l e n]
theorem emb_8 (t : Fin cfg0.N) (l : Fin 4) (e : Fin 256) (n : Fin 256) : ((cfg0.win 8).blk t).view.emb (ix3 l e n) = ix3 l e n := by
  refine funext fun a => Fin.ext ?_
  match a with
  | ⟨0, _⟩ => show win0_8.index t (0 : Fin 3) * 4 + 1 * l.val = l.val; rw [idx_21 t]; omega
  | ⟨1, _⟩ => show win0_8.index t (1 : Fin 3) * 256 + 1 * e.val = e.val; rw [idx_22 t]; omega
  | ⟨2, _⟩ => show win0_8.index t (2 : Fin 3) * 256 + 1 * n.val = n.val; rw [idx_23 t]; omega
/-- Window 8's block is its whole array. -/
theorem blk_8 (c : Dev nD) (t : Fin cfg0.N) (l : Fin 4) (e : Fin 256) (n : Fin 256) : iblk m c 8 t (ix3 l e n) = (V m c main_v27 : S4x256x256.Idx → EReal) (ix3 l e n) := by
  show V m c main_v27 (((cfg0.win 8).blk t).view.emb (ix3 l e n)) = _
  rw [emb_8 t l e n]
theorem emb_9 (t : Fin cfg0.N) (l : Fin 4) (e : Fin 1) (n : Fin 256) : ((cfg0.win 9).blk t).view.emb (ix3 l e n) = ix3 l e n := by
  refine funext fun a => Fin.ext ?_
  match a with
  | ⟨0, _⟩ => show win0_9.index t (0 : Fin 3) * 4 + 1 * l.val = l.val; rw [idx_24 t]; omega
  | ⟨1, _⟩ => show win0_9.index t (1 : Fin 3) * 1 + 1 * e.val = e.val; rw [idx_25 t]; omega
  | ⟨2, _⟩ => show win0_9.index t (2 : Fin 3) * 256 + 1 * n.val = n.val; rw [idx_26 t]; omega
/-- Window 9's block is its whole array. -/
theorem blk_9 (c : Dev nD) (t : Fin cfg0.N) (l : Fin 4) (e : Fin 1) (n : Fin 256) : iblk m c 9 t (ix3 l e n) = (V m c main_v36 : S4x1x256.Idx → EReal) (ix3 l e n) := by
  show V m c main_v36 (((cfg0.win 9).blk t).view.emb (ix3 l e n)) = _
  rw [emb_9 t l e n]
theorem emb_10 (t : Fin cfg0.N) (e : Fin 256) (n : Fin 256) : ((cfg0.win 10).blk t).view.emb (ix2 e n) = ix2 e n := by
  refine funext fun a => Fin.ext ?_
  match a with
  | ⟨0, _⟩ => show win0_10.index t (0 : Fin 2) * 256 + 1 * e.val = e.val; rw [idx_27 t]; omega
  | ⟨1, _⟩ => show win0_10.index t (1 : Fin 2) * 256 + 1 * n.val = n.val; rw [idx_28 t]; omega
/-- Window 10's block is its whole array. -/
theorem blk_10 (c : Dev nD) (t : Fin cfg0.N) (e : Fin 256) (n : Fin 256) : iblk m c 10 t (ix2 e n) = (V m c main_arg5 : S256x256.Idx → EReal) (ix2 e n) := by
  show V m c main_arg5 (((cfg0.win 10).blk t).view.emb (ix2 e n)) = _
  rw [emb_10 t e n]
theorem emb_11 (t : Fin cfg0.N) (e : Fin 1) (n : Fin 256) : ((cfg0.win 11).blk t).view.emb (ix2 e n) = ix2 e n := by
  refine funext fun a => Fin.ext ?_
  match a with
  | ⟨0, _⟩ => show win0_11.index t (0 : Fin 2) * 1 + 1 * e.val = e.val; rw [idx_29 t]; omega
  | ⟨1, _⟩ => show win0_11.index t (1 : Fin 2) * 256 + 1 * n.val = n.val; rw [idx_30 t]; omega
/-- Window 11's block is its whole array. -/
theorem blk_11 (c : Dev nD) (t : Fin cfg0.N) (e : Fin 1) (n : Fin 256) : iblk m c 11 t (ix2 e n) = (V m c main_v39 : S1x256.Idx → EReal) (ix2 e n) := by
  show V m c main_v39 (((cfg0.win 11).blk t).view.emb (ix2 e n)) = _
  rw [emb_11 t e n]
theorem emb_12 (t : Fin cfg0.N) (e : Fin 256) (n : Fin 256) : ((cfg0.win 12).blk t).view.emb (ix2 e n) = ix2 e n := by
  refine funext fun a => Fin.ext ?_
  match a with
  | ⟨0, _⟩ => show win0_12.index t (0 : Fin 2) * 256 + 1 * e.val = e.val; rw [idx_31 t]; omega
  | ⟨1, _⟩ => show win0_12.index t (1 : Fin 2) * 256 + 1 * n.val = n.val; rw [idx_32 t]; omega
/-- Window 12's block is its whole array. -/
theorem blk_12 (c : Dev nD) (t : Fin cfg0.N) (e : Fin 256) (n : Fin 256) : iblk m c 12 t (ix2 e n) = (V m c main_arg7 : S256x256.Idx → EReal) (ix2 e n) := by
  show V m c main_arg7 (((cfg0.win 12).blk t).view.emb (ix2 e n)) = _
  rw [emb_12 t e n]
theorem emb_13 (t : Fin cfg0.N) (e : Fin 1) (n : Fin 256) : ((cfg0.win 13).blk t).view.emb (ix2 e n) = ix2 e n := by
  refine funext fun a => Fin.ext ?_
  match a with
  | ⟨0, _⟩ => show win0_13.index t (0 : Fin 2) * 1 + 1 * e.val = e.val; rw [idx_33 t]; omega
  | ⟨1, _⟩ => show win0_13.index t (1 : Fin 2) * 256 + 1 * n.val = n.val; rw [idx_34 t]; omega
/-- Window 13's block is its whole array. -/
theorem blk_13 (c : Dev nD) (t : Fin cfg0.N) (e : Fin 1) (n : Fin 256) : iblk m c 13 t (ix2 e n) = (V m c main_v40 : S1x256.Idx → EReal) (ix2 e n) := by
  show V m c main_v40 (((cfg0.win 13).blk t).view.emb (ix2 e n)) = _
  rw [emb_13 t e n]

/-! ## What a grid point leaves in the two output buffers -/

set_option maxHeartbeats 4000000 in
/-- At point `t` the body leaves the network's probabilities and new caches for batch rows `2 t`, `2 t + 1`. -/
theorem block_value (c : Dev nD) (t : Fin cfg0.N) :
    (∀ bb t' n, out14 (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 bb t' n) = Cert.Spec.probs (argsOf m c) (ix3 (rowOf t bb) t' n))
    ∧ (∀ (l : Fin 4) bb s d, out15 (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix4 l bb s d)
        = Cert.Spec.newCacheArr (argsOf m c) l (ix4 (rowOf t bb) d s (0 : Fin 1))) :=
  body_value (argsOf m c) (rowOf t) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    (fun bb t' e => (blk_0 m c t bb t' e).trans (congrFun (V_main_arg0 m c) _))
    (fun l bb s d => (blk_1 m c t l bb s d).trans (arr_cache m c l (rowOf t bb) s d))
    (fun e n => (blk_2 m c t e n).trans (congrFun (V_main_arg1 m c) _))
    (fun n => (blk_3 m c t 0 n).trans (arr_b1 m c n))
    (fun e n => (blk_4 m c t e n).trans (congrFun (V_main_arg3 m c) _))
    (fun n => (blk_5 m c t 0 n).trans (arr_b2 m c n))
    (fun l e n => (blk_6 m c t l e n).trans (arr_lin m c l e n))
    (fun l k d => (blk_7 m c t l k d).trans (arr_filt m c l k d))
    (fun l e n => (blk_8 m c t l e n).trans (arr_aw m c l e n))
    (fun l n => (blk_9 m c t l 0 n).trans (arr_ab m c l n))
    (fun e n => (blk_10 m c t e n).trans (congrFun (V_main_arg5 m c) _))
    (fun n => (blk_11 m c t 0 n).trans (arr_ob1 m c n))
    (fun e n => (blk_12 m c t e n).trans (congrFun (V_main_arg7 m c) _))
    (fun n => (blk_13 m c t 0 n).trans (arr_ob2 m c n))

/-! ## The probabilities -/

/-- What point `t` writes back to the probability array is block `t` of the network's probabilities. -/
theorem flushed14 (c : Dev nD) (t : Fin cfg0.N) :
    (dats m 0 c).flushed 14 t = ((cfg0.win 14).blk t).view.read (Elt Ideal) (Cert.Spec.probs (argsOf m c)) := by
  show (cfg0.win 14).cut (grid0.coords t) ((dats m 0 c).after 14 t) = _
  rw [after_14]
  funext y
  obtain ⟨bb, t', n, rfl⟩ : ∃ (bb : Fin 2) (t' : Fin 128) (n : Fin 256), y = ix3 bb t' n := ⟨y 0, y 1, y 2, eq_ix3 y⟩
  show out14 (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 bb t' n) = Cert.Spec.probs (argsOf m c) (((cfg0.win 14).blk t).view.emb (ix3 bb t' n))
  rw [emb_14 t bb t' n]
  exact (block_value m c t).1 bb t' n

/-- An index of the probability array is in point `t`'s block iff each coordinate is in the block's range. -/
theorem mem_blk14 (t : Fin cfg0.N) (i : S256x128x256.Idx) :
    i ∈ ((cfg0.win 14).blk t).view.set ↔ ∀ a : Fin 3, win0_14.index t a * S2x128x256.size a ≤ (i a).val ∧ (i a).val < win0_14.index t a * S2x128x256.size a + S2x128x256.size a := by
  show i ∈ ((View.whole main_v41_0).slice (win0_14.rect t)).set ↔ _
  rw [View.set_slice_whole, Rect.mem_set_unit]
  exact Iff.rfl

/-- Batch row `r` is in point `r / 2`'s block. -/
theorem covered14 (i : S256x128x256.Idx) : ∃ t : Fin cfg0.N, (cfg0.win 14).flush t = true ∧ i ∈ ((cfg0.win 14).blk t).view.set := by
  have hi0 : (i 0).val < 256 := (i 0).isLt
  have hi1 : (i 1).val < 128 := (i 1).isLt
  have hi2 : (i 2).val < 256 := (i 2).isLt
  have ht : (i 0).val / 2 < 128 := by omega
  refine ⟨⟨(i 0).val / 2, ht⟩, flush0_14 _, ?_⟩
  rw [mem_blk14]
  intro a
  match a with
  | ⟨0, _⟩ =>
    show win0_14.index ⟨(i 0).val / 2, ht⟩ (0 : Fin 3) * 2 ≤ (i 0).val ∧ (i 0).val < win0_14.index ⟨(i 0).val / 2, ht⟩ (0 : Fin 3) * 2 + 2
    rw [idx_35 ⟨(i 0).val / 2, ht⟩]
    show (i 0).val / 2 * 2 ≤ (i 0).val ∧ (i 0).val < (i 0).val / 2 * 2 + 2
    omega
  | ⟨1, _⟩ =>
    show win0_14.index ⟨(i 0).val / 2, ht⟩ (1 : Fin 3) * 128 ≤ (i 1).val ∧ (i 1).val < win0_14.index ⟨(i 0).val / 2, ht⟩ (1 : Fin 3) * 128 + 128
    rw [idx_36 ⟨(i 0).val / 2, ht⟩]
    omega
  | ⟨2, _⟩ =>
    show win0_14.index ⟨(i 0).val / 2, ht⟩ (2 : Fin 3) * 256 ≤ (i 2).val ∧ (i 2).val < win0_14.index ⟨(i 0).val / 2, ht⟩ (2 : Fin 3) * 256 + 256
    rw [idx_37 ⟨(i 0).val / 2, ht⟩]
    omega

/-- The probability array after the region. -/
theorem final14 (c : Dev nD) : (dats m 0 c).arrAt 14 cfg0.N = Cert.Spec.probs (argsOf m c) :=
  (dats m 0 c).arrAt_eq_of_cover 14 (Cert.Spec.probs (argsOf m c)) (fun t _ => flushed14 m c t) covered14

/-! ## The stacked new caches -/

/-- The four layers' new caches, stacked and time-major: entry `(l, b, s, d)`. -/
def stackedCaches (c : Dev nD) : S4x256x9x256.Idx → EReal :=
  fun j => Cert.Spec.newCacheArr (argsOf m c) (j 0) (ix4 (j 1) (j 3) (j 2) (0 : Fin 1))

/-- What point `t` writes back to the stacked-cache array is block `t` of the stacked new caches. -/
theorem flushed15 (c : Dev nD) (t : Fin cfg0.N) :
    (dats m 0 c).flushed 15 t = ((cfg0.win 15).blk t).view.read (Elt Ideal) (stackedCaches m c) := by
  show (cfg0.win 15).cut (grid0.coords t) ((dats m 0 c).after 15 t) = _
  rw [after_15]
  funext y
  obtain ⟨l, bb, s, d, rfl⟩ : ∃ (l : Fin 4) (bb : Fin 2) (s : Fin 9) (d : Fin 256), y = ix4 l bb s d := ⟨y 0, y 1, y 2, y 3, eq_ix4 y⟩
  show out15 (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix4 l bb s d) = stackedCaches m c (((cfg0.win 15).blk t).view.emb (ix4 l bb s d))
  rw [emb_15 t l bb s d]
  exact (block_value m c t).2 l bb s d

theorem mem_blk15 (t : Fin cfg0.N) (i : S4x256x9x256.Idx) :
    i ∈ ((cfg0.win 15).blk t).view.set ↔ ∀ a : Fin 4, win0_15.index t a * S4x2x9x256.size a ≤ (i a).val ∧ (i a).val < win0_15.index t a * S4x2x9x256.size a + S4x2x9x256.size a := by
  show i ∈ ((View.whole main_v41_1).slice (win0_15.rect t)).set ↔ _
  rw [View.set_slice_whole, Rect.mem_set_unit]
  exact Iff.rfl

theorem covered15 (i : S4x256x9x256.Idx) : ∃ t : Fin cfg0.N, (cfg0.win 15).flush t = true ∧ i ∈ ((cfg0.win 15).blk t).view.set := by
  have hi0 : (i 0).val < 4 := (i 0).isLt
  have hi1 : (i 1).val < 256 := (i 1).isLt
  have hi2 : (i 2).val < 9 := (i 2).isLt
  have hi3 : (i 3).val < 256 := (i 3).isLt
  have ht : (i 1).val / 2 < 128 := by omega
  refine ⟨⟨(i 1).val / 2, ht⟩, flush0_15 _, ?_⟩
  rw [mem_blk15]
  intro a
  match a with
  | ⟨0, _⟩ =>
    show win0_15.index ⟨(i 1).val / 2, ht⟩ (0 : Fin 4) * 4 ≤ (i 0).val ∧ (i 0).val < win0_15.index ⟨(i 1).val / 2, ht⟩ (0 : Fin 4) * 4 + 4
    rw [idx_38 ⟨(i 1).val / 2, ht⟩]
    omega
  | ⟨1, _⟩ =>
    show win0_15.index ⟨(i 1).val / 2, ht⟩ (1 : Fin 4) * 2 ≤ (i 1).val ∧ (i 1).val < win0_15.index ⟨(i 1).val / 2, ht⟩ (1 : Fin 4) * 2 + 2
    rw [idx_39 ⟨(i 1).val / 2, ht⟩]
    show (i 1).val / 2 * 2 ≤ (i 1).val ∧ (i 1).val < (i 1).val / 2 * 2 + 2
    omega
  | ⟨2, _⟩ =>
    show win0_15.index ⟨(i 1).val / 2, ht⟩ (2 : Fin 4) * 9 ≤ (i 2).val ∧ (i 2).val < win0_15.index ⟨(i 1).val / 2, ht⟩ (2 : Fin 4) * 9 + 9
    rw [idx_40 ⟨(i 1).val / 2, ht⟩]
    omega
  | ⟨3, _⟩ =>
    show win0_15.index ⟨(i 1).val / 2, ht⟩ (3 : Fin 4) * 256 ≤ (i 3).val ∧ (i 3).val < win0_15.index ⟨(i 1).val / 2, ht⟩ (3 : Fin 4) * 256 + 256
    rw [idx_41 ⟨(i 1).val / 2, ht⟩]
    omega

/-- The stacked-cache array after the region. -/
theorem final15 (c : Dev nD) : (dats m 0 c).arrAt 15 cfg0.N = stackedCaches m c :=
  (dats m 0 c).arrAt_eq_of_cover 15 (stackedCaches m c) (fun t _ => flushed15 m c t) covered15

end Cert.ReferenceIdeal.Hand

end
-- ==== Proof.RefValue.lean ====
import proofs.«129047_g2000306104881685_pallasbulk_300_2_alg».proof.Proof.RefArrays

/-
  The reference's results as the network of its arguments.

  After the region the probability array holds the network's probabilities.  The host then cuts each
  layer's slab out of the stacked new caches, drops the leading unit axis, exchanges the time and feature
  axes back and adds the trailing unit axis: entry `(b, d, s, 0)` of layer `l`'s result is entry
  `(l, b, s, d)` of the stack, the layer's new cache for batch row `b`.  Every argument ends as launched.
-/
set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt Ideal) ℓ) (ρ : Dev nD → PrngReg)

/-- Slab `l` of a stack `[4, 256, 9, 256]`, without its leading axis, time and features exchanged, under a trailing unit
    axis: entry `(b, d, s, 0)` is the stack's `(l, b, s, d)`. -/
theorem tail_read (l : ℕ) (ll : Fin 4) (hl : ll.val = l) (W : S4x256x9x256.Idx → EReal)
    (hs : S4x256x9x256.Slices ![l, 0, 0, 0] S1x256x9x256) (b : Fin 256) (d : Fin 256) (s : Fin 9) (u : Fin 1) :
    broadcastInDim S256x256x9x1 ![0, 1, 2] bcast_S256x256x9_S256x256x9x1_0_1_2
      (transpose S256x256x9 [0, 2, 1] (shapeCast S256x9x256 (extractStridedSlice S1x256x9x256 ![l, 0, 0, 0] W hs) shapeCasts_S1x256x9x256_S256x9x256)
        transposes_S256x9x256_S256x256x9_0_2_1) (ix4 b d s u) = W (ix4 ll b s d) := by
  rw [addUnit4_apply, transpose_ix3_021_apply, shapeCast_1abc_abc_apply]
  refine extractStridedSlice_apply _ W hs _ _ fun a => ?_
  match a with
  | ⟨0, _⟩ => show ll.val = l + 0; omega
  | ⟨1, _⟩ => show b.val = 0 + b.val; omega
  | ⟨2, _⟩ => show s.val = 0 + s.val; omega
  | ⟨3, _⟩ => show d.val = 0 + d.val; omega

/-- The stacked-cache array the operations after the region read is the region's result. -/
theorem stacked_eq (c : Dev nD) :
    Pipeline.withArrays (cfgs 0).spec c (V0 m c) (fun w => (dats m 0 c).arrAt w (cfgs 0).N) (Proc.devRef .tc main_v41_1) = stackedCaches m c :=
  (Pipeline.withArrays_arr spec0 launch0.win.arr_inj c _ _ 15).trans (final15 m c)

set_option maxHeartbeats 4000000 in
/-- After the region, layer 0's slab of the stacked new caches is cut out and laid back feature-major. -/
theorem tail_v45 (c : Dev nD) :
    (Pipeline.afterTail₀ cfgs (dats m) 0 (V0 m) [hostOps1] c main_v45 : S256x256x9x1.Idx → EReal) = Cert.Spec.newCacheArr (argsOf m c) 0 := by
  unfold Pipeline.afterTail₀
  show StableHlo.after hostOps1 _ (Proc.devRef .tc main_v45) = _
  after_results
  funext j
  obtain ⟨b, d, s, u, rfl⟩ : ∃ (b : Fin 256) (d : Fin 256) (s : Fin 9) (u : Fin 1), j = ix4 b d s u := ⟨j 0, j 1, j 2, j 3, eq_ix4 j⟩
  obtain rfl : u = 0 := Subsingleton.elim _ _
  show broadcastInDim S256x256x9x1 ![0, 1, 2] bcast_S256x256x9_S256x256x9x1_0_1_2
      (transpose S256x256x9 [0, 2, 1] (shapeCast S256x9x256 (extractStridedSlice S1x256x9x256 ![0, 0, 0, 0]
        (Pipeline.withArrays (cfgs 0).spec c (V0 m c) (fun w => (dats m 0 c).arrAt w (cfgs 0).N) (Proc.devRef .tc main_v41_1))
        slices_S4x256x9x256_S1x256x9x256_0_0_0_0) shapeCasts_S1x256x9x256_S256x9x256) transposes_S256x9x256_S256x256x9_0_2_1) (ix4 b d s 0) = _
  refine (tail_read 0 0 rfl _ _ b d s 0).trans ?_
  rw [stacked_eq m c]
  rfl

set_option maxHeartbeats 4000000 in
/-- After the region, layer 1's slab of the stacked new caches is cut out and laid back feature-major. -/
theorem tail_v49 (c : Dev nD) :
    (Pipeline.afterTail₀ cfgs (dats m) 0 (V0 m) [hostOps1] c main_v49 : S256x256x9x1.Idx → EReal) = Cert.Spec.newCacheArr (argsOf m c) 1 := by
  unfold Pipeline.afterTail₀
  show StableHlo.after hostOps1 _ (Proc.devRef .tc main_v49) = _
  after_results
  funext j
  obtain ⟨b, d, s, u, rfl⟩ : ∃ (b : Fin 256) (d : Fin 256) (s : Fin 9) (u : Fin 1), j = ix4 b d s u := ⟨j 0, j 1, j 2, j 3, eq_ix4 j⟩
  obtain rfl : u = 0 := Subsingleton.elim _ _
  show broadcastInDim S256x256x9x1 ![0, 1, 2] bcast_S256x256x9_S256x256x9x1_0_1_2
      (transpose S256x256x9 [0, 2, 1] (shapeCast S256x9x256 (extractStridedSlice S1x256x9x256 ![1, 0, 0, 0]
        (Pipeline.withArrays (cfgs 0).spec c (V0 m c) (fun w => (dats m 0 c).arrAt w (cfgs 0).N) (Proc.devRef .tc main_v41_1))
        slices_S4x256x9x256_S1x256x9x256_1_0_0_0) shapeCasts_S1x256x9x256_S256x9x256) transposes_S256x9x256_S256x256x9_0_2_1) (ix4 b d s 0) = _
  refine (tail_read 1 1 rfl _ _ b d s 0).trans ?_
  rw [stacked_eq m c]
  rfl

set_option maxHeartbeats 4000000 in
/-- After the region, layer 2's slab of the stacked new caches is cut out and laid back feature-major. -/
theorem tail_v53 (c : Dev nD) :
    (Pipeline.afterTail₀ cfgs (dats m) 0 (V0 m) [hostOps1] c main_v53 : S256x256x9x1.Idx → EReal) = Cert.Spec.newCacheArr (argsOf m c) 2 := by
  unfold Pipeline.afterTail₀
  show StableHlo.after hostOps1 _ (Proc.devRef .tc main_v53) = _
  after_results
  funext j
  obtain ⟨b, d, s, u, rfl⟩ : ∃ (b : Fin 256) (d : Fin 256) (s : Fin 9) (u : Fin 1), j = ix4 b d s u := ⟨j 0, j 1, j 2, j 3, eq_ix4 j⟩
  obtain rfl : u = 0 := Subsingleton.elim _ _
  show broadcastInDim S256x256x9x1 ![0, 1, 2] bcast_S256x256x9_S256x256x9x1_0_1_2
      (transpose S256x256x9 [0, 2, 1] (shapeCast S256x9x256 (extractStridedSlice S1x256x9x256 ![2, 0, 0, 0]
        (Pipeline.withArrays (cfgs 0).spec c (V0 m c) (fun w => (dats m 0 c).arrAt w (cfgs 0).N) (Proc.devRef .tc main_v41_1))
        slices_S4x256x9x256_S1x256x9x256_2_0_0_0) shapeCasts_S1x256x9x256_S256x9x256) transposes_S256x9x256_S256x256x9_0_2_1) (ix4 b d s 0) = _
  refine (tail_read 2 2 rfl _ _ b d s 0).trans ?_
  rw [stacked_eq m c]
  rfl

set_option maxHeartbeats 4000000 in
/-- After the region, layer 3's slab of the stacked new caches is cut out and laid back feature-major. -/
theorem tail_v57 (c : Dev nD) :
    (Pipeline.afterTail₀ cfgs (dats m) 0 (V0 m) [hostOps1] c main_v57 : S256x256x9x1.Idx → EReal) = Cert.Spec.newCacheArr (argsOf m c) 3 := by
  unfold Pipeline.afterTail₀
  show StableHlo.after hostOps1 _ (Proc.devRef .tc main_v57) = _
  after_results
  funext j
  obtain ⟨b, d, s, u, rfl⟩ : ∃ (b : Fin 256) (d : Fin 256) (s : Fin 9) (u : Fin 1), j = ix4 b d s u := ⟨j 0, j 1, j 2, j 3, eq_ix4 j⟩
  obtain rfl : u = 0 := Subsingleton.elim _ _
  show broadcastInDim S256x256x9x1 ![0, 1, 2] bcast_S256x256x9_S256x256x9x1_0_1_2
      (transpose S256x256x9 [0, 2, 1] (shapeCast S256x9x256 (extractStridedSlice S1x256x9x256 ![3, 0, 0, 0]
        (Pipeline.withArrays (cfgs 0).spec c (V0 m c) (fun w => (dats m 0 c).arrAt w (cfgs 0).N) (Proc.devRef .tc main_v41_1))
        slices_S4x256x9x256_S1x256x9x256_3_0_0_0) shapeCasts_S1x256x9x256_S256x9x256) transposes_S256x9x256_S256x256x9_0_2_1) (ix4 b d s 0) = _
  refine (tail_read 3 3 rfl _ _ b d s 0).trans ?_
  rw [stacked_eq m c]
  rfl

set_option maxHeartbeats 4000000 in
/-- Every weakly fair execution of the reference ends with the probabilities and the four new caches at the network's
    values of its arguments, and every argument as launched. -/
theorem value_run : θ_run (defs (F := Ideal)) (onTc (τ := τ) (main (F := Ideal))) ⟨m, fun _ => 0, ρ⟩ (fun r => ∀ c : Dev nD,
      r.2.mem ((c.tc : Thread nD τ).loc main_v41_0) = Cert.Spec.probs (argsOf m c)
      ∧ r.2.mem ((c.tc : Thread nD τ).loc main_v45) = Cert.Spec.newCacheArr (argsOf m c) 0
      ∧ r.2.mem ((c.tc : Thread nD τ).loc main_v49) = Cert.Spec.newCacheArr (argsOf m c) 1
      ∧ r.2.mem ((c.tc : Thread nD τ).loc main_v53) = Cert.Spec.newCacheArr (argsOf m c) 2
      ∧ r.2.mem ((c.tc : Thread nD τ).loc main_v57) = Cert.Spec.newCacheArr (argsOf m c) 3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c => ⟨((h c).1 14).trans (final14 m c),
      (((h c).2 main_v45 (Pipeline.mem_restRefs_of main_v45 (by decide) (by decide))).trans (tail_v45 m c)),
      (((h c).2 main_v49 (Pipeline.mem_restRefs_of main_v49 (by decide) (by decide))).trans (tail_v49 m c)),
      (((h c).2 main_v53 (Pipeline.mem_restRefs_of main_v53 (by decide) (by decide))).trans (tail_v53 m c)),
      (((h c).2 main_v57 (Pipeline.mem_restRefs_of main_v57 (by decide) (by decide))).trans (tail_v57 m c)),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      (((h c).2 main_arg4 (Pipeline.mem_restRefs_of main_arg4 (by decide) (by decide))).trans (W_main_arg4 m (dats m) c)),
      ((h c).1 10).trans (((dats m 0 c).arrAt_in 10 rfl _).trans ((A_eq m c 10).trans (V_main_arg5 m c))),
      (((h c).2 main_arg6 (Pipeline.mem_restRefs_of main_arg6 (by decide) (by decide))).trans (W_main_arg6 m (dats m) c)),
      ((h c).1 12).trans (((dats m 0 c).arrAt_in 12 rfl _).trans ((A_eq m c 12).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c)),
      (((h c).2 main_arg23 (Pipeline.mem_restRefs_of main_arg23 (by decide) (by decide))).trans (W_main_arg23 m (dats m) c)),
      (((h c).2 main_arg24 (Pipeline.mem_restRefs_of main_arg24 (by decide) (by decide))).trans (W_main_arg24 m (dats m) c)),
      (((h c).2 main_arg25 (Pipeline.mem_restRefs_of main_arg25 (by decide) (by decide))).trans (W_main_arg25 m (dats m) c)),
      (((h c).2 main_arg26 (Pipeline.mem_restRefs_of main_arg26 (by decide) (by decide))).trans (W_main_arg26 m (dats m) c)),
      (((h c).2 main_arg27 (Pipeline.mem_restRefs_of main_arg27 (by decide) (by decide))).trans (W_main_arg27 m (dats m) c)),
      (((h c).2 main_arg28 (Pipeline.mem_restRefs_of main_arg28 (by decide) (by decide))).trans (W_main_arg28 m (dats m) c))⟩) (run_main (F := Ideal) m ρ)

end Cert.ReferenceIdeal.Hand

end
-- ==== Proof.lean ====
/-
  The streaming FSMN encoder forward — an input stack of two linear maps and a ReLU, four layers of
  (projection, depthwise causal left convolution over time with a nine-step cache, affine map, ReLU), an
  output stack of two linear maps and a softmax — as ONE fused pallas_call, sixteen batch rows per grid
  point, with each pair of adjacent linear maps folded into one on the host, against the same network as
  one pallas_call of two batch rows per grid point that applies the two linear maps one after the other.

  On the extended reals the two agree where every input is a real number: the folded map
  `x (W₁ W₂) + (b₁ W₂ + b₂)` is `(x W₁ + b₁) W₂ + b₂` by associativity of the matrix product and
  distributivity over the bias (Proof/LibFoldedAffine.lean), the convolution's window `xc[k : k+T]` of
  the concatenation `[cache ; p]` is the reference's straddling concatenation tap by tap, and every
  other operation is the same on both sides.

  The claim's five conjuncts: the kernel's two frames and the (empty) idealization claim are
  Proof/Frames.lean; the reference's frame is Proof/RefRun.lean; the equality of results is below, from
  the kernel's results (Proof/KValue.lean: the folded network of the arguments), the reference's
  (Proof/RefValue.lean: the network of the arguments), the folding law (Proof/FoldLaw.lean) and the
  precondition read as "every argument entry is real" (Proof/Finite.lean).
-/
import proofs.«129047_g2000306104881685_pallasbulk_300_2_alg».proof.Defs
import proofs.«129047_g2000306104881685_pallasbulk_300_2_alg».proof.Proof.Gen.Kernel
import proofs.«129047_g2000306104881685_pallasbulk_300_2_alg».proof.Proof.Gen.Kernel.Skeleton
import proofs.«129047_g2000306104881685_pallasbulk_300_2_alg».proof.Proof.Gen.Kernel.Launch
import proofs.«129047_g2000306104881685_pallasbulk_300_2_alg».proof.Proof.Gen.Kernel.Points
import proofs.«129047_g2000306104881685_pallasbulk_300_2_alg».proof.Proof.Gen.KernelIdeal
import proofs.«129047_g2000306104881685_pallasbulk_300_2_alg».proof.Proof.Gen.KernelIdeal.Skeleton
import proofs.«129047_g2000306104881685_pallasbulk_300_2_alg».proof.Proof.Gen.KernelIdeal.Launch
import proofs.«129047_g2000306104881685_pallasbulk_300_2_alg».proof.Proof.Gen.KernelIdeal.Points
import proofs.«129047_g2000306104881685_pallasbulk_300_2_alg».proof.Proof.Gen.ReferenceIdeal
import proofs.«129047_g2000306104881685_pallasbulk_300_2_alg».proof.Proof.Gen.ReferenceIdeal.Skeleton
import proofs.«129047_g2000306104881685_pallasbulk_300_2_alg».proof.Proof.Gen.ReferenceIdeal.Launch
import proofs.«129047_g2000306104881685_pallasbulk_300_2_alg».proof.Proof.Gen.ReferenceIdeal.Points
import proofs.«129047_g2000306104881685_pallasbulk_300_2_alg».proof.Proof.Gen.Pre_finite_inputs
import proofs.«129047_g2000306104881685_pallasbulk_300_2_alg».proof.Proof.Frames
import proofs.«129047_g2000306104881685_pallasbulk_300_2_alg».proof.Proof.LibFoldedAffine
import proofs.«129047_g2000306104881685_pallasbulk_300_2_alg».proof.Proof.RefRun
import proofs.«129047_g2000306104881685_pallasbulk_300_2_alg».proof.Proof.ArgsOf
import proofs.«129047_g2000306104881685_pallasbulk_300_2_alg».proof.Proof.FoldLaw
import proofs.«129047_g2000306104881685_pallasbulk_300_2_alg».proof.Proof.Finite
import proofs.«129047_g2000306104881685_pallasbulk_300_2_alg».proof.Proof.KValue
import proofs.«129047_g2000306104881685_pallasbulk_300_2_alg».proof.Proof.RefValue
import Idealize.ShloMosaic.Adequacy
import Idealize.ShloMosaic.Init

noncomputable section

namespace Cert.Proof

open Idealize.ShloMosaic Idealize.SL.Sem

/-- The idealized reference runs to the end and keeps its arguments. -/
theorem frame_ri : Cert.frame_ReferenceIdeal := fun m ρ _ => Cert.ReferenceIdeal.Hand.frame m ρ

set_option maxHeartbeats 8000000 in
/-- From memories agreeing on the arguments, both idealized programs end with equal results: the results of
    the row-wise network of Proof/Spec.lean on the common arguments.  The reference computes that network as
    written; the kernel computes it with the input pair and the output pair of linear maps folded, which is the
    same network where every argument entry is a real number — what the precondition says. -/
theorem algebraic : Cert.algebraic_KernelIdeal_ReferenceIdeal := by
  intro m ρ m' ρ' hpre hagree
  -- the two memories agree on the arguments, so the two programs' arguments are one set of arrays
  have hargs : ∀ c, Cert.ReferenceIdeal.Hand.argsOf m' c = Cert.KernelIdeal.Hand.argsOf m c := fun c => by
    obtain ⟨h0, h1, h2, h3, h4, h5, h6, h7, h8, h9, h10, h11, h12, h13, h14, h15, h16, h17, h18, h19, h20, h21, h22, h23, h24, h25, h26, h27, h28⟩ := hagree c
    unfold Cert.ReferenceIdeal.Hand.argsOf Cert.KernelIdeal.Hand.argsOf
    rw [h0, h1, h2, h3, h4, h5, h6, h7, h8, h9, h10, h11, h12, h13, h14, h15, h16, h17, h18, h19, h20, h21, h22, h23, h24, h25, h26, h27, h28]
  refine ⟨fun c => Cert.Spec.probs (Cert.KernelIdeal.Hand.argsOf m c), fun c => Cert.Spec.newCacheArr (Cert.KernelIdeal.Hand.argsOf m c) 0,
    fun c => Cert.Spec.newCacheArr (Cert.KernelIdeal.Hand.argsOf m c) 1, fun c => Cert.Spec.newCacheArr (Cert.KernelIdeal.Hand.argsOf m c) 2,
    fun c => Cert.Spec.newCacheArr (Cert.KernelIdeal.Hand.argsOf m c) 3, ?_, ?_⟩
  · -- the kernel computes the folded network, which is the network where every argument entry is real
    refine (θ_run Cert.KernelIdeal.defs _ _).mono (fun r h c => ?_) (Cert.KernelIdeal.Hand.valueK_run m ρ)
    have hr := Cert.KernelIdeal.Hand.realArgs_of_pre m hpre c
    dsimp only
    rw [← Cert.Spec.probsK_eq _ hr, ← Cert.Spec.newCacheArrK_eq _ hr 0, ← Cert.Spec.newCacheArrK_eq _ hr 1,
      ← Cert.Spec.newCacheArrK_eq _ hr 2, ← Cert.Spec.newCacheArrK_eq _ hr 3]
    exact h c
  · -- the reference computes the network as written
    refine (θ_run Cert.ReferenceIdeal.defs _ _).mono (fun r h c => ?_) (Cert.ReferenceIdeal.Hand.value_run m' ρ')
    dsimp only
    rw [← hargs c]
    exact h c

theorem claim : Cert.Claim :=
  ⟨Cert.Kernel.Gen.facts, Cert.KernelIdeal.Gen.facts, Cert.ReferenceIdeal.Gen.facts, Cert.Pre_finite_inputs.Gen.facts,
    Frames.frame_p, Frames.frame_pi, frame_ri, Frames.preserves, algebraic⟩

end Cert.Proof

end
